-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_0) = v0 c
          ∧ r.2.mem ((c.tc : Thread Cert.ReferenceIdeal.nD Cert.ReferenceIdeal.τ).loc Cert.ReferenceIdeal.main_v22_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x128 : Shape := ⟨3, ![4, 12, 128]⟩
abbrev S1x32 : Shape := ⟨2, ![1, 32]⟩
abbrev S4x128x256 : Shape := ⟨3, ![4, 128, 256]⟩
abbrev S1x64 : Shape := ⟨2, ![1, 64]⟩
abbrev S2304x128 : Shape := ⟨2, ![2304, 128]⟩
abbrev S1x128 : Shape := ⟨2, ![1, 128]⟩
abbrev S128x84 : Shape := ⟨2, ![128, 84]⟩
abbrev S1x84 : Shape := ⟨2, ![1, 84]⟩
abbrev S84x10 : Shape := ⟨2, ![84, 10]⟩
abbrev S1x10 : Shape := ⟨2, ![1, 10]⟩
abbrev S2048x3x32x32 : Shape := ⟨4, ![2048, 3, 32, 32]⟩
abbrev S_ : Shape := ⟨0, ![]⟩

class Facts : Prop where
  bitsLt_bf16_f32 : FTy.bits .bf16 < FTy.bits .f32
  bcast_S_S4x12x128 : S_.BroadcastsInDim S4x12x128 (![] : Fin 0 → Fin S4x12x128.rank)
  reducesTo_S4x12x128_S_d0_1_2 : S4x12x128.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S4x128x256 : S_.BroadcastsInDim S4x128x256 (![] : Fin 0 → Fin S4x128x256.rank)
  reducesTo_S4x128x256_S_d0_1_2 : S4x128x256.ReducesTo [0, 1, 2] S_
  bcast_S_S1x64 : S_.BroadcastsInDim S1x64 (![] : Fin 0 → Fin S1x64.rank)
  reducesTo_S1x64_S_d0_1 : S1x64.ReducesTo [0, 1] S_
  bcast_S_S2304x128 : S_.BroadcastsInDim S2304x128 (![] : Fin 0 → Fin S2304x128.rank)
  reducesTo_S2304x128_S_d0_1 : S2304x128.ReducesTo [0, 1] S_
  bcast_S_S1x128 : S_.BroadcastsInDim S1x128 (![] : Fin 0 → Fin S1x128.rank)
  reducesTo_S1x128_S_d0_1 : S1x128.ReducesTo [0, 1] S_
  bcast_S_S128x84 : S_.BroadcastsInDim S128x84 (![] : Fin 0 → Fin S128x84.rank)
  reducesTo_S128x84_S_d0_1 : S128x84.ReducesTo [0, 1] S_
  bcast_S_S1x84 : S_.BroadcastsInDim S1x84 (![] : Fin 0 → Fin S1x84.rank)
  reducesTo_S1x84_S_d0_1 : S1x84.ReducesTo [0, 1] S_
  bcast_S_S84x10 : S_.BroadcastsInDim S84x10 (![] : Fin 0 → Fin S84x10.rank)
  reducesTo_S84x10_S_d0_1 : S84x10.ReducesTo [0, 1] S_
  bcast_S_S1x10 : S_.BroadcastsInDim S1x10 (![] : Fin 0 → Fin S1x10.rank)
  reducesTo_S1x10_S_d0_1 : S1x10.ReducesTo [0, 1] S_
  bcast_S_S2048x3x32x32 : S_.BroadcastsInDim S2048x3x32x32 (![] : Fin 0 → Fin S2048x3x32x32.rank)
  reducesTo_S2048x3x32x32_S_d0_1_2_3 : S2048x3x32x32.ReducesTo [0, 1, 2, 3] S_

variable [Facts]

def fn_part3 {F : FTy → Type} [FloatOps F] (main_arg10 : FVec F S2048x3x32x32 .f32) (main_v51 : IVec S_ 1) : IVec S_ 1 :=
  let main_v52 : FVec F S2048x3x32x32 .f32 := Host.absf main_arg10
  let main_cst_18 : FVec F S_ .f32 := constant S_ .f32 0x7F800000#32
  let main_v53 : FVec F S2048x3x32x32 .f32 := broadcastInDim S2048x3x32x32 ![] bcast_S_S2048x3x32x32 main_cst_18
  let main_v54 : IVec S2048x3x32x32 1 := cmpf .olt main_v52 main_v53
  let main_c_19 : IVec S_ 1 := constantI S_ 1 1#1
  let main_v55 : IVec S_ 1 := (fun x v => Host.reduce IntOp.andi x v reducesTo_S2048x3x32x32_S_d0_1_2_3 h_S_) main_v54 main_c_19
  let main_v56 : IVec S_ 1 := andi main_v51 main_v55
  main_v56

def fn_part2 {F : FTy → Type} [FloatOps F] (main_arg7 : FVec F S1x84 .f32) (main_arg8 : FVec F S84x10 .f32) (main_arg9 : FVec F S1x10 .f32) (main_arg10 : FVec F S2048x3x32x32 .f32) (main_v31 : IVec S_ 1) (main_v34 : IVec S128x84 1) : IVec S_ 1 :=
  let main_c_11 : IVec S_ 1 := constantI S_ 1 1#1
  let main_v35 : IVec S_ 1 := (fun x v => Host.reduce IntOp.andi x v reducesTo_S128x84_S_d0_1 h_S_) main_v34 main_c_11
  let main_v36 : IVec S_ 1 := andi main_v31 main_v35
  let main_v37 : FVec F S1x84 .f32 := Host.absf main_arg7
  let main_cst_12 : FVec F S_ .f32 := constant S_ .f32 0x7F800000#32
  let main_v38 : FVec F S1x84 .f32 := broadcastInDim S1x84 ![] bcast_S_S1x84 main_cst_12
  let main_v39 : IVec S1x84 1 := cmpf .olt main_v37 main_v38
  let main_c_13 : IVec S_ 1 := constantI S_ 1 1#1
  let main_v40 : IVec S_ 1 := (fun x v => Host.reduce IntOp.andi x v reducesTo_S1x84_S_d0_1 h_S_) main_v39 main_c_13
  let main_v41 : IVec S_ 1 := andi main_v36 main_v40
  let main_v42 : FVec F S84x10 .f32 := Host.absf main_arg8
  let main_cst_14 : FVec F S_ .f32 := constant S_ .f32 0x7F800000#32
  let main_v43 : FVec F S84x10 .f32 := broadcastInDim S84x10 ![] bcast_S_S84x10 main_cst_14
  let main_v44 : IVec S84x10 1 := cmpf .olt main_v42 main_v43
  let main_c_15 : IVec S_ 1 := constantI S_ 1 1#1
  let main_v45 : IVec S_ 1 := (fun x v => Host.reduce IntOp.andi x v reducesTo_S84x10_S_d0_1 h_S_) main_v44 main_c_15
  let main_v46 : IVec S_ 1 := andi main_v41 main_v45
  let main_v47 : FVec F S1x10 .f32 := Host.absf main_arg9
  let main_cst_16 : FVec F S_ .f32 := constant S_ .f32 0x7F800000#32
  let main_v48 : FVec F S1x10 .f32 := broadcastInDim S1x10 ![] bcast_S_S1x10 main_cst_16
  let main_v49 : IVec S1x10 1 := cmpf .olt main_v47 main_v48
  let main_c_17 : IVec S_ 1 := constantI S_ 1 1#1
  let main_v50 : IVec S_ 1 := (fun x v => Host.reduce IntOp.andi x v reducesTo_S1x10_S_d0_1 h_S_) main_v49 main_c_17
  let main_v51 : IVec S_ 1 := andi main_v46 main_v50
  fn_part3 (F := F) main_arg10 main_v51

def fn_part1 {F : FTy → Type} [FloatOps F] (main_arg4 : FVec F S2304x128 .bf16) (main_arg5 : FVec F S1x128 .f32) (main_arg6 : FVec F S128x84 .f32) (main_arg7 : FVec F S1x84 .f32) (main_arg8 : FVec F S84x10 .f32) (main_arg9 : FVec F S1x10 .f32) (main_arg10 : FVec F S2048x3x32x32 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S2304x128 .f32 := (extf .f32 · bitsLt_bf16_f32) main_arg4
  let main_v22 : FVec F S2304x128 .f32 := Host.absf main_v21
  let main_cst_6 : FVec F S_ .f32 := constant S_ .f32 0x7F800000#32
  let main_v23 : FVec F S2304x128 .f32 := broadcastInDim S2304x128 ![] bcast_S_S2304x128 main_cst_6
  let main_v24 : IVec S2304x128 1 := cmpf .olt main_v22 main_v23
  let main_c_7 : IVec S_ 1 := constantI S_ 1 1#1
  let main_v25 : IVec S_ 1 := (fun x v => Host.reduce IntOp.andi x v reducesTo_S2304x128_S_d0_1 h_S_) main_v24 main_c_7
  let main_v26 : IVec S_ 1 := andi main_v20 main_v25
  let main_v27 : FVec F S1x128 .f32 := Host.absf main_arg5
  let main_cst_8 : FVec F S_ .f32 := constant S_ .f32 0x7F800000#32
  let main_v28 : FVec F S1x128 .f32 := broadcastInDim S1x128 ![] bcast_S_S1x128 main_cst_8
  let main_v29 : IVec S1x128 1 := cmpf .olt main_v27 main_v28
  let main_c_9 : IVec S_ 1 := constantI S_ 1 1#1
  let main_v30 : IVec S_ 1 := (fun x v => Host.reduce IntOp.andi x v reducesTo_S1x128_S_d0_1 h_S_) main_v29 main_c_9
  let main_v31 : IVec S_ 1 := andi main_v26 main_v30
  let main_v32 : FVec F S128x84 .f32 := Host.absf main_arg6
  let main_cst_10 : FVec F S_ .f32 := constant S_ .f32 0x7F800000#32
  let main_v33 : FVec F S128x84 .f32 := broadcastInDim S128x84 ![] bcast_S_S128x84 main_cst_10
  let main_v34 : IVec S128x84 1 := cmpf .olt main_v32 main_v33
  fn_part2 (F := F) main_arg7 main_arg8 main_arg9 main_arg10 main_v31 main_v34

def fn {F : FTy → Type} [FloatOps F] (main_arg0 : FVec F S4x12x128 .bf16) (main_arg1 : FVec F S1x32 .f32) (main_arg2 : FVec F S4x128x256 .bf16) (main_arg3 : FVec F S1x64 .f32) (main_arg4 : FVec F S2304x128 .bf16) (main_arg5 : FVec F S1x128 .f32) (main_arg6 : FVec F S128x84 .f32) (main_arg7 : FVec F S1x84 .f32) (main_arg8 : FVec F S84x10 .f32) (main_arg9 : FVec F S1x10 .f32) (main_arg10 : FVec F S2048x3x32x32 .f32) : IVec S_ 1 :=
  let main_v0 : FVec F S4x12x128 .f32 := (extf .f32 · bitsLt_bf16_f32) main_arg0
  let main_v1 : FVec F S4x12x128 .f32 := Host.absf main_v0
  let main_cst : FVec F S_ .f32 := constant S_ .f32 0x7F800000#32
  let main_v2 : FVec F S4x12x128 .f32 := broadcastInDim S4x12x128 ![] bcast_S_S4x12x128 main_cst
  let main_v3 : IVec S4x12x128 1 := cmpf .olt main_v1 main_v2
  let main_c : IVec S_ 1 := constantI S_ 1 1#1
  let main_v4 : IVec S_ 1 := (fun x v => Host.reduce IntOp.andi x v reducesTo_S4x12x128_S_d0_1_2 h_S_) main_v3 main_c
  let main_v5 : FVec F S1x32 .f32 := Host.absf main_arg1
  let main_cst_0 : FVec F S_ .f32 := constant S_ .f32 0x7F800000#32
  let main_v6 : FVec F S1x32 .f32 := broadcastInDim S1x32 ![] bcast_S_S1x32 main_cst_0
  let main_v7 : IVec S1x32 1 := cmpf .olt main_v5 main_v6
  let main_c_1 : IVec S_ 1 := constantI S_ 1 1#1
  let main_v8 : IVec S_ 1 := (fun x v => Host.reduce IntOp.andi x v reducesTo_S1x32_S_d0_1 h_S_) main_v7 main_c_1
  let main_v9 : IVec S_ 1 := andi main_v4 main_v8
  let main_v10 : FVec F S4x128x256 .f32 := (extf .f32 · bitsLt_bf16_f32) main_arg2
  let main_v11 : FVec F S4x128x256 .f32 := Host.absf main_v10
  let main_cst_2 : FVec F S_ .f32 := constant S_ .f32 0x7F800000#32
  let main_v12 : FVec F S4x128x256 .f32 := broadcastInDim S4x128x256 ![] bcast_S_S4x128x256 main_cst_2
  let main_v13 : IVec S4x128x256 1 := cmpf .olt main_v11 main_v12
  let main_c_3 : IVec S_ 1 := constantI S_ 1 1#1
  let main_v14 : IVec S_ 1 := (fun x v => Host.reduce IntOp.andi x v reducesTo_S4x128x256_S_d0_1_2 h_S_) main_v13 main_c_3
  let main_v15 : IVec S_ 1 := andi main_v9 main_v14
  let main_v16 : FVec F S1x64 .f32 := Host.absf main_arg3
  let main_cst_4 : FVec F S_ .f32 := constant S_ .f32 0x7F800000#32
  fn_part1 (F := F) main_arg4 main_arg5 main_arg6 main_arg7 main_arg8 main_arg9 main_arg10 main_v15 main_v16 main_cst_4
-- ==== Kernel.lean ====
abbrev S4x12x128 : Shape := ⟨3, ![4, 12, 128]⟩
abbrev S1x32 : Shape := ⟨2, ![1, 32]⟩
abbrev S4x128x256 : Shape := ⟨3, ![4, 128, 256]⟩
abbrev S1x64 : Shape := ⟨2, ![1, 64]⟩
abbrev S2304x128 : Shape := ⟨2, ![2304, 128]⟩
abbrev S1x128 : Shape := ⟨2, ![1, 128]⟩
abbrev S128x84 : Shape := ⟨2, ![128, 84]⟩
abbrev S1x84 : Shape := ⟨2, ![1, 84]⟩
abbrev S84x10 : Shape := ⟨2, ![84, 10]⟩
abbrev S1x10 : Shape := ⟨2, ![1, 10]⟩
abbrev S2048x3x32x32 : Shape := ⟨4, ![2048, 3, 32, 32]⟩
abbrev S2048x32x32x3 : Shape := ⟨4, ![2048, 32, 32, 3]⟩
abbrev S2048x16x2x16x2x3 : Shape := ⟨6, ![2048, 16, 2, 16, 2, 3]⟩
abbrev S2048x16x16x2x2x3 : Shape := ⟨6, ![2048, 16, 16, 2, 2, 3]⟩
abbrev S2048x256x12 : Shape := ⟨3, ![2048, 256, 12]⟩
abbrev S_ : Shape := ⟨0, ![]⟩
abbrev S2048x1x12 : Shape := ⟨3, ![2048, 1, 12]⟩
abbrev S2048x257x12 : Shape := ⟨3, ![2048, 257, 12]⟩
abbrev S2048x240x12 : Shape := ⟨3, ![2048, 240, 12]⟩
abbrev S2048x240x48 : Shape := ⟨3, ![2048, 240, 48]⟩
abbrev S2048x256x64 : Shape := ⟨3, ![2048, 256, 64]⟩
abbrev S2048x8x2x8x2x64 : Shape := ⟨6, ![2048, 8, 2, 8, 2, 64]⟩
abbrev S2048x2x2x8x8x64 : Shape := ⟨6, ![2048, 2, 2, 8, 8, 64]⟩
abbrev S48x128 : Shape := ⟨2, ![48, 128]⟩
abbrev S64x128 : Shape := ⟨2, ![64, 128]⟩
abbrev S512x256 : Shape := ⟨2, ![512, 256]⟩
abbrev S2048x84 : Shape := ⟨2, ![2048, 84]⟩
abbrev S2048x10 : Shape := ⟨2, ![2048, 10]⟩
abbrev S128x256x64 : Shape := ⟨3, ![128, 256, 64]⟩
abbrev S128x10 : Shape := ⟨2, ![128, 10]⟩
abbrev S128x64x64 : Shape := ⟨3, ![128, 64, 64]⟩
abbrev S8192x64 : Shape := ⟨2, ![8192, 64]⟩
abbrev S8192x128 : Shape := ⟨2, ![8192, 128]⟩
abbrev S128x64x128 : Shape := ⟨3, ![128, 64, 128]⟩
abbrev S128x64x32 : Shape := ⟨3, ![128, 64, 32]⟩
abbrev S1x1x32 : Shape := ⟨3, ![1, 1, 32]⟩
abbrev S128x48x128 : Shape := ⟨3, ![128, 48, 128]⟩
abbrev S128x48x512 : Shape := ⟨3, ![128, 48, 512]⟩
abbrev S6144x512 : Shape := ⟨2, ![6144, 512]⟩
abbrev S6144x256 : Shape := ⟨2, ![6144, 256]⟩
abbrev S128x48x256 : Shape := ⟨3, ![128, 48, 256]⟩
abbrev S128x48x64 : Shape := ⟨3, ![128, 48, 64]⟩
abbrev S1x1x64 : Shape := ⟨3, ![1, 1, 64]⟩
abbrev S128x6x8x64 : Shape := ⟨4, ![128, 6, 8, 64]⟩
abbrev S128x6x6x64 : Shape := ⟨4, ![128, 6, 6, 64]⟩
abbrev S128x2304 : Shape := ⟨2, ![128, 2304]⟩
abbrev S128x128 : Shape := ⟨2, ![128, 128]⟩

abbrev nBuf : Space → Nat
  | .hbm => 37
  | .vmem => 16
  | .smem => 0
  | _ => 0

abbrev bufTy : (tb : Table) → Fin (tcTables nBuf tb) → BufTy
  | .hbm, ⟨0, _⟩ => ⟨S4x12x128, .bf16⟩
  | .hbm, ⟨1, _⟩ => ⟨S1x32, .f32⟩
  | .hbm, ⟨2, _⟩ => ⟨S4x128x256, .bf16⟩
  | .hbm, ⟨3, _⟩ => ⟨S1x64, .f32⟩
  | .hbm, ⟨4, _⟩ => ⟨S2304x128, .bf16⟩
  | .hbm, ⟨5, _⟩ => ⟨S1x128, .f32⟩
  | .hbm, ⟨6, _⟩ => ⟨S128x84, .f32⟩
  | .hbm, ⟨7, _⟩ => ⟨S1x84, .f32⟩
  | .hbm, ⟨8, _⟩ => ⟨S84x10, .f32⟩
  | .hbm, ⟨9, _⟩ => ⟨S1x10, .f32⟩
  | .hbm, ⟨10, _⟩ => ⟨S2048x3x32x32, .f32⟩
  | .hbm, ⟨11, _⟩ => ⟨S2048x3x32x32, .bf16⟩
  | .hbm, ⟨12, _⟩ => ⟨S2048x32x32x3, .bf16⟩
  | .hbm, ⟨13, _⟩ => ⟨S2048x16x2x16x2x3, .bf16⟩
  | .hbm, ⟨14, _⟩ => ⟨S2048x16x16x2x2x3, .bf16⟩
  | .hbm, ⟨15, _⟩ => ⟨S2048x256x12, .bf16⟩
  | .hbm, ⟨16, _⟩ => ⟨S_, .bf16⟩
  | .hbm, ⟨17, _⟩ => ⟨S2048x1x12, .bf16⟩
  | .hbm, ⟨18, _⟩ => ⟨S2048x257x12, .bf16⟩
  | .hbm, ⟨19, _⟩ => ⟨S2048x240x12, .bf16⟩
  | .hbm, ⟨20, _⟩ => ⟨S2048x240x12, .bf16⟩
  | .hbm, ⟨21, _⟩ => ⟨S2048x240x12, .bf16⟩
  | .hbm, ⟨22, _⟩ => ⟨S2048x240x12, .bf16⟩
  | .hbm, ⟨23, _⟩ => ⟨S2048x240x48, .bf16⟩
  | .hbm, ⟨24, _⟩ => ⟨S_, .i32⟩
  | .hbm, ⟨25, _⟩ => ⟨S_, .bf16⟩
  | .hbm, ⟨26, _⟩ => ⟨S2048x256x64, .bf16⟩
  | .hbm, ⟨27, _⟩ => ⟨S2048x8x2x8x2x64, .bf16⟩
  | .hbm, ⟨28, _⟩ => ⟨S2048x2x2x8x8x64, .bf16⟩
  | .hbm, ⟨29, _⟩ => ⟨S2048x256x64, .bf16⟩
  | .hbm, ⟨30, _⟩ => ⟨S48x128, .bf16⟩
  | .hbm, ⟨31, _⟩ => ⟨S_, .i32⟩
  | .hbm, ⟨32, _⟩ => ⟨S_, .bf16⟩
  | .hbm, ⟨33, _⟩ => ⟨S64x128, .bf16⟩
  | .hbm, ⟨34, _⟩ => ⟨S512x256, .bf16⟩
  | .hbm, ⟨35, _⟩ => ⟨S2048x84, .f32⟩
  | .hbm, ⟨36, _⟩ => ⟨S2048x10, .f32⟩
  | .local _ .vmem, ⟨0, _⟩ => ⟨S128x256x64, .bf16⟩
  | .local _ .vmem, ⟨1, _⟩ => ⟨S128x256x64, .bf16⟩
  | .local _ .vmem, ⟨2, _⟩ => ⟨S64x128, .bf16⟩
  | .local _ .vmem, ⟨3, _⟩ => ⟨S1x32, .f32⟩
  | .local _ .vmem, ⟨4, _⟩ => ⟨S512x256, .bf16⟩
  | .local _ .vmem, ⟨5, _⟩ => ⟨S1x64, .f32⟩
  | .local _ .vmem, ⟨6, _⟩ => ⟨S2304x128, .bf16⟩
  | .local _ .vmem, ⟨7, _⟩ => ⟨S1x128, .f32⟩
  | .local _ .vmem, ⟨8, _⟩ => ⟨S128x84, .f32⟩
  | .local _ .vmem, ⟨9, _⟩ => ⟨S1x84, .f32⟩
  | .local _ .vmem, ⟨10, _⟩ => ⟨S84x10, .f32⟩
  | .local _ .vmem, ⟨11, _⟩ => ⟨S1x10, .f32⟩
  | .local _ .vmem, ⟨12, _⟩ => ⟨S128x84, .f32⟩
  | .local _ .vmem, ⟨13, _⟩ => ⟨S128x84, .f32⟩
  | .local _ .vmem, ⟨14, _⟩ => ⟨S128x10, .f32⟩
  | .local _ .vmem, ⟨15, _⟩ => ⟨S128x10, .f32⟩
  | _, _ => ⟨S4x12x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x84 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x84 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  transposes_S2048x3x32x32_S2048x32x32x3_0_2_3_1 : S2048x3x32x32.Transposes [0, 2, 3, 1] S2048x32x32x3
  shapeCasts_S2048x32x32x3_S2048x16x2x16x2x3 : S2048x32x32x3.ShapeCasts S2048x16x2x16x2x3
  transposes_S2048x16x2x16x2x3_S2048x16x16x2x2x3_0_1_3_2_4_5 : S2048x16x2x16x2x3.Transposes [0, 1, 3, 2, 4, 5] S2048x16x16x2x2x3
  shapeCasts_S2048x16x16x2x2x3_S2048x256x12 : S2048x16x16x2x2x3.ShapeCasts S2048x256x12
  bcast_S_S2048x1x12 : S_.BroadcastsInDim S2048x1x12 (![] : Fin 0 → Fin S2048x1x12.rank)
  concatenates_S2048x256x12_S2048x1x12_S2048x257x12_d1 : Shape.Concatenates [S2048x256x12, S2048x1x12] S2048x257x12 1
  slices_S2048x257x12_S2048x240x12_0_0_0 : S2048x257x12.Slices ![0, 0, 0] S2048x240x12
  slices_S2048x257x12_S2048x240x12_0_1_0 : S2048x257x12.Slices ![0, 1, 0] S2048x240x12
  slices_S2048x257x12_S2048x240x12_0_16_0 : S2048x257x12.Slices ![0, 16, 0] S2048x240x12
  slices_S2048x257x12_S2048x240x12_0_17_0 : S2048x257x12.Slices ![0, 17, 0] S2048x240x12
  concatenates_S2048x240x12_S2048x240x12_S2048x240x12_S2048x240x12_S2048x240x48_d2 : Shape.Concatenates [S2048x240x12, S2048x240x12, S2048x240x12, S2048x240x12] S2048x240x48 2
  pads_S2048x240x48_S2048x256x64_000_0160_0160 : S2048x240x48.Pads (![0, 0, 0] : Fin 3 → Nat) ![0, 16, 16] ![0, 0, 0] S2048x256x64
  h_S_ : 0 < S_.numel
  shapeCasts_S2048x256x64_S2048x8x2x8x2x64 : S2048x256x64.ShapeCasts S2048x8x2x8x2x64
  transposes_S2048x8x2x8x2x64_S2048x2x2x8x8x64_0_2_4_1_3_5 : S2048x8x2x8x2x64.Transposes [0, 2, 4, 1, 3, 5] S2048x2x2x8x8x64
  shapeCasts_S2048x2x2x8x8x64_S2048x256x64 : S2048x2x2x8x8x64.ShapeCasts S2048x256x64
  shapeCasts_S4x12x128_S48x128 : S4x12x128.ShapeCasts S48x128
  pads_S48x128_S64x128_0160_000 : S48x128.Pads (![0, 0] : Fin 2 → Nat) ![16, 0] ![0, 0] S64x128
  shapeCasts_S4x128x256_S512x256 : S4x128x256.ShapeCasts S512x256
  inb_S128x256x64_S128x64x64_0_0_0 : ∀ a, (![0, 0, 0] : Fin 3 → Nat) a + S128x64x64.size a ≤ S128x256x64.size a
  h_S128x64x64 : 0 < S128x64x64.numel
  shapeCasts_S128x64x64_S128x64x64 : S128x64x64.ShapeCasts S128x64x64
  shapeCasts_S128x64x64_S8192x64 : S128x64x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S8192x128_S128x64x128 : S8192x128.ShapeCasts S128x64x128
  slices_S128x64x128_o0_0_0_S128x64x32 : S128x64x128.Slices ![0, 0, 0] S128x64x32
  slices_S128x64x128_o0_0_32_S128x64x32 : S128x64x128.Slices ![0, 0, 32] S128x64x32
  slices_S128x64x128_o0_0_64_S128x64x32 : S128x64x128.Slices ![0, 0, 64] S128x64x32
  slices_S128x64x128_o0_0_96_S128x64x32 : S128x64x128.Slices ![0, 0, 96] S128x64x32
  inb_S1x32_S1x32_0_0 : ∀ a, (![0, 0] : Fin 2 → Nat) a + S1x32.size a ≤ S1x32.size a
  h_S1x32 : 0 < S1x32.numel
  shapeCasts_S1x32_S1x1x32 : S1x32.ShapeCasts S1x1x32
  broadcasts_S1x1x32_S128x64x32 : S1x1x32.Broadcasts S128x64x32
  inb_S128x256x64_S128x64x64_0_64_0 : ∀ a, (![0, 64, 0] : Fin 3 → Nat) a + S128x64x64.size a ≤ S128x256x64.size a
  inb_S128x256x64_S128x64x64_0_128_0 : ∀ a, (![0, 128, 0] : Fin 3 → Nat) a + S128x64x64.size a ≤ S128x256x64.size a
  inb_S128x256x64_S128x64x64_0_192_0 : ∀ a, (![0, 192, 0] : Fin 3 → Nat) a + S128x64x64.size a ≤ S128x256x64.size a
  concatenates_S128x64x32_S128x64x32_S128x64x32_S128x64x32_S128x64x128_d2 : Shape.Concatenates [S128x64x32, S128x64x32, S128x64x32, S128x64x32] S128x64x128 2
  slices_S128x64x128_o0_0_0_S128x48x128 : S128x64x128.Slices ![0, 0, 0] S128x48x128
  slices_S128x64x128_o0_1_0_S128x48x128 : S128x64x128.Slices ![0, 1, 0] S128x48x128
  slices_S128x64x128_o0_8_0_S128x48x128 : S128x64x128.Slices ![0, 8, 0] S128x48x128
  slices_S128x64x128_o0_9_0_S128x48x128 : S128x64x128.Slices ![0, 9, 0] S128x48x128
  concatenates_S128x48x128_S128x48x128_S128x48x128_S128x48x128_S128x48x512_d2 : Shape.Concatenates [S128x48x128, S128x48x128, S128x48x128, S128x48x128] S128x48x512 2
  shapeCasts_S128x48x512_S6144x512 : S128x48x512.ShapeCasts S6144x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S6144x256_S128x48x256 : S6144x256.ShapeCasts S128x48x256
  slices_S128x48x256_o0_0_0_S128x48x64 : S128x48x256.Slices ![0, 0, 0] S128x48x64
  slices_S128x48x256_o0_0_64_S128x48x64 : S128x48x256.Slices ![0, 0, 64] S128x48x64
  slices_S128x48x256_o0_0_128_S128x48x64 : S128x48x256.Slices ![0, 0, 128] S128x48x64
  slices_S128x48x256_o0_0_192_S128x48x64 : S128x48x256.Slices ![0, 0, 192] S128x48x64
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  broadcasts_S1x1x64_S128x48x64 : S1x1x64.Broadcasts S128x48x64
  shapeCasts_S128x48x64_S128x6x8x64 : S128x48x64.ShapeCasts S128x6x8x64
  slices_S128x6x8x64_o0_0_0_0_S128x6x6x64 : S128x6x8x64.Slices ![0, 0, 0, 0] S128x6x6x64
  shapeCasts_S128x6x6x64_S128x2304 : S128x6x6x64.ShapeCasts S128x2304
  inb_S2304x128_S2304x128_0_0 : ∀ a, (![0, 0] : Fin 2 → Nat) a + S2304x128.size a ≤ S2304x128.size a
  h_S2304x128 : 0 < S2304x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x84_S128x84_0_0 : ∀ a, (![0, 0] : Fin 2 → Nat) a + S128x84.size a ≤ S128x84.size a
  h_S128x84 : 0 < S128x84.numel
  inb_S1x84_S1x84_0_0 : ∀ a, (![0, 0] : Fin 2 → Nat) a + S1x84.size a ≤ S1x84.size a
  h_S1x84 : 0 < S1x84.numel
  broadcasts_S1x84_S128x84 : S1x84.Broadcasts S128x84
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  broadcasts_S1x10_S128x10 : S1x10.Broadcasts S128x10
  inb_S128x10_S128x10_0_0 : ∀ a, (![0, 0] : Fin 2 → Nat) a + S128x10.size a ≤ S128x10.size a
  h_S128x10 : 0 < S128x10.numel
  dot_S8192x64_S64x128_S8192x128_1_0_0_1_n_n_wf : DotDims.WF S8192x64 S64x128 S8192x128 [1] [0] [0] [1] [] []
  dot_S6144x512_S512x256_S6144x256_1_0_0_1_n_n_wf : DotDims.WF S6144x512 S512x256 S6144x256 [1] [0] [0] [1] [] []
  dot_S128x2304_S2304x128_S128x128_1_0_0_1_n_n_wf : DotDims.WF S128x2304 S2304x128 S128x128 [1] [0] [0] [1] [] []
  dot_S128x128_S128x84_S128x84_1_0_0_1_n_n_wf : DotDims.WF S128x128 S128x84 S128x84 [1] [0] [0] [1] [] []
  dot_S128x84_S84x10_S128x10_1_0_0_1_n_n_wf : DotDims.WF S128x84 S84x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x64.size a ≤ S2048x256x64.size a
  hwx0_0 : ∀ i : grid0.Coords, EltTy.bits .bf16 = 32 ∨ (Rect.block (s := S2048x256x64) S128x256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2304x128.size a ≤ S2304x128.size a
  hwx0_5 : ∀ i : grid0.Coords, EltTy.bits .bf16 = 32 ∨ (Rect.block (s := S2304x128) S2304x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x84.size a ≤ S128x84.size a
  hwx0_7 : ∀ i : grid0.Coords, EltTy.bits .f32 = 32 ∨ (Rect.block (s := S128x84) S128x84.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x10.size a ≤ S84x10.size a
  hwx0_9 : ∀ i : grid0.Coords, EltTy.bits .f32 = 32 ∨ (Rect.block (s := S84x10) S84x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x84.size a ≤ S2048x84.size a
  hwx0_11 : ∀ i : grid0.Coords, EltTy.bits .f32 = 32 ∨ (Rect.block (s := S2048x84) S128x84.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x10.size a ≤ S2048x10.size a
  hwx0_12 : ∀ i : grid0.Coords, EltTy.bits .f32 = 32 ∨ (Rect.block (s := S2048x10) S128x10.size (cc0_transform_12 i) (hinb0_12 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S6144x512_S512x256_S6144x256_1_0_0_1_n_n : DotDims S6144x512 S512x256 S6144x256 where
  lhsContracting := [1]
  rhsContracting := [0]
  lhsNonContracting := [0]
  rhsNonContracting := [1]
  lhsBatch := []
  rhsBatch := []
  wf := dot_S6144x512_S512x256_S6144x256_1_0_0_1_n_n_wf
def dot_S128x2304_S2304x128_S128x128_1_0_0_1_n_n : DotDims S128x2304 S2304x128 S128x128 where
  lhsContracting := [1]
  rhsContracting := [0]
  lhsNonContracting := [0]
  rhsNonContracting := [1]
  lhsBatch := []
  rhsBatch := []
  wf := dot_S128x2304_S2304x128_S128x128_1_0_0_1_n_n_wf
def dot_S128x128_S128x84_S128x84_1_0_0_1_n_n : DotDims S128x128 S128x84 S128x84 where
  lhsContracting := [1]
  rhsContracting := [0]
  lhsNonContracting := [0]
  rhsNonContracting := [1]
  lhsBatch := []
  rhsBatch := []
  wf := dot_S128x128_S128x84_S128x84_1_0_0_1_n_n_wf
def dot_S128x84_S84x10_S128x10_1_0_0_1_n_n : DotDims S128x84 S84x10 S128x10 where
  lhsContracting := [1]
  rhsContracting := [0]
  lhsNonContracting := [0]
  rhsNonContracting := [1]
  lhsBatch := []
  rhsBatch := []
  wf := dot_S128x84_S84x10_S128x10_1_0_0_1_n_n_wf

abbrev win0_0 : Pipeline.Window sig grid0 :=
  Pipeline.Window.ofSpec (Memref.whole main_v15) S128x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2304x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S84x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19_0) S128x84.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v19_1) S128x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4x12x128 : Shape := ⟨3, ![4, 12, 128]⟩
abbrev S1x32 : Shape := ⟨2, ![1, 32]⟩
abbrev S4x128x256 : Shape := ⟨3, ![4, 128, 256]⟩
abbrev S1x64 : Shape := ⟨2, ![1, 64]⟩
abbrev S2304x128 : Shape := ⟨2, ![2304, 128]⟩
abbrev S1x128 : Shape := ⟨2, ![1, 128]⟩
abbrev S128x84 : Shape := ⟨2, ![128, 84]⟩
abbrev S1x84 : Shape := ⟨2, ![1, 84]⟩
abbrev S84x10 : Shape := ⟨2, ![84, 10]⟩
abbrev S1x10 : Shape := ⟨2, ![1, 10]⟩
abbrev S2048x3x32x32 : Shape := ⟨4, ![2048, 3, 32, 32]⟩
abbrev S2048x32x32x3 : Shape := ⟨4, ![2048, 32, 32, 3]⟩
abbrev S_ : Shape := ⟨0, ![]⟩
abbrev S2048x16x2x16x2x3 : Shape := ⟨6, ![2048, 16, 2, 16, 2, 3]⟩
abbrev S2048x16x16x2x2x3 : Shape := ⟨6, ![2048, 16, 16, 2, 2, 3]⟩
abbrev S2048x16x16x12 : Shape := ⟨4, ![2048, 16, 16, 12]⟩
abbrev S2048x17x16x12 : Shape := ⟨4, ![2048, 17, 16, 12]⟩
abbrev S2048x272x12 : Shape := ⟨3, ![2048, 272, 12]⟩
abbrev S2048x240x32 : Shape := ⟨3, ![2048, 240, 32]⟩
abbrev S1x272x12 : Shape := ⟨3, ![1, 272, 12]⟩
abbrev S1x240x32 : Shape := ⟨3, ![1, 240, 32]⟩
abbrev S1x240x12 : Shape := ⟨3, ![1, 240, 12]⟩
abbrev S240x12 : Shape := ⟨2, ![240, 12]⟩
abbrev S1x12x128 : Shape := ⟨3, ![1, 12, 128]⟩
abbrev S12x128 : Shape := ⟨2, ![12, 128]⟩
abbrev S240x128 : Shape := ⟨2, ![240, 128]⟩
abbrev S240x32 : Shape := ⟨2, ![240, 32]⟩
abbrev S2048x15x16x32 : Shape := ⟨4, ![2048, 15, 16, 32]⟩
abbrev S2048x15x15x32 : Shape := ⟨4, ![2048, 15, 15, 32]⟩
abbrev S2048x16x16x32 : Shape := ⟨4, ![2048, 16, 16, 32]⟩
abbrev S2048x8x2x8x2x32 : Shape := ⟨6, ![2048, 8, 2, 8, 2, 32]⟩
abbrev S2048x8x8x2x2x32 : Shape := ⟨6, ![2048, 8, 8, 2, 2, 32]⟩
abbrev S2048x8x8x128 : Shape := ⟨4, ![2048, 8, 8, 128]⟩
abbrev S2048x9x8x128 : Shape := ⟨4, ![2048, 9, 8, 128]⟩
abbrev S2048x72x128 : Shape := ⟨3, ![2048, 72, 128]⟩
abbrev S2048x48x64 : Shape := ⟨3, ![2048, 48, 64]⟩
abbrev S1x72x128 : Shape := ⟨3, ![1, 72, 128]⟩
abbrev S1x48x64 : Shape := ⟨3, ![1, 48, 64]⟩
abbrev S1x48x128 : Shape := ⟨3, ![1, 48, 128]⟩
abbrev S48x128 : Shape := ⟨2, ![48, 128]⟩
abbrev S1x128x256 : Shape := ⟨3, ![1, 128, 256]⟩
abbrev S128x256 : Shape := ⟨2, ![128, 256]⟩
abbrev S48x256 : Shape := ⟨2, ![48, 256]⟩
abbrev S48x64 : Shape := ⟨2, ![48, 64]⟩
abbrev S2048x6x8x64 : Shape := ⟨4, ![2048, 6, 8, 64]⟩
abbrev S2048x6x6x64 : Shape := ⟨4, ![2048, 6, 6, 64]⟩
abbrev S2048x2304 : Shape := ⟨2, ![2048, 2304]⟩
abbrev S2048x84 : Shape := ⟨2, ![2048, 84]⟩
abbrev S2048x10 : Shape := ⟨2, ![2048, 10]⟩
abbrev S128x2304 : Shape := ⟨2, ![128, 2304]⟩
abbrev S128x10 : Shape := ⟨2, ![128, 10]⟩
abbrev S128x128 : Shape := ⟨2, ![128, 128]⟩

abbrev nBuf : Space → Nat
  | .hbm => 45
  | .vmem => 24
  | .smem => 0
  | _ => 0

abbrev bufTy : (tb : Table) → Fin (tcTables nBuf tb) → BufTy
  | .hbm, ⟨0, _⟩ => ⟨S4x12x128, .bf16⟩
  | .hbm, ⟨1, _⟩ => ⟨S1x32, .f32⟩
  | .hbm, ⟨2, _⟩ => ⟨S4x128x256, .bf16⟩
  | .hbm, ⟨3, _⟩ => ⟨S1x64, .f32⟩
  | .hbm, ⟨4, _⟩ => ⟨S2304x128, .bf16⟩
  | .hbm, ⟨5, _⟩ => ⟨S1x128, .f32⟩
  | .hbm, ⟨6, _⟩ => ⟨S128x84, .f32⟩
  | .hbm, ⟨7, _⟩ => ⟨S1x84, .f32⟩
  | .hbm, ⟨8, _⟩ => ⟨S84x10, .f32⟩
  | .hbm, ⟨9, _⟩ => ⟨S1x10, .f32⟩
  | .hbm, ⟨10, _⟩ => ⟨S2048x3x32x32, .f32⟩
  | .hbm, ⟨11, _⟩ => ⟨S2048x32x32x3, .f32⟩
  | .hbm, ⟨12, _⟩ => ⟨S2048x32x32x3, .bf16⟩
  | .hbm, ⟨13, _⟩ => ⟨S_, .i32⟩
  | .hbm, ⟨14, _⟩ => ⟨S_, .bf16⟩
  | .hbm, ⟨15, _⟩ => ⟨S2048x32x32x3, .bf16⟩
  | .hbm, ⟨16, _⟩ => ⟨S2048x16x2x16x2x3, .bf16⟩
  | .hbm, ⟨17, _⟩ => ⟨S2048x16x16x2x2x3, .bf16⟩
  | .hbm, ⟨18, _⟩ => ⟨S2048x16x16x12, .bf16⟩
  | .hbm, ⟨19, _⟩ => ⟨S_, .i32⟩
  | .hbm, ⟨20, _⟩ => ⟨S_, .bf16⟩
  | .hbm, ⟨21, _⟩ => ⟨S2048x17x16x12, .bf16⟩
  | .hbm, ⟨22, _⟩ => ⟨S2048x272x12, .bf16⟩
  | .hbm, ⟨23, _⟩ => ⟨S2048x240x32, .bf16⟩
  | .hbm, ⟨24, _⟩ => ⟨S2048x15x16x32, .bf16⟩
  | .hbm, ⟨25, _⟩ => ⟨S2048x15x15x32, .bf16⟩
  | .hbm, ⟨26, _⟩ => ⟨S_, .i32⟩
  | .hbm, ⟨27, _⟩ => ⟨S_, .bf16⟩
  | .hbm, ⟨28, _⟩ => ⟨S2048x16x16x32, .bf16⟩
  | .hbm, ⟨29, _⟩ => ⟨S2048x8x2x8x2x32, .bf16⟩
  | .hbm, ⟨30, _⟩ => ⟨S2048x8x8x2x2x32, .bf16⟩
  | .hbm, ⟨31, _⟩ => ⟨S2048x8x8x128, .bf16⟩
  | .hbm, ⟨32, _⟩ => ⟨S_, .i32⟩
  | .hbm, ⟨33, _⟩ => ⟨S_, .bf16⟩
  | .hbm, ⟨34, _⟩ => ⟨S2048x9x8x128, .bf16⟩
  | .hbm, ⟨35, _⟩ => ⟨S2048x72x128, .bf16⟩
  | .hbm, ⟨36, _⟩ => ⟨S2048x48x64, .bf16⟩
  | .hbm, ⟨37, _⟩ => ⟨S2048x6x8x64, .bf16⟩
  | .hbm, ⟨38, _⟩ => ⟨S2048x6x6x64, .bf16⟩
  | .hbm, ⟨39, _⟩ => ⟨S2048x2304, .bf16⟩
  | .hbm, ⟨40, _⟩ => ⟨S_, .i32⟩
  | .hbm, ⟨41, _⟩ => ⟨S_, .bf16⟩
  | .hbm, ⟨42, _⟩ => ⟨S2048x2304, .bf16⟩
  | .hbm, ⟨43, _⟩ => ⟨S2048x84, .f32⟩
  | .hbm, ⟨44, _⟩ => ⟨S2048x10, .f32⟩
  | .local _ .vmem, ⟨0, _⟩ => ⟨S1x272x12, .bf16⟩
  | .local _ .vmem, ⟨1, _⟩ => ⟨S1x272x12, .bf16⟩
  | .local _ .vmem, ⟨2, _⟩ => ⟨S4x12x128, .bf16⟩
  | .local _ .vmem, ⟨3, _⟩ => ⟨S1x32, .f32⟩
  | .local _ .vmem, ⟨4, _⟩ => ⟨S1x240x32, .bf16⟩
  | .local _ .vmem, ⟨5, _⟩ => ⟨S1x240x32, .bf16⟩
  | .local _ .vmem, ⟨6, _⟩ => ⟨S1x72x128, .bf16⟩
  | .local _ .vmem, ⟨7, _⟩ => ⟨S1x72x128, .bf16⟩
  | .local _ .vmem, ⟨8, _⟩ => ⟨S4x128x256, .bf16⟩
  | .local _ .vmem, ⟨9, _⟩ => ⟨S1x64, .f32⟩
  | .local _ .vmem, ⟨10, _⟩ => ⟨S1x48x64, .bf16⟩
  | .local _ .vmem, ⟨11, _⟩ => ⟨S1x48x64, .bf16⟩
  | .local _ .vmem, ⟨12, _⟩ => ⟨S128x2304, .bf16⟩
  | .local _ .vmem, ⟨13, _⟩ => ⟨S128x2304, .bf16⟩
  | .local _ .vmem, ⟨14, _⟩ => ⟨S2304x128, .bf16⟩
  | .local _ .vmem, ⟨15, _⟩ => ⟨S1x128, .f32⟩
  | .local _ .vmem, ⟨16, _⟩ => ⟨S128x84, .f32⟩
  | .local _ .vmem, ⟨17, _⟩ => ⟨S1x84, .f32⟩
  | .local _ .vmem, ⟨18, _⟩ => ⟨S84x10, .f32⟩
  | .local _ .vmem, ⟨19, _⟩ => ⟨S1x10, .f32⟩
  | .local _ .vmem, ⟨20, _⟩ => ⟨S128x84, .f32⟩
  | .local _ .vmem, ⟨21, _⟩ => ⟨S128x84, .f32⟩
  | .local _ .vmem, ⟨22, _⟩ => ⟨S128x10, .f32⟩
  | .local _ .vmem, ⟨23, _⟩ => ⟨S128x10, .f32⟩
  | _, _ => ⟨S4x12x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_call3_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_call4_v0 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x272x12 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x240x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2048], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x72x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x48x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2304 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2304x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x84 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x84 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S84x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x84 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x10 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  transposes_S2048x3x32x32_S2048x32x32x3_0_2_3_1 : S2048x3x32x32.Transposes [0, 2, 3, 1] S2048x32x32x3
  bitsLt_bf16_f32 : FTy.bits .bf16 < FTy.bits .f32
  pads_S2048x32x32x3_S2048x32x32x3_000_000_000_000 : S2048x32x32x3.Pads (![0, 0, 0, 0] : Fin 4 → Nat) ![0, 0, 0, 0] ![0, 0, 0, 0] S2048x32x32x3
  h_S_ : 0 < S_.numel
  shapeCasts_S2048x32x32x3_S2048x16x2x16x2x3 : S2048x32x32x3.ShapeCasts S2048x16x2x16x2x3
  transposes_S2048x16x2x16x2x3_S2048x16x16x2x2x3_0_1_3_2_4_5 : S2048x16x2x16x2x3.Transposes [0, 1, 3, 2, 4, 5] S2048x16x16x2x2x3
  shapeCasts_S2048x16x16x2x2x3_S2048x16x16x12 : S2048x16x16x2x2x3.ShapeCasts S2048x16x16x12
  pads_S2048x16x16x12_S2048x17x16x12_000_010_000_000 : S2048x16x16x12.Pads (![0, 0, 0, 0] : Fin 4 → Nat) ![0, 1, 0, 0] ![0, 0, 0, 0] S2048x17x16x12
  shapeCasts_S2048x17x16x12_S2048x272x12 : S2048x17x16x12.ShapeCasts S2048x272x12
  inb_S1x272x12_S1x240x12_0_0_0 : ∀ a, (![0, 0, 0] : Fin 3 → Nat) a + S1x240x12.size a ≤ S1x272x12.size a
  h_S1x240x12 : 0 < S1x240x12.numel
  shapeCasts_S1x240x12_S240x12 : S1x240x12.ShapeCasts S240x12
  inb_S4x12x128_S1x12x128_0_0_0 : ∀ a, (![0, 0, 0] : Fin 3 → Nat) a + S1x12x128.size a ≤ S4x12x128.size a
  h_S1x12x128 : 0 < S1x12x128.numel
  shapeCasts_S1x12x128_S12x128 : S1x12x128.ShapeCasts S12x128
  inb_S1x272x12_S1x240x12_0_1_0 : ∀ a, (![0, 1, 0] : Fin 3 → Nat) a + S1x240x12.size a ≤ S1x272x12.size a
  inb_S4x12x128_S1x12x128_1_0_0 : ∀ a, (![1, 0, 0] : Fin 3 → Nat) a + S1x12x128.size a ≤ S4x12x128.size a
  inb_S1x272x12_S1x240x12_0_16_0 : ∀ a, (![0, 16, 0] : Fin 3 → Nat) a + S1x240x12.size a ≤ S1x272x12.size a
  inb_S4x12x128_S1x12x128_2_0_0 : ∀ a, (![2, 0, 0] : Fin 3 → Nat) a + S1x12x128.size a ≤ S4x12x128.size a
  inb_S1x272x12_S1x240x12_0_17_0 : ∀ a, (![0, 17, 0] : Fin 3 → Nat) a + S1x240x12.size a ≤ S1x272x12.size a
  inb_S4x12x128_S1x12x128_3_0_0 : ∀ a, (![3, 0, 0] : Fin 3 → Nat) a + S1x12x128.size a ≤ S4x12x128.size a
  slices_S240x128_o0_0_S240x32 : S240x128.Slices ![0, 0] S240x32
  slices_S240x128_o0_32_S240x32 : S240x128.Slices ![0, 32] S240x32
  slices_S240x128_o0_64_S240x32 : S240x128.Slices ![0, 64] S240x32
  slices_S240x128_o0_96_S240x32 : S240x128.Slices ![0, 96] S240x32
  inb_S1x32_S1x32_0_0 : ∀ a, (![0, 0] : Fin 2 → Nat) a + S1x32.size a ≤ S1x32.size a
  h_S1x32 : 0 < S1x32.numel
  broadcasts_S1x32_S240x32 : S1x32.Broadcasts S240x32
  inb_S1x240x32_S1x240x32_0_0_0 : ∀ a, (![0, 0, 0] : Fin 3 → Nat) a + S1x240x32.size a ≤ S1x240x32.size a
  h_S1x240x32 : 0 < S1x240x32.numel
  shapeCasts_S1x240x32_S240x32 : S1x240x32.ShapeCasts S240x32
  shapeCasts_S240x32_S1x240x32 : S240x32.ShapeCasts S1x240x32
  packedbf16_S1x240x32_S1x240x32_0_0_0 : (Rect.unit (s := S1x240x32) ![0, 0, 0] S1x240x32.size inb_S1x240x32_S1x240x32_0_0_0).PackedRows (EltTy.packing .bf16)
  shapeCasts_S2048x240x32_S2048x15x16x32 : S2048x240x32.ShapeCasts S2048x15x16x32
  slices_S2048x15x16x32_S2048x15x15x32_0_0_0_0 : S2048x15x16x32.Slices ![0, 0, 0, 0] S2048x15x15x32
  pads_S2048x15x15x32_S2048x16x16x32_000_010_010_000 : S2048x15x15x32.Pads (![0, 0, 0, 0] : Fin 4 → Nat) ![0, 1, 1, 0] ![0, 0, 0, 0] S2048x16x16x32
  shapeCasts_S2048x16x16x32_S2048x8x2x8x2x32 : S2048x16x16x32.ShapeCasts S2048x8x2x8x2x32
  transposes_S2048x8x2x8x2x32_S2048x8x8x2x2x32_0_1_3_2_4_5 : S2048x8x2x8x2x32.Transposes [0, 1, 3, 2, 4, 5] S2048x8x8x2x2x32
  shapeCasts_S2048x8x8x2x2x32_S2048x8x8x128 : S2048x8x8x2x2x32.ShapeCasts S2048x8x8x128
  pads_S2048x8x8x128_S2048x9x8x128_000_010_000_000 : S2048x8x8x128.Pads (![0, 0, 0, 0] : Fin 4 → Nat) ![0, 1, 0, 0] ![0, 0, 0, 0] S2048x9x8x128
  shapeCasts_S2048x9x8x128_S2048x72x128 : S2048x9x8x128.ShapeCasts S2048x72x128
  inb_S1x72x128_S1x48x128_0_0_0 : ∀ a, (![0, 0, 0] : Fin 3 → Nat) a + S1x48x128.size a ≤ S1x72x128.size a
  h_S1x48x128 : 0 < S1x48x128.numel
  shapeCasts_S1x48x128_S48x128 : S1x48x128.ShapeCasts S48x128
  inb_S4x128x256_S1x128x256_0_0_0 : ∀ a, (![0, 0, 0] : Fin 3 → Nat) a + S1x128x256.size a ≤ S4x128x256.size a
  h_S1x128x256 : 0 < S1x128x256.numel
  shapeCasts_S1x128x256_S128x256 : S1x128x256.ShapeCasts S128x256
  inb_S1x72x128_S1x48x128_0_1_0 : ∀ a, (![0, 1, 0] : Fin 3 → Nat) a + S1x48x128.size a ≤ S1x72x128.size a
  inb_S4x128x256_S1x128x256_1_0_0 : ∀ a, (![1, 0, 0] : Fin 3 → Nat) a + S1x128x256.size a ≤ S4x128x256.size a
  inb_S1x72x128_S1x48x128_0_8_0 : ∀ a, (![0, 8, 0] : Fin 3 → Nat) a + S1x48x128.size a ≤ S1x72x128.size a
  inb_S4x128x256_S1x128x256_2_0_0 : ∀ a, (![2, 0, 0] : Fin 3 → Nat) a + S1x128x256.size a ≤ S4x128x256.size a
  inb_S1x72x128_S1x48x128_0_9_0 : ∀ a, (![0, 9, 0] : Fin 3 → Nat) a + S1x48x128.size a ≤ S1x72x128.size a
  inb_S4x128x256_S1x128x256_3_0_0 : ∀ a, (![3, 0, 0] : Fin 3 → Nat) a + S1x128x256.size a ≤ S4x128x256.size a
  slices_S48x256_o0_0_S48x64 : S48x256.Slices ![0, 0] S48x64
  slices_S48x256_o0_64_S48x64 : S48x256.Slices ![0, 64] S48x64
  slices_S48x256_o0_128_S48x64 : S48x256.Slices ![0, 128] S48x64
  slices_S48x256_o0_192_S48x64 : S48x256.Slices ![0, 192] S48x64
  inb_S1x64_S1x64_0_0 : ∀ a, (![0, 0] : Fin 2 → Nat) a + S1x64.size a ≤ S1x64.size a
  h_S1x64 : 0 < S1x64.numel
  broadcasts_S1x64_S48x64 : S1x64.Broadcasts S48x64
  inb_S1x48x64_S1x48x64_0_0_0 : ∀ a, (![0, 0, 0] : Fin 3 → Nat) a + S1x48x64.size a ≤ S1x48x64.size a
  h_S1x48x64 : 0 < S1x48x64.numel
  shapeCasts_S1x48x64_S48x64 : S1x48x64.ShapeCasts S48x64
  shapeCasts_S48x64_S1x48x64 : S48x64.ShapeCasts S1x48x64
  packedbf16_S1x48x64_S1x48x64_0_0_0 : (Rect.unit (s := S1x48x64) ![0, 0, 0] S1x48x64.size inb_S1x48x64_S1x48x64_0_0_0).PackedRows (EltTy.packing .bf16)
  shapeCasts_S2048x48x64_S2048x6x8x64 : S2048x48x64.ShapeCasts S2048x6x8x64
  slices_S2048x6x8x64_S2048x6x6x64_0_0_0_0 : S2048x6x8x64.Slices ![0, 0, 0, 0] S2048x6x6x64
  shapeCasts_S2048x6x6x64_S2048x2304 : S2048x6x6x64.ShapeCasts S2048x2304
  pads_S2048x2304_S2048x2304_000_000 : S2048x2304.Pads (![0, 0] : Fin 2 → Nat) ![0, 0] ![0, 0] S2048x2304
  inb_S128x2304_S128x2304_0_0 : ∀ a, (![0, 0] : Fin 2 → Nat) a + S128x2304.size a ≤ S128x2304.size a
  h_S128x2304 : 0 < S128x2304.numel
  shapeCasts_S128x2304_S128x2304 : S128x2304.ShapeCasts S128x2304
  inb_S2304x128_S2304x128_0_0 : ∀ a, (![0, 0] : Fin 2 → Nat) a + S2304x128.size a ≤ S2304x128.size a
  h_S2304x128 : 0 < S2304x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x84_S128x84_0_0 : ∀ a, (![0, 0] : Fin 2 → Nat) a + S128x84.size a ≤ S128x84.size a
  h_S128x84 : 0 < S128x84.numel
  inb_S1x84_S1x84_0_0 : ∀ a, (![0, 0] : Fin 2 → Nat) a + S1x84.size a ≤ S1x84.size a
  h_S1x84 : 0 < S1x84.numel
  broadcasts_S1x84_S128x84 : S1x84.Broadcasts S128x84
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  broadcasts_S1x10_S128x10 : S1x10.Broadcasts S128x10
  inb_S128x10_S128x10_0_0 : ∀ a, (![0, 0] : Fin 2 → Nat) a + S128x10.size a ≤ S128x10.size a
  h_S128x10 : 0 < S128x10.numel
  dot_S240x12_S12x128_S240x128_1_0_0_1_n_n_wf : DotDims.WF S240x12 S12x128 S240x128 [1] [0] [0] [1] [] []
  dot_S48x128_S128x256_S48x256_1_0_0_1_n_n_wf : DotDims.WF S48x128 S128x256 S48x256 [1] [0] [0] [1] [] []
  dot_S128x2304_S2304x128_S128x128_1_0_0_1_n_n_wf : DotDims.WF S128x2304 S2304x128 S128x128 [1] [0] [0] [1] [] []
  dot_S128x128_S128x84_S128x84_1_0_0_1_n_n_wf : DotDims.WF S128x128 S128x84 S128x84 [1] [0] [0] [1] [] []
  dot_S128x84_S84x10_S128x10_1_0_0_1_n_n_wf : DotDims.WF S128x84 S84x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x272x12.size a ≤ S2048x272x12.size a
  hwx0_0 : ∀ i : grid0.Coords, EltTy.bits .bf16 = 32 ∨ (Rect.block (s := S2048x272x12) S1x272x12.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x12x128.size a ≤ S4x12x128.size a
  hwx0_1 : ∀ i : grid0.Coords, EltTy.bits .bf16 = 32 ∨ (Rect.block (s := S4x12x128) S4x12x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x240x32.size a ≤ S2048x240x32.size a
  hwx0_3 : ∀ i : grid0.Coords, EltTy.bits .bf16 = 32 ∨ (Rect.block (s := S2048x240x32) S1x240x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x72x128.size a ≤ S2048x72x128.size a
  hwx1_0 : ∀ i : grid1.Coords, EltTy.bits .bf16 = 32 ∨ (Rect.block (s := S2048x72x128) S1x72x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x256.size a ≤ S4x128x256.size a
  hwx1_1 : ∀ i : grid1.Coords, EltTy.bits .bf16 = 32 ∨ (Rect.block (s := S4x128x256) S4x128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x48x64.size a ≤ S2048x48x64.size a
  hwx1_3 : ∀ i : grid1.Coords, EltTy.bits .bf16 = 32 ∨ (Rect.block (s := S2048x48x64) S1x48x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2304.size a ≤ S2048x2304.size a
  hwx2_0 : ∀ i : grid2.Coords, EltTy.bits .bf16 = 32 ∨ (Rect.block (s := S2048x2304) S128x2304.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2304x128.size a ≤ S2304x128.size a
  hwx2_1 : ∀ i : grid2.Coords, EltTy.bits .bf16 = 32 ∨ (Rect.block (s := S2304x128) S2304x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x84.size a ≤ S128x84.size a
  hwx2_3 : ∀ i : grid2.Coords, EltTy.bits .f32 = 32 ∨ (Rect.block (s := S128x84) S128x84.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x84.size a ≤ S1x84.size a
  hwx2_4 : ∀ i : grid2.Coords, EltTy.bits .f32 = 32 ∨ (Rect.block (s := S1x84) S1x84.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S84x10.size a ≤ S84x10.size a
  hwx2_5 : ∀ i : grid2.Coords, EltTy.bits .f32 = 32 ∨ (Rect.block (s := S84x10) S84x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x84.size a ≤ S2048x84.size a
  hwx2_7 : ∀ i : grid2.Coords, EltTy.bits .f32 = 32 ∨ (Rect.block (s := S2048x84) S128x84.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S128x10.size a ≤ S2048x10.size a
  hwx2_8 : ∀ i : grid2.Coords, EltTy.bits .f32 = 32 ∨ (Rect.block (s := S2048x10) S128x10.size (cc2_transform_8 i) (hinb2_8 i)).WholeWords (EltTy.packing .f32)

variable [Facts₀]

def dot_S240x12_S12x128_S240x128_1_0_0_1_n_n : DotDims S240x12 S12x128 S240x128 where
  lhsContracting := [1]
  rhsContracting := [0]
  lhsNonContracting := [0]
  rhsNonContracting := [1]
  lhsBatch := []
  rhsBatch := []
  wf := dot_S240x12_S12x128_S240x128_1_0_0_1_n_n_wf
def dot_S48x128_S128x256_S48x256_1_0_0_1_n_n : DotDims S48x128 S128x256 S48x256 where
  lhsContracting := [1]
  rhsContracting := [0]
  lhsNonContracting := [0]
  rhsNonContracting := [1]
  lhsBatch := []
  rhsBatch := []
  wf := dot_S48x128_S128x256_S48x256_1_0_0_1_n_n_wf
def dot_S128x2304_S2304x128_S128x128_1_0_0_1_n_n : DotDims S128x2304 S2304x128 S128x128 where
  lhsContracting := [1]
  rhsContracting := [0]
  lhsNonContracting := [0]
  rhsNonContracting := [1]
  lhsBatch := []
  rhsBatch := []
  wf := dot_S128x2304_S2304x128_S128x128_1_0_0_1_n_n_wf
def dot_S128x128_S128x84_S128x84_1_0_0_1_n_n : DotDims S128x128 S128x84 S128x84 where
  lhsContracting := [1]
  rhsContracting := [0]
  lhsNonContracting := [0]
  rhsNonContracting := [1]
  lhsBatch := []
  rhsBatch := []
  wf := dot_S128x128_S128x84_S128x84_1_0_0_1_n_n_wf
def dot_S128x84_S84x10_S128x10_1_0_0_1_n_n : DotDims S128x84 S84x10 S128x10 where
  lhsContracting := [1]
  rhsContracting := [0]
  lhsNonContracting := [0]
  rhsNonContracting := [1]
  lhsBatch := []
  rhsBatch := []
  wf := dot_S128x84_S84x10_S128x10_1_0_0_1_n_n_wf

abbrev win0_0 : Pipeline.Window sig grid0 :=
  Pipeline.Window.ofSpec (Memref.whole main_v7) S1x272x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x240x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S1x72x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4x128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x48x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S128x2304.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S2304x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x84.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1x84.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S84x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22_0) S128x84.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v22_1) S128x10.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== Proof.KIBody.lean ====
/- The FRAME of `proofs.«126833_g2000003154481155_pallasbulk_2_29_alg».proof.KernelIdeal`, first half: the fused kernel of its one TensorCore region
   (custom_call 0, pipeline 0) at a PARAMETER `V` — the TensorCore's buffer contents when the region is entered —:
   each window's block at a point (`iblk0`), what the body leaves in each output window's staging buffer as the
   canon of its one store over the input blocks (`out0_11`, `out0_12`: the payloads are the skeleton's), the body's
   triple in separation logic (`sound_kernel0`), the proof data (`dat0`), each input's staging buffer found at its
   block whether the pipeline fetched it at the point or not (`before0_W`), and the body obligation of the launch
   theorems (`body_obligation0`). The run of @main over it is the module beside this one. -/
import proofs.«126833_g2000003154481155_pallasbulk_2_29_alg».proof.Proof.Gen.KernelIdeal.Launch
import proofs.«126833_g2000003154481155_pallasbulk_2_29_alg».proof.Proof.Gen.KernelIdeal.Skeleton
import proofs.«126833_g2000003154481155_pallasbulk_2_29_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- that a store's rectangle tiles its buffer (`View.cover_of_tiled`) is decided coordinate by coordinate along the
-- buffer's long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter this half is stated at, which the run
-- instantiates at the contents the host operations before the region leave
variable (V : (c : Dev nD) → (b : Ref sig .tc) → Buf (Elt F) ((c : Thread nD τ).loc b))

/-! # The region of @main: custom_call 0, `cc0__fused_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x256x64 := Rect.unit (s := S128x256x64) ![0, 0, 0] S128x64x64.size inb_S128x256x64_S128x64x64_0_0_0
abbrev r0_1 : Rect S64x128 := Rect.unit (s := S64x128) ![0, 0] S64x128.size inb_S64x128_S64x128_0_0
abbrev r0_2 : Rect S1x32 := Rect.unit (s := S1x32) ![0, 0] S1x32.size inb_S1x32_S1x32_0_0
abbrev r0_3 : Rect S128x256x64 := Rect.unit (s := S128x256x64) ![0, 64, 0] S128x64x64.size inb_S128x256x64_S128x64x64_0_64_0
abbrev r0_4 : Rect S128x256x64 := Rect.unit (s := S128x256x64) ![0, 128, 0] S128x64x64.size inb_S128x256x64_S128x64x64_0_128_0
abbrev r0_5 : Rect S128x256x64 := Rect.unit (s := S128x256x64) ![0, 192, 0] S128x64x64.size inb_S128x256x64_S128x64x64_0_192_0
abbrev r0_6 : Rect S512x256 := Rect.unit (s := S512x256) ![0, 0] S512x256.size inb_S512x256_S512x256_0_0
abbrev r0_7 : Rect S1x64 := Rect.unit (s := S1x64) ![0, 0] S1x64.size inb_S1x64_S1x64_0_0
abbrev r0_8 : Rect S2304x128 := Rect.unit (s := S2304x128) ![0, 0] S2304x128.size inb_S2304x128_S2304x128_0_0
abbrev r0_9 : Rect S1x128 := Rect.unit (s := S1x128) ![0, 0] S1x128.size inb_S1x128_S1x128_0_0
abbrev r0_10 : Rect S128x84 := Rect.unit (s := S128x84) ![0, 0] S128x84.size inb_S128x84_S128x84_0_0
abbrev r0_11 : Rect S1x84 := Rect.unit (s := S1x84) ![0, 0] S1x84.size inb_S1x84_S1x84_0_0
abbrev r0_12 : Rect S84x10 := Rect.unit (s := S84x10) ![0, 0] S84x10.size inb_S84x10_S84x10_0_0
abbrev r0_13 : Rect S1x10 := Rect.unit (s := S1x10) ![0, 0] S1x10.size inb_S1x10_S1x10_0_0
abbrev r0_14 : Rect S128x10 := Rect.unit (s := S128x10) ![0, 0] S128x10.size inb_S128x10_S128x10_0_0

/-! ## What the body leaves in each output window's buffer -/

/-- Window 11's staging buffer after the body, from the input windows' blocks: its one store as a piece
    (`View.canon`: at each index the payload of the first piece covering it). The payload is the skeleton's: the
    four convolution parts over the four row bands of window 0, concatenated and carried through the second
    convolution and the two dense layers (`k0_pay8`), then the rectifier (`k0_pay1`). -/
def out0_11 (x0 : Vec F S128x256x64 .bf16) (x1 : Vec F S64x128 .bf16) (x2 : Vec F S1x32 .f32) (x3 : Vec F S512x256 .bf16) (x4 : Vec F S1x64 .f32) (x5 : Vec F S2304x128 .bf16) (x6 : Vec F S1x128 .f32) (x7 : Vec F S128x84 .f32) (x8 : Vec F S1x84 .f32) (x9 : Vec F S84x10 .f32) (x10 : Vec F S1x10 .f32) : Vec F S128x84 .f32 :=
  View.canon [⟨r0_10, k0_pay1 (k0_pay8 (k0_pay3 (View.ld x0 r0_0) (View.ld x1 r0_1) (View.ld x2 r0_2)) (k0_pay5 (k0_pay4 (View.ld x0 r0_3) (View.ld x1 r0_1) (View.ld x2 r0_2))) (k0_pay6 (View.ld x0 r0_4) (View.ld x1 r0_1) (View.ld x2 r0_2)) (k0_pay7 (View.ld x0 r0_5) (View.ld x1 r0_1) (View.ld x2 r0_2)) (View.ld x3 r0_6) (View.ld x4 r0_7) (View.ld x5 r0_8) (View.ld x6 r0_9) (View.ld x7 r0_10) (View.ld x8 r0_11)) (k0_pay9 (F := F))⟩]

/-- Its store tiles the buffer (checked by evaluation), so it covers it. -/
theorem cover0_11 (p0 : Vec F S128x84 .f32) (y : S128x84.Idx) :
    ∃ pc ∈ ([⟨r0_10, p0⟩] : List (View.Piece (Elt F) S128x84 .f32)), y ∈ pc.1.set :=
  View.cover_of_tiled [⟨r0_10, p0⟩] S128x84.size (by rfl) y

/-- Window 12's staging buffer after the body, from the input windows' blocks: its one store as a piece. The payload
    is the last dense layer (`k0_pay2`) over the same two values window 11's rectifier takes, window 9's block and
    window 10's. -/
def out0_12 (x0 : Vec F S128x256x64 .bf16) (x1 : Vec F S64x128 .bf16) (x2 : Vec F S1x32 .f32) (x3 : Vec F S512x256 .bf16) (x4 : Vec F S1x64 .f32) (x5 : Vec F S2304x128 .bf16) (x6 : Vec F S1x128 .f32) (x7 : Vec F S128x84 .f32) (x8 : Vec F S1x84 .f32) (x9 : Vec F S84x10 .f32) (x10 : Vec F S1x10 .f32) : Vec F S128x10 .f32 :=
  View.canon [⟨r0_14, k0_pay2 (k0_pay8 (k0_pay3 (View.ld x0 r0_0) (View.ld x1 r0_1) (View.ld x2 r0_2)) (k0_pay5 (k0_pay4 (View.ld x0 r0_3) (View.ld x1 r0_1) (View.ld x2 r0_2))) (k0_pay6 (View.ld x0 r0_4) (View.ld x1 r0_1) (View.ld x2 r0_2)) (k0_pay7 (View.ld x0 r0_5) (View.ld x1 r0_1) (View.ld x2 r0_2)) (View.ld x3 r0_6) (View.ld x4 r0_7) (View.ld x5 r0_8) (View.ld x6 r0_9) (View.ld x7 r0_10) (View.ld x8 r0_11)) (k0_pay9 (F := F)) (View.ld x9 r0_12) (View.ld x10 r0_13)⟩]

/-- Its store tiles the buffer (checked by evaluation), so it covers it. -/
theorem cover0_12 (p0 : Vec F S128x10 .f32) (y : S128x10.Idx) :
    ∃ pc ∈ ([⟨r0_14, p0⟩] : List (View.Piece (Elt F) S128x10 .f32)), y ∈ pc.1.set :=
  View.cover_of_tiled [⟨r0_14, p0⟩] S128x10.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`*_eq_skeleton`), whose loads and stores are stepped one by one, through the three part calls. -/
theorem sound_kernel0 (c : Dev nD) (E : Set ℕ) (i : grid0.Coords) (arg1 : Memref sig .tc .vmem S128x256x64 .bf16) (harg1 : arg1.IsWhole) (arg2 : Memref sig .tc .vmem S64x128 .bf16) (harg2 : arg2.IsWhole) (arg3 : Memref sig .tc .vmem S1x32 .f32) (harg3 : arg3.IsWhole) (arg4 : Memref sig .tc .vmem S512x256 .bf16) (harg4 : arg4.IsWhole) (arg5 : Memref sig .tc .vmem S1x64 .f32) (harg5 : arg5.IsWhole) (arg6 : Memref sig .tc .vmem S2304x128 .bf16) (harg6 : arg6.IsWhole) (arg7 : Memref sig .tc .vmem S1x128 .f32) (harg7 : arg7.IsWhole) (arg8 : Memref sig .tc .vmem S128x84 .f32) (harg8 : arg8.IsWhole) (arg9 : Memref sig .tc .vmem S1x84 .f32) (harg9 : arg9.IsWhole) (arg10 : Memref sig .tc .vmem S84x10 .f32) (harg10 : arg10.IsWhole) (arg11 : Memref sig .tc .vmem S1x10 .f32) (harg11 : arg11.IsWhole) (arg12 : Memref sig .tc .vmem S128x84 .f32) (harg12 : arg12.IsWhole) (arg13 : Memref sig .tc .vmem S128x10 .f32) (harg13 : arg13.IsWhole)
    (x0 : Vec F S128x256x64 .bf16) (x1 : Vec F S64x128 .bf16) (x2 : Vec F S1x32 .f32) (x3 : Vec F S512x256 .bf16) (x4 : Vec F S1x64 .f32) (x5 : Vec F S2304x128 .bf16) (x6 : Vec F S1x128 .f32) (x7 : Vec F S128x84 .f32) (x8 : Vec F S1x84 .f32) (x9 : Vec F S84x10 .f32) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The pipeline's proof data -/

/-- The proof data of pipeline 0 on core `c`: the arrays as the region finds them (`V`); after the body at
    point `t` each input's buffer at its block and each output's at `out0_W` of the input blocks; the invariant the
    scoped rest and the generator register, untouched (`Pipeline.ΦA`); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not (`before0_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIFrame.lean ====
/- The FRAME of `proofs.«126833_g2000003154481155_pallasbulk_2_29_alg».proof.KernelIdeal`, second half: the RUN of @main — five stretches of host
   operations, then the one TensorCore region — from the launch to the return. The buffer contents at every
   segment boundary as a fold from the launch memory (`W0` … `W5`: a stretch's `StableHlo.after`; `W6`: the
   region's arrays at what its write-backs leave, every other buffer as entered), each argument array read back
   through the fold to its launch contents (`W6_main_argK`), the pipeline's proof data at the region's entry
   contents (`pdats`), a host segment per stretch and a region segment over the thread state "every unscoped buffer
   at the boundary's contents, the generator register at some state, nothing owed" (`reg0`, `segs`), the launch
   over the segments with every unscoped buffer read at the end (`run_all`), and the frame claim at any `F`
   (`frame`). -/
import proofs.«126833_g2000003154481155_pallasbulk_2_29_alg».proof.Proof.KIBody

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (the region's entry). -/
abbrev W5 : Dev nD → Valuation τ sig (Elt F) := fun c => StableHlo.after hostOps0_4 (W4 m ρ c)
/-- The same read at the TensorCore's references (what the region's proof data take). -/
abbrev V5 : (c : Dev nD) → (b : Ref sig .tc) → Buf (Elt F) ((c : Thread nD τ).loc b) := fun c b => W5 m ρ c b
/-- At the region's exit: its arrays at what the pipeline leaves (the inputs as entered, each output's write-backs
    folded: `Dat.arrAt … N`), every other buffer as entered (`Pipeline.withArrays`). -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (the region's exit contents). -/
abbrev V6 : (c : Dev nD) → (b : Ref sig .tc) → Buf (Elt F) ((c : Thread nD τ).loc b) := fun c b => W6 m ρ c b
/-- At the region's exit each of its arrays holds what the pipeline leaves (`hF0`) and every other buffer what it
    held at entry (`hrest0`): the two hypotheses of `Pipeline.unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-! ### The arguments end as launched: no host operation writes one (each writes its result reference only, the
    four-operand concatenation included), and the region reads an argument through an input window — whose array the
    pipeline leaves as entered — or bypasses it; so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 2).trans (((dat0 (V5 m ρ) c).arrAt_in 2 rfl _).trans (A_eq0 (V5 m ρ) c 2))
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := (W6_arr m ρ c 4).trans (((dat0 (V5 m ρ) c).arrAt_in 4 rfl _).trans (A_eq0 (V5 m ρ) c 4))
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_arr m ρ c 5).trans (((dat0 (V5 m ρ) c).arrAt_in 5 rfl _).trans (A_eq0 (V5 m ρ) c 5))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 6).trans (((dat0 (V5 m ρ) c).arrAt_in 6 rfl _).trans (A_eq0 (V5 m ρ) c 6))
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 7).trans (((dat0 (V5 m ρ) c).arrAt_in 7 rfl _).trans (A_eq0 (V5 m ρ) c 7))
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 8).trans (((dat0 (V5 m ρ) c).arrAt_in 8 rfl _).trans (A_eq0 (V5 m ρ) c 8))
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 9).trans (((dat0 (V5 m ρ) c).arrAt_in 9 rfl _).trans (A_eq0 (V5 m ρ) c 9))
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 10).trans (((dat0 (V5 m ρ) c).arrAt_in 10 rfl _).trans (A_eq0 (V5 m ρ) c 10))
    _ = W4 m ρ c (Proc.devRef .tc main_arg9) := StableHlo.after_of_forall_not_mem (b := Proc.devRef .tc main_arg9) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl

/-! ## The proof data family and the thread state -/

/-- The prefetched tables' admissible contents: the pipeline has no table. -/
abbrev adm : (p : Fin 1) → (pcfgs (F := F) p).Adm := fun p => (cfgs p).toPCfg_adm
/-- The pipeline's proof data at the region's entry contents — a literal `match`, so that
    `Pipeline.pin pcfgs adm p` at a numeral reduces to the printed configuration. -/
def pdats : (p : Fin 1) → (c : Dev nD) → Dat τ (Elt F) Unit ℕ (UR sig nD τ) ℕ (Pipeline.pin (pcfgs (F := F)) adm p) c
  | ⟨0, _⟩ => fun c => dat0 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The region as a segment -/

-- the library's region lemmas are stated over `Pipeline.pin pcfgs adm p`, which at the numeral `0` is this region's
-- configuration by definition
set_option backward.isDefEq.respectTransparency.types false in
/-- The region (custom_call 0) over the thread state: entered from every unscoped buffer at `W5`, left at `W6`
    (what the launch reads at the end). Its
    arrays split out of the unscoped buffers (`arrays_of_unscopedBufs`) and put back at the exit contents
    (`unscopedBufs_of_arrays`); the generator register into the invariant `ΦA` and out; nothing owed; no semaphore of
    the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, the region. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ) ]
/-- @main IS the run of the segments: `main_chain`, then the segments' run against that chain by definitional
    unfolding, checked by the kernel. -/
theorem main_run (c : Dev nD) : main (F := F) c = Pipeline.Seg.run (segs m ρ) := (main_chain c).trans (by chain_rfl)

-- the launch theorem is stated over the same pinned configurations and proof data, equal to the ones here by
-- definition
set_option backward.isDefEq.respectTransparency.types false in
/-- THE RUN: at the compiled mesh, from any memory with zero counters, every weakly fair execution of @main on the
    TensorCores terminates, nothing faulting, and every final state has every unscoped buffer of every core at the
    last boundary's contents `W6`: the launch over the segments, the last thread state read against the final state
    (`pointsTo_read_all`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the program's frame claim at any `F` — every weakly fair execution of @main on the TensorCores
    terminates, nothing faulting, and every final state has the argument arrays as launched: `run_all`, each argument
    an unscoped buffer, read back to the launch memory by `W6_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_all m ρ)

/-- info: 'Cert.KernelIdeal.Hand.frame' depends on axioms: [propext, Classical.choice, Quot.sound] -/
#guard_msgs in #print axioms frame

end Cert.KernelIdeal.Hand

end
-- ==== Proof.KBody.lean ====
/- The FRAME of `proofs.«126833_g2000003154481155_pallasbulk_2_29_alg».proof.Kernel`, first half: the fused kernel of its one TensorCore region
   (custom_call 0, pipeline 0) at a PARAMETER `V` — the TensorCore's buffer contents when the region is entered —:
   each window's block at a point (`iblk0`), what the body leaves in each output window's staging buffer as the
   canon of its one store over the input blocks (`out0_11`, `out0_12`: the payloads are the skeleton's), the body's
   triple in separation logic (`sound_kernel0`), the proof data (`dat0`), each input's staging buffer found at its
   block whether the pipeline fetched it at the point or not (`before0_W`), and the body obligation of the launch
   theorems (`body_obligation0`). The run of @main over it is the module beside this one. -/
import proofs.«126833_g2000003154481155_pallasbulk_2_29_alg».proof.Proof.Gen.Kernel.Launch
import proofs.«126833_g2000003154481155_pallasbulk_2_29_alg».proof.Proof.Gen.Kernel.Skeleton
import proofs.«126833_g2000003154481155_pallasbulk_2_29_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- that a store's rectangle tiles its buffer (`View.cover_of_tiled`) is decided coordinate by coordinate along the
-- buffer's long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter this half is stated at, which the run
-- instantiates at the contents the host operations before the region leave
variable (V : (c : Dev nD) → (b : Ref sig .tc) → Buf (Elt F) ((c : Thread nD τ).loc b))

/-! # The region of @main: custom_call 0, `cc0__fused_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): an input not fetched at a
    point has the block index of the point before, whose block the buffer still holds (`Dat.before_in_eq_fetched`);
    the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x256x64 := Rect.unit (s := S128x256x64) ![0, 0, 0] S128x64x64.size inb_S128x256x64_S128x64x64_0_0_0
abbrev r0_1 : Rect S64x128 := Rect.unit (s := S64x128) ![0, 0] S64x128.size inb_S64x128_S64x128_0_0
abbrev r0_2 : Rect S1x32 := Rect.unit (s := S1x32) ![0, 0] S1x32.size inb_S1x32_S1x32_0_0
abbrev r0_3 : Rect S128x256x64 := Rect.unit (s := S128x256x64) ![0, 64, 0] S128x64x64.size inb_S128x256x64_S128x64x64_0_64_0
abbrev r0_4 : Rect S128x256x64 := Rect.unit (s := S128x256x64) ![0, 128, 0] S128x64x64.size inb_S128x256x64_S128x64x64_0_128_0
abbrev r0_5 : Rect S128x256x64 := Rect.unit (s := S128x256x64) ![0, 192, 0] S128x64x64.size inb_S128x256x64_S128x64x64_0_192_0
abbrev r0_6 : Rect S512x256 := Rect.unit (s := S512x256) ![0, 0] S512x256.size inb_S512x256_S512x256_0_0
abbrev r0_7 : Rect S1x64 := Rect.unit (s := S1x64) ![0, 0] S1x64.size inb_S1x64_S1x64_0_0
abbrev r0_8 : Rect S2304x128 := Rect.unit (s := S2304x128) ![0, 0] S2304x128.size inb_S2304x128_S2304x128_0_0
abbrev r0_9 : Rect S1x128 := Rect.unit (s := S1x128) ![0, 0] S1x128.size inb_S1x128_S1x128_0_0
abbrev r0_10 : Rect S128x84 := Rect.unit (s := S128x84) ![0, 0] S128x84.size inb_S128x84_S128x84_0_0
abbrev r0_11 : Rect S1x84 := Rect.unit (s := S1x84) ![0, 0] S1x84.size inb_S1x84_S1x84_0_0
abbrev r0_12 : Rect S84x10 := Rect.unit (s := S84x10) ![0, 0] S84x10.size inb_S84x10_S84x10_0_0
abbrev r0_13 : Rect S1x10 := Rect.unit (s := S1x10) ![0, 0] S1x10.size inb_S1x10_S1x10_0_0
abbrev r0_14 : Rect S128x10 := Rect.unit (s := S128x10) ![0, 0] S128x10.size inb_S128x10_S128x10_0_0

/-! ## What the body leaves in each output window's buffer -/

/-- Window 11's staging buffer after the body, from the input windows' blocks: its one store as a piece
    (`View.canon`: at each index the payload of the first piece covering it). The payload is the skeleton's: the
    four convolution parts over the four row bands of window 0, concatenated and carried through the second
    convolution and the two dense layers (`k0_pay8`), then the rectifier (`k0_pay1`). -/
def out0_11 (x0 : Vec F S128x256x64 .bf16) (x1 : Vec F S64x128 .bf16) (x2 : Vec F S1x32 .f32) (x3 : Vec F S512x256 .bf16) (x4 : Vec F S1x64 .f32) (x5 : Vec F S2304x128 .bf16) (x6 : Vec F S1x128 .f32) (x7 : Vec F S128x84 .f32) (x8 : Vec F S1x84 .f32) (x9 : Vec F S84x10 .f32) (x10 : Vec F S1x10 .f32) : Vec F S128x84 .f32 :=
  View.canon [⟨r0_10, k0_pay1 (k0_pay8 (k0_pay3 (View.ld x0 r0_0) (View.ld x1 r0_1) (View.ld x2 r0_2)) (k0_pay5 (k0_pay4 (View.ld x0 r0_3) (View.ld x1 r0_1) (View.ld x2 r0_2))) (k0_pay6 (View.ld x0 r0_4) (View.ld x1 r0_1) (View.ld x2 r0_2)) (k0_pay7 (View.ld x0 r0_5) (View.ld x1 r0_1) (View.ld x2 r0_2)) (View.ld x3 r0_6) (View.ld x4 r0_7) (View.ld x5 r0_8) (View.ld x6 r0_9) (View.ld x7 r0_10) (View.ld x8 r0_11)) (k0_pay9 (F := F))⟩]

/-- Its store tiles the buffer (checked by evaluation), so it covers it. -/
theorem cover0_11 (p0 : Vec F S128x84 .f32) (y : S128x84.Idx) :
    ∃ pc ∈ ([⟨r0_10, p0⟩] : List (View.Piece (Elt F) S128x84 .f32)), y ∈ pc.1.set :=
  View.cover_of_tiled [⟨r0_10, p0⟩] S128x84.size (by rfl) y

/-- Window 12's staging buffer after the body, from the input windows' blocks: its one store as a piece. The payload
    is the last dense layer (`k0_pay2`) over the same two values window 11's rectifier takes, window 9's block and
    window 10's. -/
def out0_12 (x0 : Vec F S128x256x64 .bf16) (x1 : Vec F S64x128 .bf16) (x2 : Vec F S1x32 .f32) (x3 : Vec F S512x256 .bf16) (x4 : Vec F S1x64 .f32) (x5 : Vec F S2304x128 .bf16) (x6 : Vec F S1x128 .f32) (x7 : Vec F S128x84 .f32) (x8 : Vec F S1x84 .f32) (x9 : Vec F S84x10 .f32) (x10 : Vec F S1x10 .f32) : Vec F S128x10 .f32 :=
  View.canon [⟨r0_14, k0_pay2 (k0_pay8 (k0_pay3 (View.ld x0 r0_0) (View.ld x1 r0_1) (View.ld x2 r0_2)) (k0_pay5 (k0_pay4 (View.ld x0 r0_3) (View.ld x1 r0_1) (View.ld x2 r0_2))) (k0_pay6 (View.ld x0 r0_4) (View.ld x1 r0_1) (View.ld x2 r0_2)) (k0_pay7 (View.ld x0 r0_5) (View.ld x1 r0_1) (View.ld x2 r0_2)) (View.ld x3 r0_6) (View.ld x4 r0_7) (View.ld x5 r0_8) (View.ld x6 r0_9) (View.ld x7 r0_10) (View.ld x8 r0_11)) (k0_pay9 (F := F)) (View.ld x9 r0_12) (View.ld x10 r0_13)⟩]

/-- Its store tiles the buffer (checked by evaluation), so it covers it. -/
theorem cover0_12 (p0 : Vec F S128x10 .f32) (y : S128x10.Idx) :
    ∃ pc ∈ ([⟨r0_14, p0⟩] : List (View.Piece (Elt F) S128x10 .f32)), y ∈ pc.1.set :=
  View.cover_of_tiled [⟨r0_14, p0⟩] S128x10.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`*_eq_skeleton`), whose loads and stores are stepped one by one, through the three part calls. -/
theorem sound_kernel0 (c : Dev nD) (E : Set ℕ) (i : grid0.Coords) (arg1 : Memref sig .tc .vmem S128x256x64 .bf16) (harg1 : arg1.IsWhole) (arg2 : Memref sig .tc .vmem S64x128 .bf16) (harg2 : arg2.IsWhole) (arg3 : Memref sig .tc .vmem S1x32 .f32) (harg3 : arg3.IsWhole) (arg4 : Memref sig .tc .vmem S512x256 .bf16) (harg4 : arg4.IsWhole) (arg5 : Memref sig .tc .vmem S1x64 .f32) (harg5 : arg5.IsWhole) (arg6 : Memref sig .tc .vmem S2304x128 .bf16) (harg6 : arg6.IsWhole) (arg7 : Memref sig .tc .vmem S1x128 .f32) (harg7 : arg7.IsWhole) (arg8 : Memref sig .tc .vmem S128x84 .f32) (harg8 : arg8.IsWhole) (arg9 : Memref sig .tc .vmem S1x84 .f32) (harg9 : arg9.IsWhole) (arg10 : Memref sig .tc .vmem S84x10 .f32) (harg10 : arg10.IsWhole) (arg11 : Memref sig .tc .vmem S1x10 .f32) (harg11 : arg11.IsWhole) (arg12 : Memref sig .tc .vmem S128x84 .f32) (harg12 : arg12.IsWhole) (arg13 : Memref sig .tc .vmem S128x10 .f32) (harg13 : arg13.IsWhole)
    (x0 : Vec F S128x256x64 .bf16) (x1 : Vec F S64x128 .bf16) (x2 : Vec F S1x32 .f32) (x3 : Vec F S512x256 .bf16) (x4 : Vec F S1x64 .f32) (x5 : Vec F S2304x128 .bf16) (x6 : Vec F S1x128 .f32) (x7 : Vec F S128x84 .f32) (x8 : Vec F S1x84 .f32) (x9 : Vec F S84x10 .f32) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The pipeline's proof data -/

/-- The proof data of pipeline 0 on core `c`: the arrays as the region finds them (`V`); after the body at
    point `t` each input's buffer at its block and each output's at `out0_W` of the input blocks; the invariant the
    scoped rest and the generator register, untouched (`Pipeline.ΦA`); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not (`before0_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KFrame.lean ====
/- The FRAME of `proofs.«126833_g2000003154481155_pallasbulk_2_29_alg».proof.Kernel`, second half: the RUN of @main — five stretches of host
   operations, then the one TensorCore region — from the launch to the return. The buffer contents at every
   segment boundary as a fold from the launch memory (`W0` … `W5`: a stretch's `StableHlo.after`; `W6`: the
   region's arrays at what its write-backs leave, every other buffer as entered), each argument array read back
   through the fold to its launch contents (`W6_main_argK`), the pipeline's proof data at the region's entry
   contents (`pdats`), a host segment per stretch and a region segment over the thread state "every unscoped buffer
   at the boundary's contents, the generator register at some state, nothing owed" (`reg0`, `segs`), the launch
   over the segments with every unscoped buffer read at the end (`run_all`), and the frame claim at any `F`
   (`frame`). -/
import proofs.«126833_g2000003154481155_pallasbulk_2_29_alg».proof.Proof.KBody

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (the region's entry). -/
abbrev W5 : Dev nD → Valuation τ sig (Elt F) := fun c => StableHlo.after hostOps0_4 (W4 m ρ c)
/-- The same read at the TensorCore's references (what the region's proof data take). -/
abbrev V5 : (c : Dev nD) → (b : Ref sig .tc) → Buf (Elt F) ((c : Thread nD τ).loc b) := fun c b => W5 m ρ c b
/-- At the region's exit: its arrays at what the pipeline leaves (the inputs as entered, each output's write-backs
    folded: `Dat.arrAt … N`), every other buffer as entered (`Pipeline.withArrays`). -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (the region's exit contents). -/
abbrev V6 : (c : Dev nD) → (b : Ref sig .tc) → Buf (Elt F) ((c : Thread nD τ).loc b) := fun c b => W6 m ρ c b
/-- At the region's exit each of its arrays holds what the pipeline leaves (`hF0`) and every other buffer what it
    held at entry (`hrest0`): the two hypotheses of `Pipeline.unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-! ### The arguments end as launched: no host operation writes one (each writes its result reference only, the
    four-operand concatenation included), and the region reads an argument through an input window — whose array the
    pipeline leaves as entered — or bypasses it; so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 2).trans (((dat0 (V5 m ρ) c).arrAt_in 2 rfl _).trans (A_eq0 (V5 m ρ) c 2))
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := (W6_arr m ρ c 4).trans (((dat0 (V5 m ρ) c).arrAt_in 4 rfl _).trans (A_eq0 (V5 m ρ) c 4))
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_arr m ρ c 5).trans (((dat0 (V5 m ρ) c).arrAt_in 5 rfl _).trans (A_eq0 (V5 m ρ) c 5))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 6).trans (((dat0 (V5 m ρ) c).arrAt_in 6 rfl _).trans (A_eq0 (V5 m ρ) c 6))
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 7).trans (((dat0 (V5 m ρ) c).arrAt_in 7 rfl _).trans (A_eq0 (V5 m ρ) c 7))
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 8).trans (((dat0 (V5 m ρ) c).arrAt_in 8 rfl _).trans (A_eq0 (V5 m ρ) c 8))
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 9).trans (((dat0 (V5 m ρ) c).arrAt_in 9 rfl _).trans (A_eq0 (V5 m ρ) c 9))
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 10).trans (((dat0 (V5 m ρ) c).arrAt_in 10 rfl _).trans (A_eq0 (V5 m ρ) c 10))
    _ = W4 m ρ c (Proc.devRef .tc main_arg9) := StableHlo.after_of_forall_not_mem (b := Proc.devRef .tc main_arg9) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl

/-! ## The proof data family and the thread state -/

/-- The prefetched tables' admissible contents: the pipeline has no table. -/
abbrev adm : (p : Fin 1) → (pcfgs (F := F) p).Adm := fun p => (cfgs p).toPCfg_adm
/-- The pipeline's proof data at the region's entry contents — a literal `match`, so that
    `Pipeline.pin pcfgs adm p` at a numeral reduces to the printed configuration. -/
def pdats : (p : Fin 1) → (c : Dev nD) → Dat τ (Elt F) Unit ℕ (UR sig nD τ) ℕ (Pipeline.pin (pcfgs (F := F)) adm p) c
  | ⟨0, _⟩ => fun c => dat0 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The region as a segment -/

-- the library's region lemmas are stated over `Pipeline.pin pcfgs adm p`, which at the numeral `0` is this region's
-- configuration by definition
set_option backward.isDefEq.respectTransparency.types false in
/-- The region (custom_call 0) over the thread state: entered from every unscoped buffer at `W5`, left at `W6`
    (what the launch reads at the end). Its
    arrays split out of the unscoped buffers (`arrays_of_unscopedBufs`) and put back at the exit contents
    (`unscopedBufs_of_arrays`); the generator register into the invariant `ΦA` and out; nothing owed; no semaphore of
    the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, the region. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ) ]
/-- @main IS the run of the segments: `main_chain`, then the segments' run against that chain by definitional
    unfolding, checked by the kernel. -/
theorem main_run (c : Dev nD) : main (F := F) c = Pipeline.Seg.run (segs m ρ) := (main_chain c).trans (by chain_rfl)

-- the launch theorem is stated over the same pinned configurations and proof data, equal to the ones here by
-- definition
set_option backward.isDefEq.respectTransparency.types false in
/-- THE RUN: at the compiled mesh, from any memory with zero counters, every weakly fair execution of @main on the
    TensorCores terminates, nothing faulting, and every final state has every unscoped buffer of every core at the
    last boundary's contents `W6`: the launch over the segments, the last thread state read against the final state
    (`pointsTo_read_all`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the program's frame claim at any `F` — every weakly fair execution of @main on the TensorCores
    terminates, nothing faulting, and every final state has the argument arrays as launched: `run_all`, each argument
    an unscoped buffer, read back to the launch memory by `W6_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_all m ρ)

/-- info: 'Cert.Kernel.Hand.frame' depends on axioms: [propext, Classical.choice, Quot.sound] -/
#guard_msgs in #print axioms frame

end Cert.Kernel.Hand

end
-- ==== Proof.RRun.lean ====
/-
  The reference program's run, with every unscoped buffer named at the end.

  The reference's @main is fifteen segments: stretches of host operations and three kernel regions.  Its
  generated frame launches them over the thread state "every unscoped buffer at the boundary's contents";
  the last boundary's contents are `Gen.W15`.  Here the same launch is read for ALL unscoped buffers at the
  end, not only the arguments: every weakly fair execution terminates, without a fault, in a memory where each
  unscoped buffer `b` holds `Gen.W15 m ρ c b` — in particular the two results.
-/
import proofs.«126833_g2000003154481155_pallasbulk_2_29_alg».proof.Proof.Gen.ReferenceIdeal.Frame

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference's @main terminates, nothing faulting, and in the final memory
    every unscoped buffer of every core holds the last boundary's contents `Gen.W15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

end Cert.ReferenceIdeal.Hand

end
-- ==== Proof.Spec.lean ====
/-
  The network both programs compute, as closed forms over natural-number coordinates on the extended reals.

  Arrays are read through total extensions (`at2`, `at3`, `at4`: the array inside its extents, zero outside), so that
  every coordinate below is a natural number and the index arithmetic is linear arithmetic with `/` and `%` by literals.

  * `xs1 X n R ch` — the space-to-depth packing of image `n`: row R = 16·r + s is the 2×2 pixel block (r, s), channel
    ch = (pr·2 + pc)·3 + c is pixel (2r + pr, 2s + pc), colour c; rows from 256 on are zero (the appended zero row).
  * `conv G K st xs w R col = ∑ g < G, ∑ k < K, xs (R + st g) k · w g k col` — a 3×3 valid convolution followed by a
    2×2 pooling window, written as G = 4 shift groups (the row offsets `st g`) of K packed taps each; column block
    col / C is the position inside the pooling window.
  * `pool C y b R o = max (max (max (y R o) (y R (C + o))) (max (y R (2C + o)) (y R (3C + o))) + b o) 0` — the maximum
    over the pooling window, the bias, the rectifier.
  * `xs2 A n R ch` — the space-to-depth packing of the first layer's output, a 15 × 15 image on a virtual 15 × 16 grid
    (row 16·i + j of `A`), zero-padded to 16 × 16: row R = 8·r + s, channel ch = (pr·2 + pc)·32 + o.
  * `flat A n K` — the 6 × 6 × 64 kept outputs of the second layer (rows 8·r + s, s < 6, of `A`) flattened:
    K = (6·r + s)·64 + o.
  * `dense`, `relu` — the three fully connected layers.
-/
import Idealize.ShloMosaic.Lib.ValueIdx
import Idealize.ShloMosaic.PureOps.Ideal

noncomputable section

namespace Cert.Spec

open Idealize.ShloMosaic Idealize.ShloMosaic.ValueIdx Finset

/-! ## Arrays read at natural-number coordinates -/

/-- A matrix inside its extents, zero outside. -/
def at2 {a b : ℕ} (x : (⟨2, ![a, b]⟩ : Shape).Idx → EReal) (i j : ℕ) : EReal :=
  if h : i < a ∧ j < b then x (ix2 ⟨i, h.1⟩ ⟨j, h.2⟩) else 0
/-- A rank-3 array inside its extents, zero outside. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0
/-- A rank-4 array inside its extents, zero outside. -/
def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem at2_ix {a b : ℕ} (x : (⟨2, ![a, b]⟩ : Shape).Idx → EReal) (i : Fin a) (j : Fin b) :
    at2 x i.val j.val = x (ix2 i j) := by
  unfold at2; rw [dif_pos ⟨i.isLt, j.isLt⟩]
theorem at3_ix {a b c : ℕ} (x : (⟨3, ![a, b, c]⟩ : Shape).Idx → EReal) (i : Fin a) (j : Fin b) (k : Fin c) :
    at3 x i.val j.val k.val = x (ix3 i j k) := by
  unfold at3; rw [dif_pos ⟨i.isLt, j.isLt, k.isLt⟩]
theorem at4_ix {a b c d : ℕ} (x : (⟨4, ![a, b, c, d]⟩ : Shape).Idx → EReal) (i : Fin a) (j : Fin b) (k : Fin c)
    (l : Fin d) : at4 x i.val j.val k.val l.val = x (ix4 i j k l) := by
  unfold at4; rw [dif_pos ⟨i.isLt, j.isLt, k.isLt, l.isLt⟩]
theorem at2_of_lt {a b : ℕ} (x : (⟨2, ![a, b]⟩ : Shape).Idx → EReal) {i j : ℕ} (hi : i < a) (hj : j < b) :
    at2 x i j = x (ix2 ⟨i, hi⟩ ⟨j, hj⟩) := by
  unfold at2; rw [dif_pos ⟨hi, hj⟩]
theorem at3_of_lt {a b c : ℕ} (x : (⟨3, ![a, b, c]⟩ : Shape).Idx → EReal) {i j k : ℕ} (hi : i < a) (hj : j < b)
    (hk : k < c) : at3 x i j k = x (ix3 ⟨i, hi⟩ ⟨j, hj⟩ ⟨k, hk⟩) := by
  unfold at3; rw [dif_pos ⟨hi, hj, hk⟩]
theorem at4_of_lt {a b c d : ℕ} (x : (⟨4, ![a, b, c, d]⟩ : Shape).Idx → EReal) {i j k l : ℕ} (hi : i < a)
    (hj : j < b) (hk : k < c) (hl : l < d) : at4 x i j k l = x (ix4 ⟨i, hi⟩ ⟨j, hj⟩ ⟨k, hk⟩ ⟨l, hl⟩) := by
  unfold at4; rw [dif_pos ⟨hi, hj, hk, hl⟩]

/-! ## One convolution layer -/

/-- The row offset of shift group g = (qr, qc) on a packed grid of row length 16. -/
def st1 (g : ℕ) : ℕ := 16 * (g / 2) + g % 2
/-- The row offset of shift group g = (qr, qc) on a packed grid of row length 8. -/
def st2 (g : ℕ) : ℕ := 8 * (g / 2) + g % 2

/-- G shift groups of K packed taps: the convolution at packed row R, output column col. -/
def conv (G K : ℕ) (st : ℕ → ℕ) (xs : ℕ → ℕ → EReal) (w : ℕ → ℕ → ℕ → EReal) (R col : ℕ) : EReal :=
  ∑ g ∈ range G, ∑ k ∈ range K, xs (R + st g) k * w g k col

/-- The maximum over the four positions of the pooling window (column blocks of C), the bias, the rectifier. -/
def pool (C : ℕ) (y : ℕ → ℕ → EReal) (b : ℕ → EReal) (R o : ℕ) : EReal :=
  max (max (max (y R o) (y R (C + o))) (max (y R (2 * C + o)) (y R (3 * C + o))) + b o) 0

/-- Convolution, pooling, bias, rectifier. -/
def layer (C K : ℕ) (st : ℕ → ℕ) (xs : ℕ → ℕ → EReal) (w : ℕ → ℕ → ℕ → EReal) (b : ℕ → EReal) (R o : ℕ) : EReal :=
  pool C (conv 4 K st xs w) b R o

/-! ## The packings between the layers -/

/-- The packed input image. -/
def xs1 (X : ℕ → ℕ → ℕ → ℕ → EReal) (n R ch : ℕ) : EReal :=
  if R < 256 then X n (ch % 3) (2 * (R / 16) + ch / 6) (2 * (R % 16) + ch / 3 % 2) else 0

/-- The packed output of the first layer (A n (16·i + j) o is its pixel (i, j), i, j < 15). -/
def xs2 (A : ℕ → ℕ → ℕ → EReal) (n R ch : ℕ) : EReal :=
  if R < 64 ∧ 2 * (R / 8) + ch / 64 < 15 ∧ 2 * (R % 8) + ch / 32 % 2 < 15 then
    A n (16 * (2 * (R / 8) + ch / 64) + (2 * (R % 8) + ch / 32 % 2)) (ch % 32)
  else 0

/-- The flattened kept outputs of the second layer. -/
def flat (A : ℕ → ℕ → ℕ → EReal) (n K : ℕ) : EReal := A n (8 * (K / 384) + K / 64 % 6) (K % 64)

/-! ## The fully connected layers -/

/-- A fully connected layer: row n of x against column j of w, plus the bias. -/
def dense (K : ℕ) (x : ℕ → ℕ → EReal) (w : ℕ → ℕ → EReal) (b : ℕ → EReal) (n j : ℕ) : EReal :=
  ∑ k ∈ range K, x n k * w k j + b j

/-- The rectifier. -/
def relu (v : EReal) : EReal := max v 0

/-! ## The network -/

section Net
variable (X : ℕ → ℕ → ℕ → ℕ → EReal) (W1 : ℕ → ℕ → ℕ → EReal) (B1 : ℕ → EReal) (W2 : ℕ → ℕ → ℕ → EReal) (B2 : ℕ → EReal)
  (F1 : ℕ → ℕ → EReal) (F1b : ℕ → EReal) (F2 : ℕ → ℕ → EReal) (F2b : ℕ → EReal) (F3 : ℕ → ℕ → EReal) (F3b : ℕ → EReal)

/-- The first layer's output on its virtual 15 × 16 grid. -/
def A1 (n R o : ℕ) : EReal := layer 32 12 st1 (xs1 X n) W1 B1 R o
/-- The second layer's output on its virtual 6 × 8 grid. -/
def A2 (n R o : ℕ) : EReal := layer 64 128 st2 (xs2 (A1 X W1 B1) n) W2 B2 R o
/-- The first fully connected layer. -/
def H1 (n j : ℕ) : EReal := relu (dense 2304 (flat (A2 X W1 B1 W2 B2)) F1 F1b n j)
/-- The second fully connected layer: the first result. -/
def H2 (n j : ℕ) : EReal := relu (dense 128 (H1 X W1 B1 W2 B2 F1 F1b) F2 F2b n j)
/-- The third fully connected layer: the second result. -/
def OUT (n j : ℕ) : EReal := dense 84 (H2 X W1 B1 W2 B2 F1 F1b F2 F2b) F3 F3b n j

end Net

end Cert.Spec

end
-- ==== Proof.SpecNet.lean ====
/-
  The network as a function of the eleven argument arrays: what both programs' two results are, entry by entry.
-/
import proofs.«126833_g2000003154481155_pallasbulk_2_29_alg».proof.Proof.Spec

noncomputable section

namespace Cert.Spec

open Idealize.ShloMosaic

/-- The first result (the second fully connected layer, rectified), entry (n, j), from the argument arrays in
    argument order: the two convolution layers' weights and biases, the three fully connected layers' weights and
    biases, the images. -/
def netH2 (a0 : (⟨3, ![4, 12, 128]⟩ : Shape).Idx → EReal) (a1 : (⟨2, ![1, 32]⟩ : Shape).Idx → EReal)
    (a2 : (⟨3, ![4, 128, 256]⟩ : Shape).Idx → EReal) (a3 : (⟨2, ![1, 64]⟩ : Shape).Idx → EReal)
    (a4 : (⟨2, ![2304, 128]⟩ : Shape).Idx → EReal) (a5 : (⟨2, ![1, 128]⟩ : Shape).Idx → EReal)
    (a6 : (⟨2, ![128, 84]⟩ : Shape).Idx → EReal) (a7 : (⟨2, ![1, 84]⟩ : Shape).Idx → EReal)
    (a10 : (⟨4, ![2048, 3, 32, 32]⟩ : Shape).Idx → EReal) (n j : ℕ) : EReal :=
  H2 (at4 a10) (at3 a0) (fun o => at2 a1 0 o) (at3 a2) (fun o => at2 a3 0 o) (at2 a4) (fun k => at2 a5 0 k) (at2 a6)
    (fun k => at2 a7 0 k) n j

/-- The second result (the third fully connected layer), entry (n, j). -/
def netOut (a0 : (⟨3, ![4, 12, 128]⟩ : Shape).Idx → EReal) (a1 : (⟨2, ![1, 32]⟩ : Shape).Idx → EReal)
    (a2 : (⟨3, ![4, 128, 256]⟩ : Shape).Idx → EReal) (a3 : (⟨2, ![1, 64]⟩ : Shape).Idx → EReal)
    (a4 : (⟨2, ![2304, 128]⟩ : Shape).Idx → EReal) (a5 : (⟨2, ![1, 128]⟩ : Shape).Idx → EReal)
    (a6 : (⟨2, ![128, 84]⟩ : Shape).Idx → EReal) (a7 : (⟨2, ![1, 84]⟩ : Shape).Idx → EReal)
    (a8 : (⟨2, ![84, 10]⟩ : Shape).Idx → EReal) (a9 : (⟨2, ![1, 10]⟩ : Shape).Idx → EReal)
    (a10 : (⟨4, ![2048, 3, 32, 32]⟩ : Shape).Idx → EReal) (n j : ℕ) : EReal :=
  OUT (at4 a10) (at3 a0) (fun o => at2 a1 0 o) (at3 a2) (fun o => at2 a3 0 o) (at2 a4) (fun k => at2 a5 0 k) (at2 a6)
    (fun k => at2 a7 0 k) (at2 a8) (fun k => at2 a9 0 k) n j

end Cert.Spec

end
-- ==== Proof.Assemble.lean ====
/-
  The assembly: from the two programs' results as functions of their argument arrays to the certificate's claims.

  Both programs compute one network — two convolution layers with pooling and a rectifier, then three fully connected
  layers — and return its last two layers.  Given that each result array of each program, read at an index (n, j), is
  the network's closed form `Cert.Spec.netH2` / `Cert.Spec.netOut` of that program's own argument arrays, the two runs
  from memories that agree on the arguments end with equal results: the common value is the closed form of the kernel's
  arguments, and the reference's arguments are rewritten to them by the agreement.  The argument arrays end as launched
  because every unscoped buffer is read at the end of each run and no segment writes an argument.
-/
import proofs.«126833_g2000003154481155_pallasbulk_2_29_alg».proof.Defs
import proofs.«126833_g2000003154481155_pallasbulk_2_29_alg».proof.Proof.KIFrame
import proofs.«126833_g2000003154481155_pallasbulk_2_29_alg».proof.Proof.KFrame
import proofs.«126833_g2000003154481155_pallasbulk_2_29_alg».proof.Proof.RRun
import proofs.«126833_g2000003154481155_pallasbulk_2_29_alg».proof.Proof.SpecNet
import proofs.«126833_g2000003154481155_pallasbulk_2_29_alg».proof.Proof.Gen.Kernel
import proofs.«126833_g2000003154481155_pallasbulk_2_29_alg».proof.Proof.Gen.KernelIdeal
import proofs.«126833_g2000003154481155_pallasbulk_2_29_alg».proof.Proof.Gen.ReferenceIdeal
import proofs.«126833_g2000003154481155_pallasbulk_2_29_alg».proof.Proof.Gen.ReferenceIdeal.Frame
import proofs.«126833_g2000003154481155_pallasbulk_2_29_alg».proof.Proof.Gen.Pre_finite_inputs
import Idealize.ShloMosaic.Lib.ValueIdx

set_option maxRecDepth 16384

noncomputable section

namespace Cert.Proof.Assemble

open Idealize.ShloMosaic Idealize.ShloMosaic.TcCoe Idealize.SL.Sem Idealize.ShloMosaic.ValueIdx

variable
  (hK0 : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (n : Fin 2048) (j : Fin 84),
      (Cert.KernelIdeal.Hand.W6 (F := Ideal) m ρ c (Proc.devRef .tc Cert.KernelIdeal.main_v19_0) : Cert.KernelIdeal.S2048x84.Idx → EReal) (ix2 n j)
        = Cert.Spec.netH2 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg10)) n.val j.val)
  (hK1 : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (n : Fin 2048) (j : Fin 10),
      (Cert.KernelIdeal.Hand.W6 (F := Ideal) m ρ c (Proc.devRef .tc Cert.KernelIdeal.main_v19_1) : Cert.KernelIdeal.S2048x10.Idx → EReal) (ix2 n j)
        = Cert.Spec.netOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) n.val j.val)
  (hR0 : ∀ (m' : (ℓ : Loc Cert.ReferenceIdeal.nD Cert.ReferenceIdeal.τ Cert.ReferenceIdeal.sig) → Buf (Elt Ideal) ℓ) (ρ' : Dev Cert.ReferenceIdeal.nD → PrngReg) (c : Dev Cert.ReferenceIdeal.nD) (n : Fin 2048) (j : Fin 84),
      (Cert.ReferenceIdeal.Gen.W15 (F := Ideal) m' ρ' c (Proc.devRef .tc Cert.ReferenceIdeal.main_v22_0) : Cert.ReferenceIdeal.S2048x84.Idx → EReal) (ix2 n j)
        = Cert.Spec.netH2 (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg10)) n.val j.val)
  (hR1 : ∀ (m' : (ℓ : Loc Cert.ReferenceIdeal.nD Cert.ReferenceIdeal.τ Cert.ReferenceIdeal.sig) → Buf (Elt Ideal) ℓ) (ρ' : Dev Cert.ReferenceIdeal.nD → PrngReg) (c : Dev Cert.ReferenceIdeal.nD) (n : Fin 2048) (j : Fin 10),
      (Cert.ReferenceIdeal.Gen.W15 (F := Ideal) m' ρ' c (Proc.devRef .tc Cert.ReferenceIdeal.main_v22_1) : Cert.ReferenceIdeal.S2048x10.Idx → EReal) (ix2 n j)
        = Cert.Spec.netOut (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)) n.val j.val)

include hK0 hK1 hR0 hR1 in
/-- The two idealized programs, from memories agreeing on the arguments, end with equal results and unchanged
    arguments. -/
theorem algebraic_of : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c i => Cert.Spec.netH2 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg10)) (i 0).val (i 1).val,
    fun c i => Cert.Spec.netOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) (i 0).val (i 1).val, ?_, ?_⟩
  · refine (θ_run Cert.KernelIdeal.defs _ _).mono (fun r h c => ⟨?_, ?_,
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c),
      (h c _ (Cert.KernelIdeal.Hand.mem_uc Cert.KernelIdeal.main_arg5 (by decide))).trans (Cert.KernelIdeal.Hand.W6_main_arg5 m ρ c),
      (h c _ (Cert.KernelIdeal.Hand.mem_uc Cert.KernelIdeal.main_arg6 (by decide))).trans (Cert.KernelIdeal.Hand.W6_main_arg6 m ρ c),
      (h c _ (Cert.KernelIdeal.Hand.mem_uc Cert.KernelIdeal.main_arg7 (by decide))).trans (Cert.KernelIdeal.Hand.W6_main_arg7 m ρ c),
      (h c _ (Cert.KernelIdeal.Hand.mem_uc Cert.KernelIdeal.main_arg8 (by decide))).trans (Cert.KernelIdeal.Hand.W6_main_arg8 m ρ c),
      (h c _ (Cert.KernelIdeal.Hand.mem_uc Cert.KernelIdeal.main_arg9 (by decide))).trans (Cert.KernelIdeal.Hand.W6_main_arg9 m ρ c),
      (h c _ (Cert.KernelIdeal.Hand.mem_uc Cert.KernelIdeal.main_arg10 (by decide))).trans (Cert.KernelIdeal.Hand.W6_main_arg10 m ρ c)⟩)
      (Cert.KernelIdeal.Hand.run_all m ρ)
    · refine (h c _ (Cert.KernelIdeal.Hand.mem_uc Cert.KernelIdeal.main_v19_0 (by decide))).trans ?_
      funext i
      obtain ⟨a, b, rfl⟩ : ∃ (a : Fin 2048) (b : Fin 84), i = ix2 a b := ⟨i 0, i 1, eq_ix2 i⟩
      exact hK0 m ρ c a b
    · refine (h c _ (Cert.KernelIdeal.Hand.mem_uc Cert.KernelIdeal.main_v19_1 (by decide))).trans ?_
      funext i
      obtain ⟨a, b, rfl⟩ : ∃ (a : Fin 2048) (b : Fin 10), i = ix2 a b := ⟨i 0, i 1, eq_ix2 i⟩
      exact hK1 m ρ c a b
  · refine (θ_run Cert.ReferenceIdeal.defs _ _).mono (fun r h c => ⟨?_, ?_,
      (h c _ (Cert.ReferenceIdeal.Gen.mem_uc Cert.ReferenceIdeal.main_arg0 (by decide))).trans (Cert.ReferenceIdeal.Gen.W15_main_arg0 m' ρ' c),
      (h c _ (Cert.ReferenceIdeal.Gen.mem_uc Cert.ReferenceIdeal.main_arg1 (by decide))).trans (Cert.ReferenceIdeal.Gen.W15_main_arg1 m' ρ' c),
      (h c _ (Cert.ReferenceIdeal.Gen.mem_uc Cert.ReferenceIdeal.main_arg2 (by decide))).trans (Cert.ReferenceIdeal.Gen.W15_main_arg2 m' ρ' c),
      (h c _ (Cert.ReferenceIdeal.Gen.mem_uc Cert.ReferenceIdeal.main_arg3 (by decide))).trans (Cert.ReferenceIdeal.Gen.W15_main_arg3 m' ρ' c),
      (h c _ (Cert.ReferenceIdeal.Gen.mem_uc Cert.ReferenceIdeal.main_arg4 (by decide))).trans (Cert.ReferenceIdeal.Gen.W15_main_arg4 m' ρ' c),
      (h c _ (Cert.ReferenceIdeal.Gen.mem_uc Cert.ReferenceIdeal.main_arg5 (by decide))).trans (Cert.ReferenceIdeal.Gen.W15_main_arg5 m' ρ' c),
      (h c _ (Cert.ReferenceIdeal.Gen.mem_uc Cert.ReferenceIdeal.main_arg6 (by decide))).trans (Cert.ReferenceIdeal.Gen.W15_main_arg6 m' ρ' c),
      (h c _ (Cert.ReferenceIdeal.Gen.mem_uc Cert.ReferenceIdeal.main_arg7 (by decide))).trans (Cert.ReferenceIdeal.Gen.W15_main_arg7 m' ρ' c),
      (h c _ (Cert.ReferenceIdeal.Gen.mem_uc Cert.ReferenceIdeal.main_arg8 (by decide))).trans (Cert.ReferenceIdeal.Gen.W15_main_arg8 m' ρ' c),
      (h c _ (Cert.ReferenceIdeal.Gen.mem_uc Cert.ReferenceIdeal.main_arg9 (by decide))).trans (Cert.ReferenceIdeal.Gen.W15_main_arg9 m' ρ' c),
      (h c _ (Cert.ReferenceIdeal.Gen.mem_uc Cert.ReferenceIdeal.main_arg10 (by decide))).trans (Cert.ReferenceIdeal.Gen.W15_main_arg10 m' ρ' c)⟩)
      (Cert.ReferenceIdeal.Hand.run_all m' ρ')
    · refine (h c _ (Cert.ReferenceIdeal.Gen.mem_uc Cert.ReferenceIdeal.main_v22_0 (by decide))).trans ?_
      obtain ⟨e0, e1, e2, e3, e4, e5, e6, e7, e8, e9, e10⟩ := hagree c
      funext i
      obtain ⟨a, b, rfl⟩ : ∃ (a : Fin 2048) (b : Fin 84), i = ix2 a b := ⟨i 0, i 1, eq_ix2 i⟩
      refine (hR0 m' ρ' c a b).trans ?_
      rw [e0, e1, e2, e3, e4, e5, e6, e7, e10]
      rfl
    · refine (h c _ (Cert.ReferenceIdeal.Gen.mem_uc Cert.ReferenceIdeal.main_v22_1 (by decide))).trans ?_
      obtain ⟨e0, e1, e2, e3, e4, e5, e6, e7, e8, e9, e10⟩ := hagree c
      funext i
      obtain ⟨a, b, rfl⟩ : ∃ (a : Fin 2048) (b : Fin 10), i = ix2 a b := ⟨i 0, i 1, eq_ix2 i⟩
      refine (hR1 m' ρ' c a b).trans ?_
      rw [e0, e1, e2, e3, e4, e5, e6, e7, e8, e9, e10]
      rfl

include hK0 hK1 hR0 hR1 in
/-- The certificate's claim: the three frames, the idealization (the program's own text read on the extended reals), and
    the equality of the two idealized programs' results. -/
theorem claim_of : Cert.Claim :=
  ⟨Cert.Kernel.Gen.facts, Cert.KernelIdeal.Gen.facts, Cert.ReferenceIdeal.Gen.facts, Cert.Pre_finite_inputs.Gen.facts,
    fun m ρ _ => Cert.Kernel.Hand.frame m ρ, fun m ρ _ => Cert.KernelIdeal.Hand.frame m ρ,
    fun m ρ _ => Cert.ReferenceIdeal.Gen.frame m ρ, trivial, algebraic_of hK0 hK1 hR0 hR1⟩

end Cert.Proof.Assemble

end
-- ==== Proof.KIRegion.lean ====
/- The region of `proofs.«126833_g2000003154481155_pallasbulk_2_29_alg».proof.KernelIdeal` read at an index, at the ideal instance: FROM THE BLOCKS TO THE ARRAYS.
   Each of the region's two output arrays, at a row `n = 128 · t + b`, holds what the body leaves in the output
   window's staging buffer at point `t` — `out0_11` / `out0_12` of the eleven input blocks of that point — at row `b`
   (`v19_0_apply`, `v19_1_apply`): the sixteen points write back pairwise disjoint row blocks, so a row keeps what its
   own point wrote. And the input blocks are reads of the arrays as the region finds them: window 0's block at point
   `t` is rows `128 · t …` of its array (`iblk0_0_apply`), the ten other windows' blocks are their whole arrays
   (`iblk0_W_eq`). -/
import proofs.«126833_g2000003154481155_pallasbulk_2_29_alg».proof.Proof.KIFrame
import Idealize.ShloMosaic.Lib.Pipeline.Value
import Idealize.ShloMosaic.Lib.ValueIdx

set_option maxRecDepth 16384

noncomputable section

namespace Cert.KernelIdeal.RegionVal

open Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-! ## The input blocks as reads of the entry arrays -/

/-- Window 0's block index at point `t`, decided over the grid: `(t, 0, 0)`. -/
theorem idx0_facts : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 0's block at point `t`, at `(y0, y1, y2)`, is its array at row `128 · t + y0`: a block's coordinate in the
    array is, per axis, the block index times the block's extent plus the coordinate inside the block. -/
theorem iblk0_0_apply (t : Fin cfg0.N) (y0 : Fin 128) (y1 : Fin 256) (y2 : Fin 64) (n : Fin 2048) (hn : n.val = 128 * t.val + y0.val) :
    iblk0 (V5 m ρ) c 0 t (ix3 y0 y1 y2) = (V5 m ρ c main_v15 : S2048x256x64.Idx → EReal) (ix3 n y1 y2) := by
  show (V5 m ρ c main_v15 : S2048x256x64.Idx → EReal) (((cfg0.win 0).blk t).view.emb (ix3 y0 y1 y2)) = _
  refine congrArg _ ?_
  obtain ⟨e0, e1, e2⟩ := idx0_facts t
  funext a; apply Fin.ext
  match a with
  | ⟨0, _⟩ => show win0_0.index t (0 : Fin 3) * 128 + 1 * y0.val = n.val; omega
  | ⟨1, _⟩ => show win0_0.index t (1 : Fin 3) * 256 + 1 * y1.val = y1.val; omega
  | ⟨2, _⟩ => show win0_0.index t (2 : Fin 3) * 64 + 1 * y2.val = y2.val; omega

/-- Window 1's block index is `(0, 0)` at every point, decided over the grid. -/
theorem idx1_facts : ∀ t : Fin cfg0.N, win0_1.index t (0 : Fin 2) = 0 ∧ win0_1.index t (1 : Fin 2) = 0 :=
  (by decide +kernel : ∀ t : Fin grid0.N, _)

/-- Window 1's block is its whole array at every point. -/
theorem iblk0_1_eq (t : Fin cfg0.N) : iblk0 (V5 m ρ) c 1 t = (V5 m ρ c main_v17 : S64x128.Idx → EReal) := by
  funext y
  show (V5 m ρ c main_v17 : S64x128.Idx → EReal) (((cfg0.win 1).blk t).view.emb y) = _
  refine congrArg _ ?_
  obtain ⟨e0, e1⟩ := idx1_facts t
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- Window 2's block index is `(0, 0)` at every point, decided over the grid. -/
theorem idx2_facts : ∀ t : Fin cfg0.N, win0_2.index t (0 : Fin 2) = 0 ∧ win0_2.index t (1 : Fin 2) = 0 :=
  (by decide +kernel : ∀ t : Fin grid0.N, _)

/-- Window 2's block is its whole array at every point. -/
theorem iblk0_2_eq (t : Fin cfg0.N) : iblk0 (V5 m ρ) c 2 t = (V5 m ρ c main_arg1 : S1x32.Idx → EReal) := by
  funext y
  show (V5 m ρ c main_arg1 : S1x32.Idx → EReal) (((cfg0.win 2).blk t).view.emb y) = _
  refine congrArg _ ?_
  obtain ⟨e0, e1⟩ := idx2_facts t
  funext a; apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- Window 3's block index is `(0, 0)` at every point, decided over the grid. -/
theorem idx3_facts : ∀ t : Fin cfg0.N, win0_3.index t (0 : Fin 2) = 0 ∧ win0_3.index t (1 : Fin 2) = 0 :=
  (by decide +kernel : ∀ t : Fin grid0.N, _)

/-- Window 3's block is its whole array at every point. -/
theorem iblk0_3_eq (t : Fin cfg0.N) : iblk0 (V5 m ρ) c 3 t = (V5 m ρ c main_v18 : S512x256.Idx → EReal) := by
  funext y
  show (V5 m ρ c main_v18 : S512x256.Idx → EReal) (((cfg0.win 3).blk t).view.emb y) = _
  refine congrArg _ ?_
  obtain ⟨e0, e1⟩ := idx3_facts t
  funext a; apply Fin.ext
  match a with
  | ⟨0, _⟩ => show win0_3.index t (0 : Fin 2) * 512 + 1 * (y 0).val = (y 0).val; omega
  | ⟨1, _⟩ => show win0_3.index t (1 : Fin 2) * 256 + 1 * (y 1).val = (y 1).val; omega

/-- Window 4's block index is `(0, 0)` at every point, decided over the grid. -/
theorem idx4_facts : ∀ t : Fin cfg0.N, win0_4.index t (0 : Fin 2) = 0 ∧ win0_4.index t (1 : Fin 2) = 0 :=
  (by decide +kernel : ∀ t : Fin grid0.N, _)

/-- Window 4's block is its whole array at every point. -/
theorem iblk0_4_eq (t : Fin cfg0.N) : iblk0 (V5 m ρ) c 4 t = (V5 m ρ c main_arg3 : S1x64.Idx → EReal) := by
  funext y
  show (V5 m ρ c main_arg3 : S1x64.Idx → EReal) (((cfg0.win 4).blk t).view.emb y) = _
  refine congrArg _ ?_
  obtain ⟨e0, e1⟩ := idx4_facts t
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block index is `(0, 0)` at every point, decided over the grid. -/
theorem idx5_facts : ∀ t : Fin cfg0.N, win0_5.index t (0 : Fin 2) = 0 ∧ win0_5.index t (1 : Fin 2) = 0 :=
  (by decide +kernel : ∀ t : Fin grid0.N, _)

/-- Window 5's block is its whole array at every point. -/
theorem iblk0_5_eq (t : Fin cfg0.N) : iblk0 (V5 m ρ) c 5 t = (V5 m ρ c main_arg4 : S2304x128.Idx → EReal) := by
  funext y
  show (V5 m ρ c main_arg4 : S2304x128.Idx → EReal) (((cfg0.win 5).blk t).view.emb y) = _
  refine congrArg _ ?_
  obtain ⟨e0, e1⟩ := idx5_facts t
  funext a; apply Fin.ext
  match a with
  | ⟨0, _⟩ => show win0_5.index t (0 : Fin 2) * 2304 + 1 * (y 0).val = (y 0).val; omega
  | ⟨1, _⟩ => show win0_5.index t (1 : Fin 2) * 128 + 1 * (y 1).val = (y 1).val; omega

/-- Window 6's block index is `(0, 0)` at every point, decided over the grid. -/
theorem idx6_facts : ∀ t : Fin cfg0.N, win0_6.index t (0 : Fin 2) = 0 ∧ win0_6.index t (1 : Fin 2) = 0 :=
  (by decide +kernel : ∀ t : Fin grid0.N, _)

/-- Window 6's block is its whole array at every point. -/
theorem iblk0_6_eq (t : Fin cfg0.N) : iblk0 (V5 m ρ) c 6 t = (V5 m ρ c main_arg5 : S1x128.Idx → EReal) := by
  funext y
  show (V5 m ρ c main_arg5 : S1x128.Idx → EReal) (((cfg0.win 6).blk t).view.emb y) = _
  refine congrArg _ ?_
  obtain ⟨e0, e1⟩ := idx6_facts t
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block index is `(0, 0)` at every point, decided over the grid. -/
theorem idx7_facts : ∀ t : Fin cfg0.N, win0_7.index t (0 : Fin 2) = 0 ∧ win0_7.index t (1 : Fin 2) = 0 :=
  (by decide +kernel : ∀ t : Fin grid0.N, _)

/-- Window 7's block is its whole array at every point. -/
theorem iblk0_7_eq (t : Fin cfg0.N) : iblk0 (V5 m ρ) c 7 t = (V5 m ρ c main_arg6 : S128x84.Idx → EReal) := by
  funext y
  show (V5 m ρ c main_arg6 : S128x84.Idx → EReal) (((cfg0.win 7).blk t).view.emb y) = _
  refine congrArg _ ?_
  obtain ⟨e0, e1⟩ := idx7_facts t
  funext a; apply Fin.ext
  match a with
  | ⟨0, _⟩ => show win0_7.index t (0 : Fin 2) * 128 + 1 * (y 0).val = (y 0).val; omega
  | ⟨1, _⟩ => show win0_7.index t (1 : Fin 2) * 84 + 1 * (y 1).val = (y 1).val; omega

/-- Window 8's block index is `(0, 0)` at every point, decided over the grid. -/
theorem idx8_facts : ∀ t : Fin cfg0.N, win0_8.index t (0 : Fin 2) = 0 ∧ win0_8.index t (1 : Fin 2) = 0 :=
  (by decide +kernel : ∀ t : Fin grid0.N, _)

/-- Window 8's block is its whole array at every point. -/
theorem iblk0_8_eq (t : Fin cfg0.N) : iblk0 (V5 m ρ) c 8 t = (V5 m ρ c main_arg7 : S1x84.Idx → EReal) := by
  funext y
  show (V5 m ρ c main_arg7 : S1x84.Idx → EReal) (((cfg0.win 8).blk t).view.emb y) = _
  refine congrArg _ ?_
  obtain ⟨e0, e1⟩ := idx8_facts t
  funext a; apply Fin.ext
  match a with
  | ⟨0, _⟩ => show win0_8.index t (0 : Fin 2) * 1 + 1 * (y 0).val = (y 0).val; omega
  | ⟨1, _⟩ => show win0_8.index t (1 : Fin 2) * 84 + 1 * (y 1).val = (y 1).val; omega

/-- Window 9's block index is `(0, 0)` at every point, decided over the grid. -/
theorem idx9_facts : ∀ t : Fin cfg0.N, win0_9.index t (0 : Fin 2) = 0 ∧ win0_9.index t (1 : Fin 2) = 0 :=
  (by decide +kernel : ∀ t : Fin grid0.N, _)

/-- Window 9's block is its whole array at every point. -/
theorem iblk0_9_eq (t : Fin cfg0.N) : iblk0 (V5 m ρ) c 9 t = (V5 m ρ c main_arg8 : S84x10.Idx → EReal) := by
  funext y
  show (V5 m ρ c main_arg8 : S84x10.Idx → EReal) (((cfg0.win 9).blk t).view.emb y) = _
  refine congrArg _ ?_
  obtain ⟨e0, e1⟩ := idx9_facts t
  funext a; apply Fin.ext
  match a with
  | ⟨0, _⟩ => show win0_9.index t (0 : Fin 2) * 84 + 1 * (y 0).val = (y 0).val; omega
  | ⟨1, _⟩ => show win0_9.index t (1 : Fin 2) * 10 + 1 * (y 1).val = (y 1).val; omega

/-- Window 10's block index is `(0, 0)` at every point, decided over the grid. -/
theorem idx10_facts : ∀ t : Fin cfg0.N, win0_10.index t (0 : Fin 2) = 0 ∧ win0_10.index t (1 : Fin 2) = 0 :=
  (by decide +kernel : ∀ t : Fin grid0.N, _)

/-- Window 10's block is its whole array at every point. -/
theorem iblk0_10_eq (t : Fin cfg0.N) : iblk0 (V5 m ρ) c 10 t = (V5 m ρ c main_arg9 : S1x10.Idx → EReal) := by
  funext y
  show (V5 m ρ c main_arg9 : S1x10.Idx → EReal) (((cfg0.win 10).blk t).view.emb y) = _
  refine congrArg _ ?_
  obtain ⟨e0, e1⟩ := idx10_facts t
  funext a; apply Fin.ext
  match a with
  | ⟨0, _⟩ => show win0_10.index t (0 : Fin 2) * 1 + 1 * (y 0).val = (y 0).val; omega
  | ⟨1, _⟩ => show win0_10.index t (1 : Fin 2) * 10 + 1 * (y 1).val = (y 1).val; omega

/-! ## The output arrays after the region, read at an index -/

/-- Output window 11's block index at point `t`, decided over the grid: `(t, 0)`. -/
theorem idx11_facts : ∀ t : Fin cfg0.N, win0_11.index t (0 : Fin 2) = t.val ∧ win0_11.index t (1 : Fin 2) = 0 :=
  (by decide +kernel : ∀ t : Fin grid0.N, _)

/-- An index of the array is in point `t`'s block iff each coordinate is in the block's range on its axis. -/
theorem mem_blk11 (t : Fin cfg0.N) (i : S2048x84.Idx) :
    i ∈ ((cfg0.win 11).blk t).view.set ↔ ∀ a : Fin 2, win0_11.index t a * S128x84.size a ≤ (i a).val ∧ (i a).val < win0_11.index t a * S128x84.size a + S128x84.size a := by
  show i ∈ ((View.whole main_v19_0).slice (win0_11.rect t)).set ↔ _
  rw [View.set_slice_whole, Rect.mem_set_unit]
  exact Iff.rfl

/-- Two different points write back disjoint blocks: their row ranges `[128 · t, 128 · t + 128)` do not meet. -/
theorem disj11 (t t' : Fin cfg0.N) (hf : (cfg0.win 11).flush t = true) (hf' : (cfg0.win 11).flush t' = true) (hne : t ≠ t') :
    Disjoint ((cfg0.win 11).blk t).view.set ((cfg0.win 11).blk t').view.set := by
  rw [Finset.disjoint_left]
  intro i hi hi'
  rw [mem_blk11] at hi hi'
  have a0 : win0_11.index t (0 : Fin 2) * 128 ≤ (i 0).val ∧ (i 0).val < win0_11.index t (0 : Fin 2) * 128 + 128 := hi 0
  have b0 : win0_11.index t' (0 : Fin 2) * 128 ≤ (i 0).val ∧ (i 0).val < win0_11.index t' (0 : Fin 2) * 128 + 128 := hi' 0
  obtain ⟨e0, -⟩ := idx11_facts t
  obtain ⟨e0', -⟩ := idx11_facts t'
  exact hne (Fin.ext (by omega))

/-- THE ARRAY `main_v19_0` after the region, at row `n = 128 · t + b` and column `j`: what the body leaves in window 11's
    staging buffer at point `t` — `out0_11` of that point's input blocks — at `(b, j)`. The index is point `t`'s block's
    element `(b, j)`; the blocks written back being pairwise disjoint, the array holds there what point `t` wrote back
    (`Dat.arrAt_emb_eq_flushed`), the uncut window's buffer after the body. -/
theorem v19_0_apply (n : Fin 2048) (j : Fin 84) (t : Fin cfg0.N) (b : Fin 128) (hn : n.val = 128 * t.val + b.val) :
    (W6 (F := Ideal) m ρ c (Proc.devRef .tc main_v19_0) : S2048x84.Idx → EReal) (ix2 n j)
      = out0_11 (iblk0 (V5 m ρ) c 0 t) (iblk0 (V5 m ρ) c 1 t) (iblk0 (V5 m ρ) c 2 t) (iblk0 (V5 m ρ) c 3 t) (iblk0 (V5 m ρ) c 4 t) (iblk0 (V5 m ρ) c 5 t) (iblk0 (V5 m ρ) c 6 t) (iblk0 (V5 m ρ) c 7 t) (iblk0 (V5 m ρ) c 8 t) (iblk0 (V5 m ρ) c 9 t) (iblk0 (V5 m ρ) c 10 t) (ix2 b j) := by
  have hi : (ix2 n j : S2048x84.Idx) = ((cfg0.win 11).blk t).view.emb (ix2 b j) := by
    obtain ⟨e0, e1⟩ := idx11_facts t
    funext a; apply Fin.ext
    match a with
    | ⟨0, _⟩ => show n.val = win0_11.index t (0 : Fin 2) * 128 + 1 * b.val; omega
    | ⟨1, _⟩ => show j.val = win0_11.index t (1 : Fin 2) * 84 + 1 * j.val; omega
  refine (congrFun (W6_arr m ρ c 11) (ix2 n j)).trans ?_
  rw [hi, (dat0 (V5 m ρ) c).arrAt_emb_eq_flushed 11 (disj11) t (flush0_11 t)]
  show (cfg0.win 11).cut (grid0.coords t) ((dat0 (V5 m ρ) c).after 11 t) (ix2 b j) = _
  rw [after0_11]
  rfl

/-- Output window 12's block index at point `t`, decided over the grid: `(t, 0)`. -/
theorem idx12_facts : ∀ t : Fin cfg0.N, win0_12.index t (0 : Fin 2) = t.val ∧ win0_12.index t (1 : Fin 2) = 0 :=
  (by decide +kernel : ∀ t : Fin grid0.N, _)

/-- An index of the array is in point `t`'s block iff each coordinate is in the block's range on its axis. -/
theorem mem_blk12 (t : Fin cfg0.N) (i : S2048x10.Idx) :
    i ∈ ((cfg0.win 12).blk t).view.set ↔ ∀ a : Fin 2, win0_12.index t a * S128x10.size a ≤ (i a).val ∧ (i a).val < win0_12.index t a * S128x10.size a + S128x10.size a := by
  show i ∈ ((View.whole main_v19_1).slice (win0_12.rect t)).set ↔ _
  rw [View.set_slice_whole, Rect.mem_set_unit]
  exact Iff.rfl

/-- Two different points write back disjoint blocks: their row ranges `[128 · t, 128 · t + 128)` do not meet. -/
theorem disj12 (t t' : Fin cfg0.N) (hf : (cfg0.win 12).flush t = true) (hf' : (cfg0.win 12).flush t' = true) (hne : t ≠ t') :
    Disjoint ((cfg0.win 12).blk t).view.set ((cfg0.win 12).blk t').view.set := by
  rw [Finset.disjoint_left]
  intro i hi hi'
  rw [mem_blk12] at hi hi'
  have a0 : win0_12.index t (0 : Fin 2) * 128 ≤ (i 0).val ∧ (i 0).val < win0_12.index t (0 : Fin 2) * 128 + 128 := hi 0
  have b0 : win0_12.index t' (0 : Fin 2) * 128 ≤ (i 0).val ∧ (i 0).val < win0_12.index t' (0 : Fin 2) * 128 + 128 := hi' 0
  obtain ⟨e0, -⟩ := idx12_facts t
  obtain ⟨e0', -⟩ := idx12_facts t'
  exact hne (Fin.ext (by omega))

/-- THE ARRAY `main_v19_1` after the region, at row `n = 128 · t + b` and column `j`: what the body leaves in window 12's
    staging buffer at point `t` — `out0_12` of that point's input blocks — at `(b, j)`. The index is point `t`'s block's
    element `(b, j)`; the blocks written back being pairwise disjoint, the array holds there what point `t` wrote back
    (`Dat.arrAt_emb_eq_flushed`), the uncut window's buffer after the body. -/
theorem v19_1_apply (n : Fin 2048) (j : Fin 10) (t : Fin cfg0.N) (b : Fin 128) (hn : n.val = 128 * t.val + b.val) :
    (W6 (F := Ideal) m ρ c (Proc.devRef .tc main_v19_1) : S2048x10.Idx → EReal) (ix2 n j)
      = out0_12 (iblk0 (V5 m ρ) c 0 t) (iblk0 (V5 m ρ) c 1 t) (iblk0 (V5 m ρ) c 2 t) (iblk0 (V5 m ρ) c 3 t) (iblk0 (V5 m ρ) c 4 t) (iblk0 (V5 m ρ) c 5 t) (iblk0 (V5 m ρ) c 6 t) (iblk0 (V5 m ρ) c 7 t) (iblk0 (V5 m ρ) c 8 t) (iblk0 (V5 m ρ) c 9 t) (iblk0 (V5 m ρ) c 10 t) (ix2 b j) := by
  have hi : (ix2 n j : S2048x10.Idx) = ((cfg0.win 12).blk t).view.emb (ix2 b j) := by
    obtain ⟨e0, e1⟩ := idx12_facts t
    funext a; apply Fin.ext
    match a with
    | ⟨0, _⟩ => show n.val = win0_12.index t (0 : Fin 2) * 128 + 1 * b.val; omega
    | ⟨1, _⟩ => show j.val = win0_12.index t (1 : Fin 2) * 10 + 1 * j.val; omega
  refine (congrFun (W6_arr m ρ c 12) (ix2 n j)).trans ?_
  rw [hi, (dat0 (V5 m ρ) c).arrAt_emb_eq_flushed 12 (disj12) t (flush0_12 t)]
  show (cfg0.win 12).cut (grid0.coords t) ((dat0 (V5 m ρ) c).after 12 t) (ix2 b j) = _
  rw [after0_12]
  rfl

end Cert.KernelIdeal.RegionVal

end
-- ==== Proof.LibShiftGroups.lean ====
/-
  The shift-group folding of a contraction.

  A convolution written as G shift groups of K taps each is a double sum  ∑ g < G, ∑ k < K, f (g·K + k).  A kernel may
  lay the G windows side by side along the contraction axis, pad that axis with Z entries whose products vanish, and
  contract once over G·K + Z: the same sum.  Nothing here needs finiteness: only that addition is commutative and
  associative with a zero.
-/
import Idealize.ShloMosaic.Lib.ValueIdx

namespace Cert.LibShiftGroups

open Finset

variable {M : Type*} [AddCommMonoid M]

/-- A sum over G·K consecutive terms is the sum over G groups of K. -/
theorem sum_range_mul (G K : ℕ) (f : ℕ → M) :
    ∑ i ∈ range (G * K), f i = ∑ g ∈ range G, ∑ k ∈ range K, f (g * K + k) := by
  induction G with
  | zero => simp
  | succ G ih =>
    rw [Nat.succ_mul, Finset.sum_range_add, ih, Finset.sum_range_succ]

/-- A sum over G·K + Z terms whose last Z vanish is the sum over G groups of K. -/
theorem sum_range_mul_add (G K Z : ℕ) (f : ℕ → M) (hz : ∀ i, G * K ≤ i → i < G * K + Z → f i = 0) :
    ∑ i ∈ range (G * K + Z), f i = ∑ g ∈ range G, ∑ k ∈ range K, f (g * K + k) := by
  rw [Finset.sum_range_add, sum_range_mul]
  rw [Finset.sum_eq_zero (s := range Z) (f := fun x => f (G * K + x)) fun x hx =>
    hz _ (Nat.le_add_right _ _) (Nat.add_lt_add_left (Finset.mem_range.mp hx) _)]
  exact add_zero _

/-- The same for a contraction index in `Fin N`, N = G·K + Z. -/
theorem sum_fin_mul_add (G K Z N : ℕ) (hN : N = G * K + Z) (f : ℕ → M)
    (hz : ∀ i, G * K ≤ i → i < G * K + Z → f i = 0) :
    ∑ i : Fin N, f i.val = ∑ g ∈ range G, ∑ k ∈ range K, f (g * K + k) := by
  subst hN
  rw [Fin.sum_univ_eq_sum_range]
  exact sum_range_mul_add G K Z f hz

/-- Four shift groups added one after the other, as the reference's accumulator does, are their sum. -/
theorem add4_eq_sum (p : ℕ → M) : p 0 + p 1 + p 2 + p 3 = ∑ g ∈ range 4, p g := by
  simp [Finset.sum_range_succ]

end Cert.LibShiftGroups
-- ==== Proof.KAlgebra.lean ====
/-
  The fused kernel's arrangement of the two convolution layers, and why it is the specification's.

  The kernel contracts each layer ONCE: the four shifted windows are laid side by side along the contraction axis
  (entry g·K + k is tap k of shift group g; the first layer's 48 entries are zero-padded to 64), and the first layer's
  rows are ordered parity-major, so that its four row blocks q = pr·2 + pc ARE the four channel blocks of the second
  layer's packed input.  With  xk  the packed windows,  kw1 / kw2  the reshaped weights:

    kA1 n q rr o   — first layer, parity block q, block cell rr = 8·r2 + s2: the specification's A1 at grid cell
                     (i, j) = (2·r2 + q / 2, 2·s2 + q % 2), whenever that cell is one of the 240 computed rows;
    kx2 n rr ch    — the second layer's packed input, channel ch = q·32 + o;
    kc2, kA2, kflat — second layer and the flattening.

  The kernel's packed input differs from the specification's zero padding at pixels 14 and 15 (the kernel keeps
  over-computed entries there), but a kept output of the second layer — block cell (r, s) with r, s ≤ 5 — reads block
  cells (r + qr, s + qc) ≤ (6, 6) only, i.e. pixels ≤ 13, where the two agree.  Every step is a regrouping of a finite
  sum or a vanishing tail: no finiteness is needed.
-/
import proofs.«126833_g2000003154481155_pallasbulk_2_29_alg».proof.Proof.Spec
import proofs.«126833_g2000003154481155_pallasbulk_2_29_alg».proof.Proof.LibShiftGroups

noncomputable section

namespace Cert.SpecK

open Cert.Spec Cert.LibShiftGroups Finset

/-- The packed, parity-major, zero-padded window rows the kernel contracts: row R = ((pr·2 + pc)·8 + r2)·8 + s2 is grid
    cell (i, j) = (2·r2 + pr, 2·s2 + pc); entry kk = g·12 + k is tap k of shift group g. -/
def xk (X : ℕ → ℕ → ℕ → ℕ → EReal) (n R kk : ℕ) : EReal :=
  if 16 * (2 * (R % 64 / 8) + R / 128) + (2 * (R % 8) + R / 64 % 2) < 240 ∧ kk < 48 then
    xs1 X n (16 * (2 * (R % 64 / 8) + R / 128) + (2 * (R % 8) + R / 64 % 2) + st1 (kk / 12)) (kk % 12)
  else 0

/-- The first layer's weights, the four groups stacked and zero-padded to 64 rows. -/
def kw1 (W1 : ℕ → ℕ → ℕ → EReal) (kk col : ℕ) : EReal := if kk < 48 then W1 (kk / 12) (kk % 12) col else 0
/-- The second layer's weights, the four groups stacked. -/
def kw2 (W2 : ℕ → ℕ → ℕ → EReal) (K col : ℕ) : EReal := W2 (K / 128) (K % 128) col

/-- One contraction over K entries. -/
def kconv (K : ℕ) (xr : ℕ → ℕ → EReal) (w : ℕ → ℕ → EReal) (R col : ℕ) : EReal := ∑ kk ∈ range K, xr R kk * w kk col

section Net
variable (X : ℕ → ℕ → ℕ → ℕ → EReal) (W1 : ℕ → ℕ → ℕ → EReal) (B1 : ℕ → EReal) (W2 : ℕ → ℕ → ℕ → EReal) (B2 : ℕ → EReal)

/-- The first layer on parity block q, block cell rr. -/
def kA1 (n q rr o : ℕ) : EReal := pool 32 (kconv 64 (fun R kk => xk X n (64 * q + R) kk) (kw1 W1)) B1 rr o
/-- The second layer's packed input: the four parity blocks side by side. -/
def kx2 (n rr ch : ℕ) : EReal := kA1 X W1 B1 n (ch / 32) rr (ch % 32)
/-- The second layer's one contraction over 512 entries. -/
def kc2 (n R col : ℕ) : EReal := ∑ K ∈ range 512, kx2 X W1 B1 n (R + st2 (K / 128)) (K % 128) * kw2 W2 K col
/-- The second layer. -/
def kA2 (n R o : ℕ) : EReal := pool 64 (kc2 X W1 B1 W2 n) B2 R o
/-- The flattened kept outputs. -/
def kflat (n K : ℕ) : EReal := kA2 X W1 B1 W2 B2 n (8 * (K / 384) + K / 64 % 6) (K % 64)

/-- The first layer's one contraction over 64 zero-padded entries is the four shift groups of 12 taps at the grid cell
    the parity-major row stands for. -/
theorem kconv1_eq (n q rr col : ℕ) (hq : q < 4) (hrr : rr < 64)
    (hi : 16 * (2 * (rr / 8) + q / 2) + (2 * (rr % 8) + q % 2) < 240) :
    kconv 64 (fun R kk => xk X n (64 * q + R) kk) (kw1 W1) rr col
      = conv 4 12 st1 (xs1 X n) W1 (16 * (2 * (rr / 8) + q / 2) + (2 * (rr % 8) + q % 2)) col := by
  unfold kconv conv
  have e1 : (64 * q + rr) % 64 / 8 = rr / 8 := by omega
  have e2 : (64 * q + rr) / 128 = q / 2 := by omega
  have e3 : (64 * q + rr) % 8 = rr % 8 := by omega
  have e4 : (64 * q + rr) / 64 % 2 = q % 2 := by omega
  rw [show Finset.range 64 = Finset.range (4 * 12 + 16) from rfl, sum_range_mul_add 4 12 16]
  · refine Finset.sum_congr rfl fun g hg => Finset.sum_congr rfl fun k hk => ?_
    have hg' : g < 4 := Finset.mem_range.mp hg
    have hk' : k < 12 := Finset.mem_range.mp hk
    have d1 : (g * 12 + k) / 12 = g := by omega
    have d2 : (g * 12 + k) % 12 = k := by omega
    have d3 : g * 12 + k < 48 := by omega
    show xk X n (64 * q + rr) (g * 12 + k) * kw1 W1 (g * 12 + k) col = _
    unfold xk kw1
    rw [e1, e2, e3, e4, if_pos ⟨hi, d3⟩, if_pos d3, d1, d2]
  · intro i h1 h2
    show xk X n (64 * q + rr) i * kw1 W1 i col = 0
    unfold xk
    rw [if_neg (fun h => absurd h.2 (by omega)), zero_mul]

/-- The first layer on a parity block is the specification's first layer at the grid cell. -/
theorem kA1_eq (n q rr o : ℕ) (hq : q < 4) (hrr : rr < 64)
    (hi : 16 * (2 * (rr / 8) + q / 2) + (2 * (rr % 8) + q % 2) < 240) :
    kA1 X W1 B1 n q rr o = A1 X W1 B1 n (16 * (2 * (rr / 8) + q / 2) + (2 * (rr % 8) + q % 2)) o := by
  unfold kA1 A1 layer pool
  rw [kconv1_eq X W1 n q rr o hq hrr hi, kconv1_eq X W1 n q rr (32 + o) hq hrr hi,
    kconv1_eq X W1 n q rr (2 * 32 + o) hq hrr hi, kconv1_eq X W1 n q rr (3 * 32 + o) hq hrr hi]

/-- The second layer's packed input agrees with the specification's wherever a kept output reads it: block cells
    (r, s) with r, s ≤ 6. -/
theorem kx2_eq (n R ch : ℕ) (hr : R / 8 ≤ 6) (hs : R % 8 ≤ 6) (hch : ch < 128) :
    kx2 X W1 B1 n R ch = xs2 (A1 X W1 B1) n R ch := by
  unfold kx2 xs2
  have hR : R < 64 := by omega
  have a1 : ch / 32 / 2 = ch / 64 := by omega
  have a2 : ch / 32 % 2 = ch / 32 % 2 := rfl
  rw [if_pos ⟨hR, by omega, by omega⟩, kA1_eq X W1 B1 n (ch / 32) R (ch % 32) (by omega) hR (by omega), a1]

/-- The second layer's one contraction over 512 entries is the four shift groups of 128 taps, at a kept block cell. -/
theorem kc2_eq (n R col : ℕ) (hr : R / 8 ≤ 5) (hs : R % 8 ≤ 5) :
    kc2 X W1 B1 W2 n R col = conv 4 128 st2 (xs2 (A1 X W1 B1) n) W2 R col := by
  unfold kc2 conv
  rw [show Finset.range 512 = Finset.range (4 * 128) from rfl, sum_range_mul 4 128]
  refine Finset.sum_congr rfl fun g hg => Finset.sum_congr rfl fun k hk => ?_
  have hg' : g < 4 := Finset.mem_range.mp hg
  have hk' : k < 128 := Finset.mem_range.mp hk
  have d1 : (g * 128 + k) / 128 = g := by omega
  have d2 : (g * 128 + k) % 128 = k := by omega
  have hst : st2 g = 8 * (g / 2) + g % 2 := rfl
  unfold kw2
  rw [d1, d2, kx2_eq X W1 B1 n (R + st2 g) k (by rw [hst]; omega) (by rw [hst]; omega) hk']

/-- The second layer at a kept block cell. -/
theorem kA2_eq (n R o : ℕ) (hr : R / 8 ≤ 5) (hs : R % 8 ≤ 5) :
    kA2 X W1 B1 W2 B2 n R o = A2 X W1 B1 W2 B2 n R o := by
  unfold kA2 A2 layer pool
  rw [kc2_eq X W1 B1 W2 n R o hr hs, kc2_eq X W1 B1 W2 n R (64 + o) hr hs,
    kc2_eq X W1 B1 W2 n R (2 * 64 + o) hr hs, kc2_eq X W1 B1 W2 n R (3 * 64 + o) hr hs]

/-- The flattened kept outputs are the specification's. -/
theorem kflat_eq (n K : ℕ) (hK : K < 2304) :
    kflat X W1 B1 W2 B2 n K = flat (A2 X W1 B1 W2 B2) n K := by
  unfold kflat flat
  exact kA2_eq X W1 B1 W2 B2 n _ _ (by omega) (by omega)

end Net

end Cert.SpecK

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibBatchedProduct.lean ====
/-
  A batched block product read at an index.

  A rank-3 array [B, R, K] is flattened to [B·R, K], multiplied by a [K, N] matrix into the zero accumulator, and the
  product [B·R, N] is cut back to [B, R, N]: entry (b, r, q) is  ∑ k, x (b, r, k) · w (k, q).  Generic in the extents and
  the float formats.
-/
import Idealize.ShloMosaic.Lib.Pipeline.Value
import Idealize.ShloMosaic.Lib.ValueIdx
import Idealize.ShloMosaic.PureOps.Ideal.Laws
import proofs.«126833_g2000003154481155_pallasbulk_2_29_alg».proof.Proof.LibBlock

noncomputable section

open scoped BigOperators

namespace Cert.LibBatchedProduct

open Idealize.ShloMosaic Idealize.ShloMosaic.ValueIdx

/-- Flatten the batch and row axes, multiply into the zero accumulator, cut the rows back into (batch, row). -/
theorem batched_matmul_apply {B R K N M : ℕ} (hM : M = B * R)
    (D : DotDims ⟨2, ![M, K]⟩ ⟨2, ![K, N]⟩ ⟨2, ![M, N]⟩)
    (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (x : FVec Ideal ⟨3, ![B, R, K]⟩ φ₁) (w : FVec Ideal ⟨2, ![K, N]⟩ φ₂)
    (h1 : (⟨3, ![B, R, K]⟩ : Shape).ShapeCasts ⟨2, ![M, K]⟩) (h2 : (⟨2, ![M, N]⟩ : Shape).ShapeCasts ⟨3, ![B, R, N]⟩)
    (b : Fin B) (r : Fin R) (q : Fin N) :
    shapeCast ⟨3, ![B, R, N]⟩
        (FloatOps.matmul D prec (shapeCast ⟨2, ![M, K]⟩ x h1) w (constant (F := Ideal) ⟨2, ![M, N]⟩ .f32 0x00000000#32)) h2
        (ix3 b r q)
      = ∑ k : Fin K, x (ix3 b r k) * w (ix2 k q) := by
  have hlt : b.val * R + r.val < M := by
    rw [hM]
    calc b.val * R + r.val < b.val * R + R := Nat.add_lt_add_left r.isLt _
      _ = (b.val + 1) * R := by ring
      _ ≤ B * R := Nat.mul_le_mul_right R b.isLt
  let mm : Fin M := ⟨b.val * R + r.val, hlt⟩
  refine (shapeCast_apply _ h2 _ (ix2 mm q) ?_).trans ?_
  · rw [Shape.rowMajor_val_two, Shape.rowMajor_val_three]
    rfl
  refine (Cert.LibBlock.matmul_zero_ix2 D hlc hrc hlb hln hrb hrn prec _ w mm q).trans ?_
  refine Finset.sum_congr rfl fun k _ => ?_
  congr 1
  refine shapeCast_apply x h1 (ix2 mm k) (ix3 b r k) ?_
  rw [Shape.rowMajor_val_three, Shape.rowMajor_val_two]
  rfl

end Cert.LibBatchedProduct

end
-- ==== Proof.KPay1.lean ====
/-
  The fused kernel's first convolution layer, one parity block at a time, read at an index.

  Each of the four chunks takes 64 rows of the packed, parity-major window block (a [128, 64, 64] slab: image, block
  cell, contraction entry), contracts them once against the stacked weights [64, 128], takes the maximum over the four
  column blocks of 32 (the pooling window), adds the bias row and rectifies:  chunk (b, rr, o) is the specification's
  `pool 32` of the one contraction `kconv 64`.
-/
import proofs.«126833_g2000003154481155_pallasbulk_2_29_alg».proof.Proof.Gen.KernelIdeal.Skeleton
import proofs.«126833_g2000003154481155_pallasbulk_2_29_alg».proof.Proof.Spec
import proofs.«126833_g2000003154481155_pallasbulk_2_29_alg».proof.Proof.KAlgebra
import proofs.«126833_g2000003154481155_pallasbulk_2_29_alg».proof.Proof.LibBatchedProduct
import proofs.«126833_g2000003154481155_pallasbulk_2_29_alg».proof.Proof.KIBody
import Idealize.ShloMosaic.Lib.ValueLayout

noncomputable section

namespace Cert.KernelIdeal.PayVal

open Idealize.ShloMosaic Idealize.ShloMosaic.ValueIdx Cert.KernelIdeal Cert.KernelIdeal.Gen Cert.KernelIdeal.Hand Cert.Spec Cert.SpecK Finset

/-- The contraction of one chunk: slab flattened, multiplied into zeros, cut back; entry (b, rr, col). -/
theorem cell_apply (v0 : FVec Ideal S128x64x64 .bf16) (v3 : FVec Ideal S64x128 .bf16) (b : Fin 128) (rr : Fin 64)
    (col : Fin 128) :
    shapeCast S128x64x128
        (matmul dot_S8192x64_S64x128_S8192x128_1_0_0_1_n_n none
          (shapeCast S8192x64 (shapeCast S128x64x64 v0 shapeCasts_S128x64x64_S128x64x64) shapeCasts_S128x64x64_S8192x64)
          (shapeCast S64x128 v3 shapeCasts_S64x128_S64x128) (constant (F := Ideal) S8192x128 .f32 0x00000000#32))
        shapeCasts_S8192x128_S128x64x128 (ix3 b rr col)
      = kconv 64 (fun R kk => at3 (v0 : S128x64x64.Idx → EReal) b.val R kk) (at2 (v3 : S64x128.Idx → EReal)) rr.val col.val := by
  rw [shapeCast_self, shapeCast_self]
  refine (Cert.LibBatchedProduct.batched_matmul_apply (B := 128) (R := 64) (K := 64) (N := 128) (M := 8192) rfl
    dot_S8192x64_S64x128_S8192x128_1_0_0_1_n_n rfl rfl rfl rfl rfl rfl none v0 v3 _ _ b rr col).trans ?_
  unfold kconv
  rw [← Fin.sum_univ_eq_sum_range (fun kk => at3 (v0 : S128x64x64.Idx → EReal) b.val rr.val kk * at2 (v3 : S64x128.Idx → EReal) kk col.val) 64]
  refine Finset.sum_congr rfl fun k _ => ?_
  rw [at3_ix, at2_ix]

/-- A column block of the cut product: the slice at column offset c. -/
theorem colslice_apply (y : FVec Ideal S128x64x128 .f32) (c : ℕ) (h : S128x64x128.Slices ![0, 0, c] S128x64x32)
    (b : Fin 128) (rr : Fin 64) (o : Fin 32) (col : Fin 128) (hcol : col.val = c + o.val) :
    extractStridedSlice S128x64x32 ![0, 0, c] y h (ix3 b rr o) = y (ix3 b rr col) :=
  extractStridedSlice_apply _ y h _ _ fun a => match a with
    | ⟨0, _⟩ => by show b.val = 0 + b.val; omega
    | ⟨1, _⟩ => by show rr.val = 0 + rr.val; omega
    | ⟨2, _⟩ => by show col.val = c + o.val; exact hcol

/-- The bias row beside every cell. -/
theorem bias_apply (v14 : FVec Ideal S1x32 .f32) (b : Fin 128) (rr : Fin 64) (o : Fin 32) :
    broadcastTo S128x64x32 (shapeCast S1x1x32 v14 shapeCasts_S1x32_S1x1x32) broadcasts_S1x1x32_S128x64x32 (ix3 b rr o)
      = at2 (v14 : S1x32.Idx → EReal) 0 o.val := by
  refine (broadcastTo_apply _ broadcasts_S1x1x32_S128x64x32 _ (ix3 (0 : Fin 1) (0 : Fin 1) o) fun a => match a with
    | ⟨0, _⟩ => rfl
    | ⟨1, _⟩ => rfl
    | ⟨2, _⟩ => rfl).trans ?_
  refine (shapeCast_apply v14 shapeCasts_S1x32_S1x1x32 _ (ix2 (0 : Fin 1) o) ?_).trans ?_
  · rw [Shape.rowMajor_val_two, Shape.rowMajor_val_three]; rfl
  · exact (at2_ix (v14 : S1x32.Idx → EReal) (0 : Fin 1) o).symm

/-- One chunk of the first layer at (b, rr, o). -/
theorem chunk_apply (v0 : Vec Ideal S128x64x64 .bf16) (v3 : Vec Ideal S64x128 .bf16) (v14 : Vec Ideal S1x32 .f32)
    (b : Fin 128) (rr : Fin 64) (o : Fin 32) :
    k0_pay3 (F := Ideal) v0 v3 v14 (ix3 b rr o)
      = Cert.Spec.pool 32 (kconv 64 (fun R kk => at3 (v0 : S128x64x64.Idx → EReal) b.val R kk) (at2 (v3 : S64x128.Idx → EReal)))
          (fun o' => at2 (v14 : S1x32.Idx → EReal) 0 o') rr.val o.val := by
  unfold k0_pay3
  simp only [truncf_apply, maximumf_apply, addf_apply, broadcast_apply]
  rw [colslice_apply _ 0 _ b rr o ⟨o.val, by omega⟩ (by simp),
    colslice_apply _ 32 _ b rr o ⟨32 + o.val, by omega⟩ rfl,
    colslice_apply _ 64 _ b rr o ⟨2 * 32 + o.val, by omega⟩ (by show 2 * 32 + o.val = 64 + o.val; omega),
    colslice_apply _ 96 _ b rr o ⟨3 * 32 + o.val, by omega⟩ (by show 3 * 32 + o.val = 96 + o.val; omega),
    cell_apply, cell_apply, cell_apply, cell_apply, bias_apply]
  unfold Cert.Spec.pool
  rw [show FloatOps.ofBits (F := Ideal) FTy.f32 0#32 = (0 : EReal) from Ideal.ofBits_zero_f32]

/-- The four chunks are one computation: the second and fourth are printed with the change of float format apart. -/
theorem pay54_eq (v0 : Vec Ideal S128x64x64 .bf16) (v3 : Vec Ideal S64x128 .bf16) (v14 : Vec Ideal S1x32 .f32) :
    k0_pay5 (F := Ideal) (k0_pay4 v0 v3 v14) = k0_pay3 v0 v3 v14 := rfl
theorem pay6_eq (v0 : Vec Ideal S128x64x64 .bf16) (v3 : Vec Ideal S64x128 .bf16) (v14 : Vec Ideal S1x32 .f32) :
    k0_pay6 (F := Ideal) v0 v3 v14 = k0_pay3 v0 v3 v14 := rfl
theorem pay7_eq (v0 : Vec Ideal S128x64x64 .bf16) (v3 : Vec Ideal S64x128 .bf16) (v14 : Vec Ideal S1x32 .f32)
    (i : S128x64x32.Idx) : k0_pay7 (F := Ideal) v0 v3 v14 i = k0_pay3 v0 v3 v14 i := rfl

/-- The one contraction depends on the operand's row only. -/
theorem kconv_congr (K : ℕ) (f f' : ℕ → ℕ → EReal) (w : ℕ → ℕ → EReal) (R col : ℕ) (h : ∀ kk, kk < K → f R kk = f' R kk) :
    kconv K f w R col = kconv K f' w R col := by
  unfold kconv
  exact Finset.sum_congr rfl fun kk hkk => by rw [h kk (Finset.mem_range.mp hkk)]

/-- A slab of 64 rows loaded at row offset c out of the window block. -/
theorem slab_apply (x0 : Vec Ideal S128x256x64 .bf16) (c : ℕ) (inb : ∀ a, (![0, c, 0] : Fin 3 → Nat) a + S128x64x64.size a ≤ S128x256x64.size a)
    (b : Fin 128) (rr : Fin 64) (kk : Fin 64) (R : Fin 256) (hR : R.val = c + rr.val) :
    View.ld x0 (Rect.unit (s := S128x256x64) ![0, c, 0] S128x64x64.size inb) (ix3 b rr kk) = x0 (ix3 b R kk) := by
  show x0 _ = x0 _
  refine congrArg x0 (funext fun a => Fin.ext ?_)
  match a with
  | ⟨0, _⟩ => show 0 + 1 * b.val = b.val; omega
  | ⟨1, _⟩ => show c + 1 * rr.val = R.val; omega
  | ⟨2, _⟩ => show 0 + 1 * kk.val = kk.val; omega

/-- Chunk q of the first layer in terms of the window block, the stacked weights and the bias row. -/
theorem chunk_of_block (x0 : Vec Ideal S128x256x64 .bf16) (x1 : Vec Ideal S64x128 .bf16) (x2 : Vec Ideal S1x32 .f32)
    (q c : ℕ) (hc : c = 64 * q) (hq : q < 4)
    (inb : ∀ a, (![0, c, 0] : Fin 3 → Nat) a + S128x64x64.size a ≤ S128x256x64.size a)
    (b : Fin 128) (rr : Fin 64) (o : Fin 32) :
    k0_pay3 (F := Ideal) (View.ld x0 (Rect.unit (s := S128x256x64) ![0, c, 0] S128x64x64.size inb)) (View.ld x1 r0_1) (View.ld x2 r0_2) (ix3 b rr o)
      = Cert.Spec.pool 32 (kconv 64 (fun R kk => at3 (x0 : S128x256x64.Idx → EReal) b.val (64 * q + R) kk) (at2 (x1 : S64x128.Idx → EReal)))
          (fun o' => at2 (x2 : S1x32.Idx → EReal) 0 o') rr.val o.val := by
  rw [chunk_apply, View.ld_unit_zero (S := S64x128) Cert.LibBlock.hz, View.ld_unit_zero (S := S1x32) Cert.LibBlock.hz]
  unfold Cert.Spec.pool
  have key : ∀ col, kconv 64 (fun R kk => at3 (View.ld x0 (Rect.unit (s := S128x256x64) ![0, c, 0] S128x64x64.size inb) : S128x64x64.Idx → EReal) b.val R kk) (at2 (x1 : S64x128.Idx → EReal)) rr.val col
      = kconv 64 (fun R kk => at3 (x0 : S128x256x64.Idx → EReal) b.val (64 * q + R) kk) (at2 (x1 : S64x128.Idx → EReal)) rr.val col := by
    intro col
    refine kconv_congr 64 _ _ _ _ _ fun kk hkk => ?_
    show at3 _ b.val rr.val kk = at3 _ b.val (64 * q + rr.val) kk
    rw [at3_of_lt _ b.isLt rr.isLt hkk, at3_of_lt _ b.isLt (by omega : 64 * q + rr.val < 256) hkk]
    exact slab_apply x0 c inb b rr ⟨kk, hkk⟩ ⟨64 * q + rr.val, by omega⟩ (by show 64 * q + rr.val = c + rr.val; omega)
  rw [key, key, key, key]

end Cert.KernelIdeal.PayVal

end
-- ==== Proof.LibFc.lean ====
/-
  The fully connected tail read at an index: three dense layers over variable vectors, on the extended reals.

  * `dense_apply`: a plain matrix product `[M, K] × [K, N]` into the zero accumulator plus a `[1, N]` bias row
    broadcast over the rows, read at `(p, q)`, is `Spec.dense K` of the operands read through `Spec.at2`;
  * `dense_relu_apply`: the same followed by the rectifier (the maximum with the zero splat);
  * `dense_congr`, `dense_rows`, `dense_relu_dense_rows`, `dense_relu_dense_relu_dense_rows`: `Spec.dense K x w b n j`
    reads `x` only on row `n`, columns below `K` — so one, two and three stacked layers agree across two inputs
    whose rows `n`, `n'` agree;
  * `h1_apply`, `h2_apply`, `out_apply`: the three layers of the tail at the literal shapes
    `[128, 2304] → [128, 128] → [128, 84] → [128, 10]`, each as the closed form of `Spec`.
-/
import Idealize.ShloMosaic.Lib.Pipeline.Value
import Idealize.ShloMosaic.Lib.ValueIdx
import Idealize.ShloMosaic.Lib.ValueLayout
import Idealize.ShloMosaic.PureOps.Ideal.Laws
import proofs.«126833_g2000003154481155_pallasbulk_2_29_alg».proof.Proof.LibBlock
import proofs.«126833_g2000003154481155_pallasbulk_2_29_alg».proof.Proof.Spec

noncomputable section

open scoped BigOperators

namespace Cert.LibFc

open Idealize.ShloMosaic Idealize.ShloMosaic.ValueIdx Finset

/-! ## One layer -/

/-- `Spec.dense K x w b n j` reads `x` only on row `n`, at the columns below `K`. -/
theorem dense_congr {K : ℕ} {x x' : ℕ → ℕ → EReal} (w : ℕ → ℕ → EReal) (b : ℕ → EReal) (n j : ℕ)
    (h : ∀ k, k < K → x n k = x' n k) : Cert.Spec.dense K x w b n j = Cert.Spec.dense K x' w b n j := by
  unfold Cert.Spec.dense
  congr 1
  exact Finset.sum_congr rfl fun k hk => by rw [h k (Finset.mem_range.mp hk)]

/-- The same across two rows: row `n` of `x` against row `n'` of `x'`. -/
theorem dense_rows {K : ℕ} {x x' : ℕ → ℕ → EReal} (w : ℕ → ℕ → EReal) (b : ℕ → EReal) {n n' : ℕ} (j : ℕ)
    (h : ∀ k, k < K → x n k = x' n' k) : Cert.Spec.dense K x w b n j = Cert.Spec.dense K x' w b n' j := by
  unfold Cert.Spec.dense
  congr 1
  exact Finset.sum_congr rfl fun k hk => by rw [h k (Finset.mem_range.mp hk)]

/-- Two layers across two rows: the inner layer reads row `n` of `x`, row `n'` of `x'`. -/
theorem dense_relu_dense_rows {K L : ℕ} {x x' : ℕ → ℕ → EReal} (w : ℕ → ℕ → EReal) (b : ℕ → EReal)
    (w' : ℕ → ℕ → EReal) (b' : ℕ → EReal) {n n' : ℕ} (j : ℕ) (h : ∀ k, k < K → x n k = x' n' k) :
    Cert.Spec.dense L (fun r k => Cert.Spec.relu (Cert.Spec.dense K x w b r k)) w' b' n j
      = Cert.Spec.dense L (fun r k => Cert.Spec.relu (Cert.Spec.dense K x' w b r k)) w' b' n' j :=
  dense_rows w' b' j fun k _ => congrArg Cert.Spec.relu (dense_rows w b k h)

/-- Three layers across two rows. -/
theorem dense_relu_dense_relu_dense_rows {K L P : ℕ} {x x' : ℕ → ℕ → EReal} (w : ℕ → ℕ → EReal) (b : ℕ → EReal)
    (w' : ℕ → ℕ → EReal) (b' : ℕ → EReal) (w'' : ℕ → ℕ → EReal) (b'' : ℕ → EReal) {n n' : ℕ} (j : ℕ)
    (h : ∀ k, k < K → x n k = x' n' k) :
    Cert.Spec.dense P (fun r k => Cert.Spec.relu
        (Cert.Spec.dense L (fun r k => Cert.Spec.relu (Cert.Spec.dense K x w b r k)) w' b' r k)) w'' b'' n j
      = Cert.Spec.dense P (fun r k => Cert.Spec.relu
        (Cert.Spec.dense L (fun r k => Cert.Spec.relu (Cert.Spec.dense K x' w b r k)) w' b' r k)) w'' b'' n' j :=
  dense_rows w'' b'' j fun k _ => congrArg Cert.Spec.relu (dense_relu_dense_rows w b w' b' k h)

section Layer
variable {M K N : Nat} (D : DotDims ⟨2, ![M, K]⟩ ⟨2, ![K, N]⟩ ⟨2, ![M, N]⟩)

/-- A plain matrix product into the zero accumulator plus a bias row broadcast over the rows, read at `(p, q)`:
    `∑ k < K, x (p, k) * w (k, q) + bias (0, q)`. -/
theorem dense_apply (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (x : FVec Ideal ⟨2, ![M, K]⟩ φ₁) (w : FVec Ideal ⟨2, ![K, N]⟩ φ₂)
    (bias : FVec Ideal ⟨2, ![1, N]⟩ .f32) (hb : (⟨2, ![1, N]⟩ : Shape).Broadcasts ⟨2, ![M, N]⟩)
    (p : Fin M) (q : Fin N) :
    addf (matmul D none x w (constant (F := Ideal) ⟨2, ![M, N]⟩ .f32 0x00000000#32))
        (broadcastTo ⟨2, ![M, N]⟩ bias hb) (ix2 p q)
      = Cert.Spec.dense K (Cert.Spec.at2 x) (Cert.Spec.at2 w) (fun j' => Cert.Spec.at2 bias 0 j') p.val q.val := by
  rw [addf_apply, broadcastTo_1b_ab_apply bias hb p q]
  refine (congrArg (· + bias (ix2 (0 : Fin 1) q))
    (Cert.LibBlock.matmul_zero_ix2 D hlc hrc hlb hln hrb hrn none x w p q)).trans ?_
  unfold Cert.Spec.dense
  rw [← Fin.sum_univ_eq_sum_range (fun k => Cert.Spec.at2 x p.val k * Cert.Spec.at2 w k q.val) K]
  congr 1
  · exact Finset.sum_congr rfl fun k _ => by rw [Cert.Spec.at2_ix, Cert.Spec.at2_ix]
  · exact (Cert.Spec.at2_ix bias (0 : Fin 1) q).symm

/-- The same followed by the rectifier. -/
theorem dense_relu_apply (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (x : FVec Ideal ⟨2, ![M, K]⟩ φ₁) (w : FVec Ideal ⟨2, ![K, N]⟩ φ₂)
    (bias : FVec Ideal ⟨2, ![1, N]⟩ .f32) (hb : (⟨2, ![1, N]⟩ : Shape).Broadcasts ⟨2, ![M, N]⟩)
    (p : Fin M) (q : Fin N) :
    maximumf (addf (matmul D none x w (constant (F := Ideal) ⟨2, ![M, N]⟩ .f32 0x00000000#32))
        (broadcastTo ⟨2, ![M, N]⟩ bias hb)) (broadcast ⟨2, ![M, N]⟩ (Scalar.ofBits (F := Ideal) .f32 0x00000000#32)) (ix2 p q)
      = Cert.Spec.relu
          (Cert.Spec.dense K (Cert.Spec.at2 x) (Cert.Spec.at2 w) (fun j' => Cert.Spec.at2 bias 0 j') p.val q.val) := by
  rw [maximumf_apply, dense_apply D hlc hrc hlb hln hrb hrn x w bias hb p q, broadcast_apply]
  unfold Cert.Spec.relu
  congr 1
  exact Ideal.ofBits_zero_f32

end Layer

/-! ## The three layers at the literal shapes -/

section Tail
variable (D1 : DotDims ⟨2, ![128, 2304]⟩ ⟨2, ![2304, 128]⟩ ⟨2, ![128, 128]⟩)
  (D2 : DotDims ⟨2, ![128, 128]⟩ ⟨2, ![128, 84]⟩ ⟨2, ![128, 84]⟩)
  (D3 : DotDims ⟨2, ![128, 84]⟩ ⟨2, ![84, 10]⟩ ⟨2, ![128, 10]⟩)
  (hb1 : (⟨2, ![1, 128]⟩ : Shape).Broadcasts ⟨2, ![128, 128]⟩)
  (hb2 : (⟨2, ![1, 84]⟩ : Shape).Broadcasts ⟨2, ![128, 84]⟩)
  (hb3 : (⟨2, ![1, 10]⟩ : Shape).Broadcasts ⟨2, ![128, 10]⟩)
  (x : FVec Ideal ⟨2, ![128, 2304]⟩ .bf16) (f1 : FVec Ideal ⟨2, ![2304, 128]⟩ .bf16)
  (f1b : FVec Ideal ⟨2, ![1, 128]⟩ .f32) (f2 : FVec Ideal ⟨2, ![128, 84]⟩ .f32) (f2b : FVec Ideal ⟨2, ![1, 84]⟩ .f32)
  (f3 : FVec Ideal ⟨2, ![84, 10]⟩ .f32) (f3b : FVec Ideal ⟨2, ![1, 10]⟩ .f32)

/-- The first layer's vector: product, bias row, rectifier. -/
abbrev h1v : FVec Ideal ⟨2, ![128, 128]⟩ .f32 :=
  maximumf (addf (matmul D1 none x f1 (constant (F := Ideal) ⟨2, ![128, 128]⟩ .f32 0x00000000#32))
    (broadcastTo ⟨2, ![128, 128]⟩ f1b hb1)) (broadcast ⟨2, ![128, 128]⟩ (Scalar.ofBits (F := Ideal) .f32 0x00000000#32))

/-- The second layer before its rectifier: product of the first layer's vector, bias row. -/
abbrev h2pre : FVec Ideal ⟨2, ![128, 84]⟩ .f32 :=
  addf (matmul D2 none (h1v D1 hb1 x f1 f1b) f2 (constant (F := Ideal) ⟨2, ![128, 84]⟩ .f32 0x00000000#32))
    (broadcastTo ⟨2, ![128, 84]⟩ f2b hb2)

/-- The second layer's vector. -/
abbrev h2v : FVec Ideal ⟨2, ![128, 84]⟩ .f32 :=
  maximumf (h2pre D1 D2 hb1 hb2 x f1 f1b f2 f2b)
    (broadcast ⟨2, ![128, 84]⟩ (Scalar.ofBits (F := Ideal) .f32 0x00000000#32))

/-- The third layer's vector: product of the second layer's vector, bias row. -/
abbrev outv : FVec Ideal ⟨2, ![128, 10]⟩ .f32 :=
  addf (matmul D3 none (h2v D1 D2 hb1 hb2 x f1 f1b f2 f2b) f3 (constant (F := Ideal) ⟨2, ![128, 10]⟩ .f32 0x00000000#32))
    (broadcastTo ⟨2, ![128, 10]⟩ f3b hb3)

variable (h1lc : D1.lhsContracting = [1]) (h1rc : D1.rhsContracting = [0]) (h1lb : D1.lhsBatch = [])
  (h1ln : D1.lhsNonContracting = [0]) (h1rb : D1.rhsBatch = []) (h1rn : D1.rhsNonContracting = [1])
  (h2lc : D2.lhsContracting = [1]) (h2rc : D2.rhsContracting = [0]) (h2lb : D2.lhsBatch = [])
  (h2ln : D2.lhsNonContracting = [0]) (h2rb : D2.rhsBatch = []) (h2rn : D2.rhsNonContracting = [1])
  (h3lc : D3.lhsContracting = [1]) (h3rc : D3.rhsContracting = [0]) (h3lb : D3.lhsBatch = [])
  (h3ln : D3.lhsNonContracting = [0]) (h3rb : D3.rhsBatch = []) (h3rn : D3.rhsNonContracting = [1])

/-- The first layer's closed form at natural-number coordinates. -/
abbrev H1c (n k : ℕ) : EReal :=
  Cert.Spec.relu (Cert.Spec.dense 2304 (Cert.Spec.at2 x) (Cert.Spec.at2 f1) (fun j' => Cert.Spec.at2 f1b 0 j') n k)

/-- The second layer's closed form at natural-number coordinates. -/
abbrev H2c (n k : ℕ) : EReal :=
  Cert.Spec.relu (Cert.Spec.dense 128 (H1c x f1 f1b) (Cert.Spec.at2 f2) (fun j' => Cert.Spec.at2 f2b 0 j') n k)

include h1lc h1rc h1lb h1ln h1rb h1rn in
/-- The first layer at `(b, j)`. -/
theorem h1_apply (b : Fin 128) (j : Fin 128) :
    h1v D1 hb1 x f1 f1b (ix2 b j) = H1c x f1 f1b b.val j.val :=
  dense_relu_apply D1 h1lc h1rc h1lb h1ln h1rb h1rn x f1 f1b hb1 b j

include h1lc h1rc h1lb h1ln h1rb h1rn in
/-- The first layer's vector read through `Spec.at2` on row `b`, inside the extents. -/
theorem at2_h1v (b : Fin 128) (k : ℕ) (hk : k < 128) :
    Cert.Spec.at2 (h1v D1 hb1 x f1 f1b) b.val k = H1c x f1 f1b b.val k := by
  rw [Cert.Spec.at2_of_lt _ b.isLt hk]
  exact h1_apply D1 hb1 x f1 f1b h1lc h1rc h1lb h1ln h1rb h1rn b ⟨k, hk⟩

include h1lc h1rc h1lb h1ln h1rb h1rn h2lc h2rc h2lb h2ln h2rb h2rn in
/-- The second layer at `(b, j)`. -/
theorem h2_apply (b : Fin 128) (j : Fin 84) :
    h2v D1 D2 hb1 hb2 x f1 f1b f2 f2b (ix2 b j) = H2c x f1 f1b f2 f2b b.val j.val := by
  refine (dense_relu_apply D2 h2lc h2rc h2lb h2ln h2rb h2rn (h1v D1 hb1 x f1 f1b) f2 f2b hb2 b j).trans ?_
  exact congrArg Cert.Spec.relu (dense_congr _ _ _ _ fun k hk =>
    at2_h1v D1 hb1 x f1 f1b h1lc h1rc h1lb h1ln h1rb h1rn b k hk)

include h1lc h1rc h1lb h1ln h1rb h1rn h2lc h2rc h2lb h2ln h2rb h2rn in
/-- The second layer's vector read through `Spec.at2` on row `b`, inside the extents. -/
theorem at2_h2v (b : Fin 128) (k : ℕ) (hk : k < 84) :
    Cert.Spec.at2 (h2v D1 D2 hb1 hb2 x f1 f1b f2 f2b) b.val k = H2c x f1 f1b f2 f2b b.val k := by
  rw [Cert.Spec.at2_of_lt _ b.isLt hk]
  exact h2_apply D1 D2 hb1 hb2 x f1 f1b f2 f2b h1lc h1rc h1lb h1ln h1rb h1rn h2lc h2rc h2lb h2ln h2rb h2rn b ⟨k, hk⟩

include h1lc h1rc h1lb h1ln h1rb h1rn h2lc h2rc h2lb h2ln h2rb h2rn h3lc h3rc h3lb h3ln h3rb h3rn in
/-- The third layer at `(b, j)`. -/
theorem out_apply (b : Fin 128) (j : Fin 10) :
    outv D1 D2 D3 hb1 hb2 hb3 x f1 f1b f2 f2b f3 f3b (ix2 b j)
      = Cert.Spec.dense 84 (H2c x f1 f1b f2 f2b) (Cert.Spec.at2 f3) (fun j' => Cert.Spec.at2 f3b 0 j') b.val j.val := by
  refine (dense_apply D3 h3lc h3rc h3lb h3ln h3rb h3rn (h2v D1 D2 hb1 hb2 x f1 f1b f2 f2b) f3 f3b hb3 b j).trans ?_
  exact dense_congr _ _ _ _ fun k hk =>
    at2_h2v D1 D2 hb1 hb2 x f1 f1b f2 f2b h1lc h1rc h1lb h1ln h1rb h1rn h2lc h2rc h2lb h2ln h2rb h2rn b k hk

end Tail

end Cert.LibFc

end
-- ==== Proof.LibConcat4.lean ====
/-
  Four equal pieces laid side by side along the last axis of a rank-3 array, read at coordinates: channel g·C + o of the
  concatenation is channel o of piece g.  Generic in the extents and the element type.
-/
import Idealize.ShloMosaic.Lib.Pipeline.Value
import Idealize.ShloMosaic.Lib.ValueIdx

namespace Cert.LibConcat4

open Idealize.ShloMosaic Idealize.ShloMosaic.ValueIdx

variable {α : Type}

/-- Channel g·C + o of four [B, R, C] pieces concatenated along the last axis is channel o of piece g. -/
theorem concat4_axis2_apply {B R C T : ℕ}
    (x0 x1 x2 x3 : (⟨3, ![B, R, C]⟩ : Shape).Idx → α)
    (h : Shape.Concatenates [⟨3, ![B, R, C]⟩, ⟨3, ![B, R, C]⟩, ⟨3, ![B, R, C]⟩, ⟨3, ![B, R, C]⟩] ⟨3, ![B, R, T]⟩ 2)
    (b : Fin B) (r : Fin R) (ch : Fin T) (g : Fin 4) (o : Fin C) (hch : ch.val = g.val * C + o.val) :
    concatenate ⟨3, ![B, R, T]⟩ 2 [⟨⟨3, ![B, R, C]⟩, x0⟩, ⟨⟨3, ![B, R, C]⟩, x1⟩, ⟨⟨3, ![B, R, C]⟩, x2⟩, ⟨⟨3, ![B, R, C]⟩, x3⟩] h
        (ix3 b r ch)
      = (![x0, x1, x2, x3] g) (ix3 b r o) := by
  have hoff : ∀ d : Fin 3, d.cast (rfl : (3 : ℕ) = 3) ≠ (2 : Fin 3) → ((ix3 b r o) d).val = ((ix3 b r ch) (d.cast rfl)).val := by
    intro d hd
    match d with
    | ⟨0, _⟩ => rfl
    | ⟨1, _⟩ => rfl
    | ⟨2, _⟩ => exact absurd rfl hd
  let XS : List ((s : Shape) × (s.Idx → α)) :=
    [⟨⟨3, ![B, R, C]⟩, x0⟩, ⟨⟨3, ![B, R, C]⟩, x1⟩, ⟨⟨3, ![B, R, C]⟩, x2⟩, ⟨⟨3, ![B, R, C]⟩, x3⟩]
  match g with
  | ⟨0, _⟩ =>
    exact concatenate_apply_piece (t := ⟨3, ![B, R, T]⟩) (2 : Fin 3) XS h (ix3 b r ch) 0 (by simp [XS]) ⟨3, ![B, R, C]⟩ x0 rfl rfl 0 (by simp [XS])
      (ix3 b r o) hoff (by show 0 + o.val = ch.val; rw [hch]; simp)
  | ⟨1, _⟩ =>
    exact concatenate_apply_piece (t := ⟨3, ![B, R, T]⟩) (2 : Fin 3) XS h (ix3 b r ch) 1 (by simp [XS]) ⟨3, ![B, R, C]⟩ x1 rfl rfl C (by simp [XS])
      (ix3 b r o) hoff (by show C + o.val = ch.val; rw [hch]; simp)
  | ⟨2, _⟩ =>
    exact concatenate_apply_piece (t := ⟨3, ![B, R, T]⟩) (2 : Fin 3) XS h (ix3 b r ch) 2 (by simp [XS]) ⟨3, ![B, R, C]⟩ x2 rfl rfl (C + C) (by simp [XS])
      (ix3 b r o) hoff (by show C + C + o.val = ch.val; rw [hch]; ring)
  | ⟨3, _⟩ =>
    exact concatenate_apply_piece (t := ⟨3, ![B, R, T]⟩) (2 : Fin 3) XS h (ix3 b r ch) 3 (by simp [XS]) ⟨3, ![B, R, C]⟩ x3 rfl rfl (C + C + C) (by simp [XS, Nat.add_assoc])
      (ix3 b r o) hoff (by show C + C + C + o.val = ch.val; rw [hch]; ring)

end Cert.LibConcat4
-- ==== Proof.KPay2.lean ====
/- The second half of the fused kernel's payload read at an index, at the ideal instance, over VARIABLE vectors: from
   the four first-layer chunk vectors to the two stored results.

   * `catv`, `shiftv`, `convv`, `poolv`, `flatv`: the printed operations between the chunks and the dense layers' input —
     the chunks side by side (128 channels), the four row shifts side by side (512 taps), the product with the second
     layer's weights, the maximum over the pooling window with bias and rectifier, the kept positions flattened;
   * `pay8_eq`: the payload before the last rectifier is two dense layers over `flatv`; `h2_of_chunks`, `out_of_chunks`:
     the two stored results at an index as the dense layers' closed forms;
   * `cat_apply`, `shift_apply`, `conv_apply`, `pool_apply`, `flat_apply`: each of those vectors at coordinates, from the
     chunks read through a function `A g row channel` of natural-number coordinates; `flat_apply` is `Spec.pool 64` of the
     512-tap sum at row `8 · (K / 384) + K / 64 % 6`, channel `K % 64`. -/
import proofs.«126833_g2000003154481155_pallasbulk_2_29_alg».proof.Proof.Gen.KernelIdeal.Skeleton
import proofs.«126833_g2000003154481155_pallasbulk_2_29_alg».proof.Proof.Spec
import proofs.«126833_g2000003154481155_pallasbulk_2_29_alg».proof.Proof.LibFc
import proofs.«126833_g2000003154481155_pallasbulk_2_29_alg».proof.Proof.LibBatchedProduct
import proofs.«126833_g2000003154481155_pallasbulk_2_29_alg».proof.Proof.LibConcat4
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayVal2

open Cert.KernelIdeal.Gen
open Idealize.ShloMosaic Idealize.ShloMosaic.ValueIdx Finset

/-! ## The vectors between the first layer's chunks and the flattened input of the dense layers -/

section Vectors
variable (c0 c1 c2 : FVec Ideal S128x64x32 .bf16) (c3f : FVec Ideal S128x64x32 .f32)
  (v91 : Vec Ideal S512x256 .bf16) (v102 : Vec Ideal S1x64 .f32)

/-- The four chunks side by side along the channel axis, the fourth narrowed first: `[128, 64, 128]`. -/
abbrev catv : FVec Ideal S128x64x128 .bf16 :=
  concatenate S128x64x128 2 [⟨S128x64x32, c0⟩, ⟨S128x64x32, c1⟩, ⟨S128x64x32, c2⟩, ⟨S128x64x32, truncf .bf16 c3f bitsLt_bf16_f32⟩] concatenates_S128x64x32_S128x64x32_S128x64x32_S128x64x32_S128x64x128_d2

/-- The four row shifts (by 0, 1, 8, 9 rows, 48 rows each) side by side along the channel axis: `[128, 48, 512]`. -/
abbrev shiftv : FVec Ideal S128x48x512 .bf16 :=
  concatenate S128x48x512 2 [⟨S128x48x128, extractStridedSlice S128x48x128 ![0, 0, 0] (catv c0 c1 c2 c3f) slices_S128x64x128_o0_0_0_S128x48x128⟩, ⟨S128x48x128, extractStridedSlice S128x48x128 ![0, 1, 0] (catv c0 c1 c2 c3f) slices_S128x64x128_o0_1_0_S128x48x128⟩, ⟨S128x48x128, extractStridedSlice S128x48x128 ![0, 8, 0] (catv c0 c1 c2 c3f) slices_S128x64x128_o0_8_0_S128x48x128⟩, ⟨S128x48x128, extractStridedSlice S128x48x128 ![0, 9, 0] (catv c0 c1 c2 c3f) slices_S128x64x128_o0_9_0_S128x48x128⟩] concatenates_S128x48x128_S128x48x128_S128x48x128_S128x48x128_S128x48x512_d2

/-- The second convolution as one product: rows flattened, multiplied into the zero accumulator, cut back: `[128, 48, 256]`. -/
abbrev convv : FVec Ideal S128x48x256 .f32 :=
  shapeCast S128x48x256 (matmul dot_S6144x512_S512x256_S6144x256_1_0_0_1_n_n none (shapeCast S6144x512 (shiftv c0 c1 c2 c3f) shapeCasts_S128x48x512_S6144x512) (shapeCast S512x256 v91 shapeCasts_S512x256_S512x256 : FVec Ideal S512x256 .bf16) (constant S6144x256 .f32 0x00000000#32)) shapeCasts_S6144x256_S128x48x256

/-- The maximum over the four column blocks, the bias, the rectifier: `[128, 48, 64]`. -/
abbrev poolv : FVec Ideal S128x48x64 .f32 :=
  maximumf (addf (maximumf (maximumf (extractStridedSlice S128x48x64 ![0, 0, 0] (convv c0 c1 c2 c3f v91) slices_S128x48x256_o0_0_0_S128x48x64) (extractStridedSlice S128x48x64 ![0, 0, 64] (convv c0 c1 c2 c3f v91) slices_S128x48x256_o0_0_64_S128x48x64)) (maximumf (extractStridedSlice S128x48x64 ![0, 0, 128] (convv c0 c1 c2 c3f v91) slices_S128x48x256_o0_0_128_S128x48x64) (extractStridedSlice S128x48x64 ![0, 0, 192] (convv c0 c1 c2 c3f v91) slices_S128x48x256_o0_0_192_S128x48x64))) (broadcastTo S128x48x64 (shapeCast S1x1x64 v102 shapeCasts_S1x64_S1x1x64 : FVec Ideal S1x1x64 .f32) broadcasts_S1x1x64_S128x48x64)) (broadcast S128x48x64 (Scalar.ofBits (F := Ideal) .f32 0x00000000#32))

/-- The kept 6 × 6 positions of the 6 × 8 grid, flattened with the channels: `[128, 2304]`. -/
abbrev flatv : FVec Ideal S128x2304 .bf16 :=
  shapeCast S128x2304 (extractStridedSlice S128x6x6x64 ![0, 0, 0, 0] (shapeCast S128x6x8x64 (truncf .bf16 (poolv c0 c1 c2 c3f v91 v102) bitsLt_bf16_f32) shapeCasts_S128x48x64_S128x6x8x64) slices_S128x6x8x64_o0_0_0_0_S128x6x6x64) shapeCasts_S128x6x6x64_S128x2304

variable (v112 : Vec Ideal S2304x128 .bf16) (v114 : Vec Ideal S1x128 .f32) (v119 : Vec Ideal S128x84 .f32) (v121 : Vec Ideal S1x84 .f32)

/-- The payload before the second dense layer's rectifier is the two dense layers over the flattened vector. -/
theorem pay8_eq : k0_pay8 (F := Ideal) c0 c1 c2 c3f v91 v102 v112 v114 v119 v121
    = Cert.LibFc.h2pre dot_S128x2304_S2304x128_S128x128_1_0_0_1_n_n dot_S128x128_S128x84_S128x84_1_0_0_1_n_n
        broadcasts_S1x128_S128x128 broadcasts_S1x84_S128x84 (flatv c0 c1 c2 c3f v91 v102) v112 v114 v119 v121 := rfl

/-- The first stored result at `(b, j)`: the second dense layer's closed form over the flattened vector. -/
theorem h2_of_chunks (b : Fin 128) (j : Fin 84) :
    k0_pay1 (F := Ideal) (k0_pay8 c0 c1 c2 c3f v91 v102 v112 v114 v119 v121) (k0_pay9 (F := Ideal)) (ix2 b j)
      = Cert.LibFc.H2c (flatv c0 c1 c2 c3f v91 v102) v112 v114 v119 v121 b.val j.val := by
  have e : k0_pay1 (F := Ideal) (k0_pay8 c0 c1 c2 c3f v91 v102 v112 v114 v119 v121) (k0_pay9 (F := Ideal))
      = Cert.LibFc.h2v dot_S128x2304_S2304x128_S128x128_1_0_0_1_n_n dot_S128x128_S128x84_S128x84_1_0_0_1_n_n
          broadcasts_S1x128_S128x128 broadcasts_S1x84_S128x84 (flatv c0 c1 c2 c3f v91 v102) v112 v114 v119 v121 := rfl
  rw [e]
  exact Cert.LibFc.h2_apply _ _ _ _ (flatv c0 c1 c2 c3f v91 v102) v112 v114 v119 v121 rfl rfl rfl rfl rfl rfl rfl rfl rfl rfl rfl rfl b j

/-- The second stored result at `(b, j)`: the third dense layer over the second's closed form. -/
theorem out_of_chunks (v126 : Vec Ideal S84x10 .f32) (v128 : Vec Ideal S1x10 .f32) (b : Fin 128) (j : Fin 10) :
    k0_pay2 (F := Ideal) (k0_pay8 c0 c1 c2 c3f v91 v102 v112 v114 v119 v121) (k0_pay9 (F := Ideal)) v126 v128 (ix2 b j)
      = Cert.Spec.dense 84 (Cert.LibFc.H2c (flatv c0 c1 c2 c3f v91 v102) v112 v114 v119 v121) (Cert.Spec.at2 (v126 : S84x10.Idx → EReal))
          (fun j' => Cert.Spec.at2 (v128 : S1x10.Idx → EReal) 0 j') b.val j.val := by
  have e : k0_pay2 (F := Ideal) (k0_pay8 c0 c1 c2 c3f v91 v102 v112 v114 v119 v121) (k0_pay9 (F := Ideal)) v126 v128
      = Cert.LibFc.outv dot_S128x2304_S2304x128_S128x128_1_0_0_1_n_n dot_S128x128_S128x84_S128x84_1_0_0_1_n_n dot_S128x84_S84x10_S128x10_1_0_0_1_n_n
          broadcasts_S1x128_S128x128 broadcasts_S1x84_S128x84 broadcasts_S1x10_S128x10 (flatv c0 c1 c2 c3f v91 v102) v112 v114 v119 v121 v126 v128 := rfl
  rw [e]
  exact Cert.LibFc.out_apply _ _ _ _ _ _ (flatv c0 c1 c2 c3f v91 v102) v112 v114 v119 v121 v126 v128 rfl rfl rfl rfl rfl rfl rfl rfl rfl rfl rfl rfl rfl rfl rfl rfl rfl rfl b j

end Vectors

/-! ## The flattened vector read at an index -/

section Read
variable (c0 c1 c2 : FVec Ideal S128x64x32 .bf16) (c3f : FVec Ideal S128x64x32 .f32)
  (v91 : Vec Ideal S512x256 .bf16) (v102 : Vec Ideal S1x64 .f32)
  (b : Fin 128) (A : ℕ → ℕ → ℕ → EReal)
  (h0 : ∀ (rr : Fin 64) (o : Fin 32), c0 (ix3 b rr o) = A 0 rr.val o.val)
  (h1 : ∀ (rr : Fin 64) (o : Fin 32), c1 (ix3 b rr o) = A 1 rr.val o.val)
  (h2 : ∀ (rr : Fin 64) (o : Fin 32), c2 (ix3 b rr o) = A 2 rr.val o.val)
  (h3 : ∀ (rr : Fin 64) (o : Fin 32), c3f (ix3 b rr o) = A 3 rr.val o.val)

include h0 h1 h2 h3 in
/-- The four chunks side by side: channel `ch` of row `R'` is channel `ch % 32` of chunk `ch / 32`. -/
theorem cat_apply (R' : Fin 64) (ch : Fin 128) :
    catv c0 c1 c2 c3f (ix3 b R' ch) = A (ch.val / 32) R'.val (ch.val % 32) := by
  have hg : ch.val / 32 < 4 := by have := ch.isLt; omega
  have ho : ch.val % 32 < 32 := Nat.mod_lt _ (by decide)
  refine (Cert.LibConcat4.concat4_axis2_apply c0 c1 c2 (truncf .bf16 c3f bitsLt_bf16_f32) _ b R' ch
    ⟨ch.val / 32, hg⟩ ⟨ch.val % 32, ho⟩ (by show ch.val = ch.val / 32 * 32 + ch.val % 32; omega)).trans ?_
  generalize ch.val / 32 = gv at hg ⊢
  match gv, hg with
  | 0, _ => exact h0 R' ⟨ch.val % 32, ho⟩
  | 1, _ => exact h1 R' ⟨ch.val % 32, ho⟩
  | 2, _ => exact h2 R' ⟨ch.val % 32, ho⟩
  | 3, _ => exact h3 R' ⟨ch.val % 32, ho⟩
  | n + 4, h => exact absurd h (by omega)

include h0 h1 h2 h3 in
/-- The four row shifts side by side: entry `k` of row `R` is channel `k % 128` of the chunks' row `R + st2 (k / 128)`
    (the shifts are by 0, 1, 8, 9 rows). -/
theorem shift_apply (R : Fin 48) (k : Fin 512) :
    shiftv c0 c1 c2 c3f (ix3 b R k)
      = A (k.val % 128 / 32) (R.val + Cert.Spec.st2 (k.val / 128)) (k.val % 128 % 32) := by
  have hg : k.val / 128 < 4 := by have := k.isLt; omega
  have ho : k.val % 128 < 128 := Nat.mod_lt _ (by decide)
  have hR : R.val < 48 := R.isLt
  refine (Cert.LibConcat4.concat4_axis2_apply _ _ _ _ _ b R k
    ⟨k.val / 128, hg⟩ ⟨k.val % 128, ho⟩ (by show k.val = k.val / 128 * 128 + k.val % 128; omega)).trans ?_
  generalize k.val / 128 = gv at hg ⊢
  match gv, hg with
  | 0, _ =>
    refine (slice3_axis1_apply 0 (catv c0 c1 c2 c3f) slices_S128x64x128_o0_0_0_S128x48x128 b R ⟨k.val % 128, ho⟩ ⟨R.val + 0, by omega⟩ (by show R.val + 0 = 0 + R.val; omega)).trans ?_
    exact cat_apply c0 c1 c2 c3f b A h0 h1 h2 h3 ⟨R.val + 0, by omega⟩ ⟨k.val % 128, ho⟩
  | 1, _ =>
    refine (slice3_axis1_apply 1 (catv c0 c1 c2 c3f) slices_S128x64x128_o0_1_0_S128x48x128 b R ⟨k.val % 128, ho⟩ ⟨R.val + 1, by omega⟩ (by show R.val + 1 = 1 + R.val; omega)).trans ?_
    exact cat_apply c0 c1 c2 c3f b A h0 h1 h2 h3 ⟨R.val + 1, by omega⟩ ⟨k.val % 128, ho⟩
  | 2, _ =>
    refine (slice3_axis1_apply 8 (catv c0 c1 c2 c3f) slices_S128x64x128_o0_8_0_S128x48x128 b R ⟨k.val % 128, ho⟩ ⟨R.val + 8, by omega⟩ (by show R.val + 8 = 8 + R.val; omega)).trans ?_
    exact cat_apply c0 c1 c2 c3f b A h0 h1 h2 h3 ⟨R.val + 8, by omega⟩ ⟨k.val % 128, ho⟩
  | 3, _ =>
    refine (slice3_axis1_apply 9 (catv c0 c1 c2 c3f) slices_S128x64x128_o0_9_0_S128x48x128 b R ⟨k.val % 128, ho⟩ ⟨R.val + 9, by omega⟩ (by show R.val + 9 = 9 + R.val; omega)).trans ?_
    exact cat_apply c0 c1 c2 c3f b A h0 h1 h2 h3 ⟨R.val + 9, by omega⟩ ⟨k.val % 128, ho⟩
  | n + 4, h => exact absurd h (by omega)

/-- The second convolution before pooling, at natural-number coordinates: the 512 shifted taps against the weights. -/
abbrev convc (R col : ℕ) : EReal :=
  ∑ K' ∈ Finset.range 512, A (K' % 128 / 32) (R + Cert.Spec.st2 (K' / 128)) (K' % 128 % 32) * Cert.Spec.at2 (v91 : S512x256.Idx → EReal) K' col

include h0 h1 h2 h3 in
/-- The product cut back to `(batch, row, column)`, at `(b, R, col)`. -/
theorem conv_apply (R : Fin 48) (col : Fin 256) :
    convv c0 c1 c2 c3f v91 (ix3 b R col) = convc v91 A R.val col.val := by
  unfold convv
  rw [shapeCast_self]
  refine (Cert.LibBatchedProduct.batched_matmul_apply (B := 128) (R := 48) (K := 512) (N := 256) (M := 6144) rfl
    dot_S6144x512_S512x256_S6144x256_1_0_0_1_n_n rfl rfl rfl rfl rfl rfl none (shiftv c0 c1 c2 c3f) v91
    shapeCasts_S128x48x512_S6144x512 shapeCasts_S6144x256_S128x48x256 b R col).trans ?_
  unfold convc
  rw [← Fin.sum_univ_eq_sum_range (fun K' => A (K' % 128 / 32) (R.val + Cert.Spec.st2 (K' / 128)) (K' % 128 % 32) * Cert.Spec.at2 (v91 : S512x256.Idx → EReal) K' col.val) 512]
  refine Finset.sum_congr rfl fun k _ => ?_
  rw [shift_apply c0 c1 c2 c3f b A h0 h1 h2 h3 R k, Cert.Spec.at2_ix]

/-- A rank-3 array cut along its last axis from `off` reads, at `(b, R, o)`, the source at column `off + o`. -/
theorem colslice_apply {α : Type} (X : S128x48x256.Idx → α) (off : ℕ) (h : S128x48x256.Slices ![0, 0, off] S128x48x64)
    (R : Fin 48) (o : Fin 64) (col : Fin 256) (hc : col.val = off + o.val) :
    extractStridedSlice S128x48x64 ![0, 0, off] X h (ix3 b R o) = X (ix3 b R col) :=
  extractStridedSlice_apply _ _ _ _ _ (fun ax => by
    match ax with
    | ⟨0, _⟩ => exact (Nat.zero_add _).symm
    | ⟨1, _⟩ => exact (Nat.zero_add _).symm
    | ⟨2, _⟩ => exact hc)

/-- The bias row broadcast over batch and rows, at `(b, R, o)`: the bias at `o`. -/
theorem bias_apply (R : Fin 48) (o : Fin 64) :
    broadcastTo S128x48x64 (shapeCast S1x1x64 v102 shapeCasts_S1x64_S1x1x64 : FVec Ideal S1x1x64 .f32) broadcasts_S1x1x64_S128x48x64 (ix3 b R o)
      = Cert.Spec.at2 (v102 : S1x64.Idx → EReal) 0 o.val := by
  refine (broadcastTo_apply _ _ (ix3 b R o) (ix3 (0 : Fin 1) (0 : Fin 1) o) (fun a => by
    match a with
    | ⟨0, _⟩ => rfl
    | ⟨1, _⟩ => rfl
    | ⟨2, _⟩ => rfl)).trans ?_
  refine (shapeCast_ab_1ab_apply v102 _ 0 0 o).trans ?_
  exact (Cert.Spec.at2_ix (v102 : S1x64.Idx → EReal) (0 : Fin 1) o).symm

include h0 h1 h2 h3 in
/-- The pooled, biased, rectified vector at `(b, R, o)`: `Spec.pool 64` of the convolution's closed form. -/
theorem pool_apply (R : Fin 48) (o : Fin 64) :
    poolv c0 c1 c2 c3f v91 v102 (ix3 b R o)
      = Cert.Spec.pool 64 (convc v91 A) (fun o' => Cert.Spec.at2 (v102 : S1x64.Idx → EReal) 0 o') R.val o.val := by
  have ho : o.val < 64 := o.isLt
  have e0 := (colslice_apply b (convv c0 c1 c2 c3f v91) 0 slices_S128x48x256_o0_0_0_S128x48x64 R o ⟨o.val, by omega⟩ (by show o.val = 0 + o.val; omega)).trans
    (conv_apply c0 c1 c2 c3f v91 b A h0 h1 h2 h3 R ⟨o.val, by omega⟩)
  have e1 := (colslice_apply b (convv c0 c1 c2 c3f v91) 64 slices_S128x48x256_o0_0_64_S128x48x64 R o ⟨64 + o.val, by omega⟩ rfl).trans
    (conv_apply c0 c1 c2 c3f v91 b A h0 h1 h2 h3 R ⟨64 + o.val, by omega⟩)
  have e2 := (colslice_apply b (convv c0 c1 c2 c3f v91) 128 slices_S128x48x256_o0_0_128_S128x48x64 R o ⟨2 * 64 + o.val, by omega⟩ (by show 2 * 64 + o.val = 128 + o.val; omega)).trans
    (conv_apply c0 c1 c2 c3f v91 b A h0 h1 h2 h3 R ⟨2 * 64 + o.val, by omega⟩)
  have e3 := (colslice_apply b (convv c0 c1 c2 c3f v91) 192 slices_S128x48x256_o0_0_192_S128x48x64 R o ⟨3 * 64 + o.val, by omega⟩ (by show 3 * 64 + o.val = 192 + o.val; omega)).trans
    (conv_apply c0 c1 c2 c3f v91 b A h0 h1 h2 h3 R ⟨3 * 64 + o.val, by omega⟩)
  have eb := bias_apply v102 b R o
  have ez : (Scalar.ofBits (F := Ideal) .f32 0x00000000#32 : EReal) = 0 := Ideal.ofBits_zero_f32
  exact congrArg₂ max (congrArg₂ (· + ·) (congrArg₂ max (congrArg₂ max e0 e1) (congrArg₂ max e2 e3)) eb) ez

include h0 h1 h2 h3 in
/-- THE FLATTENED VECTOR at `(b, K)`: entry `K = (6 · r + s) · 64 + o` is the pooled vector at row `8 · r + s`, channel `o`
    (the 6 × 6 kept positions of the 6 × 8 grid), with `r = K / 384`, `s = K / 64 % 6`, `o = K % 64`. -/
theorem flat_apply (K : Fin 2304) :
    flatv c0 c1 c2 c3f v91 v102 (ix2 b K)
      = Cert.Spec.pool 64 (fun R col => ∑ K' ∈ Finset.range 512, A (K' % 128 / 32) (R + Cert.Spec.st2 (K' / 128)) (K' % 128 % 32) * Cert.Spec.at2 (v91 : S512x256.Idx → EReal) K' col)
          (fun o' => Cert.Spec.at2 (v102 : S1x64.Idx → EReal) 0 o') (8 * (K.val / 384) + K.val / 64 % 6) (K.val % 64) := by
  have hK : K.val < 2304 := K.isLt
  have hb : b.val < 128 := b.isLt
  have hr : K.val / 384 < 6 := by omega
  have hs : K.val / 64 % 6 < 6 := Nat.mod_lt _ (by decide)
  have hs8 : K.val / 64 % 6 < 8 := by omega
  have ho : K.val % 64 < 64 := Nat.mod_lt _ (by decide)
  have hR : 8 * (K.val / 384) + K.val / 64 % 6 < 48 := by omega
  unfold flatv
  refine (shapeCast_apply _ _ (ix2 b K) (ix4 b ⟨K.val / 384, hr⟩ ⟨K.val / 64 % 6, hs⟩ ⟨K.val % 64, ho⟩) ?_).trans ?_
  · rw [Shape.rowMajor_val_four, Shape.rowMajor_val_two]
    show ((b.val * 6 + K.val / 384) * 6 + K.val / 64 % 6) * 64 + K.val % 64 = b.val * 2304 + K.val
    omega
  refine (slice4_axis2_apply 0 _ _ b ⟨K.val / 384, hr⟩ ⟨K.val / 64 % 6, hs⟩ ⟨K.val % 64, ho⟩ ⟨K.val / 64 % 6, hs8⟩
    (by show K.val / 64 % 6 = 0 + K.val / 64 % 6; omega)).trans ?_
  refine (shapeCast_apply _ _ (ix4 b ⟨K.val / 384, hr⟩ ⟨K.val / 64 % 6, hs8⟩ ⟨K.val % 64, ho⟩)
    (ix3 b ⟨8 * (K.val / 384) + K.val / 64 % 6, hR⟩ ⟨K.val % 64, ho⟩) ?_).trans ?_
  · rw [Shape.rowMajor_val_three, Shape.rowMajor_val_four]
    show (b.val * 48 + (8 * (K.val / 384) + K.val / 64 % 6)) * 64 + K.val % 64 = ((b.val * 6 + K.val / 384) * 8 + K.val / 64 % 6) * 64 + K.val % 64
    omega
  exact pool_apply c0 c1 c2 c3f v91 v102 b A h0 h1 h2 h3 ⟨8 * (K.val / 384) + K.val / 64 % 6, hR⟩ ⟨K.val % 64, ho⟩

end Read

end Cert.KernelIdeal.PayVal2

end
-- ==== Proof.LibSpaceToDepth.lean ====
/-
  Space-to-depth packing read at coordinates, generic in the extents and the element type.

  An image array [n, A, B, c] with A = 2a, B = 2b is packed in three layout steps: cut both spatial axes into
  (block, parity) — a shape cast to [n, a, 2, b, 2, c] —, bring the two parities behind the two block coordinates —
  the transpose [0, 1, 3, 2, 4, 5] to [n, a, b, 2, 2, c] —, and merge: parities and channel into one channel axis of
  extent 4c, the two block axes kept ([n, a, b, 4c]) or merged into one row axis ([n, a·b, 4c]).  The packed array at
  block (r, s), channel (pr·2 + pc)·c + k is the image at pixel (2r + pr, 2s + pc), channel k.

  The second family is the parity-major row order: a row axis of extent (2a)·(2b), read as a grid of (2a) × (2b) cells
  row-major, is cut into (block row, row parity, block column, column parity), the parities brought in front — the
  transpose [0, 2, 4, 1, 3, 5] — and the four merged again.  Row ((pr·2 + pc)·a + r)·b + s of the result is row
  ((r·2 + pr)·b + s)·2 + pc of the operand.

  Every index is given by its coordinates, and the relations between merged and split coordinates are hypotheses,
  which at literal extents are linear arithmetic.
-/
import Idealize.ShloMosaic.Lib.Pipeline.Value
import Idealize.ShloMosaic.Lib.ValueIdxRank6

namespace Cert.LibSpaceToDepth

open Idealize.ShloMosaic Idealize.ShloMosaic.ValueIdx

variable {α : Type}

/-- Cutting both spatial axes into (block, parity): the cast [n, A, B, c] → [n, a, 2, b, 2, c] at block (r, s),
    parities (pr, pc) is the operand at pixel (2r + pr, 2s + pc). -/
theorem split_apply {n A B a b c : ℕ} (hA : A = 2 * a) (hB : B = 2 * b)
    (x : (⟨4, ![n, A, B, c]⟩ : Shape).Idx → α)
    (h : (⟨4, ![n, A, B, c]⟩ : Shape).ShapeCasts ⟨6, ![n, a, 2, b, 2, c]⟩)
    (p : Fin n) (r : Fin a) (pr : Fin 2) (s : Fin b) (pc : Fin 2) (k : Fin c)
    (i : Fin A) (j : Fin B) (hi : i.val = 2 * r.val + pr.val) (hj : j.val = 2 * s.val + pc.val) :
    shapeCast ⟨6, ![n, a, 2, b, 2, c]⟩ x h (ix6 p r pr s pc k) = x (ix4 p i j k) := by
  refine shapeCast_apply x h _ _ ?_
  rw [Shape.rowMajor_val_four, Shape.rowMajor_val_six]
  show ((p.val * A + i.val) * B + j.val) * c + k.val
    = ((((p.val * a + r.val) * 2 + pr.val) * b + s.val) * 2 + pc.val) * c + k.val
  rw [hi, hj, hA, hB]; ring

/-- Bringing the two parities behind the two block coordinates: the transpose [0, 1, 3, 2, 4, 5]. -/
theorem swap_apply {n a b c : ℕ} (y : (⟨6, ![n, a, 2, b, 2, c]⟩ : Shape).Idx → α)
    (h : (⟨6, ![n, a, 2, b, 2, c]⟩ : Shape).Transposes [0, 1, 3, 2, 4, 5] ⟨6, ![n, a, b, 2, 2, c]⟩)
    (p : Fin n) (r : Fin a) (s : Fin b) (pr pc : Fin 2) (k : Fin c) :
    transpose ⟨6, ![n, a, b, 2, 2, c]⟩ [0, 1, 3, 2, 4, 5] y h (ix6 p r s pr pc k) = y (ix6 p r pr s pc k) :=
  transpose_apply _ y h _ _ fun d => match d with
    | ⟨0, _⟩ => rfl | ⟨1, _⟩ => rfl | ⟨2, _⟩ => rfl | ⟨3, _⟩ => rfl | ⟨4, _⟩ => rfl | ⟨5, _⟩ => rfl

/-- Merging parities and channel into one channel axis, the block axes kept. -/
theorem merge4_apply {n a b c C : ℕ} (hC : C = 4 * c) (z : (⟨6, ![n, a, b, 2, 2, c]⟩ : Shape).Idx → α)
    (h : (⟨6, ![n, a, b, 2, 2, c]⟩ : Shape).ShapeCasts ⟨4, ![n, a, b, C]⟩)
    (p : Fin n) (r : Fin a) (s : Fin b) (ch : Fin C) (pr pc : Fin 2) (k : Fin c)
    (hch : ch.val = (pr.val * 2 + pc.val) * c + k.val) :
    shapeCast ⟨4, ![n, a, b, C]⟩ z h (ix4 p r s ch) = z (ix6 p r s pr pc k) := by
  refine shapeCast_apply z h _ _ ?_
  rw [Shape.rowMajor_val_four, Shape.rowMajor_val_six]
  show ((((p.val * a + r.val) * b + s.val) * 2 + pr.val) * 2 + pc.val) * c + k.val
    = ((p.val * a + r.val) * b + s.val) * C + ch.val
  rw [hch, hC]; ring

/-- Merging parities and channel into one channel axis and the two block axes into one row axis. -/
theorem merge3_apply {n a b c M C : ℕ} (hM : M = a * b) (hC : C = 4 * c)
    (z : (⟨6, ![n, a, b, 2, 2, c]⟩ : Shape).Idx → α)
    (h : (⟨6, ![n, a, b, 2, 2, c]⟩ : Shape).ShapeCasts ⟨3, ![n, M, C]⟩)
    (p : Fin n) (R : Fin M) (ch : Fin C) (r : Fin a) (s : Fin b) (pr pc : Fin 2) (k : Fin c)
    (hR : R.val = r.val * b + s.val) (hch : ch.val = (pr.val * 2 + pc.val) * c + k.val) :
    shapeCast ⟨3, ![n, M, C]⟩ z h (ix3 p R ch) = z (ix6 p r s pr pc k) := by
  refine shapeCast_apply z h _ _ ?_
  rw [Shape.rowMajor_val_three, Shape.rowMajor_val_six]
  show ((((p.val * a + r.val) * b + s.val) * 2 + pr.val) * 2 + pc.val) * c + k.val
    = (p.val * M + R.val) * C + ch.val
  rw [hR, hch, hM, hC]; ring

/-- The whole packing onto [n, a, b, 4c]: block (r, s), channel (pr·2 + pc)·c + k is pixel (2r + pr, 2s + pc),
    channel k. -/
theorem pack4_apply {n A B a b c C : ℕ} (hA : A = 2 * a) (hB : B = 2 * b) (hC : C = 4 * c)
    (x : (⟨4, ![n, A, B, c]⟩ : Shape).Idx → α)
    (h1 : (⟨4, ![n, A, B, c]⟩ : Shape).ShapeCasts ⟨6, ![n, a, 2, b, 2, c]⟩)
    (h2 : (⟨6, ![n, a, 2, b, 2, c]⟩ : Shape).Transposes [0, 1, 3, 2, 4, 5] ⟨6, ![n, a, b, 2, 2, c]⟩)
    (h3 : (⟨6, ![n, a, b, 2, 2, c]⟩ : Shape).ShapeCasts ⟨4, ![n, a, b, C]⟩)
    (p : Fin n) (r : Fin a) (s : Fin b) (ch : Fin C) (pr pc : Fin 2) (k : Fin c) (i : Fin A) (j : Fin B)
    (hch : ch.val = (pr.val * 2 + pc.val) * c + k.val)
    (hi : i.val = 2 * r.val + pr.val) (hj : j.val = 2 * s.val + pc.val) :
    shapeCast ⟨4, ![n, a, b, C]⟩
        (transpose ⟨6, ![n, a, b, 2, 2, c]⟩ [0, 1, 3, 2, 4, 5] (shapeCast ⟨6, ![n, a, 2, b, 2, c]⟩ x h1) h2) h3
        (ix4 p r s ch)
      = x (ix4 p i j k) :=
  (merge4_apply hC _ h3 p r s ch pr pc k hch).trans
    ((swap_apply _ h2 p r s pr pc k).trans (split_apply hA hB x h1 p r pr s pc k i j hi hj))

/-- The whole packing onto [n, a·b, 4c]: row r·b + s, channel (pr·2 + pc)·c + k is pixel (2r + pr, 2s + pc),
    channel k. -/
theorem pack3_apply {n A B a b c M C : ℕ} (hA : A = 2 * a) (hB : B = 2 * b) (hM : M = a * b) (hC : C = 4 * c)
    (x : (⟨4, ![n, A, B, c]⟩ : Shape).Idx → α)
    (h1 : (⟨4, ![n, A, B, c]⟩ : Shape).ShapeCasts ⟨6, ![n, a, 2, b, 2, c]⟩)
    (h2 : (⟨6, ![n, a, 2, b, 2, c]⟩ : Shape).Transposes [0, 1, 3, 2, 4, 5] ⟨6, ![n, a, b, 2, 2, c]⟩)
    (h3 : (⟨6, ![n, a, b, 2, 2, c]⟩ : Shape).ShapeCasts ⟨3, ![n, M, C]⟩)
    (p : Fin n) (R : Fin M) (ch : Fin C) (r : Fin a) (s : Fin b) (pr pc : Fin 2) (k : Fin c) (i : Fin A) (j : Fin B)
    (hR : R.val = r.val * b + s.val) (hch : ch.val = (pr.val * 2 + pc.val) * c + k.val)
    (hi : i.val = 2 * r.val + pr.val) (hj : j.val = 2 * s.val + pc.val) :
    shapeCast ⟨3, ![n, M, C]⟩
        (transpose ⟨6, ![n, a, b, 2, 2, c]⟩ [0, 1, 3, 2, 4, 5] (shapeCast ⟨6, ![n, a, 2, b, 2, c]⟩ x h1) h2) h3
        (ix3 p R ch)
      = x (ix4 p i j k) :=
  (merge3_apply hM hC _ h3 p R ch r s pr pc k hR hch).trans
    ((swap_apply _ h2 p r s pr pc k).trans (split_apply hA hB x h1 p r pr s pc k i j hi hj))

/-! ## The parity-major row order -/

/-- A row axis of extent M = (a·2)·(b·2), its rows a grid of cells row-major, re-ordered parity-major: cast to
    [n, a, 2, b, 2, K], transposed by [0, 2, 4, 1, 3, 5] to [n, 2, 2, a, b, K], and cast back to [n, M, K].  Row
    ((pr·2 + pc)·a + r)·b + s of the result is row ((r·2 + pr)·b + s)·2 + pc of the operand. -/
theorem parityMajor_apply {n a b M K : ℕ} (hM : M = a * 2 * b * 2)
    (x : (⟨3, ![n, M, K]⟩ : Shape).Idx → α)
    (h1 : (⟨3, ![n, M, K]⟩ : Shape).ShapeCasts ⟨6, ![n, a, 2, b, 2, K]⟩)
    (h2 : (⟨6, ![n, a, 2, b, 2, K]⟩ : Shape).Transposes [0, 2, 4, 1, 3, 5] ⟨6, ![n, 2, 2, a, b, K]⟩)
    (h3 : (⟨6, ![n, 2, 2, a, b, K]⟩ : Shape).ShapeCasts ⟨3, ![n, M, K]⟩)
    (p : Fin n) (R R' : Fin M) (k : Fin K) (pr pc : Fin 2) (r : Fin a) (s : Fin b)
    (hR : R.val = ((pr.val * 2 + pc.val) * a + r.val) * b + s.val)
    (hR' : R'.val = ((r.val * 2 + pr.val) * b + s.val) * 2 + pc.val) :
    shapeCast ⟨3, ![n, M, K]⟩
        (transpose ⟨6, ![n, 2, 2, a, b, K]⟩ [0, 2, 4, 1, 3, 5] (shapeCast ⟨6, ![n, a, 2, b, 2, K]⟩ x h1) h2) h3
        (ix3 p R k)
      = x (ix3 p R' k) := by
  refine (shapeCast_apply _ h3 _ (ix6 p pr pc r s k) ?_).trans
    ((transpose_apply _ _ h2 _ (ix6 p r pr s pc k) fun d => match d with
      | ⟨0, _⟩ => rfl | ⟨1, _⟩ => rfl | ⟨2, _⟩ => rfl | ⟨3, _⟩ => rfl | ⟨4, _⟩ => rfl | ⟨5, _⟩ => rfl).trans
      (shapeCast_apply x h1 _ _ ?_))
  · rw [Shape.rowMajor_val_three, Shape.rowMajor_val_six]
    show ((((p.val * 2 + pr.val) * 2 + pc.val) * a + r.val) * b + s.val) * K + k.val = (p.val * M + R.val) * K + k.val
    rw [hR, hM]; ring
  · rw [Shape.rowMajor_val_three, Shape.rowMajor_val_six]
    show (p.val * M + R'.val) * K + k.val = ((((p.val * a + r.val) * 2 + pr.val) * b + s.val) * 2 + pc.val) * K + k.val
    rw [hR', hM]; ring

end Cert.LibSpaceToDepth
-- ==== Proof.LibPad.lean ====
/-
  A `stablehlo.pad` with no low padding and no interior padding, read at an index: inside the operand's extents it is
  the operand (so with no high padding either it is the operand everywhere), and past the operand's extent on some axis
  it is the padding value.  Generic in the shapes and the element type.
-/
import Idealize.ShloMosaic.Lib.Pipeline.Value

namespace Cert.LibPad

open Idealize.ShloMosaic

variable {α : Type} {s t u : Shape}

/-- High padding only, at an index inside the operand's extents on every axis: the operand there. -/
theorem pad_apply_in (lo hi interior : Fin s.rank → Nat) (x : s.Idx → α) (v : u.Idx → α)
    (h : s.Pads lo hi interior t) (hu : 0 < u.numel) (hlo : ∀ a, lo a = 0) (hint : ∀ a, interior a = 0)
    (j : t.Idx) (k : s.Idx) (hk : ∀ a, (k a).val = (j (a.cast h.1)).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := by
    intro a
    rw [hlo a, hint a]
    refine ⟨Nat.zero_le _, Nat.mod_one _, ?_⟩
    simp only [Nat.sub_zero, Nat.zero_add, Nat.div_one]
    rw [← hk a]
    exact (k a).isLt
  rw [dif_pos hin]
  refine congrArg x (funext fun a => Fin.ext ?_)
  show ((j (a.cast h.1)).val - lo a) / (interior a + 1) = (k a).val
  rw [hlo a, hint a, hk a]
  simp

/-- High padding only, at an index past the operand's extent on some axis: the padding value. -/
theorem pad_apply_out (lo hi interior : Fin s.rank → Nat) (x : s.Idx → α) (v : u.Idx → α)
    (h : s.Pads lo hi interior t) (hu : 0 < u.numel) (hlo : ∀ a, lo a = 0) (hint : ∀ a, interior a = 0)
    (j : t.Idx) (a : Fin s.rank) (ha : s.size a ≤ (j (a.cast h.1)).val) :
    pad t lo hi interior x v h hu j = v (Shape.Idx.first hu) := by
  unfold pad
  rw [dif_neg]
  intro hin
  have h3 := (hin a).2.2
  rw [hlo a, hint a] at h3
  simp only [Nat.sub_zero, Nat.zero_add, Nat.div_one] at h3
  omega

end Cert.LibPad
-- ==== Proof.KHost.lean ====
/-
  The fused program's host stretches read at an index, on the extended reals, over an arbitrary base valuation.

  Before its one kernel call the fused program packs the image and flattens the two convolution weights:

  * the image [2048, 3, 32, 32] is brought channels-last, packed space-to-depth onto [2048, 256, 12] (row 16·r + s is
    the 2×2 pixel block (r, s)), extended by one zero row, read through four windows of 240 rows at the row offsets
    0, 1, 16, 17 (the four shift groups of a 3×3 window on the packed grid) laid side by side along the channel axis
    ([2048, 240, 48]), zero-padded to [2048, 256, 64], and its rows re-ordered parity-major: row
    ((pr·2 + pc)·8 + r2)·8 + s2 of the result is grid cell (2·r2 + pr, 2·s2 + pc);
  * the first convolution weight [4, 12, 128] is flattened to [48, 128] and padded with sixteen zero rows;
  * the second convolution weight [4, 128, 256] is flattened to [512, 256].

  Each is stated against the closed forms of `Cert.Spec`, the other arguments being left as they were.
-/
import proofs.«126833_g2000003154481155_pallasbulk_2_29_alg».proof.Proof.Gen.KernelIdeal.Launch
import proofs.«126833_g2000003154481155_pallasbulk_2_29_alg».proof.Proof.Spec
import proofs.«126833_g2000003154481155_pallasbulk_2_29_alg».proof.Proof.LibSpaceToDepth
import proofs.«126833_g2000003154481155_pallasbulk_2_29_alg».proof.Proof.LibPad
import Idealize.ShloMosaic.Lib.Pipeline.Value
import Idealize.ShloMosaic.Lib.ValueIdx
import Idealize.ShloMosaic.Lib.ValueIdxRank6
import Idealize.ShloMosaic.Lib.StableHlo.Run
import Idealize.ShloMosaic.PureOps.Ideal.Laws

noncomputable section

namespace Cert.KernelIdeal.HostVal

open Idealize.ShloMosaic Idealize.ShloMosaic.TcCoe Idealize.ShloMosaic.ValueIdx Idealize.SL.Sem
open Idealize.ShloMosaic.StableHlo
open Cert.KernelIdeal Cert.KernelIdeal.Gen

variable (Wb : Valuation τ sig (Elt Ideal))

/-- The valuation after the five host stretches. -/
abbrev WK : Valuation τ sig (Elt Ideal) :=
  StableHlo.after (hostOps0_4 (F := Ideal)) (StableHlo.after (hostOps0_3 (F := Ideal))
    (StableHlo.after (hostOps0_2 (F := Ideal)) (StableHlo.after (hostOps0_1 (F := Ideal))
      (StableHlo.after (hostOps0 (F := Ideal)) Wb))))

/-! ## The two convolution weights -/

/-- The second convolution weight, flattened: row K = 128·g + k is tap k of shift group g. -/
theorem v18_apply (K : Fin 512) (col : Fin 256) :
    (WK Wb (Proc.devRef .tc main_v18) : S512x256.Idx → EReal) (ix2 K col)
      = Cert.Spec.at3 (Wb (Proc.devRef .tc main_arg2) : S4x128x256.Idx → EReal) (K.val / 128) (K.val % 128) col.val := by
  have e : (WK Wb (Proc.devRef .tc main_v18) : S512x256.Idx → EReal)
      = shapeCast S512x256 (Wb (Proc.devRef .tc main_arg2) : S4x128x256.Idx → EReal) shapeCasts_S4x128x256_S512x256 := by
    dsimp only [WK, hostOps0, hostOps0_1, hostOps0_2, hostOps0_3, hostOps0_4]
    after_results
    rfl
  rw [e]
  have hK := K.isLt
  have h1 : K.val / 128 < 4 := by omega
  have h2 : K.val % 128 < 128 := Nat.mod_lt _ (by norm_num)
  rw [Cert.Spec.at3_of_lt _ h1 h2 col.isLt]
  refine shapeCast_apply (s := S4x128x256) (t := S512x256) _ _ _ _ ?_
  rw [Shape.rowMajor_val_three, Shape.rowMajor_val_two]
  show (K.val / 128 * 128 + K.val % 128) * 256 + col.val = K.val * 256 + col.val
  omega

/-- The padding value: the integer zero converted is zero. -/
theorem sitofp_zero_apply (i : S_.Idx) : (sitofp (F := Ideal) .bf16 (constantI S_ 32 0#32) : S_.Idx → EReal) i = 0 := by
  show (((0#32 : BitVec 32).toInt : ℝ) : EReal) = 0
  simp

/-- The first convolution weight after the host stretches, as the operations' term. -/
theorem v17_term :
    (WK Wb (Proc.devRef .tc main_v17) : S64x128.Idx → EReal)
      = pad S64x128 ![0, 0] ![16, 0] ![0, 0]
          (shapeCast S48x128 (Wb (Proc.devRef .tc main_arg0) : S4x12x128.Idx → EReal) shapeCasts_S4x12x128_S48x128)
          (sitofp (F := Ideal) .bf16 (constantI S_ 32 0#32)) pads_S48x128_S64x128_0160_000 h_S_ := by
  dsimp only [WK, hostOps0, hostOps0_1, hostOps0_2, hostOps0_3, hostOps0_4]
  after_results
  rfl

/-- The first convolution weight, flattened (row kk = 12·g + k is tap k of shift group g) and padded with sixteen
    zero rows. -/
theorem v17_apply (kk : Fin 64) (col : Fin 128) :
    (WK Wb (Proc.devRef .tc main_v17) : S64x128.Idx → EReal) (ix2 kk col)
      = if kk.val < 48 then Cert.Spec.at3 (Wb (Proc.devRef .tc main_arg0) : S4x12x128.Idx → EReal) (kk.val / 12) (kk.val % 12) col.val else 0 := by
  rw [v17_term]
  by_cases hk : kk.val < 48
  · rw [if_pos hk]
    have h1 : kk.val / 12 < 4 := by omega
    have h2 : kk.val % 12 < 12 := Nat.mod_lt _ (by norm_num)
    rw [Cert.Spec.at3_of_lt _ h1 h2 col.isLt]
    refine (Cert.LibPad.pad_apply_in (s := S48x128) (t := S64x128) _ _ _ _ _ _ _ (fun a => match a with | ⟨0, _⟩ => rfl | ⟨1, _⟩ => rfl)
      (fun a => match a with | ⟨0, _⟩ => rfl | ⟨1, _⟩ => rfl) (ix2 kk col) (ix2 ⟨kk.val, hk⟩ col)
      (fun a => match a with | ⟨0, _⟩ => rfl | ⟨1, _⟩ => rfl)).trans ?_
    refine shapeCast_apply (s := S4x12x128) (t := S48x128) _ _ _ _ ?_
    rw [Shape.rowMajor_val_three, Shape.rowMajor_val_two]
    show (kk.val / 12 * 12 + kk.val % 12) * 128 + col.val = kk.val * 128 + col.val
    omega
  · rw [if_neg hk]
    refine (Cert.LibPad.pad_apply_out (s := S48x128) (t := S64x128) _ _ _ _ _ _ _ (fun a => match a with | ⟨0, _⟩ => rfl | ⟨1, _⟩ => rfl)
      (fun a => match a with | ⟨0, _⟩ => rfl | ⟨1, _⟩ => rfl) (ix2 kk col) ⟨0, by decide⟩ (by show 48 ≤ kk.val; omega)).trans ?_
    exact sitofp_zero_apply _

/-! ## The arguments no host operation writes -/

theorem keep_arg1 : WK Wb (Proc.devRef .tc main_arg1) = Wb (Proc.devRef .tc main_arg1) := by
  dsimp only [WK, hostOps0, hostOps0_1, hostOps0_2, hostOps0_3, hostOps0_4]
  after_results

theorem keep_arg3 : WK Wb (Proc.devRef .tc main_arg3) = Wb (Proc.devRef .tc main_arg3) := by
  dsimp only [WK, hostOps0, hostOps0_1, hostOps0_2, hostOps0_3, hostOps0_4]
  after_results

theorem keep_arg4 : WK Wb (Proc.devRef .tc main_arg4) = Wb (Proc.devRef .tc main_arg4) := by
  dsimp only [WK, hostOps0, hostOps0_1, hostOps0_2, hostOps0_3, hostOps0_4]
  after_results

theorem keep_arg5 : WK Wb (Proc.devRef .tc main_arg5) = Wb (Proc.devRef .tc main_arg5) := by
  dsimp only [WK, hostOps0, hostOps0_1, hostOps0_2, hostOps0_3, hostOps0_4]
  after_results

theorem keep_arg6 : WK Wb (Proc.devRef .tc main_arg6) = Wb (Proc.devRef .tc main_arg6) := by
  dsimp only [WK, hostOps0, hostOps0_1, hostOps0_2, hostOps0_3, hostOps0_4]
  after_results

theorem keep_arg7 : WK Wb (Proc.devRef .tc main_arg7) = Wb (Proc.devRef .tc main_arg7) := by
  dsimp only [WK, hostOps0, hostOps0_1, hostOps0_2, hostOps0_3, hostOps0_4]
  after_results

theorem keep_arg8 : WK Wb (Proc.devRef .tc main_arg8) = Wb (Proc.devRef .tc main_arg8) := by
  dsimp only [WK, hostOps0, hostOps0_1, hostOps0_2, hostOps0_3, hostOps0_4]
  after_results

theorem keep_arg9 : WK Wb (Proc.devRef .tc main_arg9) = Wb (Proc.devRef .tc main_arg9) := by
  dsimp only [WK, hostOps0, hostOps0_1, hostOps0_2, hostOps0_3, hostOps0_4]
  after_results

/-! ## The packed image -/

/-- The packed, parity-major, zero-padded window rows the kernel contracts: row R = ((pr·2 + pc)·8 + r2)·8 + s2 is grid
    cell (i, j) = (2·r2 + pr, 2·s2 + pc); entry kk = g·12 + k is tap k of shift group g. -/
def xk (X : ℕ → ℕ → ℕ → ℕ → EReal) (n R kk : ℕ) : EReal :=
  if 16 * (2 * (R % 64 / 8) + R / 128) + (2 * (R % 8) + R / 64 % 2) < 240 ∧ kk < 48 then
    Cert.Spec.xs1 X n (16 * (2 * (R % 64 / 8) + R / 128) + (2 * (R % 8) + R / 64 % 2) + Cert.Spec.st1 (kk / 12)) (kk % 12)
  else 0

/-- The zero constant is zero. -/
theorem ofBits_bf16_zero : Ideal.ofBits .bf16 0x0000#16 = 0 := by
  simp [Ideal.ofBits, Ideal.ieee]

/-- The image brought channels-last, packed space-to-depth and extended by one zero row, at row R and packed channel
    ch: the closed form `Spec.xs1`. -/
theorem packed_apply (x : S2048x3x32x32.Idx → EReal) (n : Fin 2048) (R : Fin 257) (ch : Fin 12) :
    concatenate S2048x257x12 1
        [⟨S2048x256x12, shapeCast S2048x256x12 (transpose S2048x16x16x2x2x3 [0, 1, 3, 2, 4, 5]
            (shapeCast S2048x16x2x16x2x3 (transpose S2048x32x32x3 [0, 2, 3, 1] (truncf (F := Ideal) .bf16 x bitsLt_bf16_f32)
              transposes_S2048x3x32x32_S2048x32x32x3_0_2_3_1) shapeCasts_S2048x32x32x3_S2048x16x2x16x2x3)
            transposes_S2048x16x2x16x2x3_S2048x16x16x2x2x3_0_1_3_2_4_5) shapeCasts_S2048x16x16x2x2x3_S2048x256x12⟩,
         ⟨S2048x1x12, broadcastInDim S2048x1x12 ![] bcast_S_S2048x1x12 (constant (F := Ideal) S_ .bf16 0x0000#16)⟩]
        concatenates_S2048x256x12_S2048x1x12_S2048x257x12_d1 (ix3 n R ch)
      = Cert.Spec.xs1 (Cert.Spec.at4 x) n.val R.val ch.val := by
  have hch := ch.isLt
  unfold Cert.Spec.xs1
  by_cases hR : R.val < 256
  · rw [if_pos hR]
    have h3 : ch.val % 3 < 3 := Nat.mod_lt _ (by norm_num)
    have hi : 2 * (R.val / 16) + ch.val / 6 < 32 := by omega
    have hj : 2 * (R.val % 16) + ch.val / 3 % 2 < 32 := by omega
    rw [Cert.Spec.at4_of_lt _ n.isLt h3 hi hj]
    refine (concatenate_pair_apply_left (t := S2048x257x12) (s₁ := S2048x256x12) (s₂ := S2048x1x12) 1 _ _ _ (ix3 n R ch) rfl (ix3 n (⟨R.val, hR⟩ : Fin 256) ch) (fun a => match a with | ⟨0, _⟩ => rfl | ⟨1, _⟩ => rfl | ⟨2, _⟩ => rfl)).trans ?_
    refine (Cert.LibSpaceToDepth.pack3_apply (n := 2048) (A := 32) (B := 32) (a := 16) (b := 16) (c := 3) (M := 256) (C := 12)
      (by norm_num) (by norm_num) (by norm_num) (by norm_num) _ _ _ _ n ⟨R.val, hR⟩ ch
      ⟨R.val / 16, by omega⟩ ⟨R.val % 16, by omega⟩ ⟨ch.val / 6, by omega⟩ ⟨ch.val / 3 % 2, by omega⟩ ⟨ch.val % 3, h3⟩
      ⟨2 * (R.val / 16) + ch.val / 6, hi⟩ ⟨2 * (R.val % 16) + ch.val / 3 % 2, hj⟩
      (by show R.val = R.val / 16 * 16 + R.val % 16; omega)
      (by show ch.val = (ch.val / 6 * 2 + ch.val / 3 % 2) * 3 + ch.val % 3; omega) rfl rfl).trans ?_
    exact transpose_apply (s := S2048x3x32x32) (t := S2048x32x32x3) _ _ _ _
      (ix4 n ⟨ch.val % 3, h3⟩ ⟨2 * (R.val / 16) + ch.val / 6, hi⟩ ⟨2 * (R.val % 16) + ch.val / 3 % 2, hj⟩)
      (fun b => match b with | ⟨0, _⟩ => rfl | ⟨1, _⟩ => rfl | ⟨2, _⟩ => rfl | ⟨3, _⟩ => rfl)
  · rw [if_neg hR]
    have hR2 := R.isLt
    refine (concatenate_pair_apply_right (t := S2048x257x12) (s₁ := S2048x256x12) (s₂ := S2048x1x12) 1 _ _ _ (ix3 n R ch) rfl rfl (ix3 n (0 : Fin 1) ch)
      (fun b hb => match b, hb with | ⟨0, _⟩, _ => rfl | ⟨1, _⟩, hb => absurd rfl hb | ⟨2, _⟩, _ => rfl)
      (by show (0 : ℕ) + 256 = R.val; omega)).trans ?_
    refine (broadcastInDim_apply (s := S_) (t := S2048x1x12) _ _ _ _ (fun a => a.elim0) (fun a => a.elim0)).trans ?_
    exact ofBits_bf16_zero

/-- The four windows of 240 rows at the row offsets 0, 1, 16, 17, laid side by side along the channel axis: entry
    kk = 12·g + k of row R is entry k of row R + st1 g. -/
theorem windows_apply (y : S2048x257x12.Idx → EReal) (n : Fin 2048) (R : Fin 240) (kk : Fin 48)
    (hb : R.val + (16 * (kk.val / 12 / 2) + kk.val / 12 % 2) < 257) (hm : kk.val % 12 < 12) :
    concatenate S2048x240x48 2
        [⟨S2048x240x12, extractStridedSlice S2048x240x12 ![0, 0, 0] y slices_S2048x257x12_S2048x240x12_0_0_0⟩,
         ⟨S2048x240x12, extractStridedSlice S2048x240x12 ![0, 1, 0] y slices_S2048x257x12_S2048x240x12_0_1_0⟩,
         ⟨S2048x240x12, extractStridedSlice S2048x240x12 ![0, 16, 0] y slices_S2048x257x12_S2048x240x12_0_16_0⟩,
         ⟨S2048x240x12, extractStridedSlice S2048x240x12 ![0, 17, 0] y slices_S2048x257x12_S2048x240x12_0_17_0⟩]
        concatenates_S2048x240x12_S2048x240x12_S2048x240x12_S2048x240x12_S2048x240x48_d2 (ix3 n R kk)
      = y (ix3 n ⟨R.val + (16 * (kk.val / 12 / 2) + kk.val / 12 % 2), hb⟩ ⟨kk.val % 12, hm⟩) := by
  have hkk := kk.isLt
  have hg : kk.val / 12 = 0 ∨ kk.val / 12 = 1 ∨ kk.val / 12 = 2 ∨ kk.val / 12 = 3 := by omega
  rcases hg with hg | hg | hg | hg
  · refine (concatenate_apply_piece (t := S2048x240x48) 2
        [⟨S2048x240x12, extractStridedSlice S2048x240x12 ![0, 0, 0] y slices_S2048x257x12_S2048x240x12_0_0_0⟩,
         ⟨S2048x240x12, extractStridedSlice S2048x240x12 ![0, 1, 0] y slices_S2048x257x12_S2048x240x12_0_1_0⟩,
         ⟨S2048x240x12, extractStridedSlice S2048x240x12 ![0, 16, 0] y slices_S2048x257x12_S2048x240x12_0_16_0⟩,
         ⟨S2048x240x12, extractStridedSlice S2048x240x12 ![0, 17, 0] y slices_S2048x257x12_S2048x240x12_0_17_0⟩]
        concatenates_S2048x240x12_S2048x240x12_S2048x240x12_S2048x240x12_S2048x240x48_d2 (ix3 n R kk) 0 (by show (0 : ℕ) < 4; omega) S2048x240x12 _ rfl rfl 0 rfl
      (ix3 n R ⟨kk.val % 12, hm⟩)
      (fun b hb => match b, hb with | ⟨0, _⟩, _ => rfl | ⟨1, _⟩, _ => rfl | ⟨2, _⟩, hb => absurd rfl hb)
      (by show 0 + kk.val % 12 = kk.val; omega)).trans ?_
    exact extractStridedSlice_apply (s := S2048x257x12) (t := S2048x240x12) _ y _ _ _ (fun a => match a with
      | ⟨0, _⟩ => by show n.val = 0 + n.val; omega
      | ⟨1, _⟩ => by show R.val + (16 * (kk.val / 12 / 2) + kk.val / 12 % 2) = 0 + R.val; omega
      | ⟨2, _⟩ => by show kk.val % 12 = 0 + kk.val % 12; omega)
  · refine (concatenate_apply_piece (t := S2048x240x48) 2
        [⟨S2048x240x12, extractStridedSlice S2048x240x12 ![0, 0, 0] y slices_S2048x257x12_S2048x240x12_0_0_0⟩,
         ⟨S2048x240x12, extractStridedSlice S2048x240x12 ![0, 1, 0] y slices_S2048x257x12_S2048x240x12_0_1_0⟩,
         ⟨S2048x240x12, extractStridedSlice S2048x240x12 ![0, 16, 0] y slices_S2048x257x12_S2048x240x12_0_16_0⟩,
         ⟨S2048x240x12, extractStridedSlice S2048x240x12 ![0, 17, 0] y slices_S2048x257x12_S2048x240x12_0_17_0⟩]
        concatenates_S2048x240x12_S2048x240x12_S2048x240x12_S2048x240x12_S2048x240x48_d2 (ix3 n R kk) 1 (by show (1 : ℕ) < 4; omega) S2048x240x12 _ rfl rfl 12 rfl
      (ix3 n R ⟨kk.val % 12, hm⟩)
      (fun b hb => match b, hb with | ⟨0, _⟩, _ => rfl | ⟨1, _⟩, _ => rfl | ⟨2, _⟩, hb => absurd rfl hb)
      (by show 12 + kk.val % 12 = kk.val; omega)).trans ?_
    exact extractStridedSlice_apply (s := S2048x257x12) (t := S2048x240x12) _ y _ _ _ (fun a => match a with
      | ⟨0, _⟩ => by show n.val = 0 + n.val; omega
      | ⟨1, _⟩ => by show R.val + (16 * (kk.val / 12 / 2) + kk.val / 12 % 2) = 1 + R.val; omega
      | ⟨2, _⟩ => by show kk.val % 12 = 0 + kk.val % 12; omega)
  · refine (concatenate_apply_piece (t := S2048x240x48) 2
        [⟨S2048x240x12, extractStridedSlice S2048x240x12 ![0, 0, 0] y slices_S2048x257x12_S2048x240x12_0_0_0⟩,
         ⟨S2048x240x12, extractStridedSlice S2048x240x12 ![0, 1, 0] y slices_S2048x257x12_S2048x240x12_0_1_0⟩,
         ⟨S2048x240x12, extractStridedSlice S2048x240x12 ![0, 16, 0] y slices_S2048x257x12_S2048x240x12_0_16_0⟩,
         ⟨S2048x240x12, extractStridedSlice S2048x240x12 ![0, 17, 0] y slices_S2048x257x12_S2048x240x12_0_17_0⟩]
        concatenates_S2048x240x12_S2048x240x12_S2048x240x12_S2048x240x12_S2048x240x48_d2 (ix3 n R kk) 2 (by show (2 : ℕ) < 4; omega) S2048x240x12 _ rfl rfl 24 rfl
      (ix3 n R ⟨kk.val % 12, hm⟩)
      (fun b hb => match b, hb with | ⟨0, _⟩, _ => rfl | ⟨1, _⟩, _ => rfl | ⟨2, _⟩, hb => absurd rfl hb)
      (by show 24 + kk.val % 12 = kk.val; omega)).trans ?_
    exact extractStridedSlice_apply (s := S2048x257x12) (t := S2048x240x12) _ y _ _ _ (fun a => match a with
      | ⟨0, _⟩ => by show n.val = 0 + n.val; omega
      | ⟨1, _⟩ => by show R.val + (16 * (kk.val / 12 / 2) + kk.val / 12 % 2) = 16 + R.val; omega
      | ⟨2, _⟩ => by show kk.val % 12 = 0 + kk.val % 12; omega)
  · refine (concatenate_apply_piece (t := S2048x240x48) 2
        [⟨S2048x240x12, extractStridedSlice S2048x240x12 ![0, 0, 0] y slices_S2048x257x12_S2048x240x12_0_0_0⟩,
         ⟨S2048x240x12, extractStridedSlice S2048x240x12 ![0, 1, 0] y slices_S2048x257x12_S2048x240x12_0_1_0⟩,
         ⟨S2048x240x12, extractStridedSlice S2048x240x12 ![0, 16, 0] y slices_S2048x257x12_S2048x240x12_0_16_0⟩,
         ⟨S2048x240x12, extractStridedSlice S2048x240x12 ![0, 17, 0] y slices_S2048x257x12_S2048x240x12_0_17_0⟩]
        concatenates_S2048x240x12_S2048x240x12_S2048x240x12_S2048x240x12_S2048x240x48_d2 (ix3 n R kk) 3 (by show (3 : ℕ) < 4; omega) S2048x240x12 _ rfl rfl 36 rfl
      (ix3 n R ⟨kk.val % 12, hm⟩)
      (fun b hb => match b, hb with | ⟨0, _⟩, _ => rfl | ⟨1, _⟩, _ => rfl | ⟨2, _⟩, hb => absurd rfl hb)
      (by show 36 + kk.val % 12 = kk.val; omega)).trans ?_
    exact extractStridedSlice_apply (s := S2048x257x12) (t := S2048x240x12) _ y _ _ _ (fun a => match a with
      | ⟨0, _⟩ => by show n.val = 0 + n.val; omega
      | ⟨1, _⟩ => by show R.val + (16 * (kk.val / 12 / 2) + kk.val / 12 % 2) = 17 + R.val; omega
      | ⟨2, _⟩ => by show kk.val % 12 = 0 + kk.val % 12; omega)

/-- The zero padding to 256 rows of 64 entries. -/
theorem padded_apply (y : S2048x240x48.Idx → EReal) (n : Fin 2048) (R : Fin 256) (kk : Fin 64) :
    pad S2048x256x64 ![0, 0, 0] ![0, 16, 16] ![0, 0, 0] y (sitofp (F := Ideal) .bf16 (constantI S_ 32 0#32))
        pads_S2048x240x48_S2048x256x64_000_0160_0160 h_S_ (ix3 n R kk)
      = if h : R.val < 240 ∧ kk.val < 48 then y (ix3 n ⟨R.val, h.1⟩ ⟨kk.val, h.2⟩) else 0 := by
  by_cases h : R.val < 240 ∧ kk.val < 48
  · rw [dif_pos h]
    exact Cert.LibPad.pad_apply_in (s := S2048x240x48) (t := S2048x256x64) _ _ _ _ _ _ _ (fun a => match a with | ⟨0, _⟩ => rfl | ⟨1, _⟩ => rfl | ⟨2, _⟩ => rfl) (fun a => match a with | ⟨0, _⟩ => rfl | ⟨1, _⟩ => rfl | ⟨2, _⟩ => rfl)
      (ix3 n R kk) (ix3 n ⟨R.val, h.1⟩ ⟨kk.val, h.2⟩) (fun a => match a with | ⟨0, _⟩ => rfl | ⟨1, _⟩ => rfl | ⟨2, _⟩ => rfl)
  · rw [dif_neg h]
    by_cases hR : R.val < 240
    · exact (Cert.LibPad.pad_apply_out (s := S2048x240x48) (t := S2048x256x64) _ _ _ _ _ _ _ (fun a => match a with | ⟨0, _⟩ => rfl | ⟨1, _⟩ => rfl | ⟨2, _⟩ => rfl) (fun a => match a with | ⟨0, _⟩ => rfl | ⟨1, _⟩ => rfl | ⟨2, _⟩ => rfl)
        (ix3 n R kk) ⟨2, by decide⟩ (by show 48 ≤ kk.val; omega)).trans (sitofp_zero_apply _)
    · exact (Cert.LibPad.pad_apply_out (s := S2048x240x48) (t := S2048x256x64) _ _ _ _ _ _ _ (fun a => match a with | ⟨0, _⟩ => rfl | ⟨1, _⟩ => rfl | ⟨2, _⟩ => rfl) (fun a => match a with | ⟨0, _⟩ => rfl | ⟨1, _⟩ => rfl | ⟨2, _⟩ => rfl)
        (ix3 n R kk) ⟨1, by decide⟩ (by show 240 ≤ R.val; omega)).trans (sitofp_zero_apply _)

/-- The parity-major re-ordering of the 256 rows, read as a 16 × 16 grid of cells. -/
theorem parity_apply (y : S2048x256x64.Idx → EReal) (n : Fin 2048) (R : Fin 256) (kk : Fin 64)
    (hb : 16 * (2 * (R.val % 64 / 8) + R.val / 128) + (2 * (R.val % 8) + R.val / 64 % 2) < 256) :
    shapeCast S2048x256x64 (transpose S2048x2x2x8x8x64 [0, 2, 4, 1, 3, 5]
        (shapeCast S2048x8x2x8x2x64 y shapeCasts_S2048x256x64_S2048x8x2x8x2x64)
        transposes_S2048x8x2x8x2x64_S2048x2x2x8x8x64_0_2_4_1_3_5) shapeCasts_S2048x2x2x8x8x64_S2048x256x64 (ix3 n R kk)
      = y (ix3 n ⟨16 * (2 * (R.val % 64 / 8) + R.val / 128) + (2 * (R.val % 8) + R.val / 64 % 2), hb⟩ kk) := by
  have hR := R.isLt
  exact Cert.LibSpaceToDepth.parityMajor_apply (n := 2048) (a := 8) (b := 8) (M := 256) (K := 64) (by norm_num) y _ _ _ n R
    ⟨16 * (2 * (R.val % 64 / 8) + R.val / 128) + (2 * (R.val % 8) + R.val / 64 % 2), hb⟩ kk
    ⟨R.val / 128, by omega⟩ ⟨R.val / 64 % 2, by omega⟩ ⟨R.val % 64 / 8, by omega⟩ ⟨R.val % 8, by omega⟩
    (by show R.val = ((R.val / 128 * 2 + R.val / 64 % 2) * 8 + R.val % 64 / 8) * 8 + R.val % 8; omega)
    (by show 16 * (2 * (R.val % 64 / 8) + R.val / 128) + (2 * (R.val % 8) + R.val / 64 % 2)
          = ((R.val % 64 / 8 * 2 + R.val / 128) * 8 + R.val % 8) * 2 + R.val / 64 % 2; omega)

/-- The image after packing and the appended zero row, as the operations' term. -/
abbrev packed (x : S2048x3x32x32.Idx → EReal) : S2048x257x12.Idx → EReal :=
  (concatenate S2048x257x12 1
        [⟨S2048x256x12, shapeCast S2048x256x12 (transpose S2048x16x16x2x2x3 [0, 1, 3, 2, 4, 5]
            (shapeCast S2048x16x2x16x2x3 (transpose S2048x32x32x3 [0, 2, 3, 1] (truncf (F := Ideal) .bf16 x bitsLt_bf16_f32)
              transposes_S2048x3x32x32_S2048x32x32x3_0_2_3_1) shapeCasts_S2048x32x32x3_S2048x16x2x16x2x3)
            transposes_S2048x16x2x16x2x3_S2048x16x16x2x2x3_0_1_3_2_4_5) shapeCasts_S2048x16x16x2x2x3_S2048x256x12⟩,
         ⟨S2048x1x12, broadcastInDim S2048x1x12 ![] bcast_S_S2048x1x12 (constant (F := Ideal) S_ .bf16 0x0000#16)⟩]
        concatenates_S2048x256x12_S2048x1x12_S2048x257x12_d1)

/-- The four windows side by side, as the operations' term. -/
abbrev windows (y : S2048x257x12.Idx → EReal) : S2048x240x48.Idx → EReal :=
  concatenate S2048x240x48 2
        [⟨S2048x240x12, extractStridedSlice S2048x240x12 ![0, 0, 0] y slices_S2048x257x12_S2048x240x12_0_0_0⟩,
         ⟨S2048x240x12, extractStridedSlice S2048x240x12 ![0, 1, 0] y slices_S2048x257x12_S2048x240x12_0_1_0⟩,
         ⟨S2048x240x12, extractStridedSlice S2048x240x12 ![0, 16, 0] y slices_S2048x257x12_S2048x240x12_0_16_0⟩,
         ⟨S2048x240x12, extractStridedSlice S2048x240x12 ![0, 17, 0] y slices_S2048x257x12_S2048x240x12_0_17_0⟩]
        concatenates_S2048x240x12_S2048x240x12_S2048x240x12_S2048x240x12_S2048x240x48_d2

/-- The windows after the first host stretch, as the operations' term. -/
theorem v11_term :
    (StableHlo.after (hostOps0 (F := Ideal)) Wb (Proc.devRef .tc main_v11) : S2048x240x48.Idx → EReal)
      = windows (packed (Wb (Proc.devRef .tc main_arg10) : S2048x3x32x32.Idx → EReal)) := by
  dsimp only [hostOps0]
  after_results
  rfl

/-- The integer zero the padding value is converted from, after the first host stretch. -/
theorem c_term :
    (StableHlo.after (hostOps0 (F := Ideal)) Wb (Proc.devRef .tc main_c) : IVec S_ 32) = constantI S_ 32 0#32 := by
  dsimp only [hostOps0]
  after_results

/-- The padding and the parity-major re-ordering of the later host stretches, over any contents of the windows'
    buffer. -/
theorem v15_of_v11 (V : Valuation τ sig (Elt Ideal)) :
    (StableHlo.after (hostOps0_4 (F := Ideal)) (StableHlo.after (hostOps0_3 (F := Ideal))
      (StableHlo.after (hostOps0_2 (F := Ideal)) (StableHlo.after (hostOps0_1 (F := Ideal)) V)))
        (Proc.devRef .tc main_v15) : S2048x256x64.Idx → EReal)
      = shapeCast S2048x256x64 (transpose S2048x2x2x8x8x64 [0, 2, 4, 1, 3, 5]
          (shapeCast S2048x8x2x8x2x64
            (pad S2048x256x64 ![0, 0, 0] ![0, 16, 16] ![0, 0, 0] (V (Proc.devRef .tc main_v11) : S2048x240x48.Idx → EReal)
              (sitofp (F := Ideal) .bf16 (V (Proc.devRef .tc main_c) : IVec S_ 32)) pads_S2048x240x48_S2048x256x64_000_0160_0160 h_S_)
            shapeCasts_S2048x256x64_S2048x8x2x8x2x64)
          transposes_S2048x8x2x8x2x64_S2048x2x2x8x8x64_0_2_4_1_3_5) shapeCasts_S2048x2x2x8x8x64_S2048x256x64 := by
  dsimp only [hostOps0_1, hostOps0_2, hostOps0_3, hostOps0_4]
  after_results
  rfl

/-- The packed image after the host stretches, as the operations' term. -/
theorem v15_term :
    (WK Wb (Proc.devRef .tc main_v15) : S2048x256x64.Idx → EReal)
      = shapeCast S2048x256x64 (transpose S2048x2x2x8x8x64 [0, 2, 4, 1, 3, 5]
          (shapeCast S2048x8x2x8x2x64
            (pad S2048x256x64 ![0, 0, 0] ![0, 16, 16] ![0, 0, 0] (windows (packed (Wb (Proc.devRef .tc main_arg10) : S2048x3x32x32.Idx → EReal)))
              (sitofp (F := Ideal) .bf16 (constantI S_ 32 0#32)) pads_S2048x240x48_S2048x256x64_000_0160_0160 h_S_)
            shapeCasts_S2048x256x64_S2048x8x2x8x2x64)
          transposes_S2048x8x2x8x2x64_S2048x2x2x8x8x64_0_2_4_1_3_5) shapeCasts_S2048x2x2x8x8x64_S2048x256x64 := by
  show (StableHlo.after (hostOps0_4 (F := Ideal)) (StableHlo.after (hostOps0_3 (F := Ideal))
      (StableHlo.after (hostOps0_2 (F := Ideal)) (StableHlo.after (hostOps0_1 (F := Ideal)) (StableHlo.after (hostOps0 (F := Ideal)) Wb))))
        (Proc.devRef .tc main_v15) : S2048x256x64.Idx → EReal) = _
  rw [v15_of_v11 (StableHlo.after (hostOps0 (F := Ideal)) Wb), v11_term, c_term]
/-- The packed image the kernel reads: the closed form `xk`. -/
theorem v15_apply (n : Fin 2048) (R : Fin 256) (kk : Fin 64) :
    (WK Wb (Proc.devRef .tc main_v15) : S2048x256x64.Idx → EReal) (ix3 n R kk)
      = xk (Cert.Spec.at4 (Wb (Proc.devRef .tc main_arg10) : S2048x3x32x32.Idx → EReal)) n.val R.val kk.val := by
  have hR := R.isLt
  have hkk := kk.isLt
  have hb : 16 * (2 * (R.val % 64 / 8) + R.val / 128) + (2 * (R.val % 8) + R.val / 64 % 2) < 256 := by omega
  rw [v15_term]
  refine (parity_apply _ n R kk hb).trans ?_
  refine (padded_apply _ n ⟨_, hb⟩ kk).trans ?_
  unfold xk
  by_cases h : 16 * (2 * (R.val % 64 / 8) + R.val / 128) + (2 * (R.val % 8) + R.val / 64 % 2) < 240 ∧ kk.val < 48
  · rw [dif_pos h, if_pos h]
    have hm : kk.val % 12 < 12 := Nat.mod_lt _ (by norm_num)
    have hw : 16 * (2 * (R.val % 64 / 8) + R.val / 128) + (2 * (R.val % 8) + R.val / 64 % 2)
        + (16 * (kk.val / 12 / 2) + kk.val / 12 % 2) < 257 := by omega
    refine (windows_apply _ n ⟨_, h.1⟩ ⟨kk.val, h.2⟩ hw hm).trans ?_
    exact packed_apply _ n ⟨_, hw⟩ ⟨kk.val % 12, hm⟩
  · rw [dif_neg h, if_neg h]

end Cert.KernelIdeal.HostVal

end
-- ==== Proof.KCompose.lean ====
/- The fused program's two results, entry by entry, as the network of the eleven argument arrays (at the ideal instance).

   After the region, row `n` of each result array is what the body leaves at point `t = n / 128`, row `b = n % 128`, of that
   point's input blocks. Those blocks are reads of what the host stretches prepared: window 0's block is rows
   `128 · t …` of the packed, parity-major image (`SpecK.xk`), windows 1 and 3 are the stacked weights (`SpecK.kw1`,
   `SpecK.kw2`), the others are argument arrays untouched. So each of the four first-layer chunks is the arrangement's
   first layer on one parity block (`SpecK.kA1`), the flattened vector is the arrangement's `SpecK.kflat` — which is
   the specification's `Spec.flat` of its second layer — and the dense layers, which read one row only, give
   `Spec.netH2` and `Spec.netOut` at row `n`. -/
import proofs.«126833_g2000003154481155_pallasbulk_2_29_alg».proof.Proof.KIRegion
import proofs.«126833_g2000003154481155_pallasbulk_2_29_alg».proof.Proof.KPay1
import proofs.«126833_g2000003154481155_pallasbulk_2_29_alg».proof.Proof.KPay2
import proofs.«126833_g2000003154481155_pallasbulk_2_29_alg».proof.Proof.KAlgebra
import proofs.«126833_g2000003154481155_pallasbulk_2_29_alg».proof.Proof.KHost
import proofs.«126833_g2000003154481155_pallasbulk_2_29_alg».proof.Proof.SpecNet
import proofs.«126833_g2000003154481155_pallasbulk_2_29_alg».proof.Proof.LibFc
import proofs.«126833_g2000003154481155_pallasbulk_2_29_alg».proof.Proof.LibBlock

set_option maxRecDepth 16384

noncomputable section

open scoped BigOperators

namespace Cert.KernelIdeal.Compose

open Cert.KernelIdeal.Gen Cert.KernelIdeal.Hand
open Idealize.ShloMosaic Idealize.ShloMosaic.TcCoe Idealize.ShloMosaic.ValueIdx
open Idealize.SL Idealize.SL.Sem
open Cert.Spec Cert.SpecK

/-! ## Over variable blocks -/

section Core
variable (a0 : S4x12x128.Idx → EReal) (a1 : S1x32.Idx → EReal) (a2 : S4x128x256.Idx → EReal) (a3 : S1x64.Idx → EReal)
  (a4 : S2304x128.Idx → EReal) (a5 : S1x128.Idx → EReal) (a6 : S128x84.Idx → EReal) (a7 : S1x84.Idx → EReal)
  (a8 : S84x10.Idx → EReal) (a9 : S1x10.Idx → EReal) (a10 : S2048x3x32x32.Idx → EReal)
  (n : Fin 2048) (b : Fin 128)
  (x0 : Vec Ideal S128x256x64 .bf16) (x1 : Vec Ideal S64x128 .bf16) (x3 : Vec Ideal S512x256 .bf16)

/-- A block that reads the stacked first-layer weights inside its extents reads them everywhere: both vanish outside. -/
theorem at2_kw1 (H1 : ∀ (kk : Fin 64) (col : Fin 128), x1 (ix2 kk col) = kw1 (at3 a0) kk.val col.val) :
    at2 (x1 : S64x128.Idx → EReal) = kw1 (at3 a0) := by
  funext kk col
  by_cases h : kk < 64 ∧ col < 128
  · rw [at2_of_lt _ h.1 h.2]; exact H1 ⟨kk, h.1⟩ ⟨col, h.2⟩
  · have e : at2 (x1 : S64x128.Idx → EReal) kk col = 0 := by unfold Cert.Spec.at2; rw [dif_neg h]
    rw [e]
    unfold Cert.SpecK.kw1
    by_cases h48 : kk < 48
    · rw [if_pos h48]
      unfold Cert.Spec.at3
      rw [dif_neg (fun h' => h ⟨by omega, h'.2.2⟩)]
    · rw [if_neg h48]

/-- The same for the stacked second-layer weights. -/
theorem at2_kw2 (H3 : ∀ (K : Fin 512) (col : Fin 256), x3 (ix2 K col) = kw2 (at3 a2) K.val col.val) :
    at2 (x3 : S512x256.Idx → EReal) = kw2 (at3 a2) := by
  funext K col
  by_cases h : K < 512 ∧ col < 256
  · rw [at2_of_lt _ h.1 h.2]; exact H3 ⟨K, h.1⟩ ⟨col, h.2⟩
  · have e : at2 (x3 : S512x256.Idx → EReal) K col = 0 := by unfold Cert.Spec.at2; rw [dif_neg h]
    rw [e]
    unfold Cert.SpecK.kw2 Cert.Spec.at3
    rw [dif_neg (fun h' => h ⟨by have := h'.1; omega, h'.2.2⟩)]

variable (H0 : ∀ (R : Fin 256) (kk : Fin 64), x0 (ix3 b R kk) = xk (at4 a10) n.val R.val kk.val)
  (H1 : ∀ (kk : Fin 64) (col : Fin 128), x1 (ix2 kk col) = kw1 (at3 a0) kk.val col.val)
  (H3 : ∀ (K : Fin 512) (col : Fin 256), x3 (ix2 K col) = kw2 (at3 a2) K.val col.val)

include H0 H1 in
/-- Chunk `q` of the first layer at `(b, rr, o)`: the arrangement's first layer on parity block `q` of image `n`. -/
theorem chunk_eq (q c : ℕ) (hc : c = 64 * q) (hq : q < 4)
    (inb : ∀ a, (![0, c, 0] : Fin 3 → Nat) a + S128x64x64.size a ≤ S128x256x64.size a) (rr : Fin 64) (o : Fin 32) :
    k0_pay3 (F := Ideal) (View.ld x0 (Rect.unit (s := S128x256x64) ![0, c, 0] S128x64x64.size inb)) (View.ld x1 r0_1) (View.ld a1 r0_2) (ix3 b rr o)
      = kA1 (at4 a10) (at3 a0) (fun o' => at2 a1 0 o') n.val q rr.val o.val := by
  rw [Cert.KernelIdeal.PayVal.chunk_of_block x0 x1 a1 q c hc hq inb b rr o, at2_kw1 a0 x1 H1]
  have key : ∀ col, kconv 64 (fun R kk => at3 (x0 : S128x256x64.Idx → EReal) b.val (64 * q + R) kk) (kw1 (at3 a0)) rr.val col
      = kconv 64 (fun R kk => xk (at4 a10) n.val (64 * q + R) kk) (kw1 (at3 a0)) rr.val col := fun col =>
    Cert.KernelIdeal.PayVal.kconv_congr 64 _ _ _ _ _ fun kk hkk => by
      have hrr := rr.isLt
      show at3 (x0 : S128x256x64.Idx → EReal) b.val (64 * q + rr.val) kk = xk (at4 a10) n.val (64 * q + rr.val) kk
      rw [at3_of_lt _ b.isLt (by omega : 64 * q + rr.val < 256) hkk]
      exact H0 ⟨64 * q + rr.val, by omega⟩ ⟨kk, hkk⟩
  unfold Cert.SpecK.kA1 Cert.Spec.pool
  rw [key, key, key, key]

include H0 H1 H3 in
/-- The flattened vector of the four chunks at `(b, K)`: the specification's flattened second layer at row `n`. -/
theorem flat_eq (K : Fin 2304) :
    Cert.KernelIdeal.PayVal2.flatv
        (k0_pay3 (F := Ideal) (View.ld x0 r0_0) (View.ld x1 r0_1) (View.ld a1 r0_2))
        (k0_pay3 (F := Ideal) (View.ld x0 r0_3) (View.ld x1 r0_1) (View.ld a1 r0_2))
        (k0_pay3 (F := Ideal) (View.ld x0 r0_4) (View.ld x1 r0_1) (View.ld a1 r0_2))
        (k0_pay7 (F := Ideal) (View.ld x0 r0_5) (View.ld x1 r0_1) (View.ld a1 r0_2)) x3 a3 (ix2 b K)
      = flat (A2 (at4 a10) (at3 a0) (fun o' => at2 a1 0 o') (at3 a2) (fun o' => at2 a3 0 o')) n.val K.val := by
  refine (Cert.KernelIdeal.PayVal2.flat_apply _ _ _ _ x3 a3 b
    (fun q rr o => kA1 (at4 a10) (at3 a0) (fun o' => at2 a1 0 o') n.val q rr o)
    (fun rr o => chunk_eq a0 a1 a10 n b x0 x1 H0 H1 0 0 rfl (by omega) inb_S128x256x64_S128x64x64_0_0_0 rr o)
    (fun rr o => chunk_eq a0 a1 a10 n b x0 x1 H0 H1 1 64 rfl (by omega) inb_S128x256x64_S128x64x64_0_64_0 rr o)
    (fun rr o => chunk_eq a0 a1 a10 n b x0 x1 H0 H1 2 128 rfl (by omega) inb_S128x256x64_S128x64x64_0_128_0 rr o)
    (fun rr o => (Cert.KernelIdeal.PayVal.pay7_eq _ _ _ _).trans
      (chunk_eq a0 a1 a10 n b x0 x1 H0 H1 3 192 rfl (by omega) inb_S128x256x64_S128x64x64_0_192_0 rr o)) K).trans ?_
  rw [at2_kw2 a2 x3 H3]
  exact kflat_eq (at4 a10) (at3 a0) (fun o' => at2 a1 0 o') (at3 a2) (fun o' => at2 a3 0 o') n.val K.val K.isLt

include H0 H1 H3 in
/-- The first result's block at `(b, j)` is the network's first result at `(n, j)`. -/
theorem h2_core (x9 : Vec Ideal S84x10 .f32) (x10 : Vec Ideal S1x10 .f32) (j : Fin 84) :
    out0_11 x0 x1 a1 x3 a3 a4 a5 a6 a7 x9 x10 (ix2 b j) = netH2 a0 a1 a2 a3 a4 a5 a6 a7 a10 n.val j.val := by
  unfold out0_11
  rw [View.canon_unit_zero Cert.LibBlock.hz, View.ld_unit_zero (S := S512x256) Cert.LibBlock.hz,
    View.ld_unit_zero (S := S1x64) Cert.LibBlock.hz, View.ld_unit_zero (S := S2304x128) Cert.LibBlock.hz,
    View.ld_unit_zero (S := S1x128) Cert.LibBlock.hz, View.ld_unit_zero (S := S128x84) Cert.LibBlock.hz,
    View.ld_unit_zero (S := S1x84) Cert.LibBlock.hz,
    Cert.KernelIdeal.PayVal.pay54_eq, Cert.KernelIdeal.PayVal.pay6_eq, Cert.KernelIdeal.PayVal2.h2_of_chunks]
  unfold Cert.Spec.netH2 Cert.Spec.H2 Cert.Spec.H1
  refine congrArg Cert.Spec.relu (Cert.LibFc.dense_relu_dense_rows _ _ _ _ j.val fun k hk => ?_)
  rw [at2_of_lt _ b.isLt hk]
  exact flat_eq a0 a1 a2 a3 a10 n b x0 x1 x3 H0 H1 H3 ⟨k, hk⟩

include H0 H1 H3 in
/-- The second result's block at `(b, j)` is the network's second result at `(n, j)`. -/
theorem out_core (j : Fin 10) :
    out0_12 x0 x1 a1 x3 a3 a4 a5 a6 a7 a8 a9 (ix2 b j) = netOut a0 a1 a2 a3 a4 a5 a6 a7 a8 a9 a10 n.val j.val := by
  unfold out0_12
  rw [View.canon_unit_zero Cert.LibBlock.hz, View.ld_unit_zero (S := S512x256) Cert.LibBlock.hz,
    View.ld_unit_zero (S := S1x64) Cert.LibBlock.hz, View.ld_unit_zero (S := S2304x128) Cert.LibBlock.hz,
    View.ld_unit_zero (S := S1x128) Cert.LibBlock.hz, View.ld_unit_zero (S := S128x84) Cert.LibBlock.hz,
    View.ld_unit_zero (S := S1x84) Cert.LibBlock.hz, View.ld_unit_zero (S := S84x10) Cert.LibBlock.hz,
    View.ld_unit_zero (S := S1x10) Cert.LibBlock.hz,
    Cert.KernelIdeal.PayVal.pay54_eq, Cert.KernelIdeal.PayVal.pay6_eq, Cert.KernelIdeal.PayVal2.out_of_chunks]
  unfold Cert.Spec.netOut Cert.Spec.OUT Cert.Spec.H2 Cert.Spec.H1
  refine Cert.LibFc.dense_relu_dense_relu_dense_rows _ _ _ _ _ _ j.val fun k hk => ?_
  rw [at2_of_lt _ b.isLt hk]
  exact flat_eq a0 a1 a2 a3 a10 n b x0 x1 x3 H0 H1 H3 ⟨k, hk⟩

end Core

/-! ## Over blocks equal to the prepared arrays -/

section Blocks
variable (a0 : S4x12x128.Idx → EReal) (a1 : S1x32.Idx → EReal) (a2 : S4x128x256.Idx → EReal) (a3 : S1x64.Idx → EReal)
  (a4 : S2304x128.Idx → EReal) (a5 : S1x128.Idx → EReal) (a6 : S128x84.Idx → EReal) (a7 : S1x84.Idx → EReal)
  (a8 : S84x10.Idx → EReal) (a9 : S1x10.Idx → EReal) (a10 : S2048x3x32x32.Idx → EReal)
  (n : Fin 2048) (b : Fin 128)
  (x0 : Vec Ideal S128x256x64 .bf16) (x1 : Vec Ideal S64x128 .bf16) (x2 : Vec Ideal S1x32 .f32) (x3 : Vec Ideal S512x256 .bf16)
  (x4 : Vec Ideal S1x64 .f32) (x5 : Vec Ideal S2304x128 .bf16) (x6 : Vec Ideal S1x128 .f32) (x7 : Vec Ideal S128x84 .f32)
  (x8 : Vec Ideal S1x84 .f32) (x9 : Vec Ideal S84x10 .f32) (x10 : Vec Ideal S1x10 .f32)
  (H0 : ∀ (R : Fin 256) (kk : Fin 64), x0 (ix3 b R kk) = xk (at4 a10) n.val R.val kk.val)
  (H1 : ∀ (kk : Fin 64) (col : Fin 128), x1 (ix2 kk col) = kw1 (at3 a0) kk.val col.val)
  (H2 : x2 = a1)
  (H3 : ∀ (K : Fin 512) (col : Fin 256), x3 (ix2 K col) = kw2 (at3 a2) K.val col.val)
  (H4 : x4 = a3) (H5 : x5 = a4) (H6 : x6 = a5) (H7 : x7 = a6) (H8 : x8 = a7)

include H0 H1 H2 H3 H4 H5 H6 H7 H8 in
/-- The first result's block, of blocks that read the prepared arrays, at `(b, j)`. -/
theorem h2_blocks (j : Fin 84) :
    out0_11 x0 x1 x2 x3 x4 x5 x6 x7 x8 x9 x10 (ix2 b j) = netH2 a0 a1 a2 a3 a4 a5 a6 a7 a10 n.val j.val := by
  subst H2 H4 H5 H6 H7 H8
  exact h2_core a0 _ a2 _ _ _ _ _ a10 n b x0 x1 x3 H0 H1 H3 x9 x10 j

include H0 H1 H2 H3 H4 H5 H6 H7 H8 in
/-- The second result's block, of blocks that read the prepared arrays, at `(b, j)`. -/
theorem out_blocks (H9 : x9 = a8) (H10 : x10 = a9) (j : Fin 10) :
    out0_12 x0 x1 x2 x3 x4 x5 x6 x7 x8 x9 x10 (ix2 b j) = netOut a0 a1 a2 a3 a4 a5 a6 a7 a8 a9 a10 n.val j.val := by
  subst H2 H4 H5 H6 H7 H8 H9 H10
  exact out_core a0 _ a2 _ _ _ _ _ _ _ a10 n b x0 x1 x3 H0 H1 H3 j

end Blocks

/-! ## The two result arrays -/

section Final
variable (m : (ℓ : Loc nD τ sig) → Buf (Elt Ideal) ℓ) (ρ : Dev nD → PrngReg) (c : Dev nD)

/-- Window 0's block at point `t`, row `b`, is row `n = 128 · t + b` of the packed image. -/
theorem blk0_xk (n : Fin 2048) (t : Fin cfg0.N) (b : Fin 128) (hn : n.val = 128 * t.val + b.val) (R : Fin 256) (kk : Fin 64) :
    iblk0 (V5 m ρ) c 0 t (ix3 b R kk)
      = xk (at4 (m ((c : Thread nD τ).loc main_arg10) : S2048x3x32x32.Idx → EReal)) n.val R.val kk.val :=
  (Cert.KernelIdeal.RegionVal.iblk0_0_apply m ρ c t b R kk n hn).trans
    (Cert.KernelIdeal.HostVal.v15_apply (W0 m ρ c) n R kk)

/-- Window 1's block is the stacked first-layer weights. -/
theorem blk1_kw1 (t : Fin cfg0.N) (kk : Fin 64) (col : Fin 128) :
    iblk0 (V5 m ρ) c 1 t (ix2 kk col)
      = kw1 (at3 (m ((c : Thread nD τ).loc main_arg0) : S4x12x128.Idx → EReal)) kk.val col.val :=
  (congrFun (Cert.KernelIdeal.RegionVal.iblk0_1_eq m ρ c t) (ix2 kk col)).trans
    (Cert.KernelIdeal.HostVal.v17_apply (W0 m ρ c) kk col)

/-- Window 3's block is the stacked second-layer weights. -/
theorem blk3_kw2 (t : Fin cfg0.N) (K : Fin 512) (col : Fin 256) :
    iblk0 (V5 m ρ) c 3 t (ix2 K col)
      = kw2 (at3 (m ((c : Thread nD τ).loc main_arg2) : S4x128x256.Idx → EReal)) K.val col.val :=
  (congrFun (Cert.KernelIdeal.RegionVal.iblk0_3_eq m ρ c t) (ix2 K col)).trans
    (Cert.KernelIdeal.HostVal.v18_apply (W0 m ρ c) K col)

/-- THE FIRST RESULT: entry `(n, j)` of the array the region leaves is the network's first result. -/
theorem ker_h2 (n : Fin 2048) (j : Fin 84) :
    (W6 (F := Ideal) m ρ c (Proc.devRef .tc main_v19_0) : S2048x84.Idx → EReal) (ix2 n j)
      = Cert.Spec.netH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) n.val j.val := by
  have hn := n.isLt
  have hN : n.val / 128 < cfg0.N := by show n.val / 128 < grid0.N; rw [N_0]; omega
  have hb : n.val % 128 < 128 := Nat.mod_lt _ (by decide)
  have hnt : n.val = 128 * (⟨n.val / 128, hN⟩ : Fin cfg0.N).val + (⟨n.val % 128, hb⟩ : Fin 128).val := by
    show n.val = 128 * (n.val / 128) + n.val % 128; omega
  refine (Cert.KernelIdeal.RegionVal.v19_0_apply m ρ c n j ⟨n.val / 128, hN⟩ ⟨n.val % 128, hb⟩ hnt).trans ?_
  exact h2_blocks _ _ _ _ _ _ _ _ _ n ⟨n.val % 128, hb⟩ _ _ _ _ _ _ _ _ _ _ _
    (blk0_xk m ρ c n ⟨n.val / 128, hN⟩ ⟨n.val % 128, hb⟩ hnt)
    (blk1_kw1 m ρ c ⟨n.val / 128, hN⟩)
    ((Cert.KernelIdeal.RegionVal.iblk0_2_eq m ρ c _).trans (Cert.KernelIdeal.HostVal.keep_arg1 (W0 m ρ c)))
    (blk3_kw2 m ρ c ⟨n.val / 128, hN⟩)
    ((Cert.KernelIdeal.RegionVal.iblk0_4_eq m ρ c _).trans (Cert.KernelIdeal.HostVal.keep_arg3 (W0 m ρ c)))
    ((Cert.KernelIdeal.RegionVal.iblk0_5_eq m ρ c _).trans (Cert.KernelIdeal.HostVal.keep_arg4 (W0 m ρ c)))
    ((Cert.KernelIdeal.RegionVal.iblk0_6_eq m ρ c _).trans (Cert.KernelIdeal.HostVal.keep_arg5 (W0 m ρ c)))
    ((Cert.KernelIdeal.RegionVal.iblk0_7_eq m ρ c _).trans (Cert.KernelIdeal.HostVal.keep_arg6 (W0 m ρ c)))
    ((Cert.KernelIdeal.RegionVal.iblk0_8_eq m ρ c _).trans (Cert.KernelIdeal.HostVal.keep_arg7 (W0 m ρ c)))
    j

/-- THE SECOND RESULT: entry `(n, j)` of the array the region leaves is the network's second result. -/
theorem ker_out (n : Fin 2048) (j : Fin 10) :
    (W6 (F := Ideal) m ρ c (Proc.devRef .tc main_v19_1) : S2048x10.Idx → EReal) (ix2 n j)
      = Cert.Spec.netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) n.val j.val := by
  have hn := n.isLt
  have hN : n.val / 128 < cfg0.N := by show n.val / 128 < grid0.N; rw [N_0]; omega
  have hb : n.val % 128 < 128 := Nat.mod_lt _ (by decide)
  have hnt : n.val = 128 * (⟨n.val / 128, hN⟩ : Fin cfg0.N).val + (⟨n.val % 128, hb⟩ : Fin 128).val := by
    show n.val = 128 * (n.val / 128) + n.val % 128; omega
  refine (Cert.KernelIdeal.RegionVal.v19_1_apply m ρ c n j ⟨n.val / 128, hN⟩ ⟨n.val % 128, hb⟩ hnt).trans ?_
  exact out_blocks _ _ _ _ _ _ _ _ _ _ _ n ⟨n.val % 128, hb⟩ _ _ _ _ _ _ _ _ _ _ _
    (blk0_xk m ρ c n ⟨n.val / 128, hN⟩ ⟨n.val % 128, hb⟩ hnt)
    (blk1_kw1 m ρ c ⟨n.val / 128, hN⟩)
    ((Cert.KernelIdeal.RegionVal.iblk0_2_eq m ρ c _).trans (Cert.KernelIdeal.HostVal.keep_arg1 (W0 m ρ c)))
    (blk3_kw2 m ρ c ⟨n.val / 128, hN⟩)
    ((Cert.KernelIdeal.RegionVal.iblk0_4_eq m ρ c _).trans (Cert.KernelIdeal.HostVal.keep_arg3 (W0 m ρ c)))
    ((Cert.KernelIdeal.RegionVal.iblk0_5_eq m ρ c _).trans (Cert.KernelIdeal.HostVal.keep_arg4 (W0 m ρ c)))
    ((Cert.KernelIdeal.RegionVal.iblk0_6_eq m ρ c _).trans (Cert.KernelIdeal.HostVal.keep_arg5 (W0 m ρ c)))
    ((Cert.KernelIdeal.RegionVal.iblk0_7_eq m ρ c _).trans (Cert.KernelIdeal.HostVal.keep_arg6 (W0 m ρ c)))
    ((Cert.KernelIdeal.RegionVal.iblk0_8_eq m ρ c _).trans (Cert.KernelIdeal.HostVal.keep_arg7 (W0 m ρ c)))
    ((Cert.KernelIdeal.RegionVal.iblk0_9_eq m ρ c _).trans (Cert.KernelIdeal.HostVal.keep_arg8 (W0 m ρ c)))
    ((Cert.KernelIdeal.RegionVal.iblk0_10_eq m ρ c _).trans (Cert.KernelIdeal.HostVal.keep_arg9 (W0 m ρ c)))
    j

end Final

end Cert.KernelIdeal.Compose

end
-- ==== Proof.RHost.lean ====
/-
  The reference program's first host stretch read at an index, on the extended reals.

  The image array [2048, 3, 32, 32] is brought channel-last (transpose [0, 2, 3, 1]), narrowed (the identity on
  extended reals), padded by zero widths (the identity), packed space-to-depth in 2 × 2 pixel blocks
  ([2048, 16, 16, 12]), one zero block-row appended ([2048, 17, 16, 12]) and the two block axes merged
  ([2048, 272, 12]).  Read at image n, row R, channel ch it is the packed image `Spec.xs1`: for R < 256 the pixel
  (2·(R / 16) + ch / 6, 2·(R % 16) + ch / 3 % 2), colour ch % 3, and zero on the appended rows.

  The first layer's weights and bias are written by no host operation: they enter the first region as launched.
-/
import proofs.«126833_g2000003154481155_pallasbulk_2_29_alg».proof.Proof.Gen.ReferenceIdeal.Frame
import proofs.«126833_g2000003154481155_pallasbulk_2_29_alg».proof.Proof.Spec
import proofs.«126833_g2000003154481155_pallasbulk_2_29_alg».proof.Proof.LibSpaceToDepth
import proofs.«126833_g2000003154481155_pallasbulk_2_29_alg».proof.Proof.LibPad
import Idealize.ShloMosaic.Lib.Pipeline.Value
import Idealize.ShloMosaic.Lib.ValueIdx
import Idealize.ShloMosaic.Lib.ValueIdxRank6
import Idealize.ShloMosaic.Lib.StableHlo.Run

noncomputable section

namespace Cert.ReferenceIdeal.HostVal

open Idealize.ShloMosaic Idealize.ShloMosaic.TcCoe Idealize.ShloMosaic.ValueIdx Idealize.SL.Sem Cert.ReferenceIdeal Cert.ReferenceIdeal.Gen

variable (m : (ℓ : Loc nD τ sig) → Buf (Elt Ideal) ℓ) (ρ : Dev nD → PrngReg) (c : Dev nD)

/-! ## The packed input -/

/-- The packed input as the host operations' term over the image array. -/
def v7term (x : S2048x3x32x32.Idx → EReal) : S2048x272x12.Idx → EReal :=
  shapeCast S2048x272x12
    (pad S2048x17x16x12 ![0, 0, 0, 0] ![0, 1, 0, 0] ![0, 0, 0, 0]
      (shapeCast S2048x16x16x12
        (transpose S2048x16x16x2x2x3 [0, 1, 3, 2, 4, 5]
          (shapeCast S2048x16x2x16x2x3
            (pad S2048x32x32x3 ![0, 0, 0, 0] ![0, 0, 0, 0] ![0, 0, 0, 0]
              (truncf (F := Ideal) .bf16
                (transpose S2048x32x32x3 [0, 2, 3, 1] x transposes_S2048x3x32x32_S2048x32x32x3_0_2_3_1 :
                  FVec Ideal S2048x32x32x3 .f32) bitsLt_bf16_f32)
              (sitofp (F := Ideal) .bf16 (constantI S_ 32 0#32))
              pads_S2048x32x32x3_S2048x32x32x3_000_000_000_000 h_S_)
            shapeCasts_S2048x32x32x3_S2048x16x2x16x2x3)
          transposes_S2048x16x2x16x2x3_S2048x16x16x2x2x3_0_1_3_2_4_5)
        shapeCasts_S2048x16x16x2x2x3_S2048x16x16x12)
      (sitofp (F := Ideal) .bf16 (constantI S_ 32 0#32))
      pads_S2048x16x16x12_S2048x17x16x12_000_010_000_000 h_S_)
    shapeCasts_S2048x17x16x12_S2048x272x12

/-- The contents of the packed input's buffer at the first region's entry are that term of the launched image. -/
theorem v7_eq_term :
    (W5 (F := Ideal) m ρ c (Proc.devRef .tc main_v7) : S2048x272x12.Idx → EReal)
      = v7term (m ((c : Thread nD τ).loc main_arg10) : S2048x3x32x32.Idx → EReal) := by
  dsimp only [W5, W4, W3, W2, W1, W0, hostOps0, hostOps0_1, hostOps0_2, hostOps0_3, hostOps0_4]
  after_results
  rfl

/-- The padding value: the integer zero converted is zero. -/
theorem padval_zero (i : S_.Idx) : (sitofp (F := Ideal) .bf16 (constantI S_ 32 0#32) : FVec Ideal S_ .bf16) i = 0 := by
  show ((((0#32 : BitVec 32).toInt : ℤ) : ℝ) : EReal) = 0
  simp

/-- The term read at an index: the packed image, the appended row zero. -/
theorem v7term_apply (x : S2048x3x32x32.Idx → EReal) (n : Fin 2048) (R : Fin 272) (ch : Fin 12) :
    v7term x (ix3 n R ch) = Cert.Spec.xs1 (Cert.Spec.at4 x) n.val R.val ch.val := by
  have hR := R.isLt
  have hch := ch.isLt
  unfold v7term Cert.Spec.xs1
  -- the last reshape: row R of 272 is row R / 16, column R % 16 of the 17 × 16 grid
  refine (shapeCast_apply _ shapeCasts_S2048x17x16x12_S2048x272x12 (ix3 n R ch)
    (ix4 n (⟨R.val / 16, by omega⟩ : Fin 17) (⟨R.val % 16, by omega⟩ : Fin 16) ch) ?_).trans ?_
  · rw [Shape.rowMajor_val_four, Shape.rowMajor_val_three]
    show ((n.val * 17 + R.val / 16) * 16 + R.val % 16) * 12 + ch.val = (n.val * 272 + R.val) * 12 + ch.val
    omega
  by_cases h : R.val < 256
  · rw [if_pos h]
    -- inside the 16 rows: the pad is the packed array
    refine (Cert.LibPad.pad_apply_in (s := S2048x16x16x12) (t := S2048x17x16x12) ![0, 0, 0, 0] ![0, 1, 0, 0] ![0, 0, 0, 0] _ _
      pads_S2048x16x16x12_S2048x17x16x12_000_010_000_000 h_S_ (by decide) (by decide)
      (ix4 n (⟨R.val / 16, by omega⟩ : Fin 17) (⟨R.val % 16, by omega⟩ : Fin 16) ch)
      (ix4 n (⟨R.val / 16, by omega⟩ : Fin 16) (⟨R.val % 16, by omega⟩ : Fin 16) ch)
      (fun a => match a with | ⟨0, _⟩ => rfl | ⟨1, _⟩ => rfl | ⟨2, _⟩ => rfl | ⟨3, _⟩ => rfl)).trans ?_
    -- the packing
    refine (Cert.LibSpaceToDepth.pack4_apply (n := 2048) (A := 32) (B := 32) (a := 16) (b := 16) (c := 3) (C := 12) rfl rfl rfl _
      shapeCasts_S2048x32x32x3_S2048x16x2x16x2x3 transposes_S2048x16x2x16x2x3_S2048x16x16x2x2x3_0_1_3_2_4_5
      shapeCasts_S2048x16x16x2x2x3_S2048x16x16x12
      n (⟨R.val / 16, by omega⟩ : Fin 16) (⟨R.val % 16, by omega⟩ : Fin 16) ch
      (⟨ch.val / 6, by omega⟩ : Fin 2) (⟨ch.val / 3 % 2, by omega⟩ : Fin 2) (⟨ch.val % 3, by omega⟩ : Fin 3)
      (⟨2 * (R.val / 16) + ch.val / 6, by omega⟩ : Fin 32) (⟨2 * (R.val % 16) + ch.val / 3 % 2, by omega⟩ : Fin 32)
      (by show ch.val = (ch.val / 6 * 2 + ch.val / 3 % 2) * 3 + ch.val % 3; omega) rfl rfl).trans ?_
    -- the pad of zero widths is the identity
    refine (Cert.LibPad.pad_apply_in (s := S2048x32x32x3) (t := S2048x32x32x3) ![0, 0, 0, 0] ![0, 0, 0, 0] ![0, 0, 0, 0] _ _
      pads_S2048x32x32x3_S2048x32x32x3_000_000_000_000 h_S_ (by decide) (by decide)
      (ix4 n (⟨2 * (R.val / 16) + ch.val / 6, by omega⟩ : Fin 32) (⟨2 * (R.val % 16) + ch.val / 3 % 2, by omega⟩ : Fin 32)
        (⟨ch.val % 3, by omega⟩ : Fin 3))
      (ix4 n (⟨2 * (R.val / 16) + ch.val / 6, by omega⟩ : Fin 32) (⟨2 * (R.val % 16) + ch.val / 3 % 2, by omega⟩ : Fin 32)
        (⟨ch.val % 3, by omega⟩ : Fin 3))
      (fun a => match a with | ⟨0, _⟩ => rfl | ⟨1, _⟩ => rfl | ⟨2, _⟩ => rfl | ⟨3, _⟩ => rfl)).trans ?_
    -- the narrowing is the identity on extended reals; the transpose brings the colour axis last
    refine (truncf_apply (φ := .f32) (ψ := .bf16) _ bitsLt_bf16_f32 _).trans ?_
    refine (transpose_apply _ x transposes_S2048x3x32x32_S2048x32x32x3_0_2_3_1 _
      (ix4 n (⟨ch.val % 3, by omega⟩ : Fin 3) (⟨2 * (R.val / 16) + ch.val / 6, by omega⟩ : Fin 32)
        (⟨2 * (R.val % 16) + ch.val / 3 % 2, by omega⟩ : Fin 32))
      (fun b => match b with | ⟨0, _⟩ => rfl | ⟨1, _⟩ => rfl | ⟨2, _⟩ => rfl | ⟨3, _⟩ => rfl)).trans ?_
    exact (Cert.Spec.at4_of_lt x _ _ _ _).symm
  · rw [if_neg h]
    -- the appended row: the padding value
    refine (Cert.LibPad.pad_apply_out (s := S2048x16x16x12) (t := S2048x17x16x12) ![0, 0, 0, 0] ![0, 1, 0, 0] ![0, 0, 0, 0] _ _
      pads_S2048x16x16x12_S2048x17x16x12_000_010_000_000 h_S_ (by decide) (by decide)
      (ix4 n (⟨R.val / 16, by omega⟩ : Fin 17) (⟨R.val % 16, by omega⟩ : Fin 16) ch)
      (1 : Fin 4) (by show 16 ≤ R.val / 16; omega)).trans ?_
    exact padval_zero _

/-- The packed input's buffer at the first region's entry, read at an index. -/
theorem v7_apply (n : Fin 2048) (R : Fin 272) (ch : Fin 12) :
    (W5 (F := Ideal) m ρ c (Proc.devRef .tc main_v7) : S2048x272x12.Idx → EReal) (ix3 n R ch)
      = Cert.Spec.xs1 (Cert.Spec.at4 (m ((c : Thread nD τ).loc main_arg10) : S2048x3x32x32.Idx → EReal))
          n.val R.val ch.val :=
  (congrFun (v7_eq_term m ρ c) (ix3 n R ch)).trans (v7term_apply _ n R ch)

/-! ## The first layer's weights and bias enter the first region as launched -/

theorem v7_arg0 : W5 (F := Ideal) m ρ c (Proc.devRef .tc main_arg0) = m ((c : Thread nD τ).loc main_arg0) :=
  calc W5 (F := Ideal) m ρ c (Proc.devRef .tc main_arg0)
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem v7_arg1 : W5 (F := Ideal) m ρ c (Proc.devRef .tc main_arg1) = m ((c : Thread nD τ).loc main_arg1) :=
  calc W5 (F := Ideal) m ρ c (Proc.devRef .tc main_arg1)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

end Cert.ReferenceIdeal.HostVal

end
-- ==== Proof.RHost2.lean ====
/-
  The reference program's second host stretch read at an index, on the extended reals.

  The first layer's output [2048, 240, 32] — a 15 × 15 image on a 15 × 16 grid, cell (i, j) at row 16·i + j — is cut
  to the grid ([2048, 15, 16, 32]), its first 15 columns kept, padded with zeros to 16 × 16, packed space-to-depth in
  2 × 2 pixel blocks ([2048, 8, 8, 128]), one zero block-row appended ([2048, 9, 8, 128]) and the two block axes
  merged ([2048, 72, 128]).  Read at image n, row R, channel ch it is `Spec.xs2`: for R < 64 the pixel
  (2·(R / 8) + ch / 64, 2·(R % 8) + ch / 32 % 2), channel ch % 32, when that pixel is inside the 15 × 15 image, and
  zero otherwise.

  The second layer's weights and bias are written by no host operation and are no array of the first region: they
  enter the second region as launched.
-/
import proofs.«126833_g2000003154481155_pallasbulk_2_29_alg».proof.Proof.Gen.ReferenceIdeal.Frame
import proofs.«126833_g2000003154481155_pallasbulk_2_29_alg».proof.Proof.Spec
import proofs.«126833_g2000003154481155_pallasbulk_2_29_alg».proof.Proof.LibSpaceToDepth
import proofs.«126833_g2000003154481155_pallasbulk_2_29_alg».proof.Proof.LibPad
import proofs.«126833_g2000003154481155_pallasbulk_2_29_alg».proof.Proof.RHost
import Idealize.ShloMosaic.Lib.Pipeline.Value
import Idealize.ShloMosaic.Lib.ValueIdx
import Idealize.ShloMosaic.Lib.ValueIdxRank6
import Idealize.ShloMosaic.Lib.StableHlo.Run

noncomputable section

namespace Cert.ReferenceIdeal.HostVal

open Idealize.ShloMosaic Idealize.ShloMosaic.TcCoe Idealize.ShloMosaic.ValueIdx Idealize.SL.Sem Cert.ReferenceIdeal Cert.ReferenceIdeal.Gen

variable (m : (ℓ : Loc nD τ sig) → Buf (Elt Ideal) ℓ) (ρ : Dev nD → PrngReg) (c : Dev nD)

/-! ## The packed first-layer output -/

/-- The packed first-layer output as the host operations' term over the first layer's output array. -/
def v16term (x : S2048x240x32.Idx → EReal) : S2048x72x128.Idx → EReal :=
  shapeCast S2048x72x128
    (pad S2048x9x8x128 ![0, 0, 0, 0] ![0, 1, 0, 0] ![0, 0, 0, 0]
      (shapeCast S2048x8x8x128
        (transpose S2048x8x8x2x2x32 [0, 1, 3, 2, 4, 5]
          (shapeCast S2048x8x2x8x2x32
            (pad S2048x16x16x32 ![0, 0, 0, 0] ![0, 1, 1, 0] ![0, 0, 0, 0]
              (extractStridedSlice S2048x15x15x32 ![0, 0, 0, 0]
                (shapeCast S2048x15x16x32 x shapeCasts_S2048x240x32_S2048x15x16x32)
                slices_S2048x15x16x32_S2048x15x15x32_0_0_0_0)
              (sitofp (F := Ideal) .bf16 (constantI S_ 32 0#32))
              pads_S2048x15x15x32_S2048x16x16x32_000_010_010_000 h_S_)
            shapeCasts_S2048x16x16x32_S2048x8x2x8x2x32)
          transposes_S2048x8x2x8x2x32_S2048x8x8x2x2x32_0_1_3_2_4_5)
        shapeCasts_S2048x8x8x2x2x32_S2048x8x8x128)
      (sitofp (F := Ideal) .bf16 (constantI S_ 32 0#32))
      pads_S2048x8x8x128_S2048x9x8x128_000_010_000_000 h_S_)
    shapeCasts_S2048x9x8x128_S2048x72x128

/-- The contents of the packed buffer at the second region's entry are that term of the first region's output. -/
theorem v16_eq_term :
    (W11 (F := Ideal) m ρ c (Proc.devRef .tc main_v16) : S2048x72x128.Idx → EReal)
      = v16term (W6 (F := Ideal) m ρ c (Proc.devRef .tc main_v8) : S2048x240x32.Idx → EReal) := by
  dsimp only [W11, W10, W9, W8, W7, hostOps1, hostOps1_1, hostOps1_2, hostOps1_3, hostOps1_4]
  after_results
  rfl

/-- The term read at an index: the packed first-layer output, zero outside the 15 × 15 image and on the appended
    rows. -/
theorem v16term_apply (x : S2048x240x32.Idx → EReal) (n : Fin 2048) (R : Fin 72) (ch : Fin 128) :
    v16term x (ix3 n R ch) = Cert.Spec.xs2 (Cert.Spec.at3 x) n.val R.val ch.val := by
  have hR := R.isLt
  have hch := ch.isLt
  unfold v16term Cert.Spec.xs2
  -- the last reshape: row R of 72 is row R / 8, column R % 8 of the 9 × 8 grid
  refine (shapeCast_apply _ shapeCasts_S2048x9x8x128_S2048x72x128 (ix3 n R ch)
    (ix4 n (⟨R.val / 8, by omega⟩ : Fin 9) (⟨R.val % 8, by omega⟩ : Fin 8) ch) ?_).trans ?_
  · rw [Shape.rowMajor_val_four, Shape.rowMajor_val_three]
    show ((n.val * 9 + R.val / 8) * 8 + R.val % 8) * 128 + ch.val = (n.val * 72 + R.val) * 128 + ch.val
    omega
  by_cases h : R.val < 64
  · -- inside the 8 block-rows: the pad is the packed array
    refine (Cert.LibPad.pad_apply_in (s := S2048x8x8x128) (t := S2048x9x8x128) ![0, 0, 0, 0] ![0, 1, 0, 0] ![0, 0, 0, 0] _ _
      pads_S2048x8x8x128_S2048x9x8x128_000_010_000_000 h_S_ (by decide) (by decide)
      (ix4 n (⟨R.val / 8, by omega⟩ : Fin 9) (⟨R.val % 8, by omega⟩ : Fin 8) ch)
      (ix4 n (⟨R.val / 8, by omega⟩ : Fin 8) (⟨R.val % 8, by omega⟩ : Fin 8) ch)
      (fun a => match a with | ⟨0, _⟩ => rfl | ⟨1, _⟩ => rfl | ⟨2, _⟩ => rfl | ⟨3, _⟩ => rfl)).trans ?_
    -- the packing
    refine (Cert.LibSpaceToDepth.pack4_apply (n := 2048) (A := 16) (B := 16) (a := 8) (b := 8) (c := 32) (C := 128) rfl rfl rfl _
      shapeCasts_S2048x16x16x32_S2048x8x2x8x2x32 transposes_S2048x8x2x8x2x32_S2048x8x8x2x2x32_0_1_3_2_4_5
      shapeCasts_S2048x8x8x2x2x32_S2048x8x8x128
      n (⟨R.val / 8, by omega⟩ : Fin 8) (⟨R.val % 8, by omega⟩ : Fin 8) ch
      (⟨ch.val / 64, by omega⟩ : Fin 2) (⟨ch.val / 32 % 2, by omega⟩ : Fin 2) (⟨ch.val % 32, by omega⟩ : Fin 32)
      (⟨2 * (R.val / 8) + ch.val / 64, by omega⟩ : Fin 16) (⟨2 * (R.val % 8) + ch.val / 32 % 2, by omega⟩ : Fin 16)
      (by show ch.val = (ch.val / 64 * 2 + ch.val / 32 % 2) * 32 + ch.val % 32; omega) rfl rfl).trans ?_
    by_cases h2 : 2 * (R.val / 8) + ch.val / 64 < 15
    · by_cases h3 : 2 * (R.val % 8) + ch.val / 32 % 2 < 15
      · rw [if_pos ⟨h, h2, h3⟩]
        -- inside the 15 × 15 image: the pad is the sliced array
        refine (Cert.LibPad.pad_apply_in (s := S2048x15x15x32) (t := S2048x16x16x32) ![0, 0, 0, 0] ![0, 1, 1, 0] ![0, 0, 0, 0] _ _
          pads_S2048x15x15x32_S2048x16x16x32_000_010_010_000 h_S_ (by decide) (by decide)
          (ix4 n (⟨2 * (R.val / 8) + ch.val / 64, by omega⟩ : Fin 16) (⟨2 * (R.val % 8) + ch.val / 32 % 2, by omega⟩ : Fin 16)
            (⟨ch.val % 32, by omega⟩ : Fin 32))
          (ix4 n (⟨2 * (R.val / 8) + ch.val / 64, by omega⟩ : Fin 15) (⟨2 * (R.val % 8) + ch.val / 32 % 2, by omega⟩ : Fin 15)
            (⟨ch.val % 32, by omega⟩ : Fin 32))
          (fun a => match a with | ⟨0, _⟩ => rfl | ⟨1, _⟩ => rfl | ⟨2, _⟩ => rfl | ⟨3, _⟩ => rfl)).trans ?_
        -- the slice keeps the first 15 columns of the 15 × 16 grid
        refine (extractStridedSlice_apply (s := S2048x15x16x32) (t := S2048x15x15x32) ![0, 0, 0, 0] _
          slices_S2048x15x16x32_S2048x15x15x32_0_0_0_0 _
          (ix4 n (⟨2 * (R.val / 8) + ch.val / 64, by omega⟩ : Fin 15) (⟨2 * (R.val % 8) + ch.val / 32 % 2, by omega⟩ : Fin 16)
            (⟨ch.val % 32, by omega⟩ : Fin 32))
          (fun a => match a with
            | ⟨0, _⟩ => (Nat.zero_add _).symm | ⟨1, _⟩ => (Nat.zero_add _).symm
            | ⟨2, _⟩ => (Nat.zero_add _).symm | ⟨3, _⟩ => (Nat.zero_add _).symm)).trans ?_
        -- the grid's cell (i, j) is row 16·i + j
        refine (shapeCast_apply x shapeCasts_S2048x240x32_S2048x15x16x32 _
          (ix3 n (⟨16 * (2 * (R.val / 8) + ch.val / 64) + (2 * (R.val % 8) + ch.val / 32 % 2), by omega⟩ : Fin 240)
            (⟨ch.val % 32, by omega⟩ : Fin 32)) ?_).trans ?_
        · rw [Shape.rowMajor_val_four, Shape.rowMajor_val_three]
          show (n.val * 240 + (16 * (2 * (R.val / 8) + ch.val / 64) + (2 * (R.val % 8) + ch.val / 32 % 2))) * 32 + ch.val % 32
            = ((n.val * 15 + (2 * (R.val / 8) + ch.val / 64)) * 16 + (2 * (R.val % 8) + ch.val / 32 % 2)) * 32 + ch.val % 32
          omega
        exact (Cert.Spec.at3_of_lt x _ _ _).symm
      · rw [if_neg (fun hh => h3 hh.2.2)]
        -- the appended column: the padding value
        refine (Cert.LibPad.pad_apply_out (s := S2048x15x15x32) (t := S2048x16x16x32) ![0, 0, 0, 0] ![0, 1, 1, 0] ![0, 0, 0, 0] _ _
          pads_S2048x15x15x32_S2048x16x16x32_000_010_010_000 h_S_ (by decide) (by decide)
          (ix4 n (⟨2 * (R.val / 8) + ch.val / 64, by omega⟩ : Fin 16) (⟨2 * (R.val % 8) + ch.val / 32 % 2, by omega⟩ : Fin 16)
            (⟨ch.val % 32, by omega⟩ : Fin 32))
          (2 : Fin 4) (by show 15 ≤ 2 * (R.val % 8) + ch.val / 32 % 2; omega)).trans ?_
        exact padval_zero _
    · rw [if_neg (fun hh => h2 hh.2.1)]
      -- the appended image row: the padding value
      refine (Cert.LibPad.pad_apply_out (s := S2048x15x15x32) (t := S2048x16x16x32) ![0, 0, 0, 0] ![0, 1, 1, 0] ![0, 0, 0, 0] _ _
        pads_S2048x15x15x32_S2048x16x16x32_000_010_010_000 h_S_ (by decide) (by decide)
        (ix4 n (⟨2 * (R.val / 8) + ch.val / 64, by omega⟩ : Fin 16) (⟨2 * (R.val % 8) + ch.val / 32 % 2, by omega⟩ : Fin 16)
          (⟨ch.val % 32, by omega⟩ : Fin 32))
        (1 : Fin 4) (by show 15 ≤ 2 * (R.val / 8) + ch.val / 64; omega)).trans ?_
      exact padval_zero _
  · rw [if_neg (fun hh => h hh.1)]
    -- the appended block-row: the padding value
    refine (Cert.LibPad.pad_apply_out (s := S2048x8x8x128) (t := S2048x9x8x128) ![0, 0, 0, 0] ![0, 1, 0, 0] ![0, 0, 0, 0] _ _
      pads_S2048x8x8x128_S2048x9x8x128_000_010_000_000 h_S_ (by decide) (by decide)
      (ix4 n (⟨R.val / 8, by omega⟩ : Fin 9) (⟨R.val % 8, by omega⟩ : Fin 8) ch)
      (1 : Fin 4) (by show 8 ≤ R.val / 8; omega)).trans ?_
    exact padval_zero _

/-- The packed buffer at the second region's entry, read at an index. -/
theorem v16_apply (n : Fin 2048) (R : Fin 72) (ch : Fin 128) :
    (W11 (F := Ideal) m ρ c (Proc.devRef .tc main_v16) : S2048x72x128.Idx → EReal) (ix3 n R ch)
      = Cert.Spec.xs2 (Cert.Spec.at3 (W6 (F := Ideal) m ρ c (Proc.devRef .tc main_v8) : S2048x240x32.Idx → EReal))
          n.val R.val ch.val :=
  (congrFun (v16_eq_term m ρ c) (ix3 n R ch)).trans (v16term_apply _ n R ch)

/-! ## The second layer's weights and bias enter the second region as launched -/

theorem v16_arg2 : W11 (F := Ideal) m ρ c (Proc.devRef .tc main_arg2) = m ((c : Thread nD τ).loc main_arg2) :=
  calc W11 (F := Ideal) m ρ c (Proc.devRef .tc main_arg2)
    _ = W10 m ρ c (Proc.devRef .tc main_arg2) := StableHlo.after_of_forall_not_mem (b := Proc.devRef .tc main_arg2) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := StableHlo.after_of_forall_not_mem (b := Proc.devRef .tc main_arg2) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem v16_arg3 : W11 (F := Ideal) m ρ c (Proc.devRef .tc main_arg3) = m ((c : Thread nD τ).loc main_arg3) :=
  calc W11 (F := Ideal) m ρ c (Proc.devRef .tc main_arg3)
    _ = W10 m ρ c (Proc.devRef .tc main_arg3) := StableHlo.after_of_forall_not_mem (b := Proc.devRef .tc main_arg3) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := StableHlo.after_of_forall_not_mem (b := Proc.devRef .tc main_arg3) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

end Cert.ReferenceIdeal.HostVal

end
-- ==== Proof.RHost3.lean ====
/-
  The reference program's third host stretch read at an index, on the extended reals.

  The second layer's output [2048, 48, 64] — a 6 × 6 image on a 6 × 8 grid, cell (r, s) at row 8·r + s — is cut to the
  grid ([2048, 6, 8, 64]), its first 6 columns kept, flattened ([2048, 2304]) and padded by zero widths (the
  identity).  Read at image n, position K it is `Spec.flat`: row 8·(K / 384) + K / 64 % 6, channel K % 64.

  The fully connected layers' weights and biases are written by no host operation and are no array of the first two
  regions: they enter the third region as launched.
-/
import proofs.«126833_g2000003154481155_pallasbulk_2_29_alg».proof.Proof.Gen.ReferenceIdeal.Frame
import proofs.«126833_g2000003154481155_pallasbulk_2_29_alg».proof.Proof.Spec
import proofs.«126833_g2000003154481155_pallasbulk_2_29_alg».proof.Proof.LibSpaceToDepth
import proofs.«126833_g2000003154481155_pallasbulk_2_29_alg».proof.Proof.LibPad
import Idealize.ShloMosaic.Lib.Pipeline.Value
import Idealize.ShloMosaic.Lib.ValueIdx
import Idealize.ShloMosaic.Lib.ValueIdxRank6
import Idealize.ShloMosaic.Lib.StableHlo.Run

noncomputable section

namespace Cert.ReferenceIdeal.HostVal

open Idealize.ShloMosaic Idealize.ShloMosaic.TcCoe Idealize.ShloMosaic.ValueIdx Idealize.SL.Sem Cert.ReferenceIdeal Cert.ReferenceIdeal.Gen

variable (m : (ℓ : Loc nD τ sig) → Buf (Elt Ideal) ℓ) (ρ : Dev nD → PrngReg) (c : Dev nD)

/-! ## The flattened second-layer output -/

/-- The flattened second-layer output as the host operations' term over the second layer's output array. -/
def v21term (x : S2048x48x64.Idx → EReal) : S2048x2304.Idx → EReal :=
  pad S2048x2304 ![0, 0] ![0, 0] ![0, 0]
    (shapeCast S2048x2304
      (extractStridedSlice S2048x6x6x64 ![0, 0, 0, 0]
        (shapeCast S2048x6x8x64 x shapeCasts_S2048x48x64_S2048x6x8x64)
        slices_S2048x6x8x64_S2048x6x6x64_0_0_0_0)
      shapeCasts_S2048x6x6x64_S2048x2304)
    (sitofp (F := Ideal) .bf16 (constantI S_ 32 0#32))
    pads_S2048x2304_S2048x2304_000_000 h_S_

/-- The contents of the flattened buffer at the third region's entry are that term of the second region's output. -/
theorem v21_eq_term :
    (W14 (F := Ideal) m ρ c (Proc.devRef .tc main_v21) : S2048x2304.Idx → EReal)
      = v21term (W12 (F := Ideal) m ρ c (Proc.devRef .tc main_v17) : S2048x48x64.Idx → EReal) := by
  dsimp only [W14, W13, hostOps2, hostOps2_1]
  after_results
  rfl

/-- The term read at an index: position K = (6·r + s)·64 + o is row 8·r + s, channel o. -/
theorem v21term_apply (x : S2048x48x64.Idx → EReal) (n : Fin 2048) (K : Fin 2304) :
    v21term x (ix2 n K) = Cert.Spec.flat (Cert.Spec.at3 x) n.val K.val := by
  have hK := K.isLt
  unfold v21term Cert.Spec.flat
  -- the pad of zero widths is the identity
  refine (Cert.LibPad.pad_apply_in (s := S2048x2304) (t := S2048x2304) ![0, 0] ![0, 0] ![0, 0] _ _
    pads_S2048x2304_S2048x2304_000_000 h_S_ (by decide) (by decide) (ix2 n K) (ix2 n K)
    (fun a => match a with | ⟨0, _⟩ => rfl | ⟨1, _⟩ => rfl)).trans ?_
  -- position K of 2304 is cell (K / 384, K / 64 % 6), channel K % 64 of the 6 × 6 grid
  refine (shapeCast_apply _ shapeCasts_S2048x6x6x64_S2048x2304 (ix2 n K)
    (ix4 n (⟨K.val / 384, by omega⟩ : Fin 6) (⟨K.val / 64 % 6, by omega⟩ : Fin 6) (⟨K.val % 64, by omega⟩ : Fin 64)) ?_).trans ?_
  · rw [Shape.rowMajor_val_four, Shape.rowMajor_val_two]
    show ((n.val * 6 + K.val / 384) * 6 + K.val / 64 % 6) * 64 + K.val % 64 = n.val * 2304 + K.val
    omega
  -- the slice keeps the first 6 columns of the 6 × 8 grid
  refine (extractStridedSlice_apply (s := S2048x6x8x64) (t := S2048x6x6x64) ![0, 0, 0, 0] _
    slices_S2048x6x8x64_S2048x6x6x64_0_0_0_0 _
    (ix4 n (⟨K.val / 384, by omega⟩ : Fin 6) (⟨K.val / 64 % 6, by omega⟩ : Fin 8) (⟨K.val % 64, by omega⟩ : Fin 64))
    (fun a => match a with
      | ⟨0, _⟩ => (Nat.zero_add _).symm | ⟨1, _⟩ => (Nat.zero_add _).symm
      | ⟨2, _⟩ => (Nat.zero_add _).symm | ⟨3, _⟩ => (Nat.zero_add _).symm)).trans ?_
  -- the grid's cell (r, s) is row 8·r + s
  refine (shapeCast_apply x shapeCasts_S2048x48x64_S2048x6x8x64 _
    (ix3 n (⟨8 * (K.val / 384) + K.val / 64 % 6, by omega⟩ : Fin 48) (⟨K.val % 64, by omega⟩ : Fin 64)) ?_).trans ?_
  · rw [Shape.rowMajor_val_four, Shape.rowMajor_val_three]
    show (n.val * 48 + (8 * (K.val / 384) + K.val / 64 % 6)) * 64 + K.val % 64
      = ((n.val * 6 + K.val / 384) * 8 + K.val / 64 % 6) * 64 + K.val % 64
    omega
  exact (Cert.Spec.at3_of_lt x _ _ _).symm

/-- The flattened buffer at the third region's entry, read at an index. -/
theorem v21_apply (n : Fin 2048) (K : Fin 2304) :
    (W14 (F := Ideal) m ρ c (Proc.devRef .tc main_v21) : S2048x2304.Idx → EReal) (ix2 n K)
      = Cert.Spec.flat (Cert.Spec.at3 (W12 (F := Ideal) m ρ c (Proc.devRef .tc main_v17) : S2048x48x64.Idx → EReal))
          n.val K.val :=
  (congrFun (v21_eq_term m ρ c) (ix2 n K)).trans (v21term_apply _ n K)

/-! ## The fully connected layers' weights and biases enter the third region as launched -/

theorem v21_arg4 : W14 (F := Ideal) m ρ c (Proc.devRef .tc main_arg4) = m ((c : Thread nD τ).loc main_arg4) :=
  calc W14 (F := Ideal) m ρ c (Proc.devRef .tc main_arg4)
    _ = W13 m ρ c (Proc.devRef .tc main_arg4) := StableHlo.after_of_forall_not_mem (b := Proc.devRef .tc main_arg4) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := StableHlo.after_of_forall_not_mem (b := Proc.devRef .tc main_arg4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem v21_arg5 : W14 (F := Ideal) m ρ c (Proc.devRef .tc main_arg5) = m ((c : Thread nD τ).loc main_arg5) :=
  calc W14 (F := Ideal) m ρ c (Proc.devRef .tc main_arg5)
    _ = W13 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg5) := StableHlo.after_of_forall_not_mem (b := Proc.devRef .tc main_arg5) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem v21_arg6 : W14 (F := Ideal) m ρ c (Proc.devRef .tc main_arg6) = m ((c : Thread nD τ).loc main_arg6) :=
  calc W14 (F := Ideal) m ρ c (Proc.devRef .tc main_arg6)
    _ = W13 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := StableHlo.after_of_forall_not_mem (b := Proc.devRef .tc main_arg6) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem v21_arg7 : W14 (F := Ideal) m ρ c (Proc.devRef .tc main_arg7) = m ((c : Thread nD τ).loc main_arg7) :=
  calc W14 (F := Ideal) m ρ c (Proc.devRef .tc main_arg7)
    _ = W13 m ρ c (Proc.devRef .tc main_arg7) := StableHlo.after_of_forall_not_mem (b := Proc.devRef .tc main_arg7) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := StableHlo.after_of_forall_not_mem (b := Proc.devRef .tc main_arg7) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := StableHlo.after_of_forall_not_mem (b := Proc.devRef .tc main_arg7) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem v21_arg8 : W14 (F := Ideal) m ρ c (Proc.devRef .tc main_arg8) = m ((c : Thread nD τ).loc main_arg8) :=
  calc W14 (F := Ideal) m ρ c (Proc.devRef .tc main_arg8)
    _ = W13 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := StableHlo.after_of_forall_not_mem (b := Proc.devRef .tc main_arg8) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := StableHlo.after_of_forall_not_mem (b := Proc.devRef .tc main_arg8) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem v21_arg9 : W14 (F := Ideal) m ρ c (Proc.devRef .tc main_arg9) = m ((c : Thread nD τ).loc main_arg9) :=
  calc W14 (F := Ideal) m ρ c (Proc.devRef .tc main_arg9)
    _ = W13 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := StableHlo.after_of_forall_not_mem (b := Proc.devRef .tc main_arg9) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

end Cert.ReferenceIdeal.HostVal

end
-- ==== Proof.RCompose.lean ====
/-
  The reference program as the network of `Spec`: its two results in closed form over the launched arguments.

  Taken as hypotheses: what the three regions leave, each in terms of the buffers at its own entry — a convolution
  layer of the packed buffer for the first two, the three fully connected layers of the flattened buffer for the
  third.  The host stretches between them are the packings `Spec.xs1`, `Spec.xs2` and `Spec.flat`, and the weights
  and biases enter every region as launched.  Composing: the first region's output is `Spec.A1` inside its extents,
  so its packing is the packing of `Spec.A1` (which reads it only inside them); the second region's output is then
  `Spec.A2` inside its extents and its flattening the flattening of `Spec.A2`; and the third region's results are
  `Spec.H2` and `Spec.OUT`.  Every step is a congruence of finite sums: a convolution reads its packed operand only
  at channels below the tap count, a fully connected layer its operand only in the row it computes.
-/
import proofs.«126833_g2000003154481155_pallasbulk_2_29_alg».proof.Proof.RHost
import proofs.«126833_g2000003154481155_pallasbulk_2_29_alg».proof.Proof.RHost2
import proofs.«126833_g2000003154481155_pallasbulk_2_29_alg».proof.Proof.RHost3
import proofs.«126833_g2000003154481155_pallasbulk_2_29_alg».proof.Proof.Spec

noncomputable section

namespace Cert.ReferenceIdeal.Compose

open Idealize.ShloMosaic Idealize.ShloMosaic.TcCoe Idealize.ShloMosaic.ValueIdx Idealize.SL.Sem Cert.ReferenceIdeal Cert.ReferenceIdeal.Gen
open Cert.ReferenceIdeal.HostVal

/-! ## Congruences of the closed forms -/

/-- A convolution reads its packed operand only at channels below the tap count. -/
theorem conv_congr (G K : ℕ) (st : ℕ → ℕ) {xs xs' : ℕ → ℕ → EReal} (w : ℕ → ℕ → ℕ → EReal)
    (h : ∀ R' k, k < K → xs R' k = xs' R' k) : Cert.Spec.conv G K st xs w = Cert.Spec.conv G K st xs' w := by
  funext R col
  unfold Cert.Spec.conv
  exact Finset.sum_congr rfl fun g _ => Finset.sum_congr rfl fun k hk => by rw [h _ k (Finset.mem_range.mp hk)]

/-- So does a whole layer. -/
theorem layer_congr (C K : ℕ) (st : ℕ → ℕ) {xs xs' : ℕ → ℕ → EReal} (w : ℕ → ℕ → ℕ → EReal) (b : ℕ → EReal)
    (h : ∀ R' k, k < K → xs R' k = xs' R' k) : Cert.Spec.layer C K st xs w b = Cert.Spec.layer C K st xs' w b := by
  funext R o
  unfold Cert.Spec.layer
  rw [conv_congr 4 K st w h]

/-- A fully connected layer reads its operand only in the row it computes, at columns below the contraction length. -/
theorem dense_congr (K : ℕ) {x x' : ℕ → ℕ → EReal} (w : ℕ → ℕ → EReal) (b : ℕ → EReal) (n j : ℕ)
    (h : ∀ k, k < K → x n k = x' n k) : Cert.Spec.dense K x w b n j = Cert.Spec.dense K x' w b n j := by
  unfold Cert.Spec.dense
  exact congrArg (· + b j) (Finset.sum_congr rfl fun k hk => by rw [h k (Finset.mem_range.mp hk)])

variable (m : (ℓ : Loc nD τ sig) → Buf (Elt Ideal) ℓ) (ρ : Dev nD → PrngReg) (c : Dev nD)

/-! ## The launched arguments at natural-number coordinates -/

/-- The images. -/
abbrev X := Cert.Spec.at4 (m ((c : Thread nD τ).loc main_arg10) : S2048x3x32x32.Idx → EReal)
/-- The first layer's weights and bias. -/
abbrev W1 := Cert.Spec.at3 (m ((c : Thread nD τ).loc main_arg0) : S4x12x128.Idx → EReal)
abbrev B1 := fun o => Cert.Spec.at2 (m ((c : Thread nD τ).loc main_arg1) : S1x32.Idx → EReal) 0 o
/-- The second layer's weights and bias. -/
abbrev W2 := Cert.Spec.at3 (m ((c : Thread nD τ).loc main_arg2) : S4x128x256.Idx → EReal)
abbrev B2 := fun o => Cert.Spec.at2 (m ((c : Thread nD τ).loc main_arg3) : S1x64.Idx → EReal) 0 o
/-- The fully connected layers' weights and biases. -/
abbrev F1 := Cert.Spec.at2 (m ((c : Thread nD τ).loc main_arg4) : S2304x128.Idx → EReal)
abbrev F1b := fun j => Cert.Spec.at2 (m ((c : Thread nD τ).loc main_arg5) : S1x128.Idx → EReal) 0 j
abbrev F2 := Cert.Spec.at2 (m ((c : Thread nD τ).loc main_arg6) : S128x84.Idx → EReal)
abbrev F2b := fun j => Cert.Spec.at2 (m ((c : Thread nD τ).loc main_arg7) : S1x84.Idx → EReal) 0 j
abbrev F3 := Cert.Spec.at2 (m ((c : Thread nD τ).loc main_arg8) : S84x10.Idx → EReal)
abbrev F3b := fun j => Cert.Spec.at2 (m ((c : Thread nD τ).loc main_arg9) : S1x10.Idx → EReal) 0 j

/-! ## The first layer -/

/-- The packed input's buffer, read through its total extension at a channel below 12, is the packed image: inside
    the 272 rows by the host stretch, and past them both are zero. -/
theorem xs1_eq {n : ℕ} (hn : n < 2048) (R' k : ℕ) (hk : k < 12) :
    Cert.Spec.at3 (W5 (F := Ideal) m ρ c (Proc.devRef .tc main_v7) : S2048x272x12.Idx → EReal) n R' k = Cert.Spec.xs1 (X m c) n R' k := by
  by_cases hR : R' < 272
  · rw [Cert.Spec.at3_of_lt _ hn hR hk]
    exact v7_apply m ρ c ⟨n, hn⟩ ⟨R', hR⟩ ⟨k, hk⟩
  · unfold Cert.Spec.at3 Cert.Spec.xs1
    rw [dif_neg (fun h => hR h.2.1), if_neg (by omega)]

section RegionA
variable (hA : ∀ (n : Fin 2048) (R : Fin 240) (o : Fin 32),
      (W6 (F := Ideal) m ρ c (Proc.devRef .tc main_v8) : S2048x240x32.Idx → EReal) (ix3 n R o)
        = Cert.Spec.layer 32 12 Cert.Spec.st1
            (fun R' k => Cert.Spec.at3 (W5 (F := Ideal) m ρ c (Proc.devRef .tc main_v7) : S2048x272x12.Idx → EReal) n.val R' k)
            (Cert.Spec.at3 (W5 (F := Ideal) m ρ c (Proc.devRef .tc main_arg0) : S4x12x128.Idx → EReal))
            (fun o' => Cert.Spec.at2 (W5 (F := Ideal) m ρ c (Proc.devRef .tc main_arg1) : S1x32.Idx → EReal) 0 o') R.val o.val)
include hA

/-- (i) The first region's output inside its extents is the first layer. -/
theorem a1_eq {n R o : ℕ} (hn : n < 2048) (hR : R < 240) (ho : o < 32) :
    Cert.Spec.at3 (W6 (F := Ideal) m ρ c (Proc.devRef .tc main_v8) : S2048x240x32.Idx → EReal) n R o
      = Cert.Spec.A1 (X m c) (W1 m c) (B1 m c) n R o := by
  rw [Cert.Spec.at3_of_lt _ hn hR ho]
  refine (hA ⟨n, hn⟩ ⟨R, hR⟩ ⟨o, ho⟩).trans ?_
  rw [v7_arg0 m ρ c, v7_arg1 m ρ c]
  unfold Cert.Spec.A1
  exact congrFun (congrFun (layer_congr 32 12 Cert.Spec.st1 _ _ (fun R' k hk => xs1_eq m ρ c hn R' k hk)) R) o

/-- (ii) The packing reads the first region's output only inside its extents: it is the packing of the first layer. -/
theorem xs2_a1 {n : ℕ} (hn : n < 2048) (R ch : ℕ) :
    Cert.Spec.xs2 (Cert.Spec.at3 (W6 (F := Ideal) m ρ c (Proc.devRef .tc main_v8) : S2048x240x32.Idx → EReal)) n R ch
      = Cert.Spec.xs2 (Cert.Spec.A1 (X m c) (W1 m c) (B1 m c)) n R ch := by
  unfold Cert.Spec.xs2
  by_cases h : R < 64 ∧ 2 * (R / 8) + ch / 64 < 15 ∧ 2 * (R % 8) + ch / 32 % 2 < 15
  · rw [if_pos h, if_pos h]
    exact a1_eq m ρ c hA hn (by omega) (by omega)
  · rw [if_neg h, if_neg h]

/-- The packed buffer at the second region's entry, read through its total extension at a channel below 128, is the
    packing of the first layer: inside the 72 rows by the host stretch, and past them both are zero. -/
theorem xs2_eq {n : ℕ} (hn : n < 2048) (R' k : ℕ) (hk : k < 128) :
    Cert.Spec.at3 (W11 (F := Ideal) m ρ c (Proc.devRef .tc main_v16) : S2048x72x128.Idx → EReal) n R' k
      = Cert.Spec.xs2 (Cert.Spec.A1 (X m c) (W1 m c) (B1 m c)) n R' k := by
  by_cases hR : R' < 72
  · rw [Cert.Spec.at3_of_lt _ hn hR hk]
    exact (v16_apply m ρ c ⟨n, hn⟩ ⟨R', hR⟩ ⟨k, hk⟩).trans (xs2_a1 m ρ c hA hn R' k)
  · unfold Cert.Spec.at3 Cert.Spec.xs2
    rw [dif_neg (fun h => hR h.2.1), if_neg (fun h => by omega)]

/-! ## The second layer -/

section RegionB
variable (hB : ∀ (n : Fin 2048) (R : Fin 48) (o : Fin 64),
      (W12 (F := Ideal) m ρ c (Proc.devRef .tc main_v17) : S2048x48x64.Idx → EReal) (ix3 n R o)
        = Cert.Spec.layer 64 128 Cert.Spec.st2
            (fun R' k => Cert.Spec.at3 (W11 (F := Ideal) m ρ c (Proc.devRef .tc main_v16) : S2048x72x128.Idx → EReal) n.val R' k)
            (Cert.Spec.at3 (W11 (F := Ideal) m ρ c (Proc.devRef .tc main_arg2) : S4x128x256.Idx → EReal))
            (fun o' => Cert.Spec.at2 (W11 (F := Ideal) m ρ c (Proc.devRef .tc main_arg3) : S1x64.Idx → EReal) 0 o') R.val o.val)
include hB

/-- (iii) The second region's output inside its extents is the second layer. -/
theorem a2_eq {n R o : ℕ} (hn : n < 2048) (hR : R < 48) (ho : o < 64) :
    Cert.Spec.at3 (W12 (F := Ideal) m ρ c (Proc.devRef .tc main_v17) : S2048x48x64.Idx → EReal) n R o
      = Cert.Spec.A2 (X m c) (W1 m c) (B1 m c) (W2 m c) (B2 m c) n R o := by
  rw [Cert.Spec.at3_of_lt _ hn hR ho]
  refine (hB ⟨n, hn⟩ ⟨R, hR⟩ ⟨o, ho⟩).trans ?_
  rw [v16_arg2 m ρ c, v16_arg3 m ρ c]
  unfold Cert.Spec.A2
  exact congrFun (congrFun (layer_congr 64 128 Cert.Spec.st2 _ _ (fun R' k hk => xs2_eq m ρ c hA hn R' k hk)) R) o

/-- (iv) The flattening reads the second region's output only inside its extents: it is the flattening of the
    second layer. -/
theorem flat_a2 {n K : ℕ} (hn : n < 2048) (hK : K < 2304) :
    Cert.Spec.flat (Cert.Spec.at3 (W12 (F := Ideal) m ρ c (Proc.devRef .tc main_v17) : S2048x48x64.Idx → EReal)) n K
      = Cert.Spec.flat (Cert.Spec.A2 (X m c) (W1 m c) (B1 m c) (W2 m c) (B2 m c)) n K := by
  unfold Cert.Spec.flat
  exact a2_eq m ρ c hA hB hn (by omega) (by omega)

/-! ## The fully connected layers -/

/-- The flattened buffer at the third region's entry, inside its extents, is the flattening of the second layer. -/
theorem x21_eq {n : ℕ} (hn : n < 2048) (K : ℕ) (hK : K < 2304) :
    Cert.Spec.at2 (W14 (F := Ideal) m ρ c (Proc.devRef .tc main_v21) : S2048x2304.Idx → EReal) n K
      = Cert.Spec.flat (Cert.Spec.A2 (X m c) (W1 m c) (B1 m c) (W2 m c) (B2 m c)) n K := by
  rw [Cert.Spec.at2_of_lt _ hn hK]
  exact (v21_apply m ρ c ⟨n, hn⟩ ⟨K, hK⟩).trans (flat_a2 m ρ c hA hB hn hK)

/-- The first fully connected layer over the flattened buffer, in a row below 2048. -/
theorem h1_eq {n : ℕ} (hn : n < 2048) (k : ℕ) :
    Cert.Spec.relu (Cert.Spec.dense 2304 (Cert.Spec.at2 (W14 (F := Ideal) m ρ c (Proc.devRef .tc main_v21) : S2048x2304.Idx → EReal))
        (F1 m c) (F1b m c) n k)
      = Cert.Spec.H1 (X m c) (W1 m c) (B1 m c) (W2 m c) (B2 m c) (F1 m c) (F1b m c) n k := by
  unfold Cert.Spec.H1
  exact congrArg Cert.Spec.relu (dense_congr 2304 _ _ n k (fun K hK => x21_eq m ρ c hA hB hn K hK))

/-- The second fully connected layer over it. -/
theorem h2_eq {n : ℕ} (hn : n < 2048) (k : ℕ) :
    Cert.Spec.relu (Cert.Spec.dense 128
        (fun n' k' => Cert.Spec.relu (Cert.Spec.dense 2304 (Cert.Spec.at2 (W14 (F := Ideal) m ρ c (Proc.devRef .tc main_v21) : S2048x2304.Idx → EReal))
          (F1 m c) (F1b m c) n' k'))
        (F2 m c) (F2b m c) n k)
      = Cert.Spec.H2 (X m c) (W1 m c) (B1 m c) (W2 m c) (B2 m c) (F1 m c) (F1b m c) (F2 m c) (F2b m c) n k := by
  unfold Cert.Spec.H2
  exact congrArg Cert.Spec.relu (dense_congr 128 _ _ n k (fun k' _ => h1_eq m ρ c hA hB hn k'))

/-- The reference program's first result is the second fully connected layer. -/
theorem ref_h2
    (hC0 : ∀ (n : Fin 2048) (j : Fin 84),
      (W15 (F := Ideal) m ρ c (Proc.devRef .tc main_v22_0) : S2048x84.Idx → EReal) (ix2 n j)
        = Cert.Spec.relu (Cert.Spec.dense 128
            (fun n' k => Cert.Spec.relu (Cert.Spec.dense 2304 (Cert.Spec.at2 (W14 (F := Ideal) m ρ c (Proc.devRef .tc main_v21) : S2048x2304.Idx → EReal))
              (Cert.Spec.at2 (W14 (F := Ideal) m ρ c (Proc.devRef .tc main_arg4) : S2304x128.Idx → EReal))
              (fun j' => Cert.Spec.at2 (W14 (F := Ideal) m ρ c (Proc.devRef .tc main_arg5) : S1x128.Idx → EReal) 0 j') n' k))
            (Cert.Spec.at2 (W14 (F := Ideal) m ρ c (Proc.devRef .tc main_arg6) : S128x84.Idx → EReal))
            (fun j' => Cert.Spec.at2 (W14 (F := Ideal) m ρ c (Proc.devRef .tc main_arg7) : S1x84.Idx → EReal) 0 j') n.val j.val))
    (n : Fin 2048) (j : Fin 84) :
    (W15 (F := Ideal) m ρ c (Proc.devRef .tc main_v22_0) : S2048x84.Idx → EReal) (ix2 n j)
      = Cert.Spec.H2 (X m c) (W1 m c) (B1 m c) (W2 m c) (B2 m c) (F1 m c) (F1b m c) (F2 m c) (F2b m c) n.val j.val := by
  refine (hC0 n j).trans ?_
  rw [v21_arg4 m ρ c, v21_arg5 m ρ c, v21_arg6 m ρ c, v21_arg7 m ρ c]
  exact h2_eq m ρ c hA hB n.isLt j.val

/-- The reference program's second result is the third fully connected layer. -/
theorem ref_out
    (hC1 : ∀ (n : Fin 2048) (j : Fin 10),
      (W15 (F := Ideal) m ρ c (Proc.devRef .tc main_v22_1) : S2048x10.Idx → EReal) (ix2 n j)
        = Cert.Spec.dense 84
            (fun n' k => Cert.Spec.relu (Cert.Spec.dense 128
            (fun n'' k' => Cert.Spec.relu (Cert.Spec.dense 2304 (Cert.Spec.at2 (W14 (F := Ideal) m ρ c (Proc.devRef .tc main_v21) : S2048x2304.Idx → EReal))
              (Cert.Spec.at2 (W14 (F := Ideal) m ρ c (Proc.devRef .tc main_arg4) : S2304x128.Idx → EReal))
              (fun j' => Cert.Spec.at2 (W14 (F := Ideal) m ρ c (Proc.devRef .tc main_arg5) : S1x128.Idx → EReal) 0 j') n'' k'))
            (Cert.Spec.at2 (W14 (F := Ideal) m ρ c (Proc.devRef .tc main_arg6) : S128x84.Idx → EReal))
            (fun j' => Cert.Spec.at2 (W14 (F := Ideal) m ρ c (Proc.devRef .tc main_arg7) : S1x84.Idx → EReal) 0 j') n' k))
            (Cert.Spec.at2 (W14 (F := Ideal) m ρ c (Proc.devRef .tc main_arg8) : S84x10.Idx → EReal))
            (fun j' => Cert.Spec.at2 (W14 (F := Ideal) m ρ c (Proc.devRef .tc main_arg9) : S1x10.Idx → EReal) 0 j') n.val j.val)
    (n : Fin 2048) (j : Fin 10) :
    (W15 (F := Ideal) m ρ c (Proc.devRef .tc main_v22_1) : S2048x10.Idx → EReal) (ix2 n j)
      = Cert.Spec.OUT (X m c) (W1 m c) (B1 m c) (W2 m c) (B2 m c) (F1 m c) (F1b m c) (F2 m c) (F2b m c)
          (F3 m c) (F3b m c) n.val j.val := by
  refine (hC1 n j).trans ?_
  rw [v21_arg4 m ρ c, v21_arg5 m ρ c, v21_arg6 m ρ c, v21_arg7 m ρ c, v21_arg8 m ρ c, v21_arg9 m ρ c]
  unfold Cert.Spec.OUT
  exact dense_congr 84 _ _ n.val j.val (fun k _ => h2_eq m ρ c hA hB n.isLt k)

end RegionB

end RegionA

end Cert.ReferenceIdeal.Compose

end
-- ==== Proof.RRegion0.lean ====
/-
  Region 0 of the reference: what the first convolution layer's pipeline leaves in its output array, read at an index.

  The body at a grid point loads one image's packed rows (a block [1, 272, 12]), the four weight slabs ([4, 12, 128]) and the
  bias row, forms the four shifted matrix products, takes the maximum over the four column blocks of 32, adds the bias,
  rectifies, and stores the block [1, 240, 32].  Grid point t handles image t.
-/
import proofs.«126833_g2000003154481155_pallasbulk_2_29_alg».proof.Proof.Gen.ReferenceIdeal.Frame
import proofs.«126833_g2000003154481155_pallasbulk_2_29_alg».proof.Proof.Spec
import proofs.«126833_g2000003154481155_pallasbulk_2_29_alg».proof.Proof.LibBlock
import proofs.«126833_g2000003154481155_pallasbulk_2_29_alg».proof.Proof.LibShiftGroups
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RegionVal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The zero offsets of a rank-3 rectangle are the constant function. -/
theorem hz3 : (![0, 0, 0] : Fin 3 → Nat) = fun _ => 0 := funext fun a => by fin_cases a <;> rfl

/-! ## The loads at an index -/

/-- The image block read through the rectangle of 240 rows from row `off`: row `R + off` of the block. -/
theorem ld_rows (x0 : Vec Ideal S1x272x12 .bf16) (off : ℕ)
    (inb : ∀ a, (![0, off, 0] : Fin 3 → Nat) a + S1x240x12.size a ≤ S1x272x12.size a) (R : Fin 240) (k : Fin 12) :
    (View.ld x0 (Rect.unit (s := S1x272x12) ![0, off, 0] S1x240x12.size inb) : S1x240x12.Idx → EReal) (ix3 (0 : Fin 1) R k)
      = Cert.Spec.at3 (x0 : S1x272x12.Idx → EReal) 0 (R.val + off) k.val := by
  have hoff : off + 240 ≤ 272 := inb 1
  rw [Cert.Spec.at3_of_lt (x0 : S1x272x12.Idx → EReal) (by omega : 0 < 1) (by omega : R.val + off < 272) k.isLt]
  show x0 _ = x0 _
  congr 1
  funext a; apply Fin.ext
  match a with
  | ⟨0, _⟩ => show 0 + 1 * 0 = 0; omega
  | ⟨1, _⟩ => show off + 1 * R.val = R.val + off; omega
  | ⟨2, _⟩ => show 0 + 1 * k.val = k.val; omega

/-- The weight block read through the rectangle of slab `g`. -/
theorem ld_slab (x1 : Vec Ideal S4x12x128 .bf16) (g : ℕ)
    (inb : ∀ a, (![g, 0, 0] : Fin 3 → Nat) a + S1x12x128.size a ≤ S4x12x128.size a) (k : Fin 12) (q : Fin 128) :
    (View.ld x1 (Rect.unit (s := S4x12x128) ![g, 0, 0] S1x12x128.size inb) : S1x12x128.Idx → EReal) (ix3 (0 : Fin 1) k q)
      = Cert.Spec.at3 (x1 : S4x12x128.Idx → EReal) g k.val q.val := by
  have hg : g + 1 ≤ 4 := inb 0
  rw [Cert.Spec.at3_of_lt (x1 : S4x12x128.Idx → EReal) (by omega : g < 4) k.isLt q.isLt]
  show x1 _ = x1 _
  congr 1
  funext a; apply Fin.ext
  match a with
  | ⟨0, _⟩ => show g + 1 * 0 = g; omega
  | ⟨1, _⟩ => show 0 + 1 * k.val = k.val; omega
  | ⟨2, _⟩ => show 0 + 1 * q.val = q.val; omega

/-! ## The payload at an index -/

/-- One shift group: the product of the 240 × 12 rows and the 12 × 128 slab into the zero accumulator. -/
theorem group_apply (v : FVec Ideal S1x240x12 .bf16) (w : FVec Ideal S1x12x128 .bf16) (R : Fin 240) (q : Fin 128) :
    (matmul dot_S240x12_S12x128_S240x128_1_0_0_1_n_n none (shapeCast S240x12 v shapeCasts_S1x240x12_S240x12)
        (shapeCast S12x128 w shapeCasts_S1x12x128_S12x128) (constant (F := Ideal) S240x128 .f32 0x00000000#32) : S240x128.Idx → EReal) (ix2 R q)
      = ∑ k : Fin 12, (v : S1x240x12.Idx → EReal) (ix3 (0 : Fin 1) R k) * (w : S1x12x128.Idx → EReal) (ix3 (0 : Fin 1) k q) := by
  refine (Cert.LibBlock.matmul_zero_ix2 dot_S240x12_S12x128_S240x128_1_0_0_1_n_n rfl rfl rfl rfl rfl rfl none _ _ R q).trans ?_
  refine Finset.sum_congr rfl fun k _ => ?_
  rw [shapeCast_1ab_ab_apply, shapeCast_1ab_ab_apply]

/-- The four shift groups, accumulated one after the other, are the convolution at packed row `R`, column `q`. -/
theorem conv_apply (x0 : Vec Ideal S1x272x12 .bf16) (x1 : Vec Ideal S4x12x128 .bf16) (R : Fin 240) (q : Fin 128) :
    (∑ k : Fin 12, (View.ld x0 r0_0 : S1x240x12.Idx → EReal) (ix3 (0 : Fin 1) R k) * (View.ld x1 r0_1 : S1x12x128.Idx → EReal) (ix3 (0 : Fin 1) k q))
      + (∑ k : Fin 12, (View.ld x0 r0_2 : S1x240x12.Idx → EReal) (ix3 (0 : Fin 1) R k) * (View.ld x1 r0_3 : S1x12x128.Idx → EReal) (ix3 (0 : Fin 1) k q))
      + (∑ k : Fin 12, (View.ld x0 r0_4 : S1x240x12.Idx → EReal) (ix3 (0 : Fin 1) R k) * (View.ld x1 r0_5 : S1x12x128.Idx → EReal) (ix3 (0 : Fin 1) k q))
      + (∑ k : Fin 12, (View.ld x0 r0_6 : S1x240x12.Idx → EReal) (ix3 (0 : Fin 1) R k) * (View.ld x1 r0_7 : S1x12x128.Idx → EReal) (ix3 (0 : Fin 1) k q))
      = Cert.Spec.conv 4 12 Cert.Spec.st1 (fun R' k => Cert.Spec.at3 (x0 : S1x272x12.Idx → EReal) 0 R' k)
          (Cert.Spec.at3 (x1 : S4x12x128.Idx → EReal)) R.val q.val := by
  unfold Cert.Spec.conv
  rw [← Cert.LibShiftGroups.add4_eq_sum]
  simp only [Finset.sum_range]
  refine congrArg₂ (· + ·) (congrArg₂ (· + ·) (congrArg₂ (· + ·) ?_ ?_) ?_) ?_ <;>
    exact Finset.sum_congr rfl fun k _ => congrArg₂ (· * ·) (ld_rows x0 _ _ R k) (ld_slab x1 _ _ k q)

theorem out0_3_apply (x0 : Vec Ideal S1x272x12 .bf16) (x1 : Vec Ideal S4x12x128 .bf16) (x2 : Vec Ideal S1x32 .f32)
    (R : Fin 240) (o : Fin 32) :
    (out0_3 x0 x1 x2 : S1x240x32.Idx → EReal) (ix3 (0 : Fin 1) R o)
      = Cert.Spec.layer 32 12 Cert.Spec.st1 (fun R' k => Cert.Spec.at3 (x0 : S1x272x12.Idx → EReal) 0 R' k)
          (Cert.Spec.at3 (x1 : S4x12x128.Idx → EReal)) (fun o' => Cert.Spec.at2 (x2 : S1x32.Idx → EReal) 0 o') R.val o.val := by
  unfold out0_3
  rw [View.canon_unit_zero hz3]
  unfold k0_pay1
  rw [shapeCast_ab_1ab_apply, truncf_apply, maximumf_apply, addf_apply, broadcast_apply, broadcastTo_1b_ab_apply]
  unfold k0_pay2
  simp only [maximumf_apply, slice2_axis1_eq, addf_apply, group_apply]
  rw [show (FloatOps.ofBits .f32 0#32 : Ideal .f32) = 0 from Ideal.ofBits_zero_f32, View.ld_unit_zero Cert.LibBlock.hz]
  unfold Cert.Spec.layer Cert.Spec.pool
  refine congrArg₂ max (congrArg₂ (· + ·) (congrArg₂ max (congrArg₂ max ?_ ?_) (congrArg₂ max ?_ ?_)) ?_) rfl
  · exact (conv_apply x0 x1 R ⟨0 + o.val, _⟩).trans (congrArg _ (Nat.zero_add _))
  · exact conv_apply x0 x1 R ⟨32 + o.val, _⟩
  · exact conv_apply x0 x1 R ⟨64 + o.val, _⟩
  · exact conv_apply x0 x1 R ⟨96 + o.val, _⟩
  · exact (Cert.Spec.at2_ix (x2 : S1x32.Idx → EReal) (0 : Fin 1) o).symm

/-! ## From the blocks to the array -/

section Blocks
variable (V : (c : Dev nD) → (b : Ref sig .tc) → Buf (Elt Ideal) ((c : Thread nD τ).loc b))

/-- The layer as one function of the arrays the region finds: image `i 0`, packed row `i 1`, channel `i 2`. -/
def G0 (c : Dev nD) : S2048x240x32.Idx → EReal := fun i =>
  Cert.Spec.layer 32 12 Cert.Spec.st1
    (fun R' k => Cert.Spec.at3 (V c main_v7 : S2048x272x12.Idx → EReal) (i 0).val R' k)
    (Cert.Spec.at3 (V c main_arg0 : S4x12x128.Idx → EReal))
    (fun o' => Cert.Spec.at2 (V c main_arg1 : S1x32.Idx → EReal) 0 o') (i 1).val (i 2).val

/-- The printed index maps over the grid: the image and output windows sit at block (t, 0, 0), the weights and the bias at
    block 0. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The image window's block at point `t` is image `t`. -/
theorem iblk0_0_apply (c : Dev nD) (t : Fin cfg0.N) (R' : Fin 272) (k : Fin 12) :
    (iblk0 V c 0 t : S1x272x12.Idx → EReal) (ix3 (0 : Fin 1) R' k)
      = (V c main_v7 : S2048x272x12.Idx → EReal) (ix3 (⟨t.val, t.isLt⟩ : Fin 2048) R' k) := by
  obtain ⟨e0, e1, e2, -⟩ := idx_facts0 t
  show V c main_v7 (((cfg0.win 0).blk t).view.emb (ix3 (0 : Fin 1) R' k)) = _
  congr 1
  funext a; apply Fin.ext
  match a with
  | ⟨0, _⟩ => show win0_0.index t (0 : Fin 3) * 1 + 1 * 0 = t.val; omega
  | ⟨1, _⟩ => show win0_0.index t (1 : Fin 3) * 272 + 1 * R'.val = R'.val; omega
  | ⟨2, _⟩ => show win0_0.index t (2 : Fin 3) * 12 + 1 * k.val = k.val; omega

theorem at3_iblk0_0 (c : Dev nD) (t : Fin cfg0.N) (R' k : ℕ) :
    Cert.Spec.at3 (iblk0 V c 0 t : S1x272x12.Idx → EReal) 0 R' k
      = Cert.Spec.at3 (V c main_v7 : S2048x272x12.Idx → EReal) t.val R' k := by
  unfold Cert.Spec.at3
  by_cases h : R' < 272 ∧ k < 12
  · rw [dif_pos ⟨Nat.one_pos, h.1, h.2⟩, dif_pos ⟨t.isLt, h.1, h.2⟩]
    exact iblk0_0_apply V c t ⟨R', h.1⟩ ⟨k, h.2⟩
  · rw [dif_neg (fun h' => h h'.2), dif_neg (fun h' => h h'.2)]

/-- The weight window's block is the whole weight array. -/
theorem iblk0_1_eq (c : Dev nD) (t : Fin cfg0.N) :
    (iblk0 V c 1 t : S4x12x128.Idx → EReal) = (V c main_arg0 : S4x12x128.Idx → EReal) := by
  obtain ⟨-, -, -, e0, e1, e2, -⟩ := idx_facts0 t
  funext y
  show V c main_arg0 (((cfg0.win 1).blk t).view.emb y) = _
  congr 1
  funext a; apply Fin.ext
  match a with
  | ⟨0, _⟩ => show win0_1.index t (0 : Fin 3) * 4 + 1 * (y 0).val = (y 0).val; omega
  | ⟨1, _⟩ => show win0_1.index t (1 : Fin 3) * 12 + 1 * (y 1).val = (y 1).val; omega
  | ⟨2, _⟩ => show win0_1.index t (2 : Fin 3) * 128 + 1 * (y 2).val = (y 2).val; omega

/-- The bias window's block is the whole bias row. -/
theorem iblk0_2_eq (c : Dev nD) (t : Fin cfg0.N) :
    (iblk0 V c 2 t : S1x32.Idx → EReal) = (V c main_arg1 : S1x32.Idx → EReal) := by
  obtain ⟨-, -, -, -, -, -, e0, e1, -⟩ := idx_facts0 t
  funext y
  show V c main_arg1 (((cfg0.win 2).blk t).view.emb y) = _
  congr 1
  funext a; apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- What point `t` writes back is block `t` of `G0`. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  obtain ⟨-, -, -, -, -, -, -, -, e0, e1, e2⟩ := idx_facts0 t
  funext j
  obtain ⟨R, o, rfl⟩ : ∃ (R : Fin 240) (o : Fin 32), j = ix3 (0 : Fin 1) R o :=
    ⟨j 1, j 2, funext fun a => by
      match a with
      | ⟨0, _⟩ => exact Subsingleton.elim (α := Fin 1) _ _
      | ⟨1, _⟩ => rfl
      | ⟨2, _⟩ => rfl⟩
  show out0_3 (iblk0 V c 0 t) (iblk0 V c 1 t) (iblk0 V c 2 t) (ix3 (0 : Fin 1) R o)
    = G0 V c (((cfg0.win 3).blk t).view.emb (ix3 (0 : Fin 1) R o))
  refine (out0_3_apply (iblk0 V c 0 t) (iblk0 V c 1 t) (iblk0 V c 2 t) R o).trans ?_
  rw [iblk0_1_eq, iblk0_2_eq]
  simp only [at3_iblk0_0]
  unfold G0
  have h0 : ((((cfg0.win 3).blk t).view.emb (ix3 (0 : Fin 1) R o)) 0).val = t.val := by
    show win0_3.index t (0 : Fin 3) * 1 + 1 * 0 = t.val; omega
  have h1 : ((((cfg0.win 3).blk t).view.emb (ix3 (0 : Fin 1) R o)) 1).val = R.val := by
    show win0_3.index t (1 : Fin 3) * 240 + 1 * R.val = R.val; omega
  have h2 : ((((cfg0.win 3).blk t).view.emb (ix3 (0 : Fin 1) R o)) 2).val = o.val := by
    show win0_3.index t (2 : Fin 3) * 32 + 1 * o.val = o.val; omega
  rw [h0, h1, h2]

/-- An index of the output array is in point `t`'s block iff each coordinate is in the block's range on its axis. -/
theorem mem_blk0 (t : Fin cfg0.N) (i : S2048x240x32.Idx) :
    i ∈ ((cfg0.win 3).blk t).view.set ↔ ∀ a : Fin 3, win0_3.index t a * S1x240x32.size a ≤ (i a).val
      ∧ (i a).val < win0_3.index t a * S1x240x32.size a + S1x240x32.size a := by
  show i ∈ ((View.whole main_v8).slice (win0_3.rect t)).set ↔ _
  rw [View.set_slice_whole, Rect.mem_set_unit]
  exact Iff.rfl

/-- The output array after the region, at image `n`, packed row `R`, channel `o`: image `n` is point `n`'s block. -/
theorem arrAt0_apply (c : Dev nD) (n : Fin 2048) (R : Fin 240) (o : Fin 32) :
    ((dat0 V c).arrAt 3 cfg0.N : S2048x240x32.Idx → EReal) (ix3 n R o) = G0 V c (ix3 n R o) := by
  refine (dat0 V c).arrAt_apply_of_mem 3 (G0 V c) (fun t _ => flushed0_eq V c t) cfg0.N (⟨n.val, n.isLt⟩ : Fin cfg0.N)
    (ix3 n R o) n.isLt (flush0_3 _) ?_
  obtain ⟨-, -, -, -, -, -, -, -, e0, e1, e2⟩ := idx_facts0 (⟨n.val, n.isLt⟩ : Fin cfg0.N)
  rw [mem_blk0]
  intro a
  match a with
  | ⟨0, _⟩ =>
    show win0_3.index ⟨n.val, n.isLt⟩ (0 : Fin 3) * 1 ≤ n.val ∧ n.val < win0_3.index ⟨n.val, n.isLt⟩ (0 : Fin 3) * 1 + 1
    have e0' : win0_3.index ⟨n.val, n.isLt⟩ (0 : Fin 3) = n.val := e0
    omega
  | ⟨1, _⟩ =>
    show win0_3.index ⟨n.val, n.isLt⟩ (1 : Fin 3) * 240 ≤ R.val ∧ R.val < win0_3.index ⟨n.val, n.isLt⟩ (1 : Fin 3) * 240 + 240
    have := R.isLt; omega
  | ⟨2, _⟩ =>
    show win0_3.index ⟨n.val, n.isLt⟩ (2 : Fin 3) * 32 ≤ o.val ∧ o.val < win0_3.index ⟨n.val, n.isLt⟩ (2 : Fin 3) * 32 + 32
    have := o.isLt; omega

end Blocks

/-! ## The region's output at an index -/

variable (m : (ℓ : Loc nD τ sig) → Buf (Elt Ideal) ℓ) (ρ : Dev nD → PrngReg) (c : Dev nD)

/-- After region 0 its output array holds, at image `n`, packed row `R`, channel `o`, the first layer of the region-entry
    contents: the packed image `n` against the four weight slabs, pooled, biased, rectified. -/
theorem v8_apply (n : Fin 2048) (R : Fin 240) (o : Fin 32) :
    (W6 (F := Ideal) m ρ c (Proc.devRef .tc main_v8) : S2048x240x32.Idx → EReal) (ix3 n R o)
      = Cert.Spec.layer 32 12 Cert.Spec.st1
          (fun R' k => Cert.Spec.at3 (W5 (F := Ideal) m ρ c (Proc.devRef .tc main_v7) : S2048x272x12.Idx → EReal) n.val R' k)
          (Cert.Spec.at3 (W5 (F := Ideal) m ρ c (Proc.devRef .tc main_arg0) : S4x12x128.Idx → EReal))
          (fun o' => Cert.Spec.at2 (W5 (F := Ideal) m ρ c (Proc.devRef .tc main_arg1) : S1x32.Idx → EReal) 0 o')
          R.val o.val := by
  have h : W6 (F := Ideal) m ρ c (Proc.devRef .tc main_v8) = (dat0 (V5 m ρ) c).arrAt 3 cfg0.N := W6_arr m ρ c 3
  rw [h]
  exact arrAt0_apply (V5 m ρ) c n R o

end Cert.ReferenceIdeal.RegionVal

end
-- ==== Proof.RRegion1.lean ====
/-
  Region 1 of the reference: what the second convolution layer's pipeline leaves in its output array, read at an index.

  The body at a grid point loads one image's packed rows (a block [1, 72, 128]), the four weight slabs ([4, 128, 256]) and the
  bias row, forms the four shifted matrix products, takes the maximum over the four column blocks of 64, adds the bias,
  rectifies, and stores the block [1, 48, 64].  Grid point t handles image t.
-/
import proofs.«126833_g2000003154481155_pallasbulk_2_29_alg».proof.Proof.Gen.ReferenceIdeal.Frame
import proofs.«126833_g2000003154481155_pallasbulk_2_29_alg».proof.Proof.Spec
import proofs.«126833_g2000003154481155_pallasbulk_2_29_alg».proof.Proof.LibBlock
import proofs.«126833_g2000003154481155_pallasbulk_2_29_alg».proof.Proof.LibShiftGroups
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RegionVal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The zero offsets of a rank-3 rectangle are the constant function. -/
theorem hz3b : (![0, 0, 0] : Fin 3 → Nat) = fun _ => 0 := funext fun a => by fin_cases a <;> rfl

/-! ## The loads at an index -/

/-- The image block read through the rectangle of 48 rows from row `off`: row `R + off` of the block. -/
theorem ld_rows1 (x0 : Vec Ideal S1x72x128 .bf16) (off : ℕ)
    (inb : ∀ a, (![0, off, 0] : Fin 3 → Nat) a + S1x48x128.size a ≤ S1x72x128.size a) (R : Fin 48) (k : Fin 128) :
    (View.ld x0 (Rect.unit (s := S1x72x128) ![0, off, 0] S1x48x128.size inb) : S1x48x128.Idx → EReal) (ix3 (0 : Fin 1) R k)
      = Cert.Spec.at3 (x0 : S1x72x128.Idx → EReal) 0 (R.val + off) k.val := by
  have hoff : off + 48 ≤ 72 := inb 1
  rw [Cert.Spec.at3_of_lt (x0 : S1x72x128.Idx → EReal) (by omega : 0 < 1) (by omega : R.val + off < 72) k.isLt]
  show x0 _ = x0 _
  congr 1
  funext a; apply Fin.ext
  match a with
  | ⟨0, _⟩ => show 0 + 1 * 0 = 0; omega
  | ⟨1, _⟩ => show off + 1 * R.val = R.val + off; omega
  | ⟨2, _⟩ => show 0 + 1 * k.val = k.val; omega

/-- The weight block read through the rectangle of slab `g`. -/
theorem ld_slab1 (x1 : Vec Ideal S4x128x256 .bf16) (g : ℕ)
    (inb : ∀ a, (![g, 0, 0] : Fin 3 → Nat) a + S1x128x256.size a ≤ S4x128x256.size a) (k : Fin 128) (q : Fin 256) :
    (View.ld x1 (Rect.unit (s := S4x128x256) ![g, 0, 0] S1x128x256.size inb) : S1x128x256.Idx → EReal) (ix3 (0 : Fin 1) k q)
      = Cert.Spec.at3 (x1 : S4x128x256.Idx → EReal) g k.val q.val := by
  have hg : g + 1 ≤ 4 := inb 0
  rw [Cert.Spec.at3_of_lt (x1 : S4x128x256.Idx → EReal) (by omega : g < 4) k.isLt q.isLt]
  show x1 _ = x1 _
  congr 1
  funext a; apply Fin.ext
  match a with
  | ⟨0, _⟩ => show g + 1 * 0 = g; omega
  | ⟨1, _⟩ => show 0 + 1 * k.val = k.val; omega
  | ⟨2, _⟩ => show 0 + 1 * q.val = q.val; omega

/-! ## The payload at an index -/

/-- One shift group: the product of the 48 × 128 rows and the 128 × 256 slab into the zero accumulator. -/
theorem group1_apply (v : FVec Ideal S1x48x128 .bf16) (w : FVec Ideal S1x128x256 .bf16) (R : Fin 48) (q : Fin 256) :
    (matmul dot_S48x128_S128x256_S48x256_1_0_0_1_n_n none (shapeCast S48x128 v shapeCasts_S1x48x128_S48x128)
        (shapeCast S128x256 w shapeCasts_S1x128x256_S128x256) (constant (F := Ideal) S48x256 .f32 0x00000000#32) : S48x256.Idx → EReal) (ix2 R q)
      = ∑ k : Fin 128, (v : S1x48x128.Idx → EReal) (ix3 (0 : Fin 1) R k) * (w : S1x128x256.Idx → EReal) (ix3 (0 : Fin 1) k q) := by
  refine (Cert.LibBlock.matmul_zero_ix2 dot_S48x128_S128x256_S48x256_1_0_0_1_n_n rfl rfl rfl rfl rfl rfl none _ _ R q).trans ?_
  refine Finset.sum_congr rfl fun k _ => ?_
  rw [shapeCast_1ab_ab_apply, shapeCast_1ab_ab_apply]

/-- The four shift groups, accumulated one after the other, are the convolution at packed row `R`, column `q`. -/
theorem conv1_apply (x0 : Vec Ideal S1x72x128 .bf16) (x1 : Vec Ideal S4x128x256 .bf16) (R : Fin 48) (q : Fin 256) :
    (∑ k : Fin 128, (View.ld x0 r1_0 : S1x48x128.Idx → EReal) (ix3 (0 : Fin 1) R k) * (View.ld x1 r1_1 : S1x128x256.Idx → EReal) (ix3 (0 : Fin 1) k q))
      + (∑ k : Fin 128, (View.ld x0 r1_2 : S1x48x128.Idx → EReal) (ix3 (0 : Fin 1) R k) * (View.ld x1 r1_3 : S1x128x256.Idx → EReal) (ix3 (0 : Fin 1) k q))
      + (∑ k : Fin 128, (View.ld x0 r1_4 : S1x48x128.Idx → EReal) (ix3 (0 : Fin 1) R k) * (View.ld x1 r1_5 : S1x128x256.Idx → EReal) (ix3 (0 : Fin 1) k q))
      + (∑ k : Fin 128, (View.ld x0 r1_6 : S1x48x128.Idx → EReal) (ix3 (0 : Fin 1) R k) * (View.ld x1 r1_7 : S1x128x256.Idx → EReal) (ix3 (0 : Fin 1) k q))
      = Cert.Spec.conv 4 128 Cert.Spec.st2 (fun R' k => Cert.Spec.at3 (x0 : S1x72x128.Idx → EReal) 0 R' k)
          (Cert.Spec.at3 (x1 : S4x128x256.Idx → EReal)) R.val q.val := by
  unfold Cert.Spec.conv
  rw [← Cert.LibShiftGroups.add4_eq_sum]
  simp only [Finset.sum_range]
  refine congrArg₂ (· + ·) (congrArg₂ (· + ·) (congrArg₂ (· + ·) ?_ ?_) ?_) ?_ <;>
    exact Finset.sum_congr rfl fun k _ => congrArg₂ (· * ·) (ld_rows1 x0 _ _ R k) (ld_slab1 x1 _ _ k q)

theorem out1_3_apply (x0 : Vec Ideal S1x72x128 .bf16) (x1 : Vec Ideal S4x128x256 .bf16) (x2 : Vec Ideal S1x64 .f32)
    (R : Fin 48) (o : Fin 64) :
    (out1_3 x0 x1 x2 : S1x48x64.Idx → EReal) (ix3 (0 : Fin 1) R o)
      = Cert.Spec.layer 64 128 Cert.Spec.st2 (fun R' k => Cert.Spec.at3 (x0 : S1x72x128.Idx → EReal) 0 R' k)
          (Cert.Spec.at3 (x1 : S4x128x256.Idx → EReal)) (fun o' => Cert.Spec.at2 (x2 : S1x64.Idx → EReal) 0 o') R.val o.val := by
  unfold out1_3
  rw [View.canon_unit_zero hz3b]
  unfold k1_pay1
  rw [shapeCast_ab_1ab_apply, truncf_apply, maximumf_apply, addf_apply, broadcast_apply, broadcastTo_1b_ab_apply]
  unfold k1_pay2
  simp only [maximumf_apply, slice2_axis1_eq, addf_apply, group1_apply]
  rw [show (FloatOps.ofBits .f32 0#32 : Ideal .f32) = 0 from Ideal.ofBits_zero_f32, View.ld_unit_zero Cert.LibBlock.hz]
  unfold Cert.Spec.layer Cert.Spec.pool
  refine congrArg₂ max (congrArg₂ (· + ·) (congrArg₂ max (congrArg₂ max ?_ ?_) (congrArg₂ max ?_ ?_)) ?_) rfl
  · exact (conv1_apply x0 x1 R ⟨0 + o.val, _⟩).trans (congrArg _ (Nat.zero_add _))
  · exact conv1_apply x0 x1 R ⟨64 + o.val, _⟩
  · exact conv1_apply x0 x1 R ⟨128 + o.val, _⟩
  · exact conv1_apply x0 x1 R ⟨192 + o.val, _⟩
  · exact (Cert.Spec.at2_ix (x2 : S1x64.Idx → EReal) (0 : Fin 1) o).symm

/-! ## From the blocks to the array -/

section Blocks
variable (V : (c : Dev nD) → (b : Ref sig .tc) → Buf (Elt Ideal) ((c : Thread nD τ).loc b))

/-- The layer as one function of the arrays the region finds: image `i 0`, packed row `i 1`, channel `i 2`. -/
def G1 (c : Dev nD) : S2048x48x64.Idx → EReal := fun i =>
  Cert.Spec.layer 64 128 Cert.Spec.st2
    (fun R' k => Cert.Spec.at3 (V c main_v16 : S2048x72x128.Idx → EReal) (i 0).val R' k)
    (Cert.Spec.at3 (V c main_arg2 : S4x128x256.Idx → EReal))
    (fun o' => Cert.Spec.at2 (V c main_arg3 : S1x64.Idx → EReal) 0 o') (i 1).val (i 2).val

/-- The printed index maps over the grid: the image and output windows sit at block (t, 0, 0), the weights and the bias at
    block 0. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The image window's block at point `t` is image `t`. -/
theorem iblk1_0_apply (c : Dev nD) (t : Fin cfg1.N) (R' : Fin 72) (k : Fin 128) :
    (iblk1 V c 0 t : S1x72x128.Idx → EReal) (ix3 (0 : Fin 1) R' k)
      = (V c main_v16 : S2048x72x128.Idx → EReal) (ix3 (⟨t.val, t.isLt⟩ : Fin 2048) R' k) := by
  obtain ⟨e0, e1, e2, -⟩ := idx_facts1 t
  show V c main_v16 (((cfg1.win 0).blk t).view.emb (ix3 (0 : Fin 1) R' k)) = _
  congr 1
  funext a; apply Fin.ext
  match a with
  | ⟨0, _⟩ => show win1_0.index t (0 : Fin 3) * 1 + 1 * 0 = t.val; omega
  | ⟨1, _⟩ => show win1_0.index t (1 : Fin 3) * 72 + 1 * R'.val = R'.val; omega
  | ⟨2, _⟩ => show win1_0.index t (2 : Fin 3) * 128 + 1 * k.val = k.val; omega

theorem at3_iblk1_0 (c : Dev nD) (t : Fin cfg1.N) (R' k : ℕ) :
    Cert.Spec.at3 (iblk1 V c 0 t : S1x72x128.Idx → EReal) 0 R' k
      = Cert.Spec.at3 (V c main_v16 : S2048x72x128.Idx → EReal) t.val R' k := by
  unfold Cert.Spec.at3
  by_cases h : R' < 72 ∧ k < 128
  · rw [dif_pos ⟨Nat.one_pos, h.1, h.2⟩, dif_pos ⟨t.isLt, h.1, h.2⟩]
    exact iblk1_0_apply V c t ⟨R', h.1⟩ ⟨k, h.2⟩
  · rw [dif_neg (fun h' => h h'.2), dif_neg (fun h' => h h'.2)]

/-- The weight window's block is the whole weight array. -/
theorem iblk1_1_eq (c : Dev nD) (t : Fin cfg1.N) :
    (iblk1 V c 1 t : S4x128x256.Idx → EReal) = (V c main_arg2 : S4x128x256.Idx → EReal) := by
  obtain ⟨-, -, -, e0, e1, e2, -⟩ := idx_facts1 t
  funext y
  show V c main_arg2 (((cfg1.win 1).blk t).view.emb y) = _
  congr 1
  funext a; apply Fin.ext
  match a with
  | ⟨0, _⟩ => show win1_1.index t (0 : Fin 3) * 4 + 1 * (y 0).val = (y 0).val; omega
  | ⟨1, _⟩ => show win1_1.index t (1 : Fin 3) * 128 + 1 * (y 1).val = (y 1).val; omega
  | ⟨2, _⟩ => show win1_1.index t (2 : Fin 3) * 256 + 1 * (y 2).val = (y 2).val; omega

/-- The bias window's block is the whole bias row. -/
theorem iblk1_2_eq (c : Dev nD) (t : Fin cfg1.N) :
    (iblk1 V c 2 t : S1x64.Idx → EReal) = (V c main_arg3 : S1x64.Idx → EReal) := by
  obtain ⟨-, -, -, -, -, -, e0, e1, -⟩ := idx_facts1 t
  funext y
  show V c main_arg3 (((cfg1.win 2).blk t).view.emb y) = _
  congr 1
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- What point `t` writes back is block `t` of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  obtain ⟨-, -, -, -, -, -, -, -, e0, e1, e2⟩ := idx_facts1 t
  funext j
  obtain ⟨R, o, rfl⟩ : ∃ (R : Fin 48) (o : Fin 64), j = ix3 (0 : Fin 1) R o :=
    ⟨j 1, j 2, funext fun a => by
      match a with
      | ⟨0, _⟩ => exact Subsingleton.elim (α := Fin 1) _ _
      | ⟨1, _⟩ => rfl
      | ⟨2, _⟩ => rfl⟩
  show out1_3 (iblk1 V c 0 t) (iblk1 V c 1 t) (iblk1 V c 2 t) (ix3 (0 : Fin 1) R o)
    = G1 V c (((cfg1.win 3).blk t).view.emb (ix3 (0 : Fin 1) R o))
  refine (out1_3_apply (iblk1 V c 0 t) (iblk1 V c 1 t) (iblk1 V c 2 t) R o).trans ?_
  rw [iblk1_1_eq, iblk1_2_eq]
  simp only [at3_iblk1_0]
  unfold G1
  have h0 : ((((cfg1.win 3).blk t).view.emb (ix3 (0 : Fin 1) R o)) 0).val = t.val := by
    show win1_3.index t (0 : Fin 3) * 1 + 1 * 0 = t.val; omega
  have h1 : ((((cfg1.win 3).blk t).view.emb (ix3 (0 : Fin 1) R o)) 1).val = R.val := by
    show win1_3.index t (1 : Fin 3) * 48 + 1 * R.val = R.val; omega
  have h2 : ((((cfg1.win 3).blk t).view.emb (ix3 (0 : Fin 1) R o)) 2).val = o.val := by
    show win1_3.index t (2 : Fin 3) * 64 + 1 * o.val = o.val; omega
  rw [h0, h1, h2]

/-- An index of the output array is in point `t`'s block iff each coordinate is in the block's range on its axis. -/
theorem mem_blk1 (t : Fin cfg1.N) (i : S2048x48x64.Idx) :
    i ∈ ((cfg1.win 3).blk t).view.set ↔ ∀ a : Fin 3, win1_3.index t a * S1x48x64.size a ≤ (i a).val
      ∧ (i a).val < win1_3.index t a * S1x48x64.size a + S1x48x64.size a := by
  show i ∈ ((View.whole main_v17).slice (win1_3.rect t)).set ↔ _
  rw [View.set_slice_whole, Rect.mem_set_unit]
  exact Iff.rfl

/-- The output array after the region, at image `n`, packed row `R`, channel `o`: image `n` is point `n`'s block. -/
theorem arrAt1_apply (c : Dev nD) (n : Fin 2048) (R : Fin 48) (o : Fin 64) :
    ((dat1 V c).arrAt 3 cfg1.N : S2048x48x64.Idx → EReal) (ix3 n R o) = G1 V c (ix3 n R o) := by
  refine (dat1 V c).arrAt_apply_of_mem 3 (G1 V c) (fun t _ => flushed1_eq V c t) cfg1.N (⟨n.val, n.isLt⟩ : Fin cfg1.N)
    (ix3 n R o) n.isLt (flush1_3 _) ?_
  obtain ⟨-, -, -, -, -, -, -, -, e0, e1, e2⟩ := idx_facts1 (⟨n.val, n.isLt⟩ : Fin cfg1.N)
  rw [mem_blk1]
  intro a
  match a with
  | ⟨0, _⟩ =>
    show win1_3.index ⟨n.val, n.isLt⟩ (0 : Fin 3) * 1 ≤ n.val ∧ n.val < win1_3.index ⟨n.val, n.isLt⟩ (0 : Fin 3) * 1 + 1
    have e0' : win1_3.index ⟨n.val, n.isLt⟩ (0 : Fin 3) = n.val := e0
    omega
  | ⟨1, _⟩ =>
    show win1_3.index ⟨n.val, n.isLt⟩ (1 : Fin 3) * 48 ≤ R.val ∧ R.val < win1_3.index ⟨n.val, n.isLt⟩ (1 : Fin 3) * 48 + 48
    have := R.isLt; omega
  | ⟨2, _⟩ =>
    show win1_3.index ⟨n.val, n.isLt⟩ (2 : Fin 3) * 64 ≤ o.val ∧ o.val < win1_3.index ⟨n.val, n.isLt⟩ (2 : Fin 3) * 64 + 64
    have := o.isLt; omega

end Blocks

/-! ## The region's output at an index -/

variable (m : (ℓ : Loc nD τ sig) → Buf (Elt Ideal) ℓ) (ρ : Dev nD → PrngReg) (c : Dev nD)

/-- After region 1 its output array holds, at image `n`, packed row `R`, channel `o`, the second layer of the region-entry
    contents: the packed image `n` against the four weight slabs, pooled, biased, rectified. -/
theorem v17_apply (n : Fin 2048) (R : Fin 48) (o : Fin 64) :
    (W12 (F := Ideal) m ρ c (Proc.devRef .tc main_v17) : S2048x48x64.Idx → EReal) (ix3 n R o)
      = Cert.Spec.layer 64 128 Cert.Spec.st2
          (fun R' k => Cert.Spec.at3 (W11 (F := Ideal) m ρ c (Proc.devRef .tc main_v16) : S2048x72x128.Idx → EReal) n.val R' k)
          (Cert.Spec.at3 (W11 (F := Ideal) m ρ c (Proc.devRef .tc main_arg2) : S4x128x256.Idx → EReal))
          (fun o' => Cert.Spec.at2 (W11 (F := Ideal) m ρ c (Proc.devRef .tc main_arg3) : S1x64.Idx → EReal) 0 o')
          R.val o.val := by
  have h : W12 (F := Ideal) m ρ c (Proc.devRef .tc main_v17) = (dat1 (V11 m ρ) c).arrAt 3 cfg1.N := W12_arr m ρ c 3
  rw [h]
  exact arrAt1_apply (V11 m ρ) c n R o

end Cert.ReferenceIdeal.RegionVal

end
-- ==== Proof.RRegion2.lean ====
/-
  The reference's third region — the fully connected tail over the batch of 2048 rows, 128 rows per grid point —
  read at an index on the extended reals.

  * `pay1_rows`, `pay2_rows`: the body's two stored values over variable blocks: when the input block's rows are
    rows `R + b` of an array, the value at `(b, q)` is the closed form of `Spec` at row `R + b` of that array;
  * `idx_facts`: the index maps decided over the 16 grid points (input rows and outputs at block row `t`, weights
    and biases whole); `iblk_1 .. iblk_6`, `iblk_0_rows`: the blocks as parts of the arrays the region finds;
  * `flushed7_eq`, `flushed8_eq`: what point `t` writes back is block `t` of one whole-array function;
    `cover7`, `cover8`: row `r` lies in the block of point `r / 128`; `final7`, `final8`: the arrays after the region;
  * `v22_0_apply`, `v22_1_apply`: the two results at `(n, j)` as the second and third layers of `Spec`.
-/
import proofs.«126833_g2000003154481155_pallasbulk_2_29_alg».proof.Proof.Gen.ReferenceIdeal.Frame
import proofs.«126833_g2000003154481155_pallasbulk_2_29_alg».proof.Proof.Spec
import proofs.«126833_g2000003154481155_pallasbulk_2_29_alg».proof.Proof.LibFc

set_option maxRecDepth 16384

noncomputable section

namespace Cert.ReferenceIdeal.RegionVal2

open Idealize.ShloMosaic Idealize.ShloMosaic.ValueIdx Idealize.ShloMosaic.TcCoe
open Idealize.SL.Sem
open Idealize.ShloMosaic.Pipeline (Dat Cfg Window)
open Cert.ReferenceIdeal Cert.ReferenceIdeal.Gen

/-! ## The body's two payloads over variable blocks -/

/-- The first payload (the second layer's result) at `(b, q)` of a block whose input rows are rows `R + b` of an
    array `A0`: the closed form read at row `R + b` of `A0`. -/
theorem pay1_rows (x0 : Vec Ideal S128x2304 .bf16) (x1 : Vec Ideal S2304x128 .bf16) (x2 : Vec Ideal S1x128 .f32)
    (x3 : Vec Ideal S128x84 .f32) (x4 : Vec Ideal S1x84 .f32) (A0 : S2048x2304.Idx → EReal) (R : ℕ)
    (h0 : ∀ (b : Fin 128) (k : ℕ), k < 2304 → Cert.Spec.at2 x0 b.val k = Cert.Spec.at2 A0 (R + b.val) k)
    (b : Fin 128) (q : Fin 84) :
    k2_pay1 (F := Ideal) x0 x1 x2 x3 x4 (ix2 b q)
      = Cert.Spec.relu (Cert.Spec.dense 128 (fun n' k => Cert.Spec.relu (Cert.Spec.dense 2304 (Cert.Spec.at2 A0)
          (Cert.Spec.at2 x1) (fun j' => Cert.Spec.at2 x2 0 j') n' k)) (Cert.Spec.at2 x3)
          (fun j' => Cert.Spec.at2 x4 0 j') (R + b.val) q.val) := by
  have e : k2_pay1 (F := Ideal) x0 x1 x2 x3 x4
      = Cert.LibFc.h2v dot_S128x2304_S2304x128_S128x128_1_0_0_1_n_n dot_S128x128_S128x84_S128x84_1_0_0_1_n_n
          broadcasts_S1x128_S128x128 broadcasts_S1x84_S128x84 x0 x1 x2 x3 x4 := by
    unfold k2_pay1
    rw [shapeCast_self]
  rw [e]
  refine (Cert.LibFc.h2_apply _ _ _ _ x0 x1 x2 x3 x4 rfl rfl rfl rfl rfl rfl rfl rfl rfl rfl rfl rfl b q).trans ?_
  exact congrArg Cert.Spec.relu (Cert.LibFc.dense_relu_dense_rows _ _ _ _ _ (h0 b))

/-- The second payload (the third layer's result) at `(b, q)` of such a block. -/
theorem pay2_rows (x0 : Vec Ideal S128x2304 .bf16) (x1 : Vec Ideal S2304x128 .bf16) (x2 : Vec Ideal S1x128 .f32)
    (x3 : Vec Ideal S128x84 .f32) (x4 : Vec Ideal S1x84 .f32) (x5 : Vec Ideal S84x10 .f32) (x6 : Vec Ideal S1x10 .f32)
    (A0 : S2048x2304.Idx → EReal) (R : ℕ)
    (h0 : ∀ (b : Fin 128) (k : ℕ), k < 2304 → Cert.Spec.at2 x0 b.val k = Cert.Spec.at2 A0 (R + b.val) k)
    (b : Fin 128) (q : Fin 10) :
    k2_pay2 (F := Ideal) x0 x1 x2 x3 x4 x5 x6 (ix2 b q)
      = Cert.Spec.dense 84 (fun n' k => Cert.Spec.relu (Cert.Spec.dense 128 (fun n' k => Cert.Spec.relu
          (Cert.Spec.dense 2304 (Cert.Spec.at2 A0) (Cert.Spec.at2 x1) (fun j' => Cert.Spec.at2 x2 0 j') n' k))
          (Cert.Spec.at2 x3) (fun j' => Cert.Spec.at2 x4 0 j') n' k)) (Cert.Spec.at2 x5)
          (fun j' => Cert.Spec.at2 x6 0 j') (R + b.val) q.val := by
  have e : k2_pay2 (F := Ideal) x0 x1 x2 x3 x4 x5 x6
      = Cert.LibFc.outv dot_S128x2304_S2304x128_S128x128_1_0_0_1_n_n dot_S128x128_S128x84_S128x84_1_0_0_1_n_n
          dot_S128x84_S84x10_S128x10_1_0_0_1_n_n broadcasts_S1x128_S128x128 broadcasts_S1x84_S128x84
          broadcasts_S1x10_S128x10 x0 x1 x2 x3 x4 x5 x6 := by
    unfold k2_pay2 k2_pay1
    rw [shapeCast_self]
  rw [e]
  refine (Cert.LibFc.out_apply _ _ _ _ _ _ x0 x1 x2 x3 x4 x5 x6 rfl rfl rfl rfl rfl rfl rfl rfl rfl rfl rfl rfl
    rfl rfl rfl rfl rfl rfl b q).trans ?_
  exact Cert.LibFc.dense_relu_dense_relu_dense_rows _ _ _ _ _ _ _ (h0 b)

/-! ## The region's windows -/

variable (m : (ℓ : Loc nD τ sig) → Buf (Elt Ideal) ℓ) (ρ : Dev nD → PrngReg) (c : Dev nD)

/-- The index maps, decided over the grid: the input rows and the two outputs move with the point, block row `t`;
    the weights and biases are whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The input rows, the weights and the biases as the region finds them. -/
abbrev X : S2048x2304.Idx → EReal := W14 (F := Ideal) m ρ c (Proc.devRef .tc main_v21)
abbrev F1 : S2304x128.Idx → EReal := W14 (F := Ideal) m ρ c (Proc.devRef .tc main_arg4)
abbrev F1b : S1x128.Idx → EReal := W14 (F := Ideal) m ρ c (Proc.devRef .tc main_arg5)
abbrev F2 : S128x84.Idx → EReal := W14 (F := Ideal) m ρ c (Proc.devRef .tc main_arg6)
abbrev F2b : S1x84.Idx → EReal := W14 (F := Ideal) m ρ c (Proc.devRef .tc main_arg7)
abbrev F3 : S84x10.Idx → EReal := W14 (F := Ideal) m ρ c (Proc.devRef .tc main_arg8)
abbrev F3b : S1x10.Idx → EReal := W14 (F := Ideal) m ρ c (Proc.devRef .tc main_arg9)

/-- The weights' and biases' blocks are their whole arrays, at every point. -/
theorem iblk_1 (t : Fin cfg2.N) : iblk2 (V14 (F := Ideal) m ρ) c 1 t = F1 m ρ c := by
  obtain ⟨-, -, e0, e1, -⟩ := idx_facts t
  funext y
  show V14 (F := Ideal) m ρ c main_arg4 (((cfg2.win 1).blk t).view.emb y) = V14 (F := Ideal) m ρ c main_arg4 y
  refine congrArg _ (funext fun a => Fin.ext ?_)
  match a with
  | ⟨0, _⟩ => show win2_1.index t (0 : Fin 2) * 2304 + 1 * (y 0).val = (y 0).val; omega
  | ⟨1, _⟩ => show win2_1.index t (1 : Fin 2) * 128 + 1 * (y 1).val = (y 1).val; omega
theorem iblk_2 (t : Fin cfg2.N) : iblk2 (V14 (F := Ideal) m ρ) c 2 t = F1b m ρ c := by
  obtain ⟨-, -, -, -, e0, e1, -⟩ := idx_facts t
  funext y
  show V14 (F := Ideal) m ρ c main_arg5 (((cfg2.win 2).blk t).view.emb y) = V14 (F := Ideal) m ρ c main_arg5 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega
theorem iblk_3 (t : Fin cfg2.N) : iblk2 (V14 (F := Ideal) m ρ) c 3 t = F2 m ρ c := by
  obtain ⟨-, -, -, -, -, -, e0, e1, -⟩ := idx_facts t
  funext y
  show V14 (F := Ideal) m ρ c main_arg6 (((cfg2.win 3).blk t).view.emb y) = V14 (F := Ideal) m ρ c main_arg6 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 84 + 1 * (y 1).val = (y 1).val; omega
theorem iblk_4 (t : Fin cfg2.N) : iblk2 (V14 (F := Ideal) m ρ) c 4 t = F2b m ρ c := by
  obtain ⟨-, -, -, -, -, -, -, -, e0, e1, -⟩ := idx_facts t
  funext y
  show V14 (F := Ideal) m ρ c main_arg7 (((cfg2.win 4).blk t).view.emb y) = V14 (F := Ideal) m ρ c main_arg7 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 84 + 1 * (y 1).val = (y 1).val; omega
theorem iblk_5 (t : Fin cfg2.N) : iblk2 (V14 (F := Ideal) m ρ) c 5 t = F3 m ρ c := by
  obtain ⟨-, -, -, -, -, -, -, -, -, -, e0, e1, -⟩ := idx_facts t
  funext y
  show V14 (F := Ideal) m ρ c main_arg8 (((cfg2.win 5).blk t).view.emb y) = V14 (F := Ideal) m ρ c main_arg8 y
  refine congrArg _ (funext fun a => Fin.ext ?_)
  match a with
  | ⟨0, _⟩ => show win2_5.index t (0 : Fin 2) * 84 + 1 * (y 0).val = (y 0).val; omega
  | ⟨1, _⟩ => show win2_5.index t (1 : Fin 2) * 10 + 1 * (y 1).val = (y 1).val; omega
theorem iblk_6 (t : Fin cfg2.N) : iblk2 (V14 (F := Ideal) m ρ) c 6 t = F3b m ρ c := by
  obtain ⟨-, -, -, -, -, -, -, -, -, -, -, -, e0, e1, -⟩ := idx_facts t
  funext y
  show V14 (F := Ideal) m ρ c main_arg9 (((cfg2.win 6).blk t).view.emb y) = V14 (F := Ideal) m ρ c main_arg9 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 10 + 1 * (y 1).val = (y 1).val; omega

/-- The input block at point `t` holds rows `128 t ..` of the input array. -/
theorem iblk_0_rows (t : Fin cfg2.N) (b : Fin 128) (k : ℕ) (hk : k < 2304) :
    Cert.Spec.at2 (iblk2 (V14 (F := Ideal) m ρ) c 0 t : S128x2304.Idx → EReal) b.val k
      = Cert.Spec.at2 (X m ρ c) (128 * t.val + b.val) k := by
  obtain ⟨e0, e1, -⟩ := idx_facts t
  have ht : t.val < 16 := t.isLt
  rw [Cert.Spec.at2_of_lt _ b.isLt hk, Cert.Spec.at2_of_lt (X m ρ c) (by omega : 128 * t.val + b.val < 2048) hk]
  show V14 (F := Ideal) m ρ c main_v21 (((cfg2.win 0).blk t).view.emb (ix2 b ⟨k, hk⟩)) = V14 (F := Ideal) m ρ c main_v21 _
  refine congrArg _ (funext fun a => Fin.ext ?_)
  match a with
  | ⟨0, _⟩ => show win2_0.index t (0 : Fin 2) * 128 + 1 * b.val = 128 * t.val + b.val; omega
  | ⟨1, _⟩ => show win2_0.index t (1 : Fin 2) * 2304 + 1 * k = k; omega

/-! ## What the region leaves in its two output arrays -/

/-- The second layer's result over the whole batch. -/
def H2arr : S2048x84.Idx → EReal := fun i =>
  Cert.Spec.relu (Cert.Spec.dense 128 (fun n' k => Cert.Spec.relu (Cert.Spec.dense 2304 (Cert.Spec.at2 (X m ρ c))
    (Cert.Spec.at2 (F1 m ρ c)) (fun j' => Cert.Spec.at2 (F1b m ρ c) 0 j') n' k)) (Cert.Spec.at2 (F2 m ρ c))
    (fun j' => Cert.Spec.at2 (F2b m ρ c) 0 j') (i 0).val (i 1).val)

/-- The third layer's result over the whole batch. -/
def OUTarr : S2048x10.Idx → EReal := fun i =>
  Cert.Spec.dense 84 (fun n' k => Cert.Spec.relu (Cert.Spec.dense 128 (fun n' k => Cert.Spec.relu
    (Cert.Spec.dense 2304 (Cert.Spec.at2 (X m ρ c)) (Cert.Spec.at2 (F1 m ρ c)) (fun j' => Cert.Spec.at2 (F1b m ρ c) 0 j') n' k))
    (Cert.Spec.at2 (F2 m ρ c)) (fun j' => Cert.Spec.at2 (F2b m ρ c) 0 j') n' k)) (Cert.Spec.at2 (F3 m ρ c))
    (fun j' => Cert.Spec.at2 (F3b m ρ c) 0 j') (i 0).val (i 1).val

/-- What point `t` writes back to the first output is block `t` of `H2arr`. -/
theorem flushed7_eq (t : Fin cfg2.N) :
    (dat2 (V14 (F := Ideal) m ρ) c).flushed 7 t = ((cfg2.win 7).blk t).view.read (Elt Ideal) (H2arr m ρ c) := by
  show (cfg2.win 7).cut (grid2.coords t) ((dat2 (V14 (F := Ideal) m ρ) c).after 7 t) = _
  rw [after2_7]
  unfold out2_7
  rw [View.canon_unit_zero Cert.LibBlock.hz]
  simp only [View.ld_unit_zero (S := S128x2304) Cert.LibBlock.hz, View.ld_unit_zero (S := S2304x128) Cert.LibBlock.hz,
    View.ld_unit_zero (S := S1x128) Cert.LibBlock.hz, View.ld_unit_zero (S := S128x84) Cert.LibBlock.hz,
    View.ld_unit_zero (S := S1x84) Cert.LibBlock.hz]
  rw [iblk_1, iblk_2, iblk_3, iblk_4]
  obtain ⟨-, -, -, -, -, -, -, -, -, -, -, -, -, -, e0, e1, -⟩ := idx_facts t
  funext j
  have hj0 : (j 0).val < 128 := (j 0).isLt
  have hj1 : (j 1).val < 84 := (j 1).isLt
  have ej : (win2 7).xinj (grid2.coords t) j = ix2 ⟨(j 0).val, hj0⟩ ⟨(j 1).val, hj1⟩ :=
    funext fun a => Fin.ext (by match a with | ⟨0, _⟩ => rfl | ⟨1, _⟩ => rfl)
  show k2_pay1 (F := Ideal) (iblk2 (V14 (F := Ideal) m ρ) c 0 t) (F1 m ρ c) (F1b m ρ c) (F2 m ρ c) (F2b m ρ c)
      ((win2 7).xinj (grid2.coords t) j) = H2arr m ρ c (((cfg2.win 7).blk t).view.emb j)
  refine (congrArg (k2_pay1 (F := Ideal) (iblk2 (V14 (F := Ideal) m ρ) c 0 t) (F1 m ρ c) (F1b m ρ c) (F2 m ρ c)
    (F2b m ρ c)) ej).trans ?_
  refine (pay1_rows (iblk2 (V14 (F := Ideal) m ρ) c 0 t) (F1 m ρ c) (F1b m ρ c) (F2 m ρ c) (F2b m ρ c) (X m ρ c)
    (128 * t.val) (iblk_0_rows m ρ c t) ⟨(j 0).val, hj0⟩ ⟨(j 1).val, hj1⟩).trans ?_
  unfold H2arr
  have c0 : ((((cfg2.win 7).blk t).view.emb j) 0).val = 128 * t.val + (j 0).val := by
    show win2_7.index t (0 : Fin 2) * 128 + 1 * (j 0).val = _; omega
  have c1 : ((((cfg2.win 7).blk t).view.emb j) 1).val = (j 1).val := by
    show win2_7.index t (1 : Fin 2) * 84 + 1 * (j 1).val = _; omega
  rw [c0, c1]

/-- What point `t` writes back to the second output is block `t` of `OUTarr`. -/
theorem flushed8_eq (t : Fin cfg2.N) :
    (dat2 (V14 (F := Ideal) m ρ) c).flushed 8 t = ((cfg2.win 8).blk t).view.read (Elt Ideal) (OUTarr m ρ c) := by
  show (cfg2.win 8).cut (grid2.coords t) ((dat2 (V14 (F := Ideal) m ρ) c).after 8 t) = _
  rw [after2_8]
  unfold out2_8
  rw [View.canon_unit_zero Cert.LibBlock.hz]
  simp only [View.ld_unit_zero (S := S128x2304) Cert.LibBlock.hz, View.ld_unit_zero (S := S2304x128) Cert.LibBlock.hz,
    View.ld_unit_zero (S := S1x128) Cert.LibBlock.hz, View.ld_unit_zero (S := S128x84) Cert.LibBlock.hz,
    View.ld_unit_zero (S := S1x84) Cert.LibBlock.hz, View.ld_unit_zero (S := S84x10) Cert.LibBlock.hz,
    View.ld_unit_zero (S := S1x10) Cert.LibBlock.hz]
  rw [iblk_1, iblk_2, iblk_3, iblk_4, iblk_5, iblk_6]
  obtain ⟨-, -, -, -, -, -, -, -, -, -, -, -, -, -, -, -, e0, e1⟩ := idx_facts t
  funext j
  have hj0 : (j 0).val < 128 := (j 0).isLt
  have hj1 : (j 1).val < 10 := (j 1).isLt
  have ej : (win2 8).xinj (grid2.coords t) j = ix2 ⟨(j 0).val, hj0⟩ ⟨(j 1).val, hj1⟩ :=
    funext fun a => Fin.ext (by match a with | ⟨0, _⟩ => rfl | ⟨1, _⟩ => rfl)
  show k2_pay2 (F := Ideal) (iblk2 (V14 (F := Ideal) m ρ) c 0 t) (F1 m ρ c) (F1b m ρ c) (F2 m ρ c) (F2b m ρ c)
      (F3 m ρ c) (F3b m ρ c) ((win2 8).xinj (grid2.coords t) j) = OUTarr m ρ c (((cfg2.win 8).blk t).view.emb j)
  refine (congrArg (k2_pay2 (F := Ideal) (iblk2 (V14 (F := Ideal) m ρ) c 0 t) (F1 m ρ c) (F1b m ρ c) (F2 m ρ c)
    (F2b m ρ c) (F3 m ρ c) (F3b m ρ c)) ej).trans ?_
  refine (pay2_rows (iblk2 (V14 (F := Ideal) m ρ) c 0 t) (F1 m ρ c) (F1b m ρ c) (F2 m ρ c) (F2b m ρ c) (F3 m ρ c)
    (F3b m ρ c) (X m ρ c) (128 * t.val) (iblk_0_rows m ρ c t) ⟨(j 0).val, hj0⟩ ⟨(j 1).val, hj1⟩).trans ?_
  unfold OUTarr
  have c0 : ((((cfg2.win 8).blk t).view.emb j) 0).val = 128 * t.val + (j 0).val := by
    show win2_8.index t (0 : Fin 2) * 128 + 1 * (j 0).val = _; omega
  have c1 : ((((cfg2.win 8).blk t).view.emb j) 1).val = (j 1).val := by
    show win2_8.index t (1 : Fin 2) * 10 + 1 * (j 1).val = _; omega
  rw [c0, c1]

/-- An index of the first output is in point `t`'s block iff each coordinate is in the block's range on its axis. -/
theorem mem_blk7 (t : Fin cfg2.N) (i : S2048x84.Idx) :
    i ∈ ((cfg2.win 7).blk t).view.set ↔ ∀ a : Fin 2, win2_7.index t a * S128x84.size a ≤ (i a).val
      ∧ (i a).val < win2_7.index t a * S128x84.size a + S128x84.size a := by
  show i ∈ ((View.whole main_v22_0).slice (win2_7.rect t)).set ↔ _
  rw [View.set_slice_whole, Rect.mem_set_unit]
  exact Iff.rfl

/-- The same for the second output. -/
theorem mem_blk8 (t : Fin cfg2.N) (i : S2048x10.Idx) :
    i ∈ ((cfg2.win 8).blk t).view.set ↔ ∀ a : Fin 2, win2_8.index t a * S128x10.size a ≤ (i a).val
      ∧ (i a).val < win2_8.index t a * S128x10.size a + S128x10.size a := by
  show i ∈ ((View.whole main_v22_1).slice (win2_8.rect t)).set ↔ _
  rw [View.set_slice_whole, Rect.mem_set_unit]
  exact Iff.rfl

/-- Row `r` of the first output is in the block of point `r / 128`. -/
theorem cover7 (i : S2048x84.Idx) :
    ∃ t : Fin cfg2.N, (cfg2.win 7).flush t = true ∧ i ∈ ((cfg2.win 7).blk t).view.set := by
  have hi0 : (i 0).val < 2048 := (i 0).isLt
  have hi1 : (i 1).val < 84 := (i 1).isLt
  refine ⟨⟨(i 0).val / 128, by show (i 0).val / 128 < 16; omega⟩, flush2_7 _, ?_⟩
  rw [mem_blk7]
  obtain ⟨-, -, -, -, -, -, -, -, -, -, -, -, -, -, e0, e1, -⟩ :=
    idx_facts ⟨(i 0).val / 128, by show (i 0).val / 128 < 16; omega⟩
  have e0' : win2_7.index ⟨(i 0).val / 128, by show (i 0).val / 128 < 16; omega⟩ (0 : Fin 2) = (i 0).val / 128 := e0
  intro a
  match a with
  | ⟨0, _⟩ =>
    show win2_7.index _ (0 : Fin 2) * 128 ≤ (i 0).val ∧ (i 0).val < win2_7.index _ (0 : Fin 2) * 128 + 128
    rw [e0']; omega
  | ⟨1, _⟩ =>
    show win2_7.index _ (1 : Fin 2) * 84 ≤ (i 1).val ∧ (i 1).val < win2_7.index _ (1 : Fin 2) * 84 + 84
    rw [e1]; omega

/-- Row `r` of the second output is in the block of point `r / 128`. -/
theorem cover8 (i : S2048x10.Idx) :
    ∃ t : Fin cfg2.N, (cfg2.win 8).flush t = true ∧ i ∈ ((cfg2.win 8).blk t).view.set := by
  have hi0 : (i 0).val < 2048 := (i 0).isLt
  have hi1 : (i 1).val < 10 := (i 1).isLt
  refine ⟨⟨(i 0).val / 128, by show (i 0).val / 128 < 16; omega⟩, flush2_8 _, ?_⟩
  rw [mem_blk8]
  obtain ⟨-, -, -, -, -, -, -, -, -, -, -, -, -, -, -, -, e0, e1⟩ :=
    idx_facts ⟨(i 0).val / 128, by show (i 0).val / 128 < 16; omega⟩
  have e0' : win2_8.index ⟨(i 0).val / 128, by show (i 0).val / 128 < 16; omega⟩ (0 : Fin 2) = (i 0).val / 128 := e0
  intro a
  match a with
  | ⟨0, _⟩ =>
    show win2_8.index _ (0 : Fin 2) * 128 ≤ (i 0).val ∧ (i 0).val < win2_8.index _ (0 : Fin 2) * 128 + 128
    rw [e0']; omega
  | ⟨1, _⟩ =>
    show win2_8.index _ (1 : Fin 2) * 10 ≤ (i 1).val ∧ (i 1).val < win2_8.index _ (1 : Fin 2) * 10 + 10
    rw [e1]; omega

/-- The first output array after the region. -/
theorem final7 : (dat2 (V14 (F := Ideal) m ρ) c).arrAt 7 cfg2.N = H2arr m ρ c :=
  (dat2 (V14 (F := Ideal) m ρ) c).arrAt_eq_of_cover 7 (H2arr m ρ c) (fun t _ => flushed7_eq m ρ c t) (cover7)

/-- The second output array after the region. -/
theorem final8 : (dat2 (V14 (F := Ideal) m ρ) c).arrAt 8 cfg2.N = OUTarr m ρ c :=
  (dat2 (V14 (F := Ideal) m ρ) c).arrAt_eq_of_cover 8 (OUTarr m ρ c) (fun t _ => flushed8_eq m ρ c t) (cover8)

/-! ## The two results read at an index -/

/-- The first result (the second layer) at `(n, j)`. -/
theorem v22_0_apply (n : Fin 2048) (j : Fin 84) :
    (W15 (F := Ideal) m ρ c (Proc.devRef .tc main_v22_0) : S2048x84.Idx → EReal) (ix2 n j)
      = Cert.Spec.relu (Cert.Spec.dense 128 (fun n' k => Cert.Spec.relu (Cert.Spec.dense 2304
          (Cert.Spec.at2 (W14 (F := Ideal) m ρ c (Proc.devRef .tc main_v21) : S2048x2304.Idx → EReal))
          (Cert.Spec.at2 (W14 (F := Ideal) m ρ c (Proc.devRef .tc main_arg4) : S2304x128.Idx → EReal))
          (fun j' => Cert.Spec.at2 (W14 (F := Ideal) m ρ c (Proc.devRef .tc main_arg5) : S1x128.Idx → EReal) 0 j') n' k))
          (Cert.Spec.at2 (W14 (F := Ideal) m ρ c (Proc.devRef .tc main_arg6) : S128x84.Idx → EReal))
          (fun j' => Cert.Spec.at2 (W14 (F := Ideal) m ρ c (Proc.devRef .tc main_arg7) : S1x84.Idx → EReal) 0 j')
          n.val j.val) :=
  congrFun ((W15_arr (F := Ideal) m ρ c 7).trans (final7 m ρ c)) (ix2 n j)

/-- The second result (the third layer) at `(n, j)`. -/
theorem v22_1_apply (n : Fin 2048) (j : Fin 10) :
    (W15 (F := Ideal) m ρ c (Proc.devRef .tc main_v22_1) : S2048x10.Idx → EReal) (ix2 n j)
      = Cert.Spec.dense 84 (fun n' k => Cert.Spec.relu (Cert.Spec.dense 128 (fun n' k => Cert.Spec.relu
          (Cert.Spec.dense 2304
            (Cert.Spec.at2 (W14 (F := Ideal) m ρ c (Proc.devRef .tc main_v21) : S2048x2304.Idx → EReal))
            (Cert.Spec.at2 (W14 (F := Ideal) m ρ c (Proc.devRef .tc main_arg4) : S2304x128.Idx → EReal))
            (fun j' => Cert.Spec.at2 (W14 (F := Ideal) m ρ c (Proc.devRef .tc main_arg5) : S1x128.Idx → EReal) 0 j') n' k))
          (Cert.Spec.at2 (W14 (F := Ideal) m ρ c (Proc.devRef .tc main_arg6) : S128x84.Idx → EReal))
          (fun j' => Cert.Spec.at2 (W14 (F := Ideal) m ρ c (Proc.devRef .tc main_arg7) : S1x84.Idx → EReal) 0 j') n' k))
          (Cert.Spec.at2 (W14 (F := Ideal) m ρ c (Proc.devRef .tc main_arg8) : S84x10.Idx → EReal))
          (fun j' => Cert.Spec.at2 (W14 (F := Ideal) m ρ c (Proc.devRef .tc main_arg9) : S1x10.Idx → EReal) 0 j')
          n.val j.val :=
  congrFun ((W15_arr (F := Ideal) m ρ c 8).trans (final8 m ρ c)) (ix2 n j)

end Cert.ReferenceIdeal.RegionVal2

end
-- ==== Proof.RFinal.lean ====
/-
  The reference program's two results in closed form over the launched arguments, with nothing assumed: what the
  three regions leave, composed through the host stretches, is the network of `Spec` — its second and third fully
  connected layers — read at the arguments as launched.
-/
import proofs.«126833_g2000003154481155_pallasbulk_2_29_alg».proof.Proof.RCompose
import proofs.«126833_g2000003154481155_pallasbulk_2_29_alg».proof.Proof.RRegion0
import proofs.«126833_g2000003154481155_pallasbulk_2_29_alg».proof.Proof.RRegion1
import proofs.«126833_g2000003154481155_pallasbulk_2_29_alg».proof.Proof.RRegion2
import proofs.«126833_g2000003154481155_pallasbulk_2_29_alg».proof.Proof.SpecNet

noncomputable section

namespace Cert.ReferenceIdeal.Final

open Idealize.ShloMosaic Idealize.ShloMosaic.TcCoe Idealize.ShloMosaic.ValueIdx Idealize.SL.Sem Cert.ReferenceIdeal Cert.ReferenceIdeal.Gen

variable (m : (ℓ : Loc nD τ sig) → Buf (Elt Ideal) ℓ) (ρ : Dev nD → PrngReg) (c : Dev nD)

/-- The reference program's first result is the network's second fully connected layer of the launched arguments. -/
theorem ref_netH2 (n : Fin 2048) (j : Fin 84) :
    (W15 (F := Ideal) m ρ c (Proc.devRef .tc main_v22_0) : S2048x84.Idx → EReal) (ix2 n j)
      = Cert.Spec.netH2
          (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg10)) n.val j.val :=
  Cert.ReferenceIdeal.Compose.ref_h2 m ρ c (Cert.ReferenceIdeal.RegionVal.v8_apply m ρ c)
    (Cert.ReferenceIdeal.RegionVal.v17_apply m ρ c) (Cert.ReferenceIdeal.RegionVal2.v22_0_apply m ρ c) n j

/-- The reference program's second result is the network's third fully connected layer of the launched arguments. -/
theorem ref_netOut (n : Fin 2048) (j : Fin 10) :
    (W15 (F := Ideal) m ρ c (Proc.devRef .tc main_v22_1) : S2048x10.Idx → EReal) (ix2 n j)
      = Cert.Spec.netOut
          (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10)) n.val j.val :=
  Cert.ReferenceIdeal.Compose.ref_out m ρ c (Cert.ReferenceIdeal.RegionVal.v8_apply m ρ c)
    (Cert.ReferenceIdeal.RegionVal.v17_apply m ρ c) (Cert.ReferenceIdeal.RegionVal2.v22_1_apply m ρ c) n j

end Cert.ReferenceIdeal.Final

end
-- ==== Proof.lean ====
/-
  The proof of `Cert.Claim`: the fused kernel and the reference compute the same network.

  THE NETWORK.  An image batch X : [2048, 3, 32, 32] goes through two convolution layers and three fully connected
  layers.  A convolution layer is a 3 × 3 valid convolution, a bias, a rectifier and a 2 × 2 maximum pooling; after a
  space-to-depth packing of its input (2 × 2 pixel blocks become channels) it is a sum over four shift groups g = (qr, qc) of
  packed taps,  conv R col = ∑ g < 4, ∑ k < K, xs (R + st g) k · w g k col,  whose four column blocks are the four positions
  of the pooling window:  layer R o = max (max over the four blocks of conv R (·C + o) + b o) 0.  The first layer has K = 12,
  C = 32 on a packed grid of row length 16, the second K = 128, C = 64 on a grid of row length 8.  The 6 × 6 × 64 kept outputs
  of the second layer are flattened and go through  H1 = relu (flat · F1 + b),  H2 = relu (H1 · F2 + b),  OUT = H2 · F3 + b.
  The two results are H2 : [2048, 84] and OUT : [2048, 10].  `Proof/Spec.lean` states all of this as closed forms over
  natural-number coordinates on the extended reals, and `Proof/SpecNet.lean` as two functions `netH2`, `netOut` of the eleven
  argument arrays.

  THE REFERENCE runs the network in three kernel regions — the two convolution layers, one image per grid point, each as
  four matrix products accumulated one after the other, and the three fully connected layers, 128 images per grid point —
  with host stretches between them that pack, pad and flatten.  THE KERNEL is one region of 16 grid points of 128 images: its
  host stretches lay the four shifted windows of the packed image side by side along the contraction axis (padded with
  zeros to 64), and permute the packed rows parity-major, so that the first layer is ONE matrix product per parity block
  whose outputs, concatenated along the channels, already are the second layer's packed input; the second layer is again ONE
  product over the four windows laid side by side (512 taps); the flattening drops the two over-computed columns.

  THE PROOF.  All value reasoning is at the ideal instance (floats are extended reals, every operation exact, format changes
  the identity).
  * Frames: each program's run terminates without a fault and leaves its arguments as launched — the reference's is the
    generated frame, the kernel's (at both instances) is `Proof/KFrame.lean` / `Proof/KIFrame.lean`, whose `run_all` (and the
    reference's, `Proof/RRun.lean`) moreover name EVERY unscoped buffer's final contents as a fold through the segments.
  * The reference's value: each region's output array read at an index is a layer of the region-entry arrays
    (`Proof/RRegion0.lean`, `RRegion1.lean`, `RRegion2.lean`: the body's payload at an index over variable blocks, then the
    blocks tiled into the array); the host stretches are the packings of `Spec` (`Proof/RHost*.lean`); composed
    (`Proof/RCompose.lean`, `RFinal.lean`) the two results are `netH2` and `netOut` of the launched arguments.
  * The kernel's value: the host stretches at an index (`Proof/KHost.lean`), the body's payload at an index
    (`Proof/KPay1.lean`, `KPay2.lean`), the folding of the four shift groups laid along the contraction axis with a vanishing
    tail into the double sum (`Proof/LibShiftGroups.lean`, `KAlgebra.lean`), the blocks tiled into the arrays
    (`Proof/KIRegion.lean`), composed in `Proof/KCompose.lean`: the two results are the same `netH2` and `netOut`.
  * The assembly (`Proof/Assemble.lean`): from memories that agree on the arguments both runs end at the closed form of the
    kernel's arguments, so the results are equal element by element as extended reals; the idealized kernel is the
    kernel's own text read at the ideal instance (no operation rewritten).
-/
import proofs.«126833_g2000003154481155_pallasbulk_2_29_alg».proof.Defs
import proofs.«126833_g2000003154481155_pallasbulk_2_29_alg».proof.Proof.Assemble
import proofs.«126833_g2000003154481155_pallasbulk_2_29_alg».proof.Proof.KCompose
import proofs.«126833_g2000003154481155_pallasbulk_2_29_alg».proof.Proof.RFinal

noncomputable section

namespace Cert.Proof

open Idealize.ShloMosaic Idealize.SL.Sem

/-- Everything the certificate claims: the three frames, the idealization, and the equality of the two idealized programs'
    results — both are the network's closed form of the argument arrays. -/
theorem claim : Cert.Claim :=
  Cert.Proof.Assemble.claim_of
    (fun m ρ c n j => Cert.KernelIdeal.Compose.ker_h2 m ρ c n j)
    (fun m ρ c n j => Cert.KernelIdeal.Compose.ker_out m ρ c n j)
    (fun m' ρ' c n j => Cert.ReferenceIdeal.Final.ref_netH2 m' ρ' c n j)
    (fun m' ρ' c n j => Cert.ReferenceIdeal.Final.ref_netOut m' ρ' c n j)

end Cert.Proof

end
